-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v155) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x512x128 : Shape := ⟨3, ![4, 512, 128]⟩
abbrev S4x512x512 : Shape := ⟨3, ![4, 512, 512]⟩
abbrev S128x128 : Shape := ⟨2, ![128, 128]⟩
abbrev S128 : Shape := ⟨1, ![128]⟩
abbrev S_ : Shape := ⟨0, ![]⟩

class Facts : Prop where
  bcast_S_S4x512x128 : S_.BroadcastsInDim S4x512x128 (![] : Fin 0 → Fin S4x512x128.rank)
  reducesTo_S4x512x128_S_d0_1_2 : S4x512x128.ReducesTo [0, 1, 2] S_
  h_S_ : 0 < S_.numel
  bcast_S_S4x512x512 : S_.BroadcastsInDim S4x512x512 (![] : Fin 0 → Fin S4x512x512.rank)
  reducesTo_S4x512x512_S_d0_1_2 : S4x512x512.ReducesTo [0, 1, 2] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_v28 : IVec S_ 1) (main_v33 : IVec S4x512x512 1) : IVec S_ 1 :=
  let main_c_12 : IVec S_ 1 := constantI S_ 1 1#1
  let main_v34 : IVec S_ 1 := (fun x v => Host.reduce IntOp.andi x v reducesTo_S4x512x512_S_d0_1_2 h_S_) main_v33 main_c_12
  let main_v35 : IVec S_ 1 := andi main_v28 main_v34
  main_v35

def fn_part1 {F : FTy → Type} [FloatOps F] (main_arg1 : FVec F S4x512x512 .f32) (main_arg4 : FVec F S128x128 .f32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_cst_10 : FVec F S_ .f32 := constant S_ .f32 0x00000000#32
  let main_v29 : FVec F S4x512x512 .f32 := broadcastInDim S4x512x512 ![] bcast_S_S4x512x512 main_cst_10
  let main_v30 : IVec S4x512x512 1 := cmpf .oeq main_arg1 main_v29
  let main_cst_11 : FVec F S_ .f32 := constant S_ .f32 0x3F800000#32
  let main_v31 : FVec F S4x512x512 .f32 := broadcastInDim S4x512x512 ![] bcast_S_S4x512x512 main_cst_11
  let main_v32 : IVec S4x512x512 1 := cmpf .oeq main_arg1 main_v31
  let main_v33 : IVec S4x512x512 1 := ori main_v30 main_v32
  fn_part2 (F := F) main_v28 main_v33

def fn {F : FTy → Type} [FloatOps F] (main_arg0 : FVec F S4x512x128 .f32) (main_arg1 : FVec F S4x512x512 .f32) (main_arg2 : FVec F S128x128 .f32) (main_arg3 : FVec F S128 .f32) (main_arg4 : FVec F S128x128 .f32) (main_arg5 : FVec F S128 .f32) : IVec S_ 1 :=
  let main_v0 : FVec F S4x512x128 .f32 := Host.absf main_arg0
  let main_cst : FVec F S_ .f32 := constant S_ .f32 0x7F800000#32
  let main_v1 : FVec F S4x512x128 .f32 := broadcastInDim S4x512x128 ![] bcast_S_S4x512x128 main_cst
  let main_v2 : IVec S4x512x128 1 := cmpf .olt main_v0 main_v1
  let main_c : IVec S_ 1 := constantI S_ 1 1#1
  let main_v3 : IVec S_ 1 := (fun x v => Host.reduce IntOp.andi x v reducesTo_S4x512x128_S_d0_1_2 h_S_) main_v2 main_c
  let main_v4 : FVec F S4x512x512 .f32 := Host.absf main_arg1
  let main_cst_0 : FVec F S_ .f32 := constant S_ .f32 0x7F800000#32
  let main_v5 : FVec F S4x512x512 .f32 := broadcastInDim S4x512x512 ![] bcast_S_S4x512x512 main_cst_0
  let main_v6 : IVec S4x512x512 1 := cmpf .olt main_v4 main_v5
  let main_c_1 : IVec S_ 1 := constantI S_ 1 1#1
  let main_v7 : IVec S_ 1 := (fun x v => Host.reduce IntOp.andi x v reducesTo_S4x512x512_S_d0_1_2 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg4 main_arg5 main_v13 main_v16
-- ==== Kernel.lean ====
abbrev S4x512x128 : Shape := ⟨3, ![4, 512, 128]⟩
abbrev S4x512x512 : Shape := ⟨3, ![4, 512, 512]⟩
abbrev S128x128 : Shape := ⟨2, ![128, 128]⟩
abbrev S128 : Shape := ⟨1, ![128]⟩
abbrev S1x128 : Shape := ⟨2, ![1, 128]⟩
abbrev S4x1x128 : Shape := ⟨3, ![4, 1, 128]⟩
abbrev S4x128 : Shape := ⟨2, ![4, 128]⟩
abbrev S2048x128 : Shape := ⟨2, ![2048, 128]⟩
abbrev S1x512x512 : Shape := ⟨3, ![1, 512, 512]⟩
abbrev S512x512 : Shape := ⟨2, ![512, 512]⟩
abbrev S512 : Shape := ⟨1, ![512]⟩
abbrev S1x512 : Shape := ⟨2, ![1, 512]⟩
abbrev S512x1 : Shape := ⟨2, ![512, 1]⟩
abbrev S512x128 : Shape := ⟨2, ![512, 128]⟩
abbrev S1x1x128 : Shape := ⟨3, ![1, 1, 128]⟩

abbrev nBuf : Space → Nat
  | .hbm => 10
  | .vmem => 7
  | .smem => 0
  | _ => 0

abbrev bufTy : (tb : Table) → Fin (tcTables nBuf tb) → BufTy
  | .hbm, ⟨0, _⟩ => ⟨S4x512x128, .f32⟩
  | .hbm, ⟨1, _⟩ => ⟨S4x512x512, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x128, .f32⟩
  | .hbm, ⟨7, _⟩ => ⟨S1x128, .f32⟩
  | .hbm, ⟨8, _⟩ => ⟨S4x1x128, .f32⟩
  | .hbm, ⟨9, _⟩ => ⟨S4x128, .f32⟩
  | .local _ .vmem, ⟨0, _⟩ => ⟨S4x512x512, .f32⟩
  | .local _ .vmem, ⟨1, _⟩ => ⟨S4x512x128, .f32⟩
  | .local _ .vmem, ⟨2, _⟩ => ⟨S128x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S4x1x128, .f32⟩
  | _, _ => ⟨S4x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_v0 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S4x512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

class Facts₀ : Prop where
  shapeCasts_S128_S1x128 : S128.ShapeCasts S1x128
  shapeCasts_S4x1x128_S4x128 : S4x1x128.ShapeCasts S4x128
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  inb_S4x512x128_S4x512x128_0_0_0 : ∀ a, (![0, 0, 0] : Fin 3 → Nat) a + S4x512x128.size a ≤ S4x512x128.size a
  h_S4x512x128 : 0 < S4x512x128.numel
  shapeCasts_S4x512x128_S2048x128 : S4x512x128.ShapeCasts S2048x128
  inb_S4x512x512_S1x512x512_0_0_0 : ∀ a, (![0, 0, 0] : Fin 3 → Nat) a + S1x512x512.size a ≤ S4x512x512.size a
  h_S1x512x512 : 0 < S1x512x512.numel
  shapeCasts_S1x512x512_S512x512 : S1x512x512.ShapeCasts S512x512
  reduces_S512x512_S512 : S512x512.Reduces [0] S512
  shapeCasts_S512_S1x512 : S512.ShapeCasts S1x512
  transposes_S1x512_p1_0_S512x1 : S1x512.Transposes [1, 0] S512x1
  slices_S2048x128_o0_0_S512x128 : S2048x128.Slices ![0, 0] S512x128
  broadcasts_S512x1_S512x128 : S512x1.Broadcasts S512x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  reduces_S512x128_S128 : S512x128.Reduces [0] S128
  inb_S4x1x128_S1x1x128_0_0_0 : ∀ a, (![0, 0, 0] : Fin 3 → Nat) a + S1x1x128.size a ≤ S4x1x128.size a
  h_S1x1x128 : 0 < S1x1x128.numel
  shapeCasts_S1x1x128_S1x128 : S1x1x128.ShapeCasts S1x128
  shapeCasts_S1x128_S1x1x128 : S1x128.ShapeCasts S1x1x128
  inb_S4x512x512_S1x512x512_1_0_0 : ∀ a, (![1, 0, 0] : Fin 3 → Nat) a + S1x512x512.size a ≤ S4x512x512.size a
  slices_S2048x128_o512_0_S512x128 : S2048x128.Slices ![512, 0] S512x128
  inb_S4x1x128_S1x1x128_1_0_0 : ∀ a, (![1, 0, 0] : Fin 3 → Nat) a + S1x1x128.size a ≤ S4x1x128.size a
  inb_S4x512x512_S1x512x512_2_0_0 : ∀ a, (![2, 0, 0] : Fin 3 → Nat) a + S1x512x512.size a ≤ S4x512x512.size a
  slices_S2048x128_o1024_0_S512x128 : S2048x128.Slices ![1024, 0] S512x128
  inb_S4x1x128_S1x1x128_2_0_0 : ∀ a, (![2, 0, 0] : Fin 3 → Nat) a + S1x1x128.size a ≤ S4x1x128.size a
  inb_S4x512x512_S1x512x512_3_0_0 : ∀ a, (![3, 0, 0] : Fin 3 → Nat) a + S1x512x512.size a ≤ S4x512x512.size a
  slices_S2048x128_o1536_0_S512x128 : S2048x128.Slices ![1536, 0] S512x128
  inb_S4x1x128_S1x1x128_3_0_0 : ∀ a, (![3, 0, 0] : Fin 3 → Nat) a + S1x1x128.size a ≤ S4x1x128.size a
  dot_S2048x128_S128x128_S2048x128_1_0_0_1_n_n_wf : DotDims.WF S2048x128 S128x128 S2048x128 [1] [0] [0] [1] [] []
  dot_S512x512_S512x128_S512x128_0_0_1_1_n_n_wf : DotDims.WF S512x512 S512x128 S512x128 [0] [0] [1] [1] [] []
  dot_S512x128_S128x128_S512x128_1_0_0_1_n_n_wf : DotDims.WF S512x128 S128x128 S512x128 [1] [0] [0] [1] [] []
  hrank0 : 0 < grid0.rank
  hstage0_0 : ∀ j, (stage0_0 j).IsWhole
  nbuf0_0 : grid0.bufCount reads0_0 false = 1
  hreads0_0 : ∀ i i' : grid0.Coords, (∀ a, reads0_0 a = true → i a = i' a) → cc0_transform_0 i = cc0_transform_0 i'
  hinb0_0 : ∀ (i : grid0.Coords) a, (cc0_transform_0 i a + 1) * S4x512x512.size a ≤ S4x512x512.size a
  hwx0_0 : ∀ i : grid0.Coords, EltTy.bits .f32 = 32 ∨ (Rect.block (s := S4x512x512) S4x512x512.size (cc0_transform_0 i) (hinb0_0 i)).WholeWords (EltTy.packing .f32)
  hstage0_1 : ∀ j, (stage0_1 j).IsWhole
  nbuf0_1 : grid0.bufCount reads0_1 false = 1
  hreads0_1 : ∀ i i' : grid0.Coords, (∀ a, reads0_1 a = true → i a = i' a) → cc0_transform_1 i = cc0_transform_1 i'
  hinb0_1 : ∀ (i : grid0.Coords) a, (cc0_transform_1 i a + 1) * S4x512x128.size a ≤ S4x512x128.size a
  hwx0_1 : ∀ i : grid0.Coords, EltTy.bits .f32 = 32 ∨ (Rect.block (s := S4x512x128) S4x512x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 1
  hreads0_6 : ∀ i i' : grid0.Coords, (∀ a, reads0_6 a = true → i a = i' a) → cc0_transform_6 i = cc0_transform_6 i'
  hinb0_6 : ∀ (i : grid0.Coords) a, (cc0_transform_6 i a + 1) * S4x1x128.size a ≤ S4x1x128.size a
  hwx0_6 : ∀ i : grid0.Coords, EltTy.bits .f32 = 32 ∨ (Rect.block (s := S4x1x128) S4x1x128.size (cc0_transform_6 i) (hinb0_6 i)).WholeWords (EltTy.packing .f32)

variable [Facts₀]

def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S512x512_S512x128_S512x128_0_0_1_1_n_n : DotDims S512x512 S512x128 S512x128 where
  lhsContracting := [0]
  rhsContracting := [0]
  lhsNonContracting := [1]
  rhsNonContracting := [1]
  lhsBatch := []
  rhsBatch := []
  wf := dot_S512x512_S512x128_S512x128_0_0_1_1_n_n_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf

abbrev win0_0 : Pipeline.Window sig grid0 :=
  Pipeline.Window.ofSpec (Memref.whole main_arg1) S4x512x512.size cc0_transform_0 reads0_0 false false 1 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4x512x128.size cc0_transform_1 reads0_1 false false 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v1) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v2) S4x1x128.size cc0_transform_6 reads0_6 true false 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4x512x128 : Shape := ⟨3, ![4, 512, 128]⟩
abbrev S4x512x512 : Shape := ⟨3, ![4, 512, 512]⟩
abbrev S128x128 : Shape := ⟨2, ![128, 128]⟩
abbrev S128 : Shape := ⟨1, ![128]⟩
abbrev S_ : Shape := ⟨0, ![]⟩
abbrev S1048576 : Shape := ⟨1, ![1048576]⟩
abbrev S1048576x1 : Shape := ⟨2, ![1048576, 1]⟩
abbrev S2048x128 : Shape := ⟨2, ![2048, 128]⟩
abbrev S2048 : Shape := ⟨1, ![2048]⟩
abbrev S1050624 : Shape := ⟨1, ![1050624]⟩
abbrev S1050624x1 : Shape := ⟨2, ![1050624, 1]⟩
abbrev S1 : Shape := ⟨1, ![1]⟩
abbrev S1x1 : Shape := ⟨2, ![1, 1]⟩
abbrev S1050624x128 : Shape := ⟨2, ![1050624, 128]⟩
abbrev S1x128 : Shape := ⟨2, ![1, 128]⟩
abbrev S4 : Shape := ⟨1, ![4]⟩
abbrev S4x512 : Shape := ⟨2, ![4, 512]⟩
abbrev S4x128 : Shape := ⟨2, ![4, 128]⟩
abbrev S2048x1 : Shape := ⟨2, ![2048, 1]⟩
abbrev S4x1 : Shape := ⟨2, ![4, 1]⟩

abbrev nBuf : Space → Nat
  | .hbm => 385
  | .vmem => 0
  | .smem => 0
  | _ => 0

abbrev hbmTy0_0 (i : Nat) : BufTy := match i % 128 with
  | 0 => ⟨S4x512x128, .f32⟩
  | 1 => ⟨S4x512x512, .f32⟩
  | 2 => ⟨S128x128, .f32⟩
  | 3 => ⟨S128, .f32⟩
  | 4 => ⟨S128x128, .f32⟩
  | 5 => ⟨S128, .f32⟩
  | 6 => ⟨S_, .f32⟩
  | 7 => ⟨S4x512x512, .f32⟩
  | 8 => ⟨S4x512x512, .i1⟩
  | 9 => ⟨S1048576, .i1⟩
  | 10 => ⟨S1048576, .i32⟩
  | 11 => ⟨S_, .i32⟩
  | 12 => ⟨S_, .i32⟩
  | 13 => ⟨S1048576, .i32⟩
  | 14 => ⟨S_, .i32⟩
  | 15 => ⟨S1048576, .i32⟩
  | 16 => ⟨S_, .i32⟩
  | 17 => ⟨S_, .i32⟩
  | 18 => ⟨S1048576, .i32⟩
  | 19 => ⟨S1048576, .i32⟩
  | 20 => ⟨S_, .i32⟩
  | 21 => ⟨S1048576, .i32⟩
  | 22 => ⟨S1048576, .i1⟩
  | 23 => ⟨S_, .i32⟩
  | 24 => ⟨S1048576, .i32⟩
  | 25 => ⟨S1048576, .i32⟩
  | 26 => ⟨S1048576, .i32⟩
  | 27 => ⟨S1048576x1, .i32⟩
  | 28 => ⟨S_, .i32⟩
  | 29 => ⟨S1048576, .i32⟩
  | 30 => ⟨S1048576, .i32⟩
  | 31 => ⟨S_, .i32⟩
  | 32 => ⟨S_, .i32⟩
  | 33 => ⟨S1048576, .i32⟩
  | 34 => ⟨S_, .i32⟩
  | 35 => ⟨S1048576, .i32⟩
  | 36 => ⟨S1048576, .i32⟩
  | 37 => ⟨S1048576, .i32⟩
  | 38 => ⟨S_, .i32⟩
  | 39 => ⟨S1048576, .i32⟩
  | 40 => ⟨S1048576, .i1⟩
  | 41 => ⟨S1048576, .i32⟩
  | 42 => ⟨S1048576, .i32⟩
  | 43 => ⟨S_, .i32⟩
  | 44 => ⟨S1048576, .i32⟩
  | 45 => ⟨S1048576, .i1⟩
  | 46 => ⟨S1048576, .i1⟩
  | 47 => ⟨S_, .i32⟩
  | 48 => ⟨S1048576, .i32⟩
  | 49 => ⟨S1048576, .i32⟩
  | 50 => ⟨S1048576, .i32⟩
  | 51 => ⟨S_, .i32⟩
  | 52 => ⟨S_, .i32⟩
  | 53 => ⟨S_, .i32⟩
  | 54 => ⟨S_, .i1⟩
  | 55 => ⟨S_, .i32⟩
  | 56 => ⟨S_, .i32⟩
  | 57 => ⟨S1048576, .i32⟩
  | 58 => ⟨S1048576, .i32⟩
  | 59 => ⟨S_, .i32⟩
  | 60 => ⟨S1048576, .i32⟩
  | 61 => ⟨S1048576, .i1⟩
  | 62 => ⟨S_, .i32⟩
  | 63 => ⟨S1048576, .i32⟩
  | 64 => ⟨S1048576, .i1⟩
  | 65 => ⟨S_, .i32⟩
  | 66 => ⟨S_, .i1⟩
  | 67 => ⟨S1048576, .i1⟩
  | 68 => ⟨S1048576, .i1⟩
  | 69 => ⟨S1048576, .i1⟩
  | 70 => ⟨S1048576, .i32⟩
  | 71 => ⟨S1048576, .i32⟩
  | 72 => ⟨S1048576, .i32⟩
  | 73 => ⟨S_, .i32⟩
  | 74 => ⟨S1048576, .i32⟩
  | 75 => ⟨S1048576, .i32⟩
  | 76 => ⟨S1048576, .i32⟩
  | 77 => ⟨S_, .i32⟩
  | 78 => ⟨S1048576, .i32⟩
  | 79 => ⟨S1048576, .i1⟩
  | 80 => ⟨S1048576, .i32⟩
  | 81 => ⟨S1048576, .i32⟩
  | 82 => ⟨S_, .i32⟩
  | 83 => ⟨S1048576, .i32⟩
  | 84 => ⟨S1048576, .i1⟩
  | 85 => ⟨S1048576, .i1⟩
  | 86 => ⟨S_, .i32⟩
  | 87 => ⟨S1048576, .i32⟩
  | 88 => ⟨S1048576, .i32⟩
  | 89 => ⟨S1048576, .i32⟩
  | 90 => ⟨S_, .i32⟩
  | 91 => ⟨S_, .i32⟩
  | 92 => ⟨S_, .i32⟩
  | 93 => ⟨S_, .i1⟩
  | 94 => ⟨S_, .i32⟩
  | 95 => ⟨S_, .i32⟩
  | 96 => ⟨S1048576, .i32⟩
  | 97 => ⟨S1048576, .i32⟩
  | 98 => ⟨S_, .i32⟩
  | 99 => ⟨S1048576, .i32⟩
  | 100 => ⟨S1048576, .i1⟩
  | 101 => ⟨S_, .i32⟩
  | 102 => ⟨S1048576, .i32⟩
  | 103 => ⟨S1048576, .i1⟩
  | 104 => ⟨S_, .i32⟩
  | 105 => ⟨S_, .i1⟩
  | 106 => ⟨S1048576, .i1⟩
  | 107 => ⟨S1048576, .i1⟩
  | 108 => ⟨S1048576, .i1⟩
  | 109 => ⟨S1048576, .i32⟩
  | 110 => ⟨S1048576, .i32⟩
  | 111 => ⟨S1048576, .i32⟩
  | 112 => ⟨S_, .i32⟩
  | 113 => ⟨S1048576, .i32⟩
  | 114 => ⟨S1048576, .i32⟩
  | 115 => ⟨S1048576, .i32⟩
  | 116 => ⟨S_, .i32⟩
  | 117 => ⟨S1048576, .i32⟩
  | 118 => ⟨S1048576, .i1⟩
  | 119 => ⟨S1048576, .i32⟩
  | 120 => ⟨S1048576, .i32⟩
  | 121 => ⟨S_, .i32⟩
  | 122 => ⟨S1048576, .i32⟩
  | 123 => ⟨S1048576, .i1⟩
  | 124 => ⟨S1048576, .i1⟩
  | 125 => ⟨S_, .i32⟩
  | 126 => ⟨S1048576, .i32⟩
  | 127 => ⟨S1048576, .i32⟩
  | _ => ⟨S4x512x128, .f32⟩

abbrev hbmTy0_1 (i : Nat) : BufTy := match i % 128 with
  | 0 => ⟨S1048576, .i32⟩
  | 1 => ⟨S_, .i32⟩
  | 2 => ⟨S_, .i32⟩
  | 3 => ⟨S_, .i32⟩
  | 4 => ⟨S_, .i1⟩
  | 5 => ⟨S_, .i32⟩
  | 6 => ⟨S_, .i32⟩
  | 7 => ⟨S1048576, .i32⟩
  | 8 => ⟨S1048576, .i32⟩
  | 9 => ⟨S_, .i32⟩
  | 10 => ⟨S1048576, .i32⟩
  | 11 => ⟨S1048576, .i1⟩
  | 12 => ⟨S_, .i32⟩
  | 13 => ⟨S1048576, .i32⟩
  | 14 => ⟨S1048576, .i1⟩
  | 15 => ⟨S_, .i32⟩
  | 16 => ⟨S_, .i1⟩
  | 17 => ⟨S1048576, .i1⟩
  | 18 => ⟨S1048576, .i1⟩
  | 19 => ⟨S1048576, .i1⟩
  | 20 => ⟨S1048576, .i32⟩
  | 21 => ⟨S1048576, .i32⟩
  | 22 => ⟨S1048576, .i32⟩
  | 23 => ⟨S1048576, .i32⟩
  | 24 => ⟨S4x512x512, .i32⟩
  | 25 => ⟨S_, .i32⟩
  | 26 => ⟨S_, .i32⟩
  | 27 => ⟨S1048576, .i32⟩
  | 28 => ⟨S1048576, .i1⟩
  | 29 => ⟨S_, .i32⟩
  | 30 => ⟨S_, .i32⟩
  | 31 => ⟨S1048576, .i32⟩
  | 32 => ⟨S1048576, .i32⟩
  | 33 => ⟨S_, .i32⟩
  | 34 => ⟨S_, .i32⟩
  | 35 => ⟨S1048576, .i32⟩
  | 36 => ⟨S1048576, .i32⟩
  | 37 => ⟨S_, .i32⟩
  | 38 => ⟨S_, .i32⟩
  | 39 => ⟨S1048576, .i32⟩
  | 40 => ⟨S1048576, .i32⟩
  | 41 => ⟨S1048576, .i32⟩
  | 42 => ⟨S_, .f32⟩
  | 43 => ⟨S4x512x512, .f32⟩
  | 44 => ⟨S4x512x512, .i1⟩
  | 45 => ⟨S4x512x512, .i32⟩
  | 46 => ⟨S_, .i32⟩
  | 47 => ⟨S_, .i32⟩
  | 48 => ⟨S1048576, .i32⟩
  | 49 => ⟨S1048576, .i1⟩
  | 50 => ⟨S1048576, .f32⟩
  | 51 => ⟨S_, .i32⟩
  | 52 => ⟨S1048576, .i32⟩
  | 53 => ⟨S1048576, .i32⟩
  | 54 => ⟨S1048576, .i32⟩
  | 55 => ⟨S_, .i32⟩
  | 56 => ⟨S1048576, .i32⟩
  | 57 => ⟨S1048576, .i32⟩
  | 58 => ⟨S1048576, .i32⟩
  | 59 => ⟨S2048x128, .f32⟩
  | 60 => ⟨S2048, .i32⟩
  | 61 => ⟨S1050624, .i32⟩
  | 62 => ⟨S1050624, .i32⟩
  | 63 => ⟨S_, .f32⟩
  | 64 => ⟨S2048, .f32⟩
  | 65 => ⟨S1050624, .f32⟩
  | 66 => ⟨S_, .f32⟩
  | 67 => ⟨S2048, .f32⟩
  | 68 => ⟨S_, .i32⟩
  | 69 => ⟨S1050624, .i32⟩
  | 70 => ⟨S1050624, .i1⟩
  | 71 => ⟨S_, .i32⟩
  | 72 => ⟨S1050624, .i32⟩
  | 73 => ⟨S1050624, .i32⟩
  | 74 => ⟨S1050624, .i32⟩
  | 75 => ⟨S1050624x1, .i32⟩
  | 76 => ⟨S2048, .f32⟩
  | 77 => ⟨S_, .f32⟩
  | 78 => ⟨S2048, .f32⟩
  | 79 => ⟨S2048, .i1⟩
  | 80 => ⟨S_, .f32⟩
  | 81 => ⟨S2048, .f32⟩
  | 82 => ⟨S2048, .f32⟩
  | 83 => ⟨S2048, .f32⟩
  | 84 => ⟨S_, .f32⟩
  | 85 => ⟨S_, .f32⟩
  | 86 => ⟨S2048, .f32⟩
  | 87 => ⟨S2048, .f32⟩
  | 88 => ⟨S_, .i32⟩
  | 89 => ⟨S1050624, .i32⟩
  | 90 => ⟨S1050624, .i1⟩
  | 91 => ⟨S_, .i32⟩
  | 92 => ⟨S1050624, .i32⟩
  | 93 => ⟨S1050624, .i32⟩
  | 94 => ⟨S1050624, .i32⟩
  | 95 => ⟨S1050624x1, .i32⟩
  | 96 => ⟨S1050624, .f32⟩
  | 97 => ⟨S_, .i32⟩
  | 98 => ⟨S1050624, .i32⟩
  | 99 => ⟨S1050624, .i1⟩
  | 100 => ⟨S_, .i32⟩
  | 101 => ⟨S1050624, .i32⟩
  | 102 => ⟨S1050624, .i32⟩
  | 103 => ⟨S1050624, .i32⟩
  | 104 => ⟨S1050624x1, .i32⟩
  | 105 => ⟨S1050624, .f32⟩
  | 106 => ⟨S1050624, .f32⟩
  | 107 => ⟨S1050624, .f32⟩
  | 108 => ⟨S2048x128, .f32⟩
  | 109 => ⟨S_, .i32⟩
  | 110 => ⟨S1050624, .i32⟩
  | 111 => ⟨S1050624, .i1⟩
  | 112 => ⟨S_, .i32⟩
  | 113 => ⟨S1050624, .i32⟩
  | 114 => ⟨S1050624, .i32⟩
  | 115 => ⟨S1050624, .i32⟩
  | 116 => ⟨S1050624x1, .i32⟩
  | 117 => ⟨S1, .i32⟩
  | 118 => ⟨S_, .i32⟩
  | 119 => ⟨S1050624x1, .i32⟩
  | 120 => ⟨S1050624x1, .i1⟩
  | 121 => ⟨S1x1, .i32⟩
  | 122 => ⟨S1050624x1, .i32⟩
  | 123 => ⟨S1050624x1, .i1⟩
  | 124 => ⟨S1050624x1, .i1⟩
  | 125 => ⟨S_, .i1⟩
  | 126 => ⟨S1050624, .i1⟩
  | 127 => ⟨S1050624x128, .f32⟩
  | _ => ⟨S4x512x128, .f32⟩

abbrev hbmTy0_2 (i : Nat) : BufTy := match i % 128 with
  | 0 => ⟨S1050624x128, .i1⟩
  | 1 => ⟨S_, .f32⟩
  | 2 => ⟨S1050624x128, .f32⟩
  | 3 => ⟨S1050624x128, .f32⟩
  | 4 => ⟨S1050624x1, .f32⟩
  | 5 => ⟨S1050624x128, .f32⟩
  | 6 => ⟨S1050624x128, .f32⟩
  | 7 => ⟨S_, .f32⟩
  | 8 => ⟨S2048x128, .f32⟩
  | 9 => ⟨S_, .i32⟩
  | 10 => ⟨S1050624, .i32⟩
  | 11 => ⟨S1050624, .i1⟩
  | 12 => ⟨S_, .i32⟩
  | 13 => ⟨S1050624, .i32⟩
  | 14 => ⟨S1050624, .i32⟩
  | 15 => ⟨S1050624, .i32⟩
  | 16 => ⟨S1050624x1, .i32⟩
  | 17 => ⟨S2048x128, .f32⟩
  | 18 => ⟨S1x128, .f32⟩
  | 19 => ⟨S2048x128, .f32⟩
  | 20 => ⟨S2048x128, .f32⟩
  | 21 => ⟨S_, .f32⟩
  | 22 => ⟨S2048x128, .f32⟩
  | 23 => ⟨S2048x128, .f32⟩
  | 24 => ⟨S2048, .i32⟩
  | 25 => ⟨S1050624, .i32⟩
  | 26 => ⟨S1050624, .i32⟩
  | 27 => ⟨S_, .f32⟩
  | 28 => ⟨S2048, .f32⟩
  | 29 => ⟨S1050624, .f32⟩
  | 30 => ⟨S_, .f32⟩
  | 31 => ⟨S2048, .f32⟩
  | 32 => ⟨S_, .i32⟩
  | 33 => ⟨S1050624, .i32⟩
  | 34 => ⟨S1050624, .i1⟩
  | 35 => ⟨S_, .i32⟩
  | 36 => ⟨S1050624, .i32⟩
  | 37 => ⟨S1050624, .i32⟩
  | 38 => ⟨S1050624, .i32⟩
  | 39 => ⟨S1050624x1, .i32⟩
  | 40 => ⟨S2048, .f32⟩
  | 41 => ⟨S_, .f32⟩
  | 42 => ⟨S2048, .f32⟩
  | 43 => ⟨S2048, .i1⟩
  | 44 => ⟨S_, .f32⟩
  | 45 => ⟨S2048, .f32⟩
  | 46 => ⟨S2048, .f32⟩
  | 47 => ⟨S2048, .f32⟩
  | 48 => ⟨S_, .f32⟩
  | 49 => ⟨S_, .f32⟩
  | 50 => ⟨S2048, .f32⟩
  | 51 => ⟨S2048, .f32⟩
  | 52 => ⟨S_, .i32⟩
  | 53 => ⟨S1050624, .i32⟩
  | 54 => ⟨S1050624, .i1⟩
  | 55 => ⟨S_, .i32⟩
  | 56 => ⟨S1050624, .i32⟩
  | 57 => ⟨S1050624, .i32⟩
  | 58 => ⟨S1050624, .i32⟩
  | 59 => ⟨S1050624x1, .i32⟩
  | 60 => ⟨S1050624, .f32⟩
  | 61 => ⟨S_, .i32⟩
  | 62 => ⟨S1050624, .i32⟩
  | 63 => ⟨S1050624, .i1⟩
  | 64 => ⟨S_, .i32⟩
  | 65 => ⟨S1050624, .i32⟩
  | 66 => ⟨S1050624, .i32⟩
  | 67 => ⟨S1050624, .i32⟩
  | 68 => ⟨S1050624x1, .i32⟩
  | 69 => ⟨S1050624, .f32⟩
  | 70 => ⟨S1050624, .f32⟩
  | 71 => ⟨S1050624, .f32⟩
  | 72 => ⟨S2048x128, .f32⟩
  | 73 => ⟨S_, .i32⟩
  | 74 => ⟨S1050624, .i32⟩
  | 75 => ⟨S1050624, .i1⟩
  | 76 => ⟨S_, .i32⟩
  | 77 => ⟨S1050624, .i32⟩
  | 78 => ⟨S1050624, .i32⟩
  | 79 => ⟨S1050624, .i32⟩
  | 80 => ⟨S1050624x1, .i32⟩
  | 81 => ⟨S1, .i32⟩
  | 82 => ⟨S_, .i32⟩
  | 83 => ⟨S1050624x1, .i32⟩
  | 84 => ⟨S1050624x1, .i1⟩
  | 85 => ⟨S1x1, .i32⟩
  | 86 => ⟨S1050624x1, .i32⟩
  | 87 => ⟨S1050624x1, .i1⟩
  | 88 => ⟨S1050624x1, .i1⟩
  | 89 => ⟨S_, .i1⟩
  | 90 => ⟨S1050624, .i1⟩
  | 91 => ⟨S1050624x128, .f32⟩
  | 92 => ⟨S1050624x128, .i1⟩
  | 93 => ⟨S_, .f32⟩
  | 94 => ⟨S1050624x128, .f32⟩
  | 95 => ⟨S1050624x128, .f32⟩
  | 96 => ⟨S1050624x1, .f32⟩
  | 97 => ⟨S1050624x128, .f32⟩
  | 98 => ⟨S1050624x128, .f32⟩
  | 99 => ⟨S_, .f32⟩
  | 100 => ⟨S2048x128, .f32⟩
  | 101 => ⟨S_, .i32⟩
  | 102 => ⟨S1050624, .i32⟩
  | 103 => ⟨S1050624, .i1⟩
  | 104 => ⟨S_, .i32⟩
  | 105 => ⟨S1050624, .i32⟩
  | 106 => ⟨S1050624, .i32⟩
  | 107 => ⟨S1050624, .i32⟩
  | 108 => ⟨S1050624x1, .i32⟩
  | 109 => ⟨S2048x128, .f32⟩
  | 110 => ⟨S1x128, .f32⟩
  | 111 => ⟨S2048x128, .f32⟩
  | 112 => ⟨S2048x128, .f32⟩
  | 113 => ⟨S4, .i32⟩
  | 114 => ⟨S4x512, .i32⟩
  | 115 => ⟨S2048, .i32⟩
  | 116 => ⟨S_, .f32⟩
  | 117 => ⟨S4x128, .f32⟩
  | 118 => ⟨S2048x1, .i32⟩
  | 119 => ⟨S4x128, .f32⟩
  | 120 => ⟨S_, .f32⟩
  | 121 => ⟨S2048, .f32⟩
  | 122 => ⟨S_, .f32⟩
  | 123 => ⟨S4, .f32⟩
  | 124 => ⟨S2048x1, .i32⟩
  | 125 => ⟨S4, .f32⟩
  | 126 => ⟨S4x1, .f32⟩
  | 127 => ⟨S4x128, .f32⟩
  | _ => ⟨S4x512x128, .f32⟩

abbrev hbmTy0_3 (i : Nat) : BufTy := match i % 128 with
  | 0 => ⟨S4x128, .f32⟩
  | _ => ⟨S4x512x128, .f32⟩

abbrev hbmTy (i : Nat) : BufTy := match i / 128 with
  | 0 => hbmTy0_0 i
  | 1 => hbmTy0_1 i
  | 2 => hbmTy0_2 i
  | 3 => hbmTy0_3 i
  | _ => ⟨S4x512x128, .f32⟩

abbrev bufTy : (tb : Table) → Fin (tcTables nBuf tb) → BufTy
  | .hbm, ⟨i, _⟩ => hbmTy i
  | _, _ => ⟨S4x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_call0_v0 : Ref sig .tc := ⟨.hbm, 9, rfl⟩
abbrev main_call0_v1 : Ref sig .tc := ⟨.hbm, 10, rfl⟩
abbrev main_call0_call0_c : Ref sig .tc := ⟨.hbm, 11, rfl⟩
abbrev main_call0_call0_v0 : Ref sig .tc := ⟨.hbm, 12, rfl⟩
abbrev main_v2 : Ref sig .tc := ⟨.hbm, 13, rfl⟩
abbrev main_c : Ref sig .tc := ⟨.hbm, 14, rfl⟩
abbrev main_v3 : Ref sig .tc := ⟨.hbm, 15, rfl⟩
abbrev main_c_0 : Ref sig .tc := ⟨.hbm, 16, rfl⟩
abbrev main_call1_v0 : Ref sig .tc := ⟨.hbm, 17, rfl⟩
abbrev main_call1_v1 : Ref sig .tc := ⟨.hbm, 18, rfl⟩
abbrev main_v4 : Ref sig .tc := ⟨.hbm, 19, rfl⟩
abbrev main_c_1 : Ref sig .tc := ⟨.hbm, 20, rfl⟩
abbrev main_v5 : Ref sig .tc := ⟨.hbm, 21, rfl⟩
abbrev main_v6 : Ref sig .tc := ⟨.hbm, 22, rfl⟩
abbrev main_c_2 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_c_3 : Ref sig .tc := ⟨.hbm, 28, rfl⟩
abbrev main_v11 : Ref sig .tc := ⟨.hbm, 29, rfl⟩
abbrev main_v12 : Ref sig .tc := ⟨.hbm, 30, rfl⟩
abbrev main_call2_call0_c : Ref sig .tc := ⟨.hbm, 31, rfl⟩
abbrev main_call2_call0_v0 : Ref sig .tc := ⟨.hbm, 32, rfl⟩
abbrev main_v13 : Ref sig .tc := ⟨.hbm, 33, rfl⟩
abbrev main_c_4 : Ref sig .tc := ⟨.hbm, 34, rfl⟩
abbrev main_call3_v0 : Ref sig .tc := ⟨.hbm, 35, rfl⟩
abbrev main_call3_v1 : Ref sig .tc := ⟨.hbm, 36, rfl⟩
abbrev main_call3_v2 : Ref sig .tc := ⟨.hbm, 37, rfl⟩
abbrev main_call3_v3 : Ref sig .tc := ⟨.hbm, 38, rfl⟩
abbrev main_call3_v4 : Ref sig .tc := ⟨.hbm, 39, rfl⟩
abbrev main_call3_v5 : Ref sig .tc := ⟨.hbm, 40, rfl⟩
abbrev main_call3_v6 : Ref sig .tc := ⟨.hbm, 41, rfl⟩
abbrev main_call3_v7 : Ref sig .tc := ⟨.hbm, 42, rfl⟩
abbrev main_call3_c : Ref sig .tc := ⟨.hbm, 43, rfl⟩
abbrev main_call3_v8 : Ref sig .tc := ⟨.hbm, 44, rfl⟩
abbrev main_call3_v9 : Ref sig .tc := ⟨.hbm, 45, rfl⟩
abbrev main_call3_v10 : Ref sig .tc := ⟨.hbm, 46, rfl⟩
abbrev main_call3_c_0 : Ref sig .tc := ⟨.hbm, 47, rfl⟩
abbrev main_call3_v11 : Ref sig .tc := ⟨.hbm, 48, rfl⟩
abbrev main_call3_v12 : Ref sig .tc := ⟨.hbm, 49, rfl⟩
abbrev main_v14 : Ref sig .tc := ⟨.hbm, 50, rfl⟩
abbrev main_c_5 : Ref sig .tc := ⟨.hbm, 51, rfl⟩
abbrev main_call4_v0 : Ref sig .tc := ⟨.hbm, 52, rfl⟩
abbrev main_call4_c : Ref sig .tc := ⟨.hbm, 53, rfl⟩
abbrev main_call4_v1 : Ref sig .tc := ⟨.hbm, 54, rfl⟩
abbrev main_call4_c_0 : Ref sig .tc := ⟨.hbm, 55, rfl⟩
abbrev main_call4_v2 : Ref sig .tc := ⟨.hbm, 56, rfl⟩
abbrev main_call4_v3 : Ref sig .tc := ⟨.hbm, 57, rfl⟩
abbrev main_call4_v4 : Ref sig .tc := ⟨.hbm, 58, rfl⟩
abbrev main_call4_c_1 : Ref sig .tc := ⟨.hbm, 59, rfl⟩
abbrev main_call4_v5 : Ref sig .tc := ⟨.hbm, 60, rfl⟩
abbrev main_call4_v6 : Ref sig .tc := ⟨.hbm, 61, rfl⟩
abbrev main_call4_c_2 : Ref sig .tc := ⟨.hbm, 62, rfl⟩
abbrev main_call4_v7 : Ref sig .tc := ⟨.hbm, 63, rfl⟩
abbrev main_call4_v8 : Ref sig .tc := ⟨.hbm, 64, rfl⟩
abbrev main_call4_c_3 : Ref sig .tc := ⟨.hbm, 65, rfl⟩
abbrev main_call4_v9 : Ref sig .tc := ⟨.hbm, 66, rfl⟩
abbrev main_call4_v10 : Ref sig .tc := ⟨.hbm, 67, rfl⟩
abbrev main_call4_v11 : Ref sig .tc := ⟨.hbm, 68, rfl⟩
abbrev main_call4_v12 : Ref sig .tc := ⟨.hbm, 69, rfl⟩
abbrev main_call4_v13 : Ref sig .tc := ⟨.hbm, 70, rfl⟩
abbrev main_call4_v14 : Ref sig .tc := ⟨.hbm, 71, rfl⟩
abbrev main_v15 : Ref sig .tc := ⟨.hbm, 72, rfl⟩
abbrev main_c_6 : Ref sig .tc := ⟨.hbm, 73, rfl⟩
abbrev main_call5_v0 : Ref sig .tc := ⟨.hbm, 74, rfl⟩
abbrev main_call5_v1 : Ref sig .tc := ⟨.hbm, 75, rfl⟩
abbrev main_call5_v2 : Ref sig .tc := ⟨.hbm, 76, rfl⟩
abbrev main_call5_v3 : Ref sig .tc := ⟨.hbm, 77, rfl⟩
abbrev main_call5_v4 : Ref sig .tc := ⟨.hbm, 78, rfl⟩
abbrev main_call5_v5 : Ref sig .tc := ⟨.hbm, 79, rfl⟩
abbrev main_call5_v6 : Ref sig .tc := ⟨.hbm, 80, rfl⟩
abbrev main_call5_v7 : Ref sig .tc := ⟨.hbm, 81, rfl⟩
abbrev main_call5_c : Ref sig .tc := ⟨.hbm, 82, rfl⟩
abbrev main_call5_v8 : Ref sig .tc := ⟨.hbm, 83, rfl⟩
abbrev main_call5_v9 : Ref sig .tc := ⟨.hbm, 84, rfl⟩
abbrev main_call5_v10 : Ref sig .tc := ⟨.hbm, 85, rfl⟩
abbrev main_call5_c_0 : Ref sig .tc := ⟨.hbm, 86, rfl⟩
abbrev main_call5_v11 : Ref sig .tc := ⟨.hbm, 87, rfl⟩
abbrev main_call5_v12 : Ref sig .tc := ⟨.hbm, 88, rfl⟩
abbrev main_v16 : Ref sig .tc := ⟨.hbm, 89, rfl⟩
abbrev main_c_7 : Ref sig .tc := ⟨.hbm, 90, rfl⟩
abbrev main_call6_v0 : Ref sig .tc := ⟨.hbm, 91, rfl⟩
abbrev main_call6_c : Ref sig .tc := ⟨.hbm, 92, rfl⟩
abbrev main_call6_v1 : Ref sig .tc := ⟨.hbm, 93, rfl⟩
abbrev main_call6_c_0 : Ref sig .tc := ⟨.hbm, 94, rfl⟩
abbrev main_call6_v2 : Ref sig .tc := ⟨.hbm, 95, rfl⟩
abbrev main_call6_v3 : Ref sig .tc := ⟨.hbm, 96, rfl⟩
abbrev main_call6_v4 : Ref sig .tc := ⟨.hbm, 97, rfl⟩
abbrev main_call6_c_1 : Ref sig .tc := ⟨.hbm, 98, rfl⟩
abbrev main_call6_v5 : Ref sig .tc := ⟨.hbm, 99, rfl⟩
abbrev main_call6_v6 : Ref sig .tc := ⟨.hbm, 100, rfl⟩
abbrev main_call6_c_2 : Ref sig .tc := ⟨.hbm, 101, rfl⟩
abbrev main_call6_v7 : Ref sig .tc := ⟨.hbm, 102, rfl⟩
abbrev main_call6_v8 : Ref sig .tc := ⟨.hbm, 103, rfl⟩
abbrev main_call6_c_3 : Ref sig .tc := ⟨.hbm, 104, rfl⟩
abbrev main_call6_v9 : Ref sig .tc := ⟨.hbm, 105, rfl⟩
abbrev main_call6_v10 : Ref sig .tc := ⟨.hbm, 106, rfl⟩
abbrev main_call6_v11 : Ref sig .tc := ⟨.hbm, 107, rfl⟩
abbrev main_call6_v12 : Ref sig .tc := ⟨.hbm, 108, rfl⟩
abbrev main_call6_v13 : Ref sig .tc := ⟨.hbm, 109, rfl⟩
abbrev main_call6_v14 : Ref sig .tc := ⟨.hbm, 110, rfl⟩
abbrev main_v17 : Ref sig .tc := ⟨.hbm, 111, rfl⟩
abbrev main_c_8 : Ref sig .tc := ⟨.hbm, 112, rfl⟩
abbrev main_call7_v0 : Ref sig .tc := ⟨.hbm, 113, rfl⟩
abbrev main_call7_v1 : Ref sig .tc := ⟨.hbm, 114, rfl⟩
abbrev main_call7_v2 : Ref sig .tc := ⟨.hbm, 115, rfl⟩
abbrev main_call7_v3 : Ref sig .tc := ⟨.hbm, 116, rfl⟩
abbrev main_call7_v4 : Ref sig .tc := ⟨.hbm, 117, rfl⟩
abbrev main_call7_v5 : Ref sig .tc := ⟨.hbm, 118, rfl⟩
abbrev main_call7_v6 : Ref sig .tc := ⟨.hbm, 119, rfl⟩
abbrev main_call7_v7 : Ref sig .tc := ⟨.hbm, 120, rfl⟩
abbrev main_call7_c : Ref sig .tc := ⟨.hbm, 121, rfl⟩
abbrev main_call7_v8 : Ref sig .tc := ⟨.hbm, 122, rfl⟩
abbrev main_call7_v9 : Ref sig .tc := ⟨.hbm, 123, rfl⟩
abbrev main_call7_v10 : Ref sig .tc := ⟨.hbm, 124, rfl⟩
abbrev main_call7_c_0 : Ref sig .tc := ⟨.hbm, 125, rfl⟩
abbrev main_call7_v11 : Ref sig .tc := ⟨.hbm, 126, rfl⟩
abbrev main_call7_v12 : Ref sig .tc := ⟨.hbm, 127, rfl⟩
abbrev main_v18 : Ref sig .tc := ⟨.hbm, 128, rfl⟩
abbrev main_c_9 : Ref sig .tc := ⟨.hbm, 129, rfl⟩
abbrev main_call8_v0 : Ref sig .tc := ⟨.hbm, 130, rfl⟩
abbrev main_call8_c : Ref sig .tc := ⟨.hbm, 131, rfl⟩
abbrev main_call8_v1 : Ref sig .tc := ⟨.hbm, 132, rfl⟩
abbrev main_call8_c_0 : Ref sig .tc := ⟨.hbm, 133, rfl⟩
abbrev main_call8_v2 : Ref sig .tc := ⟨.hbm, 134, rfl⟩
abbrev main_call8_v3 : Ref sig .tc := ⟨.hbm, 135, rfl⟩
abbrev main_call8_v4 : Ref sig .tc := ⟨.hbm, 136, rfl⟩
abbrev main_call8_c_1 : Ref sig .tc := ⟨.hbm, 137, rfl⟩
abbrev main_call8_v5 : Ref sig .tc := ⟨.hbm, 138, rfl⟩
abbrev main_call8_v6 : Ref sig .tc := ⟨.hbm, 139, rfl⟩
abbrev main_call8_c_2 : Ref sig .tc := ⟨.hbm, 140, rfl⟩
abbrev main_call8_v7 : Ref sig .tc := ⟨.hbm, 141, rfl⟩
abbrev main_call8_v8 : Ref sig .tc := ⟨.hbm, 142, rfl⟩
abbrev main_call8_c_3 : Ref sig .tc := ⟨.hbm, 143, rfl⟩
abbrev main_call8_v9 : Ref sig .tc := ⟨.hbm, 144, rfl⟩
abbrev main_call8_v10 : Ref sig .tc := ⟨.hbm, 145, rfl⟩
abbrev main_call8_v11 : Ref sig .tc := ⟨.hbm, 146, rfl⟩
abbrev main_call8_v12 : Ref sig .tc := ⟨.hbm, 147, rfl⟩
abbrev main_call8_v13 : Ref sig .tc := ⟨.hbm, 148, rfl⟩
abbrev main_call8_v14 : Ref sig .tc := ⟨.hbm, 149, rfl⟩
abbrev main_v19 : Ref sig .tc := ⟨.hbm, 150, rfl⟩
abbrev main_v20 : Ref sig .tc := ⟨.hbm, 151, rfl⟩
abbrev main_v21 : Ref sig .tc := ⟨.hbm, 152, rfl⟩
abbrev main_c_10 : Ref sig .tc := ⟨.hbm, 153, rfl⟩
abbrev main_v22 : Ref sig .tc := ⟨.hbm, 154, rfl⟩
abbrev main_v23 : Ref sig .tc := ⟨.hbm, 155, rfl⟩
abbrev main_v24 : Ref sig .tc := ⟨.hbm, 156, rfl⟩
abbrev main_c_11 : Ref sig .tc := ⟨.hbm, 157, rfl⟩
abbrev main_call9_v0 : Ref sig .tc := ⟨.hbm, 158, rfl⟩
abbrev main_call9_v1 : Ref sig .tc := ⟨.hbm, 159, rfl⟩
abbrev main_v25 : Ref sig .tc := ⟨.hbm, 160, rfl⟩
abbrev main_c_12 : Ref sig .tc := ⟨.hbm, 161, rfl⟩
abbrev main_call10_v0 : Ref sig .tc := ⟨.hbm, 162, rfl⟩
abbrev main_call10_v1 : Ref sig .tc := ⟨.hbm, 163, rfl⟩
abbrev main_v26 : Ref sig .tc := ⟨.hbm, 164, rfl⟩
abbrev main_c_13 : Ref sig .tc := ⟨.hbm, 165, rfl⟩
abbrev main_call11_v0 : Ref sig .tc := ⟨.hbm, 166, rfl⟩
abbrev main_call11_v1 : Ref sig .tc := ⟨.hbm, 167, rfl⟩
abbrev main_v27 : Ref sig .tc := ⟨.hbm, 168, rfl⟩
abbrev main_v28 : Ref sig .tc := ⟨.hbm, 169, rfl⟩
abbrev main_call12_cst : Ref sig .tc := ⟨.hbm, 170, rfl⟩
abbrev main_call12_v0 : Ref sig .tc := ⟨.hbm, 171, rfl⟩
abbrev main_call12_v1 : Ref sig .tc := ⟨.hbm, 172, rfl⟩
abbrev main_call12_v2 : Ref sig .tc := ⟨.hbm, 173, rfl⟩
abbrev main_call12_c : Ref sig .tc := ⟨.hbm, 174, rfl⟩
abbrev main_v29 : Ref sig .tc := ⟨.hbm, 175, rfl⟩
abbrev main_v30 : Ref sig .tc := ⟨.hbm, 176, rfl⟩
abbrev main_v31 : Ref sig .tc := ⟨.hbm, 177, rfl⟩
abbrev main_v32 : Ref sig .tc := ⟨.hbm, 178, rfl⟩
abbrev main_c_14 : Ref sig .tc := ⟨.hbm, 179, rfl⟩
abbrev main_v33 : Ref sig .tc := ⟨.hbm, 180, rfl⟩
abbrev main_v34 : Ref sig .tc := ⟨.hbm, 181, rfl⟩
abbrev main_v35 : Ref sig .tc := ⟨.hbm, 182, rfl⟩
abbrev main_c_15 : Ref sig .tc := ⟨.hbm, 183, rfl⟩
abbrev main_v36 : Ref sig .tc := ⟨.hbm, 184, rfl⟩
abbrev main_v37 : Ref sig .tc := ⟨.hbm, 185, rfl⟩
abbrev main_v38 : Ref sig .tc := ⟨.hbm, 186, rfl⟩
abbrev main_v39 : Ref sig .tc := ⟨.hbm, 187, rfl⟩
abbrev main_v40 : Ref sig .tc := ⟨.hbm, 188, rfl⟩
abbrev main_v41 : Ref sig .tc := ⟨.hbm, 189, rfl⟩
abbrev main_v42 : Ref sig .tc := ⟨.hbm, 190, rfl⟩
abbrev main_cst_16 : Ref sig .tc := ⟨.hbm, 191, rfl⟩
abbrev main_v43 : Ref sig .tc := ⟨.hbm, 192, rfl⟩
abbrev main_v44 : Ref sig .tc := ⟨.hbm, 193, rfl⟩
abbrev main_cst_17 : Ref sig .tc := ⟨.hbm, 194, rfl⟩
abbrev main_v45 : Ref sig .tc := ⟨.hbm, 195, rfl⟩
abbrev main_c_18 : Ref sig .tc := ⟨.hbm, 196, rfl⟩
abbrev main_v46 : Ref sig .tc := ⟨.hbm, 197, rfl⟩
abbrev main_v47 : Ref sig .tc := ⟨.hbm, 198, rfl⟩
abbrev main_c_19 : Ref sig .tc := ⟨.hbm, 199, rfl⟩
abbrev main_v48 : Ref sig .tc := ⟨.hbm, 200, rfl⟩
abbrev main_v49 : Ref sig .tc := ⟨.hbm, 201, rfl⟩
abbrev main_v50 : Ref sig .tc := ⟨.hbm, 202, rfl⟩
abbrev main_v51 : Ref sig .tc := ⟨.hbm, 203, rfl⟩
abbrev main_v52 : Ref sig .tc := ⟨.hbm, 204, rfl⟩
abbrev main_cst_20 : Ref sig .tc := ⟨.hbm, 205, rfl⟩
abbrev main_v53 : Ref sig .tc := ⟨.hbm, 206, rfl⟩
abbrev main_v54 : Ref sig .tc := ⟨.hbm, 207, rfl⟩
abbrev main_cst_21 : Ref sig .tc := ⟨.hbm, 208, rfl⟩
abbrev main_v55 : Ref sig .tc := ⟨.hbm, 209, rfl⟩
abbrev main_v56 : Ref sig .tc := ⟨.hbm, 210, rfl⟩
abbrev main_v57 : Ref sig .tc := ⟨.hbm, 211, rfl⟩
abbrev main_cst_22 : Ref sig .tc := ⟨.hbm, 212, rfl⟩
abbrev main_call13_v0 : Ref sig .tc := ⟨.hbm, 213, rfl⟩
abbrev main_call13_v1 : Ref sig .tc := ⟨.hbm, 214, rfl⟩
abbrev main_v58 : Ref sig .tc := ⟨.hbm, 215, rfl⟩
abbrev main_c_23 : Ref sig .tc := ⟨.hbm, 216, rfl⟩
abbrev main_v59 : Ref sig .tc := ⟨.hbm, 217, rfl⟩
abbrev main_v60 : Ref sig .tc := ⟨.hbm, 218, rfl⟩
abbrev main_c_24 : Ref sig .tc := ⟨.hbm, 219, rfl⟩
abbrev main_v61 : Ref sig .tc := ⟨.hbm, 220, rfl⟩
abbrev main_v62 : Ref sig .tc := ⟨.hbm, 221, rfl⟩
abbrev main_v63 : Ref sig .tc := ⟨.hbm, 222, rfl⟩
abbrev main_v64 : Ref sig .tc := ⟨.hbm, 223, rfl⟩
abbrev main_v65 : Ref sig .tc := ⟨.hbm, 224, rfl⟩
abbrev main_c_25 : Ref sig .tc := ⟨.hbm, 225, rfl⟩
abbrev main_v66 : Ref sig .tc := ⟨.hbm, 226, rfl⟩
abbrev main_v67 : Ref sig .tc := ⟨.hbm, 227, rfl⟩
abbrev main_c_26 : Ref sig .tc := ⟨.hbm, 228, rfl⟩
abbrev main_v68 : Ref sig .tc := ⟨.hbm, 229, rfl⟩
abbrev main_v69 : Ref sig .tc := ⟨.hbm, 230, rfl⟩
abbrev main_v70 : Ref sig .tc := ⟨.hbm, 231, rfl⟩
abbrev main_v71 : Ref sig .tc := ⟨.hbm, 232, rfl⟩
abbrev main_v72 : Ref sig .tc := ⟨.hbm, 233, rfl⟩
abbrev main_v73 : Ref sig .tc := ⟨.hbm, 234, rfl⟩
abbrev main_v74 : Ref sig .tc := ⟨.hbm, 235, rfl⟩
abbrev main_v75 : Ref sig .tc := ⟨.hbm, 236, rfl⟩
abbrev main_call14_c : Ref sig .tc := ⟨.hbm, 237, rfl⟩
abbrev main_call14_v0 : Ref sig .tc := ⟨.hbm, 238, rfl⟩
abbrev main_call14_v1 : Ref sig .tc := ⟨.hbm, 239, rfl⟩
abbrev main_call14_c_0 : Ref sig .tc := ⟨.hbm, 240, rfl⟩
abbrev main_call14_v2 : Ref sig .tc := ⟨.hbm, 241, rfl⟩
abbrev main_call14_v3 : Ref sig .tc := ⟨.hbm, 242, rfl⟩
abbrev main_call14_v4 : Ref sig .tc := ⟨.hbm, 243, rfl⟩
abbrev main_call14_v5 : Ref sig .tc := ⟨.hbm, 244, rfl⟩
abbrev main_call14_c_1 : Ref sig .tc := ⟨.hbm, 245, rfl⟩
abbrev main_call14_c_2 : Ref sig .tc := ⟨.hbm, 246, rfl⟩
abbrev main_call14_v6 : Ref sig .tc := ⟨.hbm, 247, rfl⟩
abbrev main_call14_v7 : Ref sig .tc := ⟨.hbm, 248, rfl⟩
abbrev main_call14_v8 : Ref sig .tc := ⟨.hbm, 249, rfl⟩
abbrev main_call14_v9 : Ref sig .tc := ⟨.hbm, 250, rfl⟩
abbrev main_call14_v10 : Ref sig .tc := ⟨.hbm, 251, rfl⟩
abbrev main_call14_v11 : Ref sig .tc := ⟨.hbm, 252, rfl⟩
abbrev main_call14_c_3 : Ref sig .tc := ⟨.hbm, 253, rfl⟩
abbrev main_call14_v12 : Ref sig .tc := ⟨.hbm, 254, rfl⟩
abbrev main_call14_v13 : Ref sig .tc := ⟨.hbm, 255, rfl⟩
abbrev main_call14_v14 : Ref sig .tc := ⟨.hbm, 256, rfl⟩
abbrev main_call14_cst : Ref sig .tc := ⟨.hbm, 257, rfl⟩
abbrev main_call14_v15 : Ref sig .tc := ⟨.hbm, 258, rfl⟩
abbrev main_v76 : Ref sig .tc := ⟨.hbm, 259, rfl⟩
abbrev main_v77 : Ref sig .tc := ⟨.hbm, 260, rfl⟩
abbrev main_v78 : Ref sig .tc := ⟨.hbm, 261, rfl⟩
abbrev main_v79 : Ref sig .tc := ⟨.hbm, 262, rfl⟩
abbrev main_cst_27 : Ref sig .tc := ⟨.hbm, 263, rfl⟩
abbrev main_v80 : Ref sig .tc := ⟨.hbm, 264, rfl⟩
abbrev main_c_28 : Ref sig .tc := ⟨.hbm, 265, rfl⟩
abbrev main_v81 : Ref sig .tc := ⟨.hbm, 266, rfl⟩
abbrev main_v82 : Ref sig .tc := ⟨.hbm, 267, rfl⟩
abbrev main_c_29 : Ref sig .tc := ⟨.hbm, 268, rfl⟩
abbrev main_v83 : Ref sig .tc := ⟨.hbm, 269, rfl⟩
abbrev main_v84 : Ref sig .tc := ⟨.hbm, 270, rfl⟩
abbrev main_v85 : Ref sig .tc := ⟨.hbm, 271, rfl⟩
abbrev main_v86 : Ref sig .tc := ⟨.hbm, 272, rfl⟩
abbrev main_v87 : Ref sig .tc := ⟨.hbm, 273, rfl⟩
abbrev main_v88 : Ref sig .tc := ⟨.hbm, 274, rfl⟩
abbrev main_v89 : Ref sig .tc := ⟨.hbm, 275, rfl⟩
abbrev main_v90 : Ref sig .tc := ⟨.hbm, 276, rfl⟩
abbrev main_call15_cst : Ref sig .tc := ⟨.hbm, 277, rfl⟩
abbrev main_call15_v0 : Ref sig .tc := ⟨.hbm, 278, rfl⟩
abbrev main_v91 : Ref sig .tc := ⟨.hbm, 279, rfl⟩
abbrev main_v92 : Ref sig .tc := ⟨.hbm, 280, rfl⟩
abbrev main_v93 : Ref sig .tc := ⟨.hbm, 281, rfl⟩
abbrev main_v94 : Ref sig .tc := ⟨.hbm, 282, rfl⟩
abbrev main_cst_30 : Ref sig .tc := ⟨.hbm, 283, rfl⟩
abbrev main_v95 : Ref sig .tc := ⟨.hbm, 284, rfl⟩
abbrev main_v96 : Ref sig .tc := ⟨.hbm, 285, rfl⟩
abbrev main_cst_31 : Ref sig .tc := ⟨.hbm, 286, rfl⟩
abbrev main_v97 : Ref sig .tc := ⟨.hbm, 287, rfl⟩
abbrev main_c_32 : Ref sig .tc := ⟨.hbm, 288, rfl⟩
abbrev main_v98 : Ref sig .tc := ⟨.hbm, 289, rfl⟩
abbrev main_v99 : Ref sig .tc := ⟨.hbm, 290, rfl⟩
abbrev main_c_33 : Ref sig .tc := ⟨.hbm, 291, rfl⟩
abbrev main_v100 : Ref sig .tc := ⟨.hbm, 292, rfl⟩
abbrev main_v101 : Ref sig .tc := ⟨.hbm, 293, rfl⟩
abbrev main_v102 : Ref sig .tc := ⟨.hbm, 294, rfl⟩
abbrev main_v103 : Ref sig .tc := ⟨.hbm, 295, rfl⟩
abbrev main_v104 : Ref sig .tc := ⟨.hbm, 296, rfl⟩
abbrev main_cst_34 : Ref sig .tc := ⟨.hbm, 297, rfl⟩
abbrev main_v105 : Ref sig .tc := ⟨.hbm, 298, rfl⟩
abbrev main_v106 : Ref sig .tc := ⟨.hbm, 299, rfl⟩
abbrev main_cst_35 : Ref sig .tc := ⟨.hbm, 300, rfl⟩
abbrev main_v107 : Ref sig .tc := ⟨.hbm, 301, rfl⟩
abbrev main_v108 : Ref sig .tc := ⟨.hbm, 302, rfl⟩
abbrev main_v109 : Ref sig .tc := ⟨.hbm, 303, rfl⟩
abbrev main_cst_36 : Ref sig .tc := ⟨.hbm, 304, rfl⟩
abbrev main_call16_v0 : Ref sig .tc := ⟨.hbm, 305, rfl⟩
abbrev main_call16_v1 : Ref sig .tc := ⟨.hbm, 306, rfl⟩
abbrev main_v110 : Ref sig .tc := ⟨.hbm, 307, rfl⟩
abbrev main_c_37 : Ref sig .tc := ⟨.hbm, 308, rfl⟩
abbrev main_v111 : Ref sig .tc := ⟨.hbm, 309, rfl⟩
abbrev main_v112 : Ref sig .tc := ⟨.hbm, 310, rfl⟩
abbrev main_c_38 : Ref sig .tc := ⟨.hbm, 311, rfl⟩
abbrev main_v113 : Ref sig .tc := ⟨.hbm, 312, rfl⟩
abbrev main_v114 : Ref sig .tc := ⟨.hbm, 313, rfl⟩
abbrev main_v115 : Ref sig .tc := ⟨.hbm, 314, rfl⟩
abbrev main_v116 : Ref sig .tc := ⟨.hbm, 315, rfl⟩
abbrev main_v117 : Ref sig .tc := ⟨.hbm, 316, rfl⟩
abbrev main_c_39 : Ref sig .tc := ⟨.hbm, 317, rfl⟩
abbrev main_v118 : Ref sig .tc := ⟨.hbm, 318, rfl⟩
abbrev main_v119 : Ref sig .tc := ⟨.hbm, 319, rfl⟩
abbrev main_c_40 : Ref sig .tc := ⟨.hbm, 320, rfl⟩
abbrev main_v120 : Ref sig .tc := ⟨.hbm, 321, rfl⟩
abbrev main_v121 : Ref sig .tc := ⟨.hbm, 322, rfl⟩
abbrev main_v122 : Ref sig .tc := ⟨.hbm, 323, rfl⟩
abbrev main_v123 : Ref sig .tc := ⟨.hbm, 324, rfl⟩
abbrev main_v124 : Ref sig .tc := ⟨.hbm, 325, rfl⟩
abbrev main_v125 : Ref sig .tc := ⟨.hbm, 326, rfl⟩
abbrev main_v126 : Ref sig .tc := ⟨.hbm, 327, rfl⟩
abbrev main_v127 : Ref sig .tc := ⟨.hbm, 328, rfl⟩
abbrev main_call17_c : Ref sig .tc := ⟨.hbm, 329, rfl⟩
abbrev main_call17_v0 : Ref sig .tc := ⟨.hbm, 330, rfl⟩
abbrev main_call17_v1 : Ref sig .tc := ⟨.hbm, 331, rfl⟩
abbrev main_call17_c_0 : Ref sig .tc := ⟨.hbm, 332, rfl⟩
abbrev main_call17_v2 : Ref sig .tc := ⟨.hbm, 333, rfl⟩
abbrev main_call17_v3 : Ref sig .tc := ⟨.hbm, 334, rfl⟩
abbrev main_call17_v4 : Ref sig .tc := ⟨.hbm, 335, rfl⟩
abbrev main_call17_v5 : Ref sig .tc := ⟨.hbm, 336, rfl⟩
abbrev main_call17_c_1 : Ref sig .tc := ⟨.hbm, 337, rfl⟩
abbrev main_call17_c_2 : Ref sig .tc := ⟨.hbm, 338, rfl⟩
abbrev main_call17_v6 : Ref sig .tc := ⟨.hbm, 339, rfl⟩
abbrev main_call17_v7 : Ref sig .tc := ⟨.hbm, 340, rfl⟩
abbrev main_call17_v8 : Ref sig .tc := ⟨.hbm, 341, rfl⟩
abbrev main_call17_v9 : Ref sig .tc := ⟨.hbm, 342, rfl⟩
abbrev main_call17_v10 : Ref sig .tc := ⟨.hbm, 343, rfl⟩
abbrev main_call17_v11 : Ref sig .tc := ⟨.hbm, 344, rfl⟩
abbrev main_call17_c_3 : Ref sig .tc := ⟨.hbm, 345, rfl⟩
abbrev main_call17_v12 : Ref sig .tc := ⟨.hbm, 346, rfl⟩
abbrev main_call17_v13 : Ref sig .tc := ⟨.hbm, 347, rfl⟩
abbrev main_call17_v14 : Ref sig .tc := ⟨.hbm, 348, rfl⟩
abbrev main_call17_cst : Ref sig .tc := ⟨.hbm, 349, rfl⟩
abbrev main_call17_v15 : Ref sig .tc := ⟨.hbm, 350, rfl⟩
abbrev main_v128 : Ref sig .tc := ⟨.hbm, 351, rfl⟩
abbrev main_v129 : Ref sig .tc := ⟨.hbm, 352, rfl⟩
abbrev main_v130 : Ref sig .tc := ⟨.hbm, 353, rfl⟩
abbrev main_v131 : Ref sig .tc := ⟨.hbm, 354, rfl⟩
abbrev main_cst_41 : Ref sig .tc := ⟨.hbm, 355, rfl⟩
abbrev main_v132 : Ref sig .tc := ⟨.hbm, 356, rfl⟩
abbrev main_c_42 : Ref sig .tc := ⟨.hbm, 357, rfl⟩
abbrev main_v133 : Ref sig .tc := ⟨.hbm, 358, rfl⟩
abbrev main_v134 : Ref sig .tc := ⟨.hbm, 359, rfl⟩
abbrev main_c_43 : Ref sig .tc := ⟨.hbm, 360, rfl⟩
abbrev main_v135 : Ref sig .tc := ⟨.hbm, 361, rfl⟩
abbrev main_v136 : Ref sig .tc := ⟨.hbm, 362, rfl⟩
abbrev main_v137 : Ref sig .tc := ⟨.hbm, 363, rfl⟩
abbrev main_v138 : Ref sig .tc := ⟨.hbm, 364, rfl⟩
abbrev main_v139 : Ref sig .tc := ⟨.hbm, 365, rfl⟩
abbrev main_v140 : Ref sig .tc := ⟨.hbm, 366, rfl⟩
abbrev main_v141 : Ref sig .tc := ⟨.hbm, 367, rfl⟩
abbrev main_v142 : Ref sig .tc := ⟨.hbm, 368, rfl⟩
abbrev main_v143 : Ref sig .tc := ⟨.hbm, 369, rfl⟩
abbrev main_v144 : Ref sig .tc := ⟨.hbm, 370, rfl⟩
abbrev main_v145 : Ref sig .tc := ⟨.hbm, 371, rfl⟩
abbrev main_cst_44 : Ref sig .tc := ⟨.hbm, 372, rfl⟩
abbrev main_v146 : Ref sig .tc := ⟨.hbm, 373, rfl⟩
abbrev main_v147 : Ref sig .tc := ⟨.hbm, 374, rfl⟩
abbrev main_v148 : Ref sig .tc := ⟨.hbm, 375, rfl⟩
abbrev main_cst_45 : Ref sig .tc := ⟨.hbm, 376, rfl⟩
abbrev main_v149 : Ref sig .tc := ⟨.hbm, 377, rfl⟩
abbrev main_cst_46 : Ref sig .tc := ⟨.hbm, 378, rfl⟩
abbrev main_v150 : Ref sig .tc := ⟨.hbm, 379, rfl⟩
abbrev main_v151 : Ref sig .tc := ⟨.hbm, 380, rfl⟩
abbrev main_v152 : Ref sig .tc := ⟨.hbm, 381, rfl⟩
abbrev main_v153 : Ref sig .tc := ⟨.hbm, 382, rfl⟩
abbrev main_v154 : Ref sig .tc := ⟨.hbm, 383, rfl⟩
abbrev main_v155 : Ref sig .tc := ⟨.hbm, 384, rfl⟩

abbrev nD : Nat := 1
abbrev τ : Topo := Topo.v7x

variable {F : FTy → Type} [FloatOps F]

class Facts₀ : Prop where
  bcast_S_S4x512x512 : S_.BroadcastsInDim S4x512x512 (![] : Fin 0 → Fin S4x512x512.rank)
  shapeCasts_S4x512x512_S1048576 : S4x512x512.ShapeCasts S1048576
  natLt_1_32 : 1 < 32
  bcast_S_S_ : S_.BroadcastsInDim S_ (![] : Fin 0 → Fin S_.rank)
  reduceWindows_S1048576_S1048576_w1048576s1p1048575_0 : S1048576.ReduceWindows (![1048576] : Fin 1 → Nat) ![1] ![1048575] ![0] S1048576
  h_S_ : 0 < S_.numel
  bcast_S_S1048576 : S_.BroadcastsInDim S1048576 (![] : Fin 0 → Fin S1048576.rank)
  bcast_S1048576_S1048576x1_0 : S1048576.BroadcastsInDim S1048576x1 (![0] : Fin 1 → Fin S1048576x1.rank)
  reducesTo_S4x512x512_S_d0_1_2 : S4x512x512.ReducesTo [0, 1, 2] S_
  shapeCasts_S4x512x128_S2048x128 : S4x512x128.ShapeCasts S2048x128
  concatenates_S1048576_S2048_S1050624_d0 : Shape.Concatenates [S1048576, S2048] S1050624 0
  bcast_S_S2048 : S_.BroadcastsInDim S2048 (![] : Fin 0 → Fin S2048.rank)
  bcast_S_S1050624 : S_.BroadcastsInDim S1050624 (![] : Fin 0 → Fin S1050624.rank)
  bcast_S1050624_S1050624x1_0 : S1050624.BroadcastsInDim S1050624x1 (![0] : Fin 1 → Fin S1050624x1.rank)
  bcast_S_S1050624x1 : S_.BroadcastsInDim S1050624x1 (![] : Fin 0 → Fin S1050624x1.rank)
  bcast_S1_S1x1_1 : S1.BroadcastsInDim S1x1 (![1] : Fin 1 → Fin S1x1.rank)
  bcast_S1x1_S1050624x1_0_1 : S1x1.BroadcastsInDim S1050624x1 (![0, 1] : Fin 2 → Fin S1050624x1.rank)
  reducesTo_S1050624x1_S1050624_d1 : S1050624x1.ReducesTo [1] S1050624
  bcast_S1050624_S1050624x128_0 : S1050624.BroadcastsInDim S1050624x128 (![0] : Fin 1 → Fin S1050624x128.rank)
  bcast_S_S1050624x128 : S_.BroadcastsInDim S1050624x128 (![] : Fin 0 → Fin S1050624x128.rank)
  bcast_S1050624x1_S1050624x128_0_1 : S1050624x1.BroadcastsInDim S1050624x128 (![0, 1] : Fin 2 → Fin S1050624x128.rank)
  bcast_S_S2048x128 : S_.BroadcastsInDim S2048x128 (![] : Fin 0 → Fin S2048x128.rank)
  bcast_S128_S1x128_1 : S128.BroadcastsInDim S1x128 (![1] : Fin 1 → Fin S1x128.rank)
  bcast_S1x128_S2048x128_0_1 : S1x128.BroadcastsInDim S2048x128 (![0, 1] : Fin 2 → Fin S2048x128.rank)
  bcast_S4_S4x512_0 : S4.BroadcastsInDim S4x512 (![0] : Fin 1 → Fin S4x512.rank)
  shapeCasts_S4x512_S2048 : S4x512.ShapeCasts S2048
  bcast_S_S4x128 : S_.BroadcastsInDim S4x128 (![] : Fin 0 → Fin S4x128.rank)
  bcast_S2048_S2048x1_0 : S2048.BroadcastsInDim S2048x1 (![0] : Fin 1 → Fin S2048x1.rank)
  bcast_S_S4 : S_.BroadcastsInDim S4 (![] : Fin 0 → Fin S4.rank)
  bcast_S4_S4x1_0 : S4.BroadcastsInDim S4x1 (![0] : Fin 1 → Fin S4x1.rank)
  bcast_S4x1_S4x128_0_1 : S4x1.BroadcastsInDim S4x128 (![0, 1] : Fin 2 → Fin S4x128.rank)
  scatter_S1048576_S1048576x1_S1048576_n_0_0_1_wf : ScatterDims.WF S1048576 S1048576x1 S1048576 [] [0] [0] 1
  scatter_S2048_S1050624x1_S1050624_n_0_0_1_wf : ScatterDims.WF S2048 S1050624x1 S1050624 [] [0] [0] 1
  gather_S2048_S1050624x1_S1050624_n_0_n_n_0_1_1_wf : GatherDims.WF S2048 S1050624x1 S1050624 [] [0] [] [0] [] 1 ![1]
  dot_S2048x128_S128x128_S2048x128_1_0_0_1_n_n_wf : DotDims.WF S2048x128 S128x128 S2048x128 [1] [0] [0] [1] [] []
  gather_S2048x128_S1050624x1_S1050624x128_1_0_n_n_0_1_1128_wf : GatherDims.WF S2048x128 S1050624x1 S1050624x128 [1] [0] [] [0] [] 1 ![1, 128]
  scatter_S2048x128_S1050624x1_S1050624x128_1_0_0_1_wf : ScatterDims.WF S2048x128 S1050624x1 S1050624x128 [1] [0] [0] 1
  scatter_S4x128_S2048x1_S2048x128_1_0_0_1_wf : ScatterDims.WF S4x128 S2048x1 S2048x128 [1] [0] [0] 1
  scatter_S4_S2048x1_S2048_n_0_0_1_wf : ScatterDims.WF S4 S2048x1 S2048 [] [0] [0] 1

variable [Facts₀]

def scatter_S1048576_S1048576x1_S1048576_n_0_0_1 : ScatterDims S1048576 S1048576x1 S1048576 where
  updateWindowDims := []
  insertedWindowDims := [0]
  scatterDimsToOperandDims := [0]
  indexVectorDim := 1
  wf := scatter_S1048576_S1048576x1_S1048576_n_0_0_1_wf
def scatter_S2048_S1050624x1_S1050624_n_0_0_1 : ScatterDims S2048 S1050624x1 S1050624 where
  updateWindowDims := []
  insertedWindowDims := [0]
  scatterDimsToOperandDims := [0]
  indexVectorDim := 1
  wf := scatter_S2048_S1050624x1_S1050624_n_0_0_1_wf
def gather_S2048_S1050624x1_S1050624_n_0_n_n_0_1_1 : GatherDims S2048 S1050624x1 S1050624 where
  offsetDims := []
  collapsedSliceDims := [0]
  operandBatchingDims := []
  startIndicesBatchingDims := []
  startIndexMap := [0]
  indexVectorDim := 1
  sliceSizes := ![1]
  wf := gather_S2048_S1050624x1_S1050624_n_0_n_n_0_1_1_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def gather_S2048x128_S1050624x1_S1050624x128_1_0_n_n_0_1_1128 : GatherDims S2048x128 S1050624x1 S1050624x128 where
  offsetDims := [1]
  collapsedSliceDims := [0]
  operandBatchingDims := []
  startIndicesBatchingDims := []
  startIndexMap := [0]
  indexVectorDim := 1
  sliceSizes := ![1, 128]
  wf := gather_S2048x128_S1050624x1_S1050624x128_1_0_n_n_0_1_1128_wf
def scatter_S2048x128_S1050624x1_S1050624x128_1_0_0_1 : ScatterDims S2048x128 S1050624x1 S1050624x128 where
  updateWindowDims := [1]
  insertedWindowDims := [0]
  scatterDimsToOperandDims := [0]
  indexVectorDim := 1
  wf := scatter_S2048x128_S1050624x1_S1050624x128_1_0_0_1_wf
def scatter_S4x128_S2048x1_S2048x128_1_0_0_1 : ScatterDims S4x128 S2048x1 S2048x128 where
  updateWindowDims := [1]
  insertedWindowDims := [0]
  scatterDimsToOperandDims := [0]
  indexVectorDim := 1
  wf := scatter_S4x128_S2048x1_S2048x128_1_0_0_1_wf
def scatter_S4_S2048x1_S2048_n_0_0_1 : ScatterDims S4 S2048x1 S2048 where
  updateWindowDims := []
  insertedWindowDims := [0]
  scatterDimsToOperandDims := [0]
  indexVectorDim := 1
  wf := scatter_S4_S2048x1_S2048_n_0_0_1_wf

class Facts : Prop extends Facts₀ where

variable [Facts]
-- ==== Proof.KernelOps.lean ====
/-
  Operations of a dense graph-convolution kernel body read at an index, at the ideal values.

  A product that contracts the FIRST axis of both operands, Aᵀ·B for a K×M matrix A and a K×N matrix B, taken into the
  zero accumulator: entry (d, f) is the sum over s of A(s, d) · B(s, f).  An inverse square root taken entry by entry.
  The single-precision words of one and of 1/512 as extended reals.
-/
import Idealize.ShloMosaic.Lib.ValueIdx
import Idealize.ShloMosaic.Lib.Pipeline.Value
import Idealize.ShloMosaic.PureOps.Ideal.Laws

noncomputable section

namespace Cert.KernelOps

open Idealize.ShloMosaic Idealize.ShloMosaic.ValueIdx

/-- Dimension numbers of Aᵀ·B: both operands contracted on their first axis, the result indexed by the second axis of
    the left operand and then the second axis of the right one. -/
def colDot (K M N : Nat) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

variable {K M N : ℕ} {φ₁ φ₂ : FTy}

/-- The left operand's column is the result's row. -/
theorem lhs_col (j : (⟨2, ![M, N]⟩ : Shape).Idx) (k : (colDot K M N).contr.Idx) :
    ((colDot K M N).lhsIdx j k 1).val = (j 0).val := by
  unfold DotDims.lhsIdx
  rw [dif_neg (show ¬(1 : Fin (⟨2, ![K, M]⟩ : Shape).rank) ∈ (colDot K M N).lhsBatch from List.not_mem_nil),
    dif_pos (show (1 : Fin (⟨2, ![K, M]⟩ : Shape).rank) ∈ (colDot K M N).lhsNonContracting from List.mem_singleton.mpr rfl)]
  rfl

/-- The right operand's column is the result's column. -/
theorem rhs_col (j : (⟨2, ![M, N]⟩ : Shape).Idx) (k : (colDot K M N).contr.Idx) :
    ((colDot K M N).rhsIdx j k 1).val = (j 1).val := by
  unfold DotDims.rhsIdx
  rw [dif_neg (show ¬(1 : Fin (⟨2, ![K, N]⟩ : Shape).rank) ∈ (colDot K M N).rhsBatch from List.not_mem_nil),
    dif_pos (show (1 : Fin (⟨2, ![K, N]⟩ : Shape).rank) ∈ (colDot K M N).rhsNonContracting from List.mem_singleton.mpr rfl)]
  rfl

/-- Entry (d, f) of Aᵀ·B accumulated into zero is the sum over s of A(s, d) · B(s, f). -/
theorem matmul_zero_colDot_apply (A : FVec Ideal ⟨2, ![K, M]⟩ φ₁) (B : FVec Ideal ⟨2, ![K, N]⟩ φ₂) (d : Fin M) (f : Fin N) :
    matmul (colDot K M N) none A B (constant ⟨2, ![M, N]⟩ .f32 0x00000000#32) (ix2 d f)
      = ∑ s : Fin K, A (ix2 s d) * B (ix2 s f) := by
  simp only [matmul]
  rw [Ideal.matmul_constant_zero_apply, ← Equiv.sum_comp (contrEquiv1 (colDot K M N) K rfl rfl).symm]
  refine Finset.sum_congr rfl fun s _ => ?_
  have hs := contrEquiv1_symm_val (colDot K M N) K rfl rfl s
  have el : (colDot K M N).lhsIdx (ix2 d f) ((contrEquiv1 (colDot K M N) K rfl rfl).symm s) = ix2 s d :=
    funext fun a => Fin.ext (by
      match a with
      | ⟨0, _⟩ => exact ((colDot K M N).lhsIdx_val_of_single rfl _ _).trans hs
      | ⟨1, _⟩ => exact lhs_col _ _)
  have er : (colDot K M N).rhsIdx (ix2 d f) ((contrEquiv1 (colDot K M N) K rfl rfl).symm s) = ix2 s f :=
    funext fun a => Fin.ext (by
      match a with
      | ⟨0, _⟩ => exact ((colDot K M N).rhsIdx_val_of_single rfl _ _).trans hs
      | ⟨1, _⟩ => exact rhs_col _ _)
  rw [el, er]

/-- An inverse square root of a vector is taken entry by entry. -/
theorem rsqrt_apply {s : Shape} {φ : FTy} (a : FVec Ideal s φ) (i : s.Idx) : rsqrt a i = Ideal.rsqrt (a i) := rfl

/-- The single-precision word 0x3B000000 is 1/512. -/
theorem ofBits_inv512 : Ideal.ofBits .f32 0x3B000000#32 = ((1 / 512 : ℝ) : EReal) := by
  simp [Ideal.ofBits, Ideal.ieee, -EReal.coe_mul]; norm_num

/-- The single-precision word 0x3F800000 is one. -/
theorem ofBits_one : Ideal.ofBits .f32 0x3F800000#32 = (1 : EReal) := by
  rw [show (1 : EReal) = ((1 : ℝ) : EReal) by norm_cast]
  simp [Ideal.ofBits, Ideal.ieee, -EReal.coe_mul]; norm_num

end Cert.KernelOps

end
-- ==== Proof.LibPlainDot.lean ====
/-
  A plain matrix product read at an entry, at the ideal values.

  A kernel's `tpu.matmul` of an M×K by a K×N matrix (contract the left operand's columns against the right operand's rows,
  no batch axis) into the zero splat is, at the entry (a, b), the sum over the contracted coordinate c of
  `A (a, c) · B (c, b)`: no rounding, no chunk order. In particular an entry of the product reads only row `a` of the
  left operand — rows of the left operand that hold nothing meaningful spoil only their own rows of the product.
-/
import Idealize.ShloMosaic.Lib.ValueIdx
import Idealize.ShloMosaic.Lib.Pipeline.Value
import Idealize.ShloMosaic.PureOps.Ideal.Laws

noncomputable section

namespace Cert.PlainDot

open Idealize.ShloMosaic Idealize.ShloMosaic.ValueIdx

/-- A kernel's plain product of an M×K by a K×N matrix into the zero splat, read at an entry, is the sum over the
    contracted coordinate of the products of the entries. At the ideal values. -/
theorem matmul_zero_plain_apply {M K N : ℕ} {φ₁ φ₂ : FTy} (prec : Option ContractPrecision)
    (A : FVec Ideal ⟨2, ![M, K]⟩ φ₁) (B : FVec Ideal ⟨2, ![K, N]⟩ φ₂) (a : Fin M) (b : Fin N) :
    matmul (DotDims.plain M K N) prec A B (constant (F := Ideal) ⟨2, ![M, N]⟩ .f32 0x00000000#32) (ix2 a b)
      = ∑ c : Fin K, A (ix2 a c) * B (ix2 c b) := by
  show FloatOps.matmul _ prec A B _ (ix2 a b) = _
  rw [Ideal.matmul_constant_zero_apply, ← Equiv.sum_comp (contrEquiv1 (DotDims.plain M K N) K rfl rfl).symm]
  refine Finset.sum_congr rfl fun c _ => ?_
  have c2 := contrEquiv1_symm_val (DotDims.plain M K N) K rfl rfl c
  have l2 : (DotDims.plain M K N).lhsIdx (ix2 a b) ((contrEquiv1 _ K rfl rfl).symm c) = ix2 a c := by
    funext ax; apply Fin.ext
    match ax with
    | ⟨0, _⟩ => simp [DotDims.lhsIdx, DotDims.plain]; rfl
    | ⟨1, _⟩ => simp [DotDims.lhsIdx, DotDims.plain]; exact c2
  have r2 : (DotDims.plain M K N).rhsIdx (ix2 a b) ((contrEquiv1 _ K rfl rfl).symm c) = ix2 c b := by
    funext ax; apply Fin.ext
    match ax with
    | ⟨0, _⟩ => simp [DotDims.rhsIdx, DotDims.plain]; exact c2
    | ⟨1, _⟩ => simp [DotDims.rhsIdx, DotDims.plain]; rfl
  rw [l2, r2]

end Cert.PlainDot

end
-- ==== Proof.LibVecIx2.lean ====
/-
  Vector layout operations of a kernel body read at a rank-2 index built from its two coordinates: a block of a
  matrix (one column, one row, one entry), a column or a row broadcast over a matrix, an entry extracted as a scalar,
  a sum over the rows of a matrix, and a one-row matrix made from a vector. Each is stated in closed form (no side
  condition), so that a rewriting pass can push an index through a long chain of such operations.
-/
import Idealize.ShloMosaic.Lib.Pipeline.Value
import Idealize.ShloMosaic.Lib.ValueIdx
import Idealize.ShloMosaic.Lib.ValueLayout
import Idealize.ShloMosaic.PureOps.Ideal.Laws

noncomputable section

namespace Cert.Lib.VecIx2

open Idealize.ShloMosaic Idealize.ShloMosaic.ValueIdx

variable {α : Type}

theorem slices_lt0 {a b m n o0 o1 : ℕ} (h : (⟨2, ![a, b]⟩ : Shape).Slices ![o0, o1] ⟨2, ![m, n]⟩) (hm : 0 < m) : o0 < a := by
  obtain ⟨_, h2⟩ := h
  have := h2 (0 : Fin 2)
  have e : (![o0, o1] : Fin 2 → ℕ) 0 + m ≤ a := this
  have e' : o0 + m ≤ a := e
  omega

theorem slices_lt1 {a b m n o0 o1 : ℕ} (h : (⟨2, ![a, b]⟩ : Shape).Slices ![o0, o1] ⟨2, ![m, n]⟩) (hn : 0 < n) : o1 < b := by
  obtain ⟨_, h2⟩ := h
  have := h2 (1 : Fin 2)
  have e : (![o0, o1] : Fin 2 → ℕ) 1 + n ≤ b := this
  have e' : o1 + n ≤ b := e
  omega

/-- Column `o` of a matrix, as an [a, 1] block: entry (p, ·) is the matrix at (p, o). -/
theorem slice_col {a b : ℕ} (o : ℕ) (X : (⟨2, ![a, b]⟩ : Shape).Idx → α)
    (h : (⟨2, ![a, b]⟩ : Shape).Slices ![0, o] ⟨2, ![a, 1]⟩) (p : Fin a) (u : Fin 1) :
    extractStridedSlice ⟨2, ![a, 1]⟩ ![0, o] X h (ix2 p u) = X (ix2 p ⟨o, slices_lt1 h Nat.one_pos⟩) :=
  extractStridedSlice_apply _ _ _ _ _ (fun ax => by
    match ax with
    | ⟨0, _⟩ => exact (Nat.zero_add _).symm
    | ⟨1, _⟩ => show o = o + u.val; omega)

/-- Row `o` of a matrix, as a [1, b] block: entry (·, q) is the matrix at (o, q). -/
theorem slice_row {a b : ℕ} (o : ℕ) (X : (⟨2, ![a, b]⟩ : Shape).Idx → α)
    (h : (⟨2, ![a, b]⟩ : Shape).Slices ![o, 0] ⟨2, ![1, b]⟩) (u : Fin 1) (q : Fin b) :
    extractStridedSlice ⟨2, ![1, b]⟩ ![o, 0] X h (ix2 u q) = X (ix2 ⟨o, slices_lt0 h Nat.one_pos⟩ q) :=
  extractStridedSlice_apply _ _ _ _ _ (fun ax => by
    match ax with
    | ⟨0, _⟩ => show o = o + u.val; omega
    | ⟨1, _⟩ => exact (Nat.zero_add _).symm)

/-- Entry (o0, o1) of a matrix, as a [1, 1] block. -/
theorem slice_11 {a b : ℕ} (o0 o1 : ℕ) (X : (⟨2, ![a, b]⟩ : Shape).Idx → α)
    (h : (⟨2, ![a, b]⟩ : Shape).Slices ![o0, o1] ⟨2, ![1, 1]⟩) (u v : Fin 1) :
    extractStridedSlice ⟨2, ![1, 1]⟩ ![o0, o1] X h (ix2 u v)
      = X (ix2 ⟨o0, slices_lt0 h Nat.one_pos⟩ ⟨o1, slices_lt1 h Nat.one_pos⟩) :=
  extractStridedSlice_apply _ _ _ _ _ (fun ax => by
    match ax with
    | ⟨0, _⟩ => show o0 = o0 + u.val; omega
    | ⟨1, _⟩ => show o1 = o1 + v.val; omega)

/-- The one entry of a [1, 1] matrix extracted as a scalar. -/
theorem extractAt_11 (x : (⟨2, ![1, 1]⟩ : Shape).Idx → α) (h : ∀ a, (![0, 0] : Fin 2 → ℕ) a < (⟨2, ![1, 1]⟩ : Shape).size a) :
    extractAt ![0, 0] x h = x (ix2 (0 : Fin 1) (0 : Fin 1)) := by
  unfold extractAt
  refine congrArg x (funext fun a => ?_)
  match a with
  | ⟨0, _⟩ => rfl
  | ⟨1, _⟩ => rfl

/-- An [a, 1] column broadcast over [a, b]: entry (p, q) is the column at p. -/
theorem bcast_col {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A sum over the rows of an [a, b] matrix of extended reals, from a zero accumulator: entry q is the column's sum. -/
theorem reduce_rows {a b : ℕ} (src : FVec Ideal ⟨2, ![a, b]⟩ .f32)
    (h : (⟨2, ![a, b]⟩ : Shape).Reduces [0] ⟨1, ![b]⟩) (hφ : FKind.Formats .f32)
    (hacc : (0x00000000#32 : BitVec 32) = FKind.add.neutral .f32 hφ) (q : Fin b) :
    multiReduction .add [0] ⟨1, ![b]⟩ src 0x00000000#32 h hφ hacc (ix1 q) = ∑ k : Fin a, src (ix2 k q) := by
  refine (Ideal.multiReduction_add_single src 0x00000000#32 h hφ hacc (ix1 q)).trans ?_
  refine Finset.sum_congr rfl fun k _ => congrArg src (funext fun c => Fin.ext ?_)
  rw [h.lift_val]
  match c with
  | ⟨0, _⟩ => rfl
  | ⟨1, _⟩ => rfl

/-- The same sum, with the accumulator's neutrality stated on the words themselves (as a printed program states it). -/
theorem reduce_rows' {a b : ℕ} (src : FVec Ideal ⟨2, ![a, b]⟩ .f32)
    (h : (⟨2, ![a, b]⟩ : Shape).Reduces [0] ⟨1, ![b]⟩) (hφ : FKind.Formats .f32)
    (hacc : (0x00000000#32 : BitVec 32) = 0x00000000#32) (q : Fin b) :
    multiReduction .add [0] ⟨1, ![b]⟩ src 0x00000000#32 h hφ hacc (ix1 q) = ∑ k : Fin a, src (ix2 k q) :=
  reduce_rows src h hφ hacc q

end Cert.Lib.VecIx2

end
-- ==== Proof.LibLayout.lean ====
/-
  Layout operations read at an index, for the shapes a row-batched kernel meets: a stack [a, b, c] of b rows per
  member flattened to [a·b, c] and back (row p·b + n of the flat array is row n of member p), a per-member row [a, c]
  given a unit middle axis [a, 1, c] and broadcast over the b rows of its member, and a vector [a] stood up as a
  column [a, 1].  Row-major order: the position of (p, n, d) in [a, b, c] is (p·b + n)·c + d.
-/
import Idealize.ShloMosaic.Lib.Pipeline.Value
import Idealize.ShloMosaic.Lib.ValueIdx
import Idealize.ShloMosaic.Lib.ValueLayout

noncomputable section

namespace Cert.LibLayout

open Idealize.ShloMosaic Idealize.ShloMosaic.ValueIdx

variable {α : Type}

/-- [a, b, c] flattened to [m, c] with m = a·b: row r = p·b + n of the result is row n of member p. -/
theorem shapeCast_abc_mc_apply {a b c m : ℕ} (x : (⟨3, ![a, b, c]⟩ : Shape).Idx → α)
    (h : (⟨3, ![a, b, c]⟩ : Shape).ShapeCasts ⟨2, ![m, c]⟩) (r : Fin m) (p : Fin a) (n : Fin b) (d : Fin c)
    (hr : r.val = p.val * b + n.val) : shapeCast ⟨2, ![m, c]⟩ x h (ix2 r d) = x (ix3 p n d) :=
  shapeCast_apply x h _ _ (by
    rw [Shape.rowMajor_val_three, Shape.rowMajor_val_two]
    show (p.val * b + n.val) * c + d.val = r.val * c + d.val
    rw [hr])

/-- [m, c] with m = a·b split to [a, b, c]: row n of member p is row r = p·b + n of the operand. -/
theorem shapeCast_mc_abc_apply {a b c m : ℕ} (x : (⟨2, ![m, c]⟩ : Shape).Idx → α)
    (h : (⟨2, ![m, c]⟩ : Shape).ShapeCasts ⟨3, ![a, b, c]⟩) (r : Fin m) (p : Fin a) (n : Fin b) (d : Fin c)
    (hr : r.val = p.val * b + n.val) : shapeCast ⟨3, ![a, b, c]⟩ x h (ix3 p n d) = x (ix2 r d) :=
  shapeCast_apply x h _ _ (by
    rw [Shape.rowMajor_val_three, Shape.rowMajor_val_two]
    show r.val * c + d.val = (p.val * b + n.val) * c + d.val
    rw [hr])

/-- [a, c] given a unit middle axis [a, 1, c]: the entries are the same. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (d : Fin c) :
    shapeCast ⟨3, ![a, 1, c]⟩ x h (ix3 p u d) = x (ix2 p d) :=
  shapeCast_apply x h _ _ (by
    have hu : u.val = 0 := by omega
    rw [Shape.rowMajor_val_three, Shape.rowMajor_val_two]
    show p.val * c + d.val = (p.val * 1 + u.val) * c + d.val
    rw [hu, Nat.mul_one, Nat.add_zero])

/-- [a, 1, c] broadcast over the middle axis to [a, b, c]: every row n of member p is the member's one row. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (n : Fin b) (d : Fin c) :
    broadcastTo ⟨3, ![a, b, c]⟩ v h (ix3 p n d) = v (ix3 p (0 : Fin 1) d) := by
  refine broadcastTo_apply v h (ix3 p n d) (ix3 p (0 : Fin 1) d) fun ax => ?_
  match ax with
  | ⟨0, _⟩ =>
    show p.val = if a = 1 then 0 else p.val
    split
    · have := p.isLt; omega
    · rfl
  | ⟨1, _⟩ => rfl
  | ⟨2, _⟩ =>
    show d.val = if c = 1 then 0 else d.val
    split
    · have := d.isLt; omega
    · rfl

/-- A per-member row [a, c] given a unit middle axis and broadcast over its member's b rows: entry (p, n, d) is the
    member's entry (p, d). -/
theorem keep_apply {a b c : ℕ} (x : (⟨2, ![a, c]⟩ : Shape).Idx → α)
    (h1 : (⟨2, ![a, c]⟩ : Shape).ShapeCasts ⟨3, ![a, 1, c]⟩) (h2 : (⟨3, ![a, 1, c]⟩ : Shape).Broadcasts ⟨3, ![a, b, c]⟩)
    (p : Fin a) (n : Fin b) (d : Fin c) :
    broadcastTo ⟨3, ![a, b, c]⟩ (shapeCast ⟨3, ![a, 1, c]⟩ x h1) h2 (ix3 p n d) = x (ix2 p d) := by
  rw [broadcastTo_a1c_abc_apply, shapeCast_ac_a1c_apply]

/-- A vector [a] stood up as a column [a, 1]. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A bias vector [b] as a row [1, b] broadcast down a rows: entry (p, q) is the bias at q. -/
theorem bias_apply {a b : ℕ} (x : (⟨1, ![b]⟩ : Shape).Idx → α)
    (h1 : (⟨1, ![b]⟩ : Shape).ShapeCasts ⟨2, ![1, b]⟩) (h2 : (⟨2, ![1, b]⟩ : Shape).Broadcasts ⟨2, ![a, b]⟩)
    (p : Fin a) (q : Fin b) :
    broadcastTo ⟨2, ![a, b]⟩ (shapeCast ⟨2, ![1, b]⟩ x h1) h2 (ix2 p q) = x (ix1 q) := by
  rw [broadcastTo_1b_ab_apply, shapeCast_a_1a_apply]

end Cert.LibLayout

end
-- ==== Proof.KernelStages.lean ====
/-
  The intermediate values of one graph of the dense graph-convolution kernel, each as ONE term of the values before it,
  and each read at an index.

  For a 512×512 adjacency slab A (entry (s, d): an edge from s to d) the kernel forms the column of inverse square
  roots of the in-degrees, dinv(d) = rsqrt((∑ s, A(s, d)) + 1); scales a node table row by row by it; aggregates,
  (Aᵀ·M)(d, f) + M(d, f) = (∑ s, A(s, d) · M(s, f)) + M(d, f); adds a bias row; rectifies; multiplies by a weight
  matrix; and at the end takes the mean over the 512 nodes.  The kernel's body is printed in four differently cut
  stretches, one per graph; every stored value is the same composition `piece` of these stages.
-/
import proofs.«167911_g83915071029568_cont_sun_c4_623_16_alg».proof.Proof.Gen.KernelIdeal.Skeleton
import proofs.«167911_g83915071029568_cont_sun_c4_623_16_alg».proof.Proof.KernelOps
import proofs.«167911_g83915071029568_cont_sun_c4_623_16_alg».proof.Proof.LibPlainDot
import proofs.«167911_g83915071029568_cont_sun_c4_623_16_alg».proof.Proof.LibVecIx2
import proofs.«167911_g83915071029568_cont_sun_c4_623_16_alg».proof.Proof.LibLayout
import Idealize.ShloMosaic.Lib.ValueLayout

noncomputable section

namespace Cert.KernelIdeal.KernelStages

open Idealize.ShloMosaic Idealize.ShloMosaic.ValueIdx
open Cert.KernelIdeal Cert.KernelIdeal.Gen

/-! ## The stages -/

/-- One graph's adjacency block [1, 512, 512] as a matrix. -/
def slab (a : Vec Ideal S1x512x512 .f32) : FVec Ideal S512x512 .f32 :=
  shapeCast S512x512 a shapeCasts_S1x512x512_S512x512

/-- The column of inverse square roots of the in-degrees, self-loop counted. -/
def dinvCol (A : FVec Ideal S512x512 .f32) : FVec Ideal S512x1 .f32 :=
  transpose S512x1 [1, 0]
    (rsqrt (addf (shapeCast S1x512 (multiReduction .add [0] S512 A 0x00000000#32 reduces_S512x512_S512 (.inl rfl) rfl) shapeCasts_S512_S1x512)
      (broadcast S1x512 (Scalar.ofBits .f32 0x3F800000#32))))
    transposes_S1x512_p1_0_S512x1

/-- A node table scaled row by row by a column. -/
def scale (M : FVec Ideal S512x128 .f32) (dc : FVec Ideal S512x1 .f32) : FVec Ideal S512x128 .f32 :=
  mulf M (broadcastTo S512x128 dc broadcasts_S512x1_S512x128)

/-- The aggregation along the edges plus the self-loop term: Aᵀ·M + M. -/
def aggr (Ab : FVec Ideal S512x512 .bf16) (M : FVec Ideal S512x128 .f32) : FVec Ideal S512x128 .f32 :=
  addf (matmul dot_S512x512_S512x128_S512x128_0_0_1_1_n_n none Ab (truncf .bf16 M bitsLt_bf16_f32) (constant S512x128 .f32 0x00000000#32)) M

/-- A bias row added to every node's row. -/
def addBias (M : FVec Ideal S512x128 .f32) (b : Vec Ideal S1x128 .f32) : FVec Ideal S512x128 .f32 :=
  addf M (broadcastTo S512x128 (shapeCast S1x128 b shapeCasts_S1x128_S1x128) broadcasts_S1x128_S512x128)

/-- The rectifier. -/
def relu (M : FVec Ideal S512x128 .f32) : FVec Ideal S512x128 .f32 :=
  maximumf M (broadcast S512x128 (Scalar.ofBits .f32 0x00000000#32))

/-- A node table times a weight matrix. -/
def dense (H : FVec Ideal S512x128 .f32) (Wb : FVec Ideal S128x128 .bf16) : FVec Ideal S512x128 .f32 :=
  matmul dot_S512x128_S128x128_S512x128_1_0_0_1_n_n none (truncf .bf16 H bitsLt_bf16_f32) Wb (constant S512x128 .f32 0x00000000#32)

/-- The mean over the 512 nodes, as a [1, 1, 128] block. -/
def meanRow (M : FVec Ideal S512x128 .f32) : FVec Ideal S1x1x128 .f32 :=
  shapeCast S1x1x128
    (mulf (shapeCast S1x128 (multiReduction .add [0] S128 M 0x00000000#32 reduces_S512x128_S128 (.inl rfl) rfl) shapeCasts_S128_S1x128)
      (broadcast S1x128 (Scalar.ofBits .f32 0x3B000000#32)))
    shapeCasts_S1x128_S1x1x128

/-- One normalised aggregation of a node table: scale by dinv, aggregate, scale by dinv again. -/
def normAgg (A : FVec Ideal S512x512 .f32) (M : FVec Ideal S512x128 .f32) : FVec Ideal S512x128 .f32 :=
  scale (aggr (truncf .bf16 A bitsLt_bf16_f32) (scale M (dinvCol A))) (dinvCol A)

/-- The first layer of one graph. -/
def layer1 (A : FVec Ideal S512x512 .f32) (XW : FVec Ideal S512x128 .f32) (b1 : Vec Ideal S1x128 .f32) : FVec Ideal S512x128 .f32 :=
  relu (addBias (normAgg A XW) b1)

/-- What the kernel stores for one graph: the node mean of the second layer. -/
def piece (A : FVec Ideal S512x512 .f32) (XW : FVec Ideal S512x128 .f32) (b1 : Vec Ideal S1x128 .f32)
    (Wb : FVec Ideal S128x128 .bf16) (b2 : Vec Ideal S1x128 .f32) : FVec Ideal S1x1x128 .f32 :=
  meanRow (addBias (normAgg A (dense (layer1 A XW b1) Wb)) b2)

/-- Rows 512·i … 512·i + 511 of the product of all four graphs' features with the first weight matrix. -/
def xwRows0 (W1 : Vec Ideal S128x128 .f32) (X : Vec Ideal S4x512x128 .f32) : FVec Ideal S512x128 .f32 :=
  extractStridedSlice S512x128 ![0, 0] (k0_pay3 W1 X) slices_S2048x128_o0_0_S512x128
def xwRows1 (Y : FVec Ideal S2048x128 .f32) : FVec Ideal S512x128 .f32 :=
  extractStridedSlice S512x128 ![512, 0] Y slices_S2048x128_o512_0_S512x128
def xwRows2 (Y : FVec Ideal S2048x128 .f32) : FVec Ideal S512x128 .f32 :=
  extractStridedSlice S512x128 ![1024, 0] Y slices_S2048x128_o1024_0_S512x128
def xwRows3 (Y : FVec Ideal S2048x128 .f32) : FVec Ideal S512x128 .f32 :=
  extractStridedSlice S512x128 ![1536, 0] Y slices_S2048x128_o1536_0_S512x128

/-! ## The four stored values are `piece` -/

theorem stored0 (v0 v2 : Vec Ideal S128x128 .f32) (v4 : Vec Ideal S4x512x128 .f32) (v8 : Vec Ideal S1x512x512 .f32)
    (v25 v40 : Vec Ideal S1x128 .f32) :
    k0_pay5 (k0_pay4 v0 v2 v4 v8 v25) v40 = piece (slab v8) (xwRows0 v0 v4) v25 (k0_pay2 v2) v40 := rfl

theorem stored1 (v3 : FVec Ideal S128x128 .bf16) (v7 : FVec Ideal S2048x128 .f32) (v51 : Vec Ideal S1x512x512 .f32)
    (v68 v83 : Vec Ideal S1x128 .f32) :
    k0_pay9 (k0_pay7 v51) (k0_pay8 v3 v7 v51 v68) v83 = piece (slab v51) (xwRows1 v7) v68 v3 v83 := rfl

theorem stored2 (v3 : FVec Ideal S128x128 .bf16) (v7 : FVec Ideal S2048x128 .f32) (v94 : Vec Ideal S1x512x512 .f32)
    (v111 v126 : Vec Ideal S1x128 .f32) :
    k0_pay15 (k0_pay11 v94) (k0_pay12 v94) (k0_pay13 v3 v7 v94 v111) (k0_pay14 v3 v7 v94 v111)
        (constant S512x128 .f32 0x00000000#32) v126
      = piece (slab v94) (xwRows2 v7) v111 v3 v126 := rfl

theorem stored3 (v3 : FVec Ideal S128x128 .bf16) (v7 : FVec Ideal S2048x128 .f32) (v137 : Vec Ideal S1x512x512 .f32)
    (v154 v169 : Vec Ideal S1x128 .f32) :
    k0_pay1 (k0_pay17 v137) (k0_pay18 v137) (k0_pay19 v3 v7 v137 v154) v169 = piece (slab v137) (xwRows3 v7) v154 v3 v169 := rfl

end Cert.KernelIdeal.KernelStages

end
-- ==== Proof.KernelReads.lean ====
/-
  Each stage of one graph of the dense graph-convolution kernel read at an index, at the ideal values: the adjacency
  block as a matrix, the inverse-square-root degree column, a row scaling, the aggregation along the edges, a bias
  row, the rectifier, a product with a weight matrix, the node mean, and the rows of the first product that belong
  to one graph.
-/
import proofs.«167911_g83915071029568_cont_sun_c4_623_16_alg».proof.Proof.KernelStages

noncomputable section

namespace Cert.KernelIdeal.KernelReads

open Idealize.ShloMosaic Idealize.ShloMosaic.ValueIdx
open Cert.KernelIdeal Cert.KernelIdeal.Gen Cert.KernelIdeal.KernelStages

open scoped BigOperators

/-- The adjacency block as a matrix: entry (s, d) is the block's (0, s, d). -/
theorem slab_apply (a : Vec Ideal S1x512x512 .f32) (s d : Fin 512) : slab a (ix2 s d) = a (ix3 (0 : Fin 1) s d) :=
  shapeCast_1ab_ab_apply a shapeCasts_S1x512x512_S512x512 s d

/-- The degree column at d: the inverse square root of the column sum of A plus one. -/
theorem dinvCol_apply (A : FVec Ideal S512x512 .f32) (d : Fin 512) (u : Fin 1) :
    dinvCol A (ix2 d u) = Ideal.rsqrt ((∑ s : Fin 512, A (ix2 s d)) + 1) := by
  unfold dinvCol
  refine (transpose_ix2_apply _ transposes_S1x512_p1_0_S512x1 d u).trans ?_
  rw [Cert.KernelOps.rsqrt_apply, addf_apply, broadcast_apply]
  refine congrArg Ideal.rsqrt ?_
  refine congrArg₂ (· + ·) ?_ Cert.KernelOps.ofBits_one
  refine (shapeCast_a_1a_apply _ shapeCasts_S512_S1x512 u d).trans ?_
  exact Cert.Lib.VecIx2.reduce_rows' A reduces_S512x512_S512 (.inl rfl) rfl d

/-- A row scaling at (p, q). -/
theorem scale_apply (M : FVec Ideal S512x128 .f32) (dc : FVec Ideal S512x1 .f32) (p : Fin 512) (q : Fin 128) :
    scale M dc (ix2 p q) = M (ix2 p q) * dc (ix2 p (0 : Fin 1)) := by
  unfold scale
  rw [mulf_apply]
  exact congrArg (M (ix2 p q) * ·) (Cert.Lib.VecIx2.bcast_col dc broadcasts_S512x1_S512x128 p q)

/-- The printed dimension numbers of the aggregation are those of Aᵀ·B. -/
theorem aggDot_eq : dot_S512x512_S512x128_S512x128_0_0_1_1_n_n = Cert.KernelOps.colDot 512 512 128 := rfl

/-- The aggregation at (d, f): the sum over the sources s of A(s, d) · M(s, f), plus the node's own M(d, f). -/
theorem aggr_apply (Ab : FVec Ideal S512x512 .bf16) (M : FVec Ideal S512x128 .f32) (d : Fin 512) (f : Fin 128) :
    aggr Ab M (ix2 d f) = (∑ s : Fin 512, Ab (ix2 s d) * M (ix2 s f)) + M (ix2 d f) := by
  unfold aggr
  rw [addf_apply, aggDot_eq]
  exact congrArg (· + M (ix2 d f))
    (Cert.KernelOps.matmul_zero_colDot_apply (K := 512) (M := 512) (N := 128) Ab (truncf .bf16 M bitsLt_bf16_f32) d f)

/-- A bias row added at (p, q). -/
theorem addBias_apply (M : FVec Ideal S512x128 .f32) (b : Vec Ideal S1x128 .f32) (p : Fin 512) (q : Fin 128) :
    addBias M b (ix2 p q) = M (ix2 p q) + b (ix2 (0 : Fin 1) q) := by
  unfold addBias
  rw [addf_apply, shapeCast_self]
  exact congrArg (M (ix2 p q) + ·) (broadcastTo_1b_ab_apply b broadcasts_S1x128_S512x128 p q)

/-- The rectifier at an index. -/
theorem relu_apply (M : FVec Ideal S512x128 .f32) (i : S512x128.Idx) : relu M i = max (M i) 0 := by
  unfold relu
  rw [maximumf_apply, broadcast_apply]
  exact congrArg (max (M i)) Ideal.ofBits_zero_f32

/-- The printed dimension numbers of the second layer's product are the plain ones. -/
theorem denseDot_eq : dot_S512x128_S128x128_S512x128_1_0_0_1_n_n = DotDims.plain 512 128 128 := rfl

/-- The product with a weight matrix at (n, f). -/
theorem dense_apply (H : FVec Ideal S512x128 .f32) (Wb : FVec Ideal S128x128 .bf16) (n : Fin 512) (f : Fin 128) :
    dense H Wb (ix2 n f) = ∑ k : Fin 128, H (ix2 n k) * Wb (ix2 k f) := by
  unfold dense
  rw [denseDot_eq]
  exact Cert.PlainDot.matmul_zero_plain_apply (M := 512) (K := 128) (N := 128) none (truncf .bf16 H bitsLt_bf16_f32) Wb n f

/-- The node mean at (·, ·, f): the column sum times 1/512. -/
theorem meanRow_apply (M : FVec Ideal S512x128 .f32) (u v : Fin 1) (f : Fin 128) :
    meanRow M (ix3 u v f) = (∑ d : Fin 512, M (ix2 d f)) * ((1 / 512 : ℝ) : EReal) := by
  unfold meanRow
  refine (shapeCast_ab_1ab_apply _ shapeCasts_S1x128_S1x1x128 u v f).trans ?_
  rw [mulf_apply, broadcast_apply]
  refine congrArg₂ (· * ·) ?_ Cert.KernelOps.ofBits_inv512
  refine (shapeCast_a_1a_apply _ shapeCasts_S128_S1x128 v f).trans ?_
  exact Cert.Lib.VecIx2.reduce_rows' M reduces_S512x128_S128 (.inl rfl) rfl f

/-- The printed dimension numbers of the first layer's product are the plain ones. -/
theorem xwDot_eq : dot_S2048x128_S128x128_S2048x128_1_0_0_1_n_n = DotDims.plain 2048 128 128 := rfl

/-- The product of all four graphs' features with the first weight matrix: row 512·b + n is node n of graph b. -/
theorem xwAll_apply (W1 : Vec Ideal S128x128 .f32) (X : Vec Ideal S4x512x128 .f32) (r : Fin 2048) (b : Fin 4) (n : Fin 512)
    (f : Fin 128) (hr : r.val = b.val * 512 + n.val) :
    k0_pay3 W1 X (ix2 r f) = ∑ k : Fin 128, X (ix3 b n k) * W1 (ix2 k f) := by
  unfold k0_pay3
  rw [xwDot_eq]
  refine (Cert.PlainDot.matmul_zero_plain_apply (M := 2048) (K := 128) (N := 128) none _ _ r f).trans ?_
  refine Finset.sum_congr rfl fun k _ => ?_
  rw [truncf_apply, truncf_apply]
  exact congrArg (· * W1 (ix2 k f)) (Cert.LibLayout.shapeCast_abc_mc_apply X shapeCasts_S4x512x128_S2048x128 r b n k hr)

/-- Rows 0 … 511 of a 2048-row table. -/
theorem xwRows0_apply (W1 : Vec Ideal S128x128 .f32) (X : Vec Ideal S4x512x128 .f32) (n : Fin 512) (f : Fin 128) :
    xwRows0 W1 X (ix2 n f) = k0_pay3 W1 X (ix2 (⟨n.val, by omega⟩ : Fin 2048) f) :=
  slice2_axis0_apply 0 _ slices_S2048x128_o0_0_S512x128 n f ⟨n.val, by omega⟩ (by simp)
/-- Rows 512 … 1023. -/
theorem xwRows1_apply (Y : FVec Ideal S2048x128 .f32) (n : Fin 512) (f : Fin 128) :
    xwRows1 Y (ix2 n f) = Y (ix2 (⟨512 + n.val, by omega⟩ : Fin 2048) f) :=
  slice2_axis0_apply 512 _ slices_S2048x128_o512_0_S512x128 n f ⟨512 + n.val, by omega⟩ rfl
/-- Rows 1024 … 1535. -/
theorem xwRows2_apply (Y : FVec Ideal S2048x128 .f32) (n : Fin 512) (f : Fin 128) :
    xwRows2 Y (ix2 n f) = Y (ix2 (⟨1024 + n.val, by omega⟩ : Fin 2048) f) :=
  slice2_axis0_apply 1024 _ slices_S2048x128_o1024_0_S512x128 n f ⟨1024 + n.val, by omega⟩ rfl
/-- Rows 1536 … 2047. -/
theorem xwRows3_apply (Y : FVec Ideal S2048x128 .f32) (n : Fin 512) (f : Fin 128) :
    xwRows3 Y (ix2 n f) = Y (ix2 (⟨1536 + n.val, by omega⟩ : Fin 2048) f) :=
  slice2_axis0_apply 1536 _ slices_S2048x128_o1536_0_S512x128 n f ⟨1536 + n.val, by omega⟩ rfl

end Cert.KernelIdeal.KernelReads

end
-- ==== Proof.Spec.lean ====
/-
  Two graph-convolution layers over a batch of four dense graphs of 512 nodes with 128 features, followed by the
  mean over the nodes of each graph.

  For graph `b` the adjacency indicator `adj b s d` (an edge from node `s` to node `d`) is extended by a self-loop at
  every node. The in-degree of `d`, self-loop counted, is `deg b d = (∑ s, adj b s d) + 1`, and `dinv = deg^(-1/2)`.
  One layer sends a node table `m` to
      `agg m b d f = dinv b d · (∑ s, adj b s d · (m s f · dinv b s) + m d f · dinv b d)`,
  the symmetric normalisation `D^(-1/2) (A + I)ᵀ D^(-1/2) m` written with the self-loop term apart.
  Layer one is `relu (agg (x·W1) + b1)`, layer two `agg (h·W2) + b2`, and the result is the node mean of layer two.
  Everything is stated on the extended reals, index by index.
-/
import Idealize.ShloMosaic.PureOps.Ideal
import Idealize.ShloMosaic.Lib.ValueIdx

noncomputable section

open scoped BigOperators

namespace Cert.Spec

open Idealize.ShloMosaic Idealize.ShloMosaic.ValueIdx

abbrev SX : Shape := ⟨3, ![4, 512, 128]⟩
abbrev SA : Shape := ⟨3, ![4, 512, 512]⟩
abbrev SW : Shape := ⟨2, ![128, 128]⟩
abbrev SB : Shape := ⟨1, ![128]⟩
abbrev SO : Shape := ⟨2, ![4, 128]⟩

variable (x : SX.Idx → EReal) (adj : SA.Idx → EReal) (W1 : SW.Idx → EReal) (b1 : SB.Idx → EReal)
  (W2 : SW.Idx → EReal) (b2 : SB.Idx → EReal)

/-- The in-degree of node `d` of graph `b`, its self-loop counted. -/
def deg (b : Fin 4) (d : Fin 512) : EReal := (∑ s : Fin 512, adj (ix3 b s d)) + 1

/-- The inverse square root of the degree. -/
def dinv (b : Fin 4) (d : Fin 512) : EReal := Ideal.rsqrt (deg adj b d)

/-- One normalised aggregation of a node table `m` of graph `b`: the messages along the edges into `d`, each scaled by
    its source's `dinv`, plus the node's own self-loop message, the total scaled by `dinv b d`. -/
def agg (m : Fin 512 → Fin 128 → EReal) (b : Fin 4) (d : Fin 512) (f : Fin 128) : EReal :=
  ((∑ s : Fin 512, adj (ix3 b s d) * (m s f * dinv adj b s)) + m d f * dinv adj b d) * dinv adj b d

/-- The first layer's linear map: row `n` of graph `b` times `W1`. -/
def xw (b : Fin 4) (n : Fin 512) (f : Fin 128) : EReal := ∑ k : Fin 128, x (ix3 b n k) * W1 (ix2 k f)

/-- The first layer: aggregation, bias, rectifier. -/
def h1 (b : Fin 4) (d : Fin 512) (f : Fin 128) : EReal := max (agg adj (xw x W1 b) b d f + b1 (ix1 f)) 0

/-- The second layer's linear map. -/
def hw (b : Fin 4) (n : Fin 512) (f : Fin 128) : EReal := ∑ k : Fin 128, h1 x adj W1 b1 b n k * W2 (ix2 k f)

/-- The second layer: aggregation and bias. -/
def h2 (b : Fin 4) (d : Fin 512) (f : Fin 128) : EReal := agg adj (hw x adj W1 b1 W2 b) b d f + b2 (ix1 f)

/-- The result: the mean over the 512 nodes of graph `b` of the second layer's feature `f`. -/
def out (b : Fin 4) (f : Fin 128) : EReal := (∑ d : Fin 512, h2 x adj W1 b1 W2 b2 b d f) * ((1 / 512 : ℝ) : EReal)

/-- The result as an array of shape [4, 128]. -/
def G : SO.Idx → EReal := fun j => out x adj W1 b1 W2 b2 ⟨(j 0).val, (j 0).isLt⟩ ⟨(j 1).val, (j 1).isLt⟩

theorem G_ix2 (b : Fin 4) (f : Fin 128) : G x adj W1 b1 W2 b2 (ix2 b f) = out x adj W1 b1 W2 b2 b f := rfl

end Cert.Spec

end
-- ==== Proof.KernelLayer.lean ====
/-
  What the kernel stores for graph b is the specification's result for graph b.

  Given the adjacency slab of graph b as a matrix A, the rows of x·W1 that belong to graph b, the two bias rows and the
  second weight matrix, the stages compose to exactly the specification's grouping: the degree column is
  `Spec.dinv`, one normalised aggregation of a node table m is `Spec.agg m`, the first layer is `Spec.h1`, its
  product with W2 is `Spec.hw`, and the node mean of the second layer is `Spec.out`.  No law of arithmetic is used:
  both sides group every sum and product in the same way.
-/
import proofs.«167911_g83915071029568_cont_sun_c4_623_16_alg».proof.Proof.KernelReads
import proofs.«167911_g83915071029568_cont_sun_c4_623_16_alg».proof.Proof.Spec

noncomputable section

namespace Cert.KernelIdeal.KernelLayer

open Idealize.ShloMosaic Idealize.ShloMosaic.ValueIdx
open Cert.KernelIdeal Cert.KernelIdeal.Gen Cert.KernelIdeal.KernelStages Cert.KernelIdeal.KernelReads

open scoped BigOperators

variable (x : Cert.Spec.SX.Idx → EReal) (adj : Cert.Spec.SA.Idx → EReal) (W1 : Cert.Spec.SW.Idx → EReal)
  (b1 : Cert.Spec.SB.Idx → EReal) (W2 : Cert.Spec.SW.Idx → EReal) (b2 : Cert.Spec.SB.Idx → EReal)

variable (b : Fin 4) (A : FVec Ideal S512x512 .f32) (hA : ∀ s d : Fin 512, A (ix2 s d) = adj (ix3 b s d))

include hA

/-- The degree column of graph b's slab is the specification's `dinv`. -/
theorem dinv_eq (d : Fin 512) (u : Fin 1) : dinvCol A (ix2 d u) = Cert.Spec.dinv adj b d := by
  rw [dinvCol_apply]
  unfold Cert.Spec.dinv Cert.Spec.deg
  exact congrArg (fun t => Ideal.rsqrt (t + 1)) (Finset.sum_congr rfl fun s _ => hA s d)

/-- One normalised aggregation of a node table is the specification's `agg`. -/
theorem normAgg_eq (m : Fin 512 → Fin 128 → EReal) (M : FVec Ideal S512x128 .f32)
    (hM : ∀ (s : Fin 512) (f : Fin 128), M (ix2 s f) = m s f) (d : Fin 512) (f : Fin 128) :
    normAgg A M (ix2 d f) = Cert.Spec.agg adj m b d f := by
  unfold normAgg Cert.Spec.agg
  rw [scale_apply, aggr_apply, dinv_eq adj b A hA d 0]
  refine congrArg (· * Cert.Spec.dinv adj b d) ?_
  refine congrArg₂ (· + ·) (Finset.sum_congr rfl fun s _ => ?_) ?_
  · rw [truncf_apply, hA, scale_apply, hM, dinv_eq adj b A hA s 0]
  · rw [scale_apply, hM, dinv_eq adj b A hA d 0]

variable (XW : FVec Ideal S512x128 .f32) (hXW : ∀ (n : Fin 512) (f : Fin 128), XW (ix2 n f) = Cert.Spec.xw x W1 b n f)
  (b1r : Vec Ideal S1x128 .f32) (hb1 : ∀ f : Fin 128, b1r (ix2 (0 : Fin 1) f) = b1 (ix1 f))

include hXW hb1

/-- The first layer is the specification's `h1`. -/
theorem layer1_eq (d : Fin 512) (f : Fin 128) : layer1 A XW b1r (ix2 d f) = Cert.Spec.h1 x adj W1 b1 b d f := by
  unfold layer1 Cert.Spec.h1
  rw [relu_apply, addBias_apply, normAgg_eq adj b A hA (Cert.Spec.xw x W1 b) XW hXW d f, hb1]

variable (Wb : FVec Ideal S128x128 .bf16) (hW : ∀ k f : Fin 128, Wb (ix2 k f) = W2 (ix2 k f))

include hW

/-- Its product with the second weight matrix is the specification's `hw`. -/
theorem dense_eq (n : Fin 512) (f : Fin 128) :
    dense (layer1 A XW b1r) Wb (ix2 n f) = Cert.Spec.hw x adj W1 b1 W2 b n f := by
  rw [dense_apply]
  unfold Cert.Spec.hw
  refine Finset.sum_congr rfl fun k _ => ?_
  rw [layer1_eq x adj W1 b1 b A hA XW hXW b1r hb1 n k, hW]

variable (b2r : Vec Ideal S1x128 .f32) (hb2 : ∀ f : Fin 128, b2r (ix2 (0 : Fin 1) f) = b2 (ix1 f))

include hb2

/-- The stored value of graph b, at feature f, is the specification's result. -/
theorem piece_eq (u v : Fin 1) (f : Fin 128) :
    KernelStages.piece A XW b1r Wb b2r (ix3 u v f) = Cert.Spec.out x adj W1 b1 W2 b2 b f := by
  unfold KernelStages.piece Cert.Spec.out
  rw [meanRow_apply]
  refine congrArg (· * ((1 / 512 : ℝ) : EReal)) (Finset.sum_congr rfl fun d _ => ?_)
  unfold Cert.Spec.h2
  rw [addBias_apply,
    normAgg_eq adj b A hA (Cert.Spec.hw x adj W1 b1 W2 b) _ (dense_eq x adj W1 b1 W2 b A hA XW hXW b1r hb1 Wb hW) d f, hb2]

end Cert.KernelIdeal.KernelLayer

end
-- ==== Proof.KernelBlocks.lean ====
/-
  The kernel's output block, as a function of the input blocks, is the specification's result.

  The one grid point loads the four adjacency slabs, the whole feature array, the two weight matrices and the two bias
  rows, and stores one [1, 1, 128] piece per graph into the [4, 1, 128] output block.  Piece b is the stage composition
  `piece` of slab b and of rows 512·b … 512·b + 511 of x·W1, hence `Spec.out … b`; the four pieces tile the block, so
  the block at (b, ·, f) is `Spec.out … b f`.
-/
import proofs.«167911_g83915071029568_cont_sun_c4_623_16_alg».proof.Proof.Gen.KernelIdeal.Frame
import proofs.«167911_g83915071029568_cont_sun_c4_623_16_alg».proof.Proof.KernelLayer

noncomputable section

namespace Cert.KernelIdeal.KernelBlocks

open Idealize.ShloMosaic Idealize.ShloMosaic.ValueIdx
open Cert.KernelIdeal Cert.KernelIdeal.Gen Cert.KernelIdeal.KernelStages Cert.KernelIdeal.KernelReads
  Cert.KernelIdeal.KernelLayer

open scoped BigOperators

theorem hz2 : (![0, 0] : Fin 2 → Nat) = fun _ => 0 := funext fun a => by fin_cases a <;> rfl
theorem hz3 : (![0, 0, 0] : Fin 3 → Nat) = fun _ => 0 := funext fun a => by fin_cases a <;> rfl

/-- A load of slab o of the adjacency array reads, at (0, s, d), the array at (o, s, d). -/
theorem ld_slab (adj : S4x512x512.Idx → EReal) (o : ℕ) (inb : ∀ a, (![o, 0, 0] : Fin 3 → Nat) a + S1x512x512.size a ≤ S4x512x512.size a)
    (b : Fin 4) (hb : b.val = o) (s d : Fin 512) :
    View.ld (Val := Elt Ideal) (e' := .f32) adj (Rect.unit (s := S4x512x512) ![o, 0, 0] S1x512x512.size inb) (ix3 (0 : Fin 1) s d)
      = adj (ix3 b s d) := by
  show adj _ = adj _
  refine congrArg adj (funext fun a => Fin.ext ?_)
  match a with
  | ⟨0, _⟩ => show o + 1 * 0 = b.val; omega
  | ⟨1, _⟩ => show 0 + 1 * s.val = s.val; omega
  | ⟨2, _⟩ => show 0 + 1 * d.val = d.val; omega

section
variable (x : S4x512x128.Idx → EReal) (adj : S4x512x512.Idx → EReal) (W1 : S128x128.Idx → EReal)
  (b1 : Cert.Spec.SB.Idx → EReal) (W2 : S128x128.Idx → EReal) (b2 : Cert.Spec.SB.Idx → EReal)

/-- The whole [4, 1, 128] output block the specification prescribes. -/
def blockG : S4x1x128.Idx → EReal :=
  fun j => Cert.Spec.out x adj W1 b1 W2 b2 ⟨(j 0).val, (j 0).isLt⟩ ⟨(j 2).val, (j 2).isLt⟩

/-- The prescribed block under the rectangle of piece o. -/
theorem blockG_emb (o : ℕ) (inb : ∀ a, (![o, 0, 0] : Fin 3 → Nat) a + S1x1x128.size a ≤ S4x1x128.size a)
    (b : Fin 4) (hb : b.val = o) (u v : Fin 1) (f : Fin 128) :
    blockG x adj W1 b1 W2 b2 ((Rect.unit (s := S4x1x128) ![o, 0, 0] S1x1x128.size inb).emb (ix3 u v f))
      = Cert.Spec.out x adj W1 b1 W2 b2 b f := by
  unfold blockG
  refine congrArg₂ (Cert.Spec.out x adj W1 b1 W2 b2) (Fin.ext ?_) (Fin.ext ?_)
  · show o + 1 * u.val = b.val
    have := u.isLt; omega
  · show 0 + 1 * f.val = f.val
    omega

/-- Rows 512·b … of x·W1, computed from the loaded feature array and weight matrix, are the specification's `xw`. -/
theorem xw0 (n : Fin 512) (f : Fin 128) :
    xwRows0 (View.ld (Val := Elt Ideal) (e' := .f32) W1 r0_0) (View.ld (Val := Elt Ideal) (e' := .f32) x r0_1) (ix2 n f) = Cert.Spec.xw x W1 0 n f := by
  rw [View.ld_unit_zero (S := S128x128) hz2, View.ld_unit_zero (S := S4x512x128) hz3, xwRows0_apply]
  exact xwAll_apply W1 x _ 0 n f (by show n.val = 0 * 512 + n.val; omega)
theorem xw1 (n : Fin 512) (f : Fin 128) :
    xwRows1 (k0_pay3 (View.ld (Val := Elt Ideal) (e' := .f32) W1 r0_0) (View.ld (Val := Elt Ideal) (e' := .f32) x r0_1)) (ix2 n f) = Cert.Spec.xw x W1 1 n f := by
  rw [View.ld_unit_zero (S := S128x128) hz2, View.ld_unit_zero (S := S4x512x128) hz3, xwRows1_apply]
  exact xwAll_apply W1 x _ 1 n f (by show 512 + n.val = 1 * 512 + n.val; omega)
theorem xw2 (n : Fin 512) (f : Fin 128) :
    xwRows2 (k0_pay3 (View.ld (Val := Elt Ideal) (e' := .f32) W1 r0_0) (View.ld (Val := Elt Ideal) (e' := .f32) x r0_1)) (ix2 n f) = Cert.Spec.xw x W1 2 n f := by
  rw [View.ld_unit_zero (S := S128x128) hz2, View.ld_unit_zero (S := S4x512x128) hz3, xwRows2_apply]
  exact xwAll_apply W1 x _ 2 n f (by show 1024 + n.val = 2 * 512 + n.val; omega)
theorem xw3 (n : Fin 512) (f : Fin 128) :
    xwRows3 (k0_pay3 (View.ld (Val := Elt Ideal) (e' := .f32) W1 r0_0) (View.ld (Val := Elt Ideal) (e' := .f32) x r0_1)) (ix2 n f) = Cert.Spec.xw x W1 3 n f := by
  rw [View.ld_unit_zero (S := S128x128) hz2, View.ld_unit_zero (S := S4x512x128) hz3, xwRows3_apply]
  exact xwAll_apply W1 x _ 3 n f (by show 1536 + n.val = 3 * 512 + n.val; omega)

variable (b1r b2r : S1x128.Idx → EReal)
  (hb1 : ∀ f : Fin 128, b1r (ix2 (0 : Fin 1) f) = b1 (ix1 f)) (hb2 : ∀ f : Fin 128, b2r (ix2 (0 : Fin 1) f) = b2 (ix1 f))

include hb1 hb2

/-- The body's result block from the input blocks is the prescribed block. -/
theorem out_eq (y : S4x1x128.Idx) : out0_6 (F := Ideal) adj x W1 b1r W2 b2r y = blockG x adj W1 b1 W2 b2 y := by
  have hb1' : ∀ f : Fin 128, View.ld (Val := Elt Ideal) (e' := .f32) b1r r0_3 (ix2 (0 : Fin 1) f) = b1 (ix1 f) := by
    rw [View.ld_unit_zero (S := S1x128) hz2]; exact hb1
  have hb2' : ∀ f : Fin 128, View.ld (Val := Elt Ideal) (e' := .f32) b2r r0_3 (ix2 (0 : Fin 1) f) = b2 (ix1 f) := by
    rw [View.ld_unit_zero (S := S1x128) hz2]; exact hb2
  have hW2 : ∀ k f : Fin 128, k0_pay2 (F := Ideal) (View.ld (Val := Elt Ideal) (e' := .f32) W2 r0_0) (ix2 k f) = W2 (ix2 k f) := by
    rw [View.ld_unit_zero (S := S128x128) hz2]; exact fun _ _ => rfl
  unfold out0_6
  refine View.canon_apply_of_pieces (Val := Elt Ideal) (S := S4x1x128) (e := .f32) (blockG x adj W1 b1 W2 b2) _ ?_ y (cover0_6 _ _ _ _ y)
  intro p hp
  simp only [List.mem_cons, List.mem_nil_iff, or_false] at hp
  rcases hp with rfl | rfl | rfl | rfl
  · intro z
    obtain ⟨u, v, f, rfl⟩ : ∃ (u v : Fin 1) (f : Fin 128), z = ix3 u v f := ⟨z 0, z 1, z 2, eq_ix3 z⟩
    refine Eq.trans ?_ (blockG_emb x adj W1 b1 W2 b2 3 inb_S4x1x128_S1x1x128_3_0_0 3 rfl u v f).symm
    refine (congrFun (stored3 _ _ _ _ _) _).trans ?_
    exact piece_eq x adj W1 b1 W2 b2 3 _ (fun s d => (slab_apply _ s d).trans (ld_slab adj 3 inb_S4x512x512_S1x512x512_3_0_0 3 rfl s d)) _ (xw3 x W1)
      _ hb1' _ hW2 _ hb2' u v f
  · intro z
    obtain ⟨u, v, f, rfl⟩ : ∃ (u v : Fin 1) (f : Fin 128), z = ix3 u v f := ⟨z 0, z 1, z 2, eq_ix3 z⟩
    refine Eq.trans ?_ (blockG_emb x adj W1 b1 W2 b2 2 inb_S4x1x128_S1x1x128_2_0_0 2 rfl u v f).symm
    refine (congrFun (stored2 _ _ _ _ _) _).trans ?_
    exact piece_eq x adj W1 b1 W2 b2 2 _ (fun s d => (slab_apply _ s d).trans (ld_slab adj 2 inb_S4x512x512_S1x512x512_2_0_0 2 rfl s d)) _ (xw2 x W1)
      _ hb1' _ hW2 _ hb2' u v f
  · intro z
    obtain ⟨u, v, f, rfl⟩ : ∃ (u v : Fin 1) (f : Fin 128), z = ix3 u v f := ⟨z 0, z 1, z 2, eq_ix3 z⟩
    refine Eq.trans ?_ (blockG_emb x adj W1 b1 W2 b2 1 inb_S4x1x128_S1x1x128_1_0_0 1 rfl u v f).symm
    refine (congrFun (stored1 _ _ _ _ _) _).trans ?_
    exact piece_eq x adj W1 b1 W2 b2 1 _ (fun s d => (slab_apply _ s d).trans (ld_slab adj 1 inb_S4x512x512_S1x512x512_1_0_0 1 rfl s d)) _ (xw1 x W1)
      _ hb1' _ hW2 _ hb2' u v f
  · intro z
    obtain ⟨u, v, f, rfl⟩ : ∃ (u v : Fin 1) (f : Fin 128), z = ix3 u v f := ⟨z 0, z 1, z 2, eq_ix3 z⟩
    refine Eq.trans ?_ (blockG_emb x adj W1 b1 W2 b2 0 inb_S4x1x128_S1x1x128_0_0_0 0 rfl u v f).symm
    refine (congrFun (stored0 _ _ _ _ _ _) _).trans ?_
    exact piece_eq x adj W1 b1 W2 b2 0 _ (fun s d => (slab_apply _ s d).trans (ld_slab adj 0 inb_S4x512x512_S1x512x512_0_0_0 0 rfl s d)) _ (xw0 x W1)
      _ hb1' _ hW2 _ hb2' u v f

end

end Cert.KernelIdeal.KernelBlocks

end
-- ==== Proof.KernelValue.lean ====
/-
  The idealized kernel program's run ends with its result array at the specification's function of the argument arrays.

  The program reshapes the two bias vectors to rows, runs the kernel on a grid of one point whose blocks are the whole
  arrays, and reshapes the [4, 1, 128] output array to [4, 128].  The one point writes back the body's result block,
  which is the prescribed block `blockG` of the arrays as the region finds them; that block covers the output array;
  the final reshape reads entry (b, f) at (b, 0, f), which is `Spec.out … b f`.
-/
import proofs.«167911_g83915071029568_cont_sun_c4_623_16_alg».proof.Proof.Gen.KernelIdeal.Frame
import proofs.«167911_g83915071029568_cont_sun_c4_623_16_alg».proof.Proof.KernelBlocks
import Idealize.ShloMosaic.Lib.Pipeline.Value
import Idealize.ShloMosaic.Lib.StableHlo.Run
import Idealize.ShloMosaic.Lib.Tactic

noncomputable section

namespace Cert.KernelIdeal.KernelValue

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

/-- The six argument arrays on core c. -/
abbrev aX (c : Dev nD) : S4x512x128.Idx → EReal := m ((c.tc : Thread nD τ).loc main_arg0)
abbrev aAdj (c : Dev nD) : S4x512x512.Idx → EReal := m ((c.tc : Thread nD τ).loc main_arg1)
abbrev aW1 (c : Dev nD) : S128x128.Idx → EReal := m ((c.tc : Thread nD τ).loc main_arg2)
abbrev aB1 (c : Dev nD) : S128.Idx → EReal := m ((c.tc : Thread nD τ).loc main_arg3)
abbrev aW2 (c : Dev nD) : S128x128.Idx → EReal := m ((c.tc : Thread nD τ).loc main_arg4)
abbrev aB2 (c : Dev nD) : S128.Idx → EReal := m ((c.tc : Thread nD τ).loc main_arg5)

/-- The [4, 1, 128] array the region must leave. -/
abbrev result3 (c : Dev nD) : S4x1x128.Idx → EReal :=
  KernelBlocks.blockG (aX m c) (aAdj m c) (aW1 m c) (aB1 m c) (aW2 m c) (aB2 m c)

/-- An [a, 1, c] array cast to [a, c] reads, at (p, d), the operand at (p, 0, d). -/
theorem shapeCast_a1c_ac_apply {α : Type} {a c : ℕ} (x : (⟨3, ![a, 1, c]⟩ : Shape).Idx → α)
    (h : (⟨3, ![a, 1, c]⟩ : Shape).ShapeCasts ⟨2, ![a, c]⟩) (p : Fin a) (d : Fin c) :
    shapeCast ⟨2, ![a, c]⟩ x h (ix2 p d) = x (ix3 p (0 : Fin 1) d) :=
  shapeCast_apply x h _ _ (by
    rw [Shape.rowMajor_val_three, Shape.rowMajor_val_two]
    show (p.val * 1 + 0) * c + d.val = p.val * c + d.val
    rw [Nat.mul_one, Nat.add_zero])

/-! ## The bias rows as the region finds them -/

theorem V_b1row (c : Dev nD) (f : Fin 128) :
    (V m c main_call0_v0 : S1x128.Idx → EReal) (ix2 (0 : Fin 1) f) = aB1 m c (ix1 f) := by
  have e : (V m c main_call0_v0 : S1x128.Idx → EReal) = shapeCast S1x128 (aB1 m c) shapeCasts_S128_S1x128 := by
    show StableHlo.after hostOps0 (fun b => m (c, b)) (Proc.devRef .tc main_call0_v0) = _
    after_results
    rfl
  rw [e]
  exact shapeCast_a_1a_apply _ shapeCasts_S128_S1x128 0 f

theorem V_b2row (c : Dev nD) (f : Fin 128) :
    (V m c main_call0_v1 : S1x128.Idx → EReal) (ix2 (0 : Fin 1) f) = aB2 m c (ix1 f) := by
  have e : (V m c main_call0_v1 : S1x128.Idx → EReal) = shapeCast S1x128 (aB2 m c) shapeCasts_S128_S1x128 := by
    show StableHlo.after hostOps0 (fun b => m (c, b)) (Proc.devRef .tc main_call0_v1) = _
    after_results
    rfl
  rw [e]
  exact shapeCast_a_1a_apply _ shapeCasts_S128_S1x128 0 f

/-! ## The input blocks at the one grid point are the whole arrays -/

theorem iblk0 (c : Dev nD) (t : Fin cfg0.N) : (iblk m c 0 t : S4x512x512.Idx → EReal) = aAdj m c := by
  obtain rfl := fin_N0 t
  have hz' : (fun a => win0_0.index t0_0 a * main_arg1.ty.shape.size a) = fun _ => 0 := funext fun a => by fin_cases a <;> decide
  unfold iblk
  exact (Memref.read_access_unit_zero (Elt Ideal) main_arg1 hz' (fun a => by rw [congrFun hz' a]; simp) _).trans (V_main_arg1 m c)

theorem iblk1 (c : Dev nD) (t : Fin cfg0.N) : (iblk m c 1 t : S4x512x128.Idx → EReal) = aX m c := by
  obtain rfl := fin_N0 t
  have hz' : (fun a => win0_1.index t0_0 a * main_arg0.ty.shape.size a) = fun _ => 0 := funext fun a => by fin_cases a <;> decide
  unfold iblk
  exact (Memref.read_access_unit_zero (Elt Ideal) main_arg0 hz' (fun a => by rw [congrFun hz' a]; simp) _).trans (V_main_arg0 m c)

theorem iblk2 (c : Dev nD) (t : Fin cfg0.N) : (iblk m c 2 t : S128x128.Idx → EReal) = aW1 m c := by
  obtain rfl := fin_N0 t
  have hz' : (fun a => win0_2.index t0_0 a * main_arg2.ty.shape.size a) = fun _ => 0 := funext fun a => by fin_cases a <;> decide
  unfold iblk
  exact (Memref.read_access_unit_zero (Elt Ideal) main_arg2 hz' (fun a => by rw [congrFun hz' a]; simp) _).trans (V_main_arg2 m c)

theorem iblk3 (c : Dev nD) (t : Fin cfg0.N) : (iblk m c 3 t : S1x128.Idx → EReal) = V m c main_call0_v0 := by
  obtain rfl := fin_N0 t
  have hz' : (fun a => win0_3.index t0_0 a * main_call0_v0.ty.shape.size a) = fun _ => 0 := funext fun a => by fin_cases a <;> decide
  unfold iblk
  exact Memref.read_access_unit_zero (Elt Ideal) main_call0_v0 hz' (fun a => by rw [congrFun hz' a]; simp) _

theorem iblk4 (c : Dev nD) (t : Fin cfg0.N) : (iblk m c 4 t : S128x128.Idx → EReal) = aW2 m c := by
  obtain rfl := fin_N0 t
  have hz' : (fun a => win0_4.index t0_0 a * main_arg4.ty.shape.size a) = fun _ => 0 := funext fun a => by fin_cases a <;> decide
  unfold iblk
  exact (Memref.read_access_unit_zero (Elt Ideal) main_arg4 hz' (fun a => by rw [congrFun hz' a]; simp) _).trans (V_main_arg4 m c)

theorem iblk5 (c : Dev nD) (t : Fin cfg0.N) : (iblk m c 5 t : S1x128.Idx → EReal) = V m c main_call0_v1 := by
  obtain rfl := fin_N0 t
  have hz' : (fun a => win0_5.index t0_0 a * main_call0_v1.ty.shape.size a) = fun _ => 0 := funext fun a => by fin_cases a <;> decide
  unfold iblk
  exact Memref.read_access_unit_zero (Elt Ideal) main_call0_v1 hz' (fun a => by rw [congrFun hz' a]; simp) _

/-! ## What the one point writes back, and the array after the region -/

/-- The body's result block at the one point is the prescribed block. -/
theorem after_eq (c : Dev nD) (t : Fin cfg0.N) :
    ((dats m 0 c).after 6 t : S4x1x128.Idx → EReal) = result3 m c := by
  rw [after0_6, iblk0 m c t, iblk1 m c t, iblk2 m c t, iblk3 m c t, iblk4 m c t, iblk5 m c t]
  funext y
  exact KernelBlocks.out_eq (aX m c) (aAdj m c) (aW1 m c) (aB1 m c) (aW2 m c) (aB2 m c)
    (V m c main_call0_v0) (V m c main_call0_v1) (V_b1row m c) (V_b2row m c) y

/-- The write-back of the one point writes the prescribed block. -/
theorem flushed_eq (c : Dev nD) (t : Fin cfg0.N) (hf : (cfg0.win 6).flush t = true) :
    (dats m 0 c).flushed 6 t = ((cfg0.win 6).blk t).view.read (Elt Ideal) (result3 m c) := by
  show (cfg0.win 6).cut (grid0.coords t) ((dats m 0 c).after 6 t) = _
  obtain rfl := fin_N0 t
  have hz' : (fun a => win0_6.index t0_0 a * main_call0_v2.ty.shape.size a) = fun _ => 0 := funext fun a => by fin_cases a <;> decide
  refine Eq.trans ?_ (Memref.read_access_unit_zero (Elt Ideal) main_call0_v2 hz' (fun a => by rw [congrFun hz' a]; simp) (result3 m c)).symm
  exact after_eq m c t0_0

/-- The output array after the region is the prescribed block: the one point's block covers it. -/
theorem final (c : Dev nD) : (dats m 0 c).arrAt 6 cfg0.N = result3 m c :=
  (dats m 0 c).arrAt_eq_of_cover 6 (result3 m c) (flushed_eq m c) fun i =>
    ⟨t0_0, flush0_6 t0_0, by
      show i ∈ ((View.whole main_call0_v2).slice (win0_6.rect t0_0)).set
      rw [View.set_slice_whole, Rect.mem_set_unit]
      intro a
      have h0 : (i 0 : Nat) < 4 := (i 0).isLt
      have h1 : (i 1 : Nat) < 1 := (i 1).isLt
      have h2 : (i 2 : Nat) < 128 := (i 2).isLt
      match a with
      | ⟨0, _⟩ =>
        show win0_6.index t0_0 0 * win0_6.size 0 ≤ (i 0 : Nat) ∧ (i 0 : Nat) < win0_6.index t0_0 0 * win0_6.size 0 + win0_6.xsize (grid0.coords t0_0) 0
        rw [show win0_6.index t0_0 0 * win0_6.size 0 = 0 from by decide +kernel, show win0_6.xsize (grid0.coords t0_0) 0 = 4 from by decide +kernel]; omega
      | ⟨1, _⟩ =>
        show win0_6.index t0_0 1 * win0_6.size 1 ≤ (i 1 : Nat) ∧ (i 1 : Nat) < win0_6.index t0_0 1 * win0_6.size 1 + win0_6.xsize (grid0.coords t0_0) 1
        rw [show win0_6.index t0_0 1 * win0_6.size 1 = 0 from by decide +kernel, show win0_6.xsize (grid0.coords t0_0) 1 = 1 from by decide +kernel]; omega
      | ⟨2, _⟩ =>
        show win0_6.index t0_0 2 * win0_6.size 2 ≤ (i 2 : Nat) ∧ (i 2 : Nat) < win0_6.index t0_0 2 * win0_6.size 2 + win0_6.xsize (grid0.coords t0_0) 2
        rw [show win0_6.index t0_0 2 * win0_6.size 2 = 0 from by decide +kernel, show win0_6.xsize (grid0.coords t0_0) 2 = 128 from by decide +kernel]; omega⟩

/-! ## The reshape after the region, and the run -/

/-- The program's result: the output array reshaped to [4, 128] is the specification's function of the arguments. -/
theorem tail_eq (c : Dev nD) :
    (Pipeline.afterTail₀ cfgs (dats m) 0 (V0 m) [hostOps1] c main_v0 : S4x128.Idx → EReal)
      = Cert.Spec.G (aX m c) (aAdj m c) (aW1 m c) (aB1 m c) (aW2 m c) (aB2 m c) := by
  unfold Pipeline.afterTail₀
  show StableHlo.after hostOps1 _ (Proc.devRef .tc main_v0) = _
  after_results
  have e := (Pipeline.withArrays_arr spec0 launch0.win.arr_inj c (V0 m c) (fun w => (dats m 0 c).arrAt w cfg0.N) 6).trans (final m c)
  funext j
  obtain ⟨b, f, rfl⟩ : ∃ (b : Fin 4) (f : Fin 128), j = ix2 b f := ⟨j 0, j 1, eq_ix2 j⟩
  show shapeCast S4x128 (Pipeline.withArrays spec0 c (V0 m c) (fun w => (dats m 0 c).arrAt w cfg0.N) (Proc.devRef .tc main_call0_v2)) shapeCasts_S4x1x128_S4x128 (ix2 b f) = _
  rw [e]
  exact shapeCast_a1c_ac_apply (result3 m c) shapeCasts_S4x1x128_S4x128 b f

/-- The run of the idealized kernel program: its result array ends at the specification's function of the argument
    arrays, and the six argument arrays end as they were. -/
theorem run : θ_run (Cert.KernelIdeal.defs (F := Ideal)) (onTc (τ := Cert.KernelIdeal.τ) (Cert.KernelIdeal.main (F := Ideal))) ⟨m, fun _ => 0, ρ⟩
    (fun r => ∀ c : Dev Cert.KernelIdeal.nD,
      r.2.mem ((c.tc : Thread nD τ).loc main_v0)
        = Cert.Spec.G (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v0 (Pipeline.mem_restRefs_of main_v0 (by decide) (by decide))).trans (tail_eq m c),
      ((h c).1 1).trans (((dats m 0 c).arrAt_in 1 rfl _).trans ((A_eq m c 1).trans (V_main_arg0 m c))),
      ((h c).1 0).trans (((dats m 0 c).arrAt_in 0 rfl _).trans ((A_eq m c 0).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).1 4).trans (((dats m 0 c).arrAt_in 4 rfl _).trans ((A_eq m c 4).trans (V_main_arg4 m c))),
      ((h c).2 main_arg5 (Pipeline.mem_restRefs_of main_arg5 (by decide) (by decide))).trans (W_main_arg5 m (dats m) c)⟩)
    (run_main m ρ)

end Cert.KernelIdeal.KernelValue

end
-- ==== Proof.RefOps0.lean ====
/-
  Window 0 of the reference program as a list of host operations: each printed statement in order, a called
  function's statements listed at its call over that call's own buffers.
-/
import proofs.«167911_g83915071029568_cont_sun_c4_623_16_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The 184 operations of window 0, in order. -/
abbrev ops0 : List (HloOp τ sig (Elt F)) :=
  [ nullary main_cst (constant S_ .f32 0x00000000#32),
    unary main_cst main_v0 (broadcastInDim S4x512x512 ![] bcast_S_S4x512x512 : (⟨S_, .f32⟩ : BufTy).Contents (Elt F) → (⟨S4x512x512, .f32⟩ : BufTy).Contents (Elt F)),
    binary main_arg1 main_v0 main_v1 (cmpf .une : (⟨S4x512x512, .f32⟩ : BufTy).Contents (Elt F) → (⟨S4x512x512, .f32⟩ : BufTy).Contents (Elt F) → (⟨S4x512x512, .i1⟩ : BufTy).Contents (Elt F)),
    TRef.reshape (.of main_v1 : TRef sig ⟨S4x512x512, .i1⟩) main_call0.v0 rfl shapeCasts_S4x512x512_S1048576,
    TRef.unary main_call0.v0 main_call0.v1 (extui 32 · natLt_1_32),
    TRef.nullary main_call0.call0.c (constantI S_ 32 0#32),
    TRef.unary main_call0.call0.c main_call0.call0.v0 (broadcastInDim S_ ![] bcast_S_S_),
    TRef.binary main_call0.v1 main_call0.call0.v0 main_call0.call0.v1 (fun x v => Host.reduceWindow IntOp.addi ![1048576] ![1] ![1048575] ![0] x v reduceWindows_S1048576_S1048576_w1048576s1p1048575_0 h_S_),
    nullary main_c (constantI S_ 32 0#32),
    unary main_c main_v3 (broadcastInDim S1048576 ![] bcast_S_S1048576 : (⟨S_, .i32⟩ : BufTy).Contents (Elt F) → (⟨S1048576, .i32⟩ : BufTy).Contents (Elt F)),
    nullary main_c_0 (constantI S_ 32 0#32),
    TRef.unary (.of main_c_0 : TRef sig ⟨S_, .i32⟩) main_call1.v0 id,
    TRef.unary main_call1.v0 main_call1.v1 (broadcastInDim S1048576 ![] bcast_S_S1048576),
    TRef.binary main_call1.v1 (.of main_v2 : TRef sig ⟨S1048576, .i32⟩) main_call1.v2 maxsi,
    nullary main_c_1 (constantI S_ 32 0#32),
    unary main_c_1 main_v5 (broadcastInDim S1048576 ![] bcast_S_S1048576 : (⟨S_, .i32⟩ : BufTy).Contents (Elt F) → (⟨S1048576, .i32⟩ : BufTy).Contents (Elt F)),
    binary main_v4 main_v5 main_v6 (cmpi .slt : (⟨S1048576, .i32⟩ : BufTy).Contents (Elt F) → (⟨S1048576, .i32⟩ : BufTy).Contents (Elt F) → (⟨S1048576, .i1⟩ : BufTy).Contents (Elt F)),
    nullary main_c_2 (constantI S_ 32 1048576#32),
    unary main_c_2 main_v7 (broadcastInDim S1048576 ![] bcast_S_S1048576 : (⟨S_, .i32⟩ : BufTy).Contents (Elt F) → (⟨S1048576, .i32⟩ : BufTy).Contents (Elt F)),
    binary main_v4 main_v7 main_v8 (addi : (⟨S1048576, .i32⟩ : BufTy).Contents (Elt F) → (⟨S1048576, .i32⟩ : BufTy).Contents (Elt F) → (⟨S1048576, .i32⟩ : BufTy).Contents (Elt F)),
    ternary main_v6 main_v8 main_v4 main_v9 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    unary main_v9 main_v10 (broadcastInDim S1048576x1 ![0] bcast_S1048576_S1048576x1_0 : (⟨S1048576, .i32⟩ : BufTy).Contents (Elt F) → (⟨S1048576x1, .i32⟩ : BufTy).Contents (Elt F)),
    nullary main_c_3 (constantI S_ 32 1#32),
    unary main_c_3 main_v11 (broadcastInDim S1048576 ![] bcast_S_S1048576 : (⟨S_, .i32⟩ : BufTy).Contents (Elt F) → (⟨S1048576, .i32⟩ : BufTy).Contents (Elt F)),
    ternary main_v3 main_v10 main_v11 main_v12 ((fun x i u => Host.scatter scatter_S1048576_S1048576x1_S1048576_n_0_0_1 IntOp.addi x i u) : (⟨S1048576, .i32⟩ : BufTy).Contents (Elt F) → (⟨S1048576x1, .i32⟩ : BufTy).Contents (Elt F) → (⟨S1048576, .i32⟩ : BufTy).Contents (Elt F) → (⟨S1048576, .i32⟩ : BufTy).Contents (Elt F)),
    TRef.nullary main_call2.call0.c (constantI S_ 32 0#32),
    TRef.unary main_call2.call0.c main_call2.call0.v0 (broadcastInDim S_ ![] bcast_S_S_),
    TRef.binary (.of main_v12 : TRef sig ⟨S1048576, .i32⟩) main_call2.call0.v0 main_call2.call0.v1 (fun x v => Host.reduceWindow IntOp.addi ![1048576] ![1] ![1048575] ![0] x v reduceWindows_S1048576_S1048576_w1048576s1p1048575_0 h_S_),
    nullary main_c_4 (constantI S_ 32 262144#32),
    TRef.unary (.of main_c_4 : TRef sig ⟨S_, .i32⟩) main_call3.v0 (broadcastInDim S1048576 ![] bcast_S_S1048576),
    TRef.binary (.of main_v13 : TRef sig ⟨S1048576, .i32⟩) main_call3.v0 main_call3.v1 Host.divsi,
    TRef.unary (.of main_v13 : TRef sig ⟨S1048576, .i32⟩) main_call3.v2 signi,
    TRef.unary (.of main_c_4 : TRef sig ⟨S_, .i32⟩) main_call3.v3 signi,
    TRef.unary main_call3.v3 main_call3.v4 (broadcastInDim S1048576 ![] bcast_S_S1048576),
    TRef.binary main_call3.v2 main_call3.v4 main_call3.v5 (cmpi .ne),
    TRef.unary (.of main_c_4 : TRef sig ⟨S_, .i32⟩) main_call3.v6 (broadcastInDim S1048576 ![] bcast_S_S1048576),
    TRef.binary (.of main_v13 : TRef sig ⟨S1048576, .i32⟩) main_call3.v6 main_call3.v7 Host.remsi,
    TRef.nullary main_call3.c (constantI S_ 32 0#32),
    TRef.unary main_call3.c main_call3.v8 (broadcastInDim S1048576 ![] bcast_S_S1048576),
    TRef.binary main_call3.v7 main_call3.v8 main_call3.v9 (cmpi .ne),
    TRef.binary main_call3.v5 main_call3.v9 main_call3.v10 andi,
    TRef.nullary main_call3.c_0 (constantI S_ 32 1#32),
    TRef.unary main_call3.c_0 main_call3.v11 (broadcastInDim S1048576 ![] bcast_S_S1048576),
    TRef.binary main_call3.v1 main_call3.v11 main_call3.v12 subi,
    TRef.ternary main_call3.v10 main_call3.v12 main_call3.v1 main_call3.call0.v0 select,
    nullary main_c_5 (constantI S_ 32 4#32),
    TRef.unary (.of main_c_5 : TRef sig ⟨S_, .i32⟩) main_call4.v0 id,
    TRef.nullary main_call4.c (constantI S_ 32 0#32),
    TRef.binary main_call4.v0 main_call4.c main_call4.v1 (cmpi .eq),
    TRef.nullary main_call4.c_0 (constantI S_ 32 1#32),
    TRef.ternary main_call4.v1 main_call4.c_0 main_call4.v0 main_call4.call0.v0 select,
    TRef.unary main_call4.call0.v0 main_call4.v3 (broadcastInDim S1048576 ![] bcast_S_S1048576),
    TRef.binary (.of main_v14 : TRef sig ⟨S1048576, .i32⟩) main_call4.v3 main_call4.v4 Host.remsi,
    TRef.nullary main_call4.c_1 (constantI S_ 32 0#32),
    TRef.unary main_call4.c_1 main_call4.v5 (broadcastInDim S1048576 ![] bcast_S_S1048576),
    TRef.binary main_call4.v4 main_call4.v5 main_call4.v6 (cmpi .ne),
    TRef.nullary main_call4.c_2 (constantI S_ 32 0#32),
    TRef.unary main_call4.c_2 main_call4.v7 (broadcastInDim S1048576 ![] bcast_S_S1048576),
    TRef.binary main_call4.v4 main_call4.v7 main_call4.v8 (cmpi .slt),
    TRef.nullary main_call4.c_3 (constantI S_ 32 0#32),
    TRef.binary main_call4.call0.v0 main_call4.c_3 main_call4.v9 (cmpi .slt),
    TRef.unary main_call4.v9 main_call4.v10 (broadcastInDim S1048576 ![] bcast_S_S1048576),
    TRef.binary main_call4.v8 main_call4.v10 main_call4.v11 (cmpi .ne),
    TRef.binary main_call4.v11 main_call4.v6 main_call4.v12 andi,
    TRef.unary main_call4.call0.v0 main_call4.v13 (broadcastInDim S1048576 ![] bcast_S_S1048576),
    TRef.binary main_call4.v4 main_call4.v13 main_call4.v14 addi,
    TRef.ternary main_call4.v12 main_call4.v14 main_call4.v4 main_call4.v15 select,
    nullary main_c_6 (constantI S_ 32 512#32),
    TRef.unary (.of main_c_6 : TRef sig ⟨S_, .i32⟩) main_call5.v0 (broadcastInDim S1048576 ![] bcast_S_S1048576),
    TRef.binary (.of main_v13 : TRef sig ⟨S1048576, .i32⟩) main_call5.v0 main_call5.v1 Host.divsi,
    TRef.unary (.of main_v13 : TRef sig ⟨S1048576, .i32⟩) main_call5.v2 signi,
    TRef.unary (.of main_c_6 : TRef sig ⟨S_, .i32⟩) main_call5.v3 signi,
    TRef.unary main_call5.v3 main_call5.v4 (broadcastInDim S1048576 ![] bcast_S_S1048576),
    TRef.binary main_call5.v2 main_call5.v4 main_call5.v5 (cmpi .ne),
    TRef.unary (.of main_c_6 : TRef sig ⟨S_, .i32⟩) main_call5.v6 (broadcastInDim S1048576 ![] bcast_S_S1048576),
    TRef.binary (.of main_v13 : TRef sig ⟨S1048576, .i32⟩) main_call5.v6 main_call5.v7 Host.remsi,
    TRef.nullary main_call5.c (constantI S_ 32 0#32),
    TRef.unary main_call5.c main_call5.v8 (broadcastInDim S1048576 ![] bcast_S_S1048576),
    TRef.binary main_call5.v7 main_call5.v8 main_call5.v9 (cmpi .ne),
    TRef.binary main_call5.v5 main_call5.v9 main_call5.v10 andi,
    TRef.nullary main_call5.c_0 (constantI S_ 32 1#32),
    TRef.unary main_call5.c_0 main_call5.v11 (broadcastInDim S1048576 ![] bcast_S_S1048576),
    TRef.binary main_call5.v1 main_call5.v11 main_call5.v12 subi,
    TRef.ternary main_call5.v10 main_call5.v12 main_call5.v1 main_call5.call0.v0 select,
    nullary main_c_7 (constantI S_ 32 512#32),
    TRef.unary (.of main_c_7 : TRef sig ⟨S_, .i32⟩) main_call6.v0 id,
    TRef.nullary main_call6.c (constantI S_ 32 0#32),
    TRef.binary main_call6.v0 main_call6.c main_call6.v1 (cmpi .eq),
    TRef.nullary main_call6.c_0 (constantI S_ 32 1#32),
    TRef.ternary main_call6.v1 main_call6.c_0 main_call6.v0 main_call6.call0.v0 select,
    TRef.unary main_call6.call0.v0 main_call6.v3 (broadcastInDim S1048576 ![] bcast_S_S1048576),
    TRef.binary (.of main_v16 : TRef sig ⟨S1048576, .i32⟩) main_call6.v3 main_call6.v4 Host.remsi,
    TRef.nullary main_call6.c_1 (constantI S_ 32 0#32),
    TRef.unary main_call6.c_1 main_call6.v5 (broadcastInDim S1048576 ![] bcast_S_S1048576),
    TRef.binary main_call6.v4 main_call6.v5 main_call6.v6 (cmpi .ne),
    TRef.nullary main_call6.c_2 (constantI S_ 32 0#32),
    TRef.unary main_call6.c_2 main_call6.v7 (broadcastInDim S1048576 ![] bcast_S_S1048576),
    TRef.binary main_call6.v4 main_call6.v7 main_call6.v8 (cmpi .slt),
    TRef.nullary main_call6.c_3 (constantI S_ 32 0#32),
    TRef.binary main_call6.call0.v0 main_call6.c_3 main_call6.v9 (cmpi .slt),
    TRef.unary main_call6.v9 main_call6.v10 (broadcastInDim S1048576 ![] bcast_S_S1048576),
    TRef.binary main_call6.v8 main_call6.v10 main_call6.v11 (cmpi .ne),
    TRef.binary main_call6.v11 main_call6.v6 main_call6.v12 andi,
    TRef.unary main_call6.call0.v0 main_call6.v13 (broadcastInDim S1048576 ![] bcast_S_S1048576),
    TRef.binary main_call6.v4 main_call6.v13 main_call6.v14 addi,
    TRef.ternary main_call6.v12 main_call6.v14 main_call6.v4 main_call6.v15 select,
    nullary main_c_8 (constantI S_ 32 1#32),
    TRef.unary (.of main_c_8 : TRef sig ⟨S_, .i32⟩) main_call7.v0 (broadcastInDim S1048576 ![] bcast_S_S1048576),
    TRef.binary (.of main_v13 : TRef sig ⟨S1048576, .i32⟩) main_call7.v0 main_call7.v1 Host.divsi,
    TRef.unary (.of main_v13 : TRef sig ⟨S1048576, .i32⟩) main_call7.v2 signi,
    TRef.unary (.of main_c_8 : TRef sig ⟨S_, .i32⟩) main_call7.v3 signi,
    TRef.unary main_call7.v3 main_call7.v4 (broadcastInDim S1048576 ![] bcast_S_S1048576),
    TRef.binary main_call7.v2 main_call7.v4 main_call7.v5 (cmpi .ne),
    TRef.unary (.of main_c_8 : TRef sig ⟨S_, .i32⟩) main_call7.v6 (broadcastInDim S1048576 ![] bcast_S_S1048576),
    TRef.binary (.of main_v13 : TRef sig ⟨S1048576, .i32⟩) main_call7.v6 main_call7.v7 Host.remsi,
    TRef.nullary main_call7.c (constantI S_ 32 0#32),
    TRef.unary main_call7.c main_call7.v8 (broadcastInDim S1048576 ![] bcast_S_S1048576),
    TRef.binary main_call7.v7 main_call7.v8 main_call7.v9 (cmpi .ne),
    TRef.binary main_call7.v5 main_call7.v9 main_call7.v10 andi,
    TRef.nullary main_call7.c_0 (constantI S_ 32 1#32),
    TRef.unary main_call7.c_0 main_call7.v11 (broadcastInDim S1048576 ![] bcast_S_S1048576),
    TRef.binary main_call7.v1 main_call7.v11 main_call7.v12 subi,
    TRef.ternary main_call7.v10 main_call7.v12 main_call7.v1 main_call7.call0.v0 select,
    nullary main_c_9 (constantI S_ 32 512#32),
    TRef.unary (.of main_c_9 : TRef sig ⟨S_, .i32⟩) main_call8.v0 id,
    TRef.nullary main_call8.c (constantI S_ 32 0#32),
    TRef.binary main_call8.v0 main_call8.c main_call8.v1 (cmpi .eq),
    TRef.nullary main_call8.c_0 (constantI S_ 32 1#32),
    TRef.ternary main_call8.v1 main_call8.c_0 main_call8.v0 main_call8.call0.v0 select,
    TRef.unary main_call8.call0.v0 main_call8.v3 (broadcastInDim S1048576 ![] bcast_S_S1048576),
    TRef.binary (.of main_v18 : TRef sig ⟨S1048576, .i32⟩) main_call8.v3 main_call8.v4 Host.remsi,
    TRef.nullary main_call8.c_1 (constantI S_ 32 0#32),
    TRef.unary main_call8.c_1 main_call8.v5 (broadcastInDim S1048576 ![] bcast_S_S1048576),
    TRef.binary main_call8.v4 main_call8.v5 main_call8.v6 (cmpi .ne),
    TRef.nullary main_call8.c_2 (constantI S_ 32 0#32),
    TRef.unary main_call8.c_2 main_call8.v7 (broadcastInDim S1048576 ![] bcast_S_S1048576),
    TRef.binary main_call8.v4 main_call8.v7 main_call8.v8 (cmpi .slt),
    TRef.nullary main_call8.c_3 (constantI S_ 32 0#32),
    TRef.binary main_call8.call0.v0 main_call8.c_3 main_call8.v9 (cmpi .slt),
    TRef.unary main_call8.v9 main_call8.v10 (broadcastInDim S1048576 ![] bcast_S_S1048576),
    TRef.binary main_call8.v8 main_call8.v10 main_call8.v11 (cmpi .ne),
    TRef.binary main_call8.v11 main_call8.v6 main_call8.v12 andi,
    TRef.unary main_call8.call0.v0 main_call8.v13 (broadcastInDim S1048576 ![] bcast_S_S1048576),
    TRef.binary main_call8.v4 main_call8.v13 main_call8.v14 addi,
    TRef.ternary main_call8.v12 main_call8.v14 main_call8.v4 main_call8.v15 select,
    nullary main_v20 (iotaInDim S1048576 32 0),
    unary main_v1 main_v21 ((extui 32 · natLt_1_32) : (⟨S4x512x512, .i1⟩ : BufTy).Contents (Elt F) → (⟨S4x512x512, .i32⟩ : BufTy).Contents (Elt F)),
    nullary main_c_10 (constantI S_ 32 0#32),
    binary main_v21 main_c_10 main_v22 ((fun x v => Host.reduce IntOp.addi x v reducesTo_S4x512x512_S_d0_1_2 h_S_) : (⟨S4x512x512, .i32⟩ : BufTy).Contents (Elt F) → (⟨S_, .i32⟩ : BufTy).Contents (Elt F) → (⟨S_, .i32⟩ : BufTy).Contents (Elt F)),
    unary main_v22 main_v23 (broadcastInDim S1048576 ![] bcast_S_S1048576 : (⟨S_, .i32⟩ : BufTy).Contents (Elt F) → (⟨S1048576, .i32⟩ : BufTy).Contents (Elt F)),
    binary main_v20 main_v23 main_v24 (cmpi .sge : (⟨S1048576, .i32⟩ : BufTy).Contents (Elt F) → (⟨S1048576, .i32⟩ : BufTy).Contents (Elt F) → (⟨S1048576, .i1⟩ : BufTy).Contents (Elt F)),
    nullary main_c_11 (constantI S_ 32 0#32),
    TRef.unary (.of main_c_11 : TRef sig ⟨S_, .i32⟩) main_call9.v0 id,
    TRef.unary main_call9.v0 main_call9.v1 (broadcastInDim S1048576 ![] bcast_S_S1048576),
    TRef.ternary (.of main_v24 : TRef sig ⟨S1048576, .i1⟩) main_call9.v1 (.of main_v15 : TRef sig ⟨S1048576, .i32⟩) main_call9.v2 select,
    nullary main_c_12 (constantI S_ 32 0#32),
    TRef.unary (.of main_c_12 : TRef sig ⟨S_, .i32⟩) main_call10.v0 id,
    TRef.unary main_call10.v0 main_call10.v1 (broadcastInDim S1048576 ![] bcast_S_S1048576),
    TRef.ternary (.of main_v24 : TRef sig ⟨S1048576, .i1⟩) main_call10.v1 (.of main_v17 : TRef sig ⟨S1048576, .i32⟩) main_call10.v2 select,
    nullary main_c_13 (constantI S_ 32 0#32),
    TRef.unary (.of main_c_13 : TRef sig ⟨S_, .i32⟩) main_call11.v0 id,
    TRef.unary main_call11.v0 main_call11.v1 (broadcastInDim S1048576 ![] bcast_S_S1048576),
    TRef.ternary (.of main_v24 : TRef sig ⟨S1048576, .i1⟩) main_call11.v1 (.of main_v19 : TRef sig ⟨S1048576, .i32⟩) main_call11.v2 select,
    nullary main_v28 (iotaInDim S1048576 32 0),
    TRef.nullary main_call12.cst (constant S_ .f32 0x00000000#32),
    TRef.unary main_call12.cst main_call12.v0 (broadcastInDim S4x512x512 ![] bcast_S_S4x512x512),
    TRef.binary (.of main_arg1 : TRef sig ⟨S4x512x512, .f32⟩) main_call12.v0 main_call12.v1 (cmpf .une),
    TRef.unary main_call12.v1 main_call12.v2 (extui 32 · natLt_1_32),
    TRef.nullary main_call12.c (constantI S_ 32 0#32),
    TRef.binary main_call12.v2 main_call12.c main_call12.v3 (fun x v => Host.reduce IntOp.addi x v reducesTo_S4x512x512_S_d0_1_2 h_S_),
    unary main_v29 main_v30 (broadcastInDim S1048576 ![] bcast_S_S1048576 : (⟨S_, .i32⟩ : BufTy).Contents (Elt F) → (⟨S1048576, .i32⟩ : BufTy).Contents (Elt F)),
    binary main_v28 main_v30 main_v31 (cmpi .slt : (⟨S1048576, .i32⟩ : BufTy).Contents (Elt F) → (⟨S1048576, .i32⟩ : BufTy).Contents (Elt F) → (⟨S1048576, .i1⟩ : BufTy).Contents (Elt F)),
    unary main_v31 main_v32 (uitofp .f32 : (⟨S1048576, .i1⟩ : BufTy).Contents (Elt F) → (⟨S1048576, .f32⟩ : BufTy).Contents (Elt F)),
    nullary main_c_14 (constantI S_ 32 512#32),
    unary main_c_14 main_v33 (broadcastInDim S1048576 ![] bcast_S_S1048576 : (⟨S_, .i32⟩ : BufTy).Contents (Elt F) → (⟨S1048576, .i32⟩ : BufTy).Contents (Elt F)),
    binary main_v25 main_v33 main_v34 (muli : (⟨S1048576, .i32⟩ : BufTy).Contents (Elt F) → (⟨S1048576, .i32⟩ : BufTy).Contents (Elt F) → (⟨S1048576, .i32⟩ : BufTy).Contents (Elt F)),
    binary main_v34 main_v26 main_v35 (addi : (⟨S1048576, .i32⟩ : BufTy).Contents (Elt F) → (⟨S1048576, .i32⟩ : BufTy).Contents (Elt F) → (⟨S1048576, .i32⟩ : BufTy).Contents (Elt F)),
    nullary main_c_15 (constantI S_ 32 512#32),
    unary main_c_15 main_v36 (broadcastInDim S1048576 ![] bcast_S_S1048576 : (⟨S_, .i32⟩ : BufTy).Contents (Elt F) → (⟨S1048576, .i32⟩ : BufTy).Contents (Elt F)),
    binary main_v25 main_v36 main_v37 (muli : (⟨S1048576, .i32⟩ : BufTy).Contents (Elt F) → (⟨S1048576, .i32⟩ : BufTy).Contents (Elt F) → (⟨S1048576, .i32⟩ : BufTy).Contents (Elt F)),
    binary main_v37 main_v27 main_v38 (addi : (⟨S1048576, .i32⟩ : BufTy).Contents (Elt F) → (⟨S1048576, .i32⟩ : BufTy).Contents (Elt F) → (⟨S1048576, .i32⟩ : BufTy).Contents (Elt F)),
    reshape main_arg0 main_v39 rfl shapeCasts_S4x512x128_S2048x128,
    nullary main_v40 (iotaInDim S2048 32 0),
    binary main_v35 main_v40 main_v41 ((fun a b => concatenate S1050624 0 [⟨S1048576, a⟩, ⟨S2048, b⟩] concatenates_S1048576_S2048_S1050624_d0) : (⟨S1048576, .i32⟩ : BufTy).Contents (Elt F) → (⟨S2048, .i32⟩ : BufTy).Contents (Elt F) → (⟨S1050624, .i32⟩ : BufTy).Contents (Elt F)) ]

set_option maxRecDepth 8192 in
set_option maxHeartbeats 4000000 in
/-- The window is that straight line: the called functions unfolded at their calls, sequencing reassociated. -/
theorem part0_eq (c : Dev nD) : main_part0 (F := F) c = seq ops0 := by
  simp only [main_part0, fn_cumsum_0.body, fn_cumsum.body, fn_clip.body, fn_cumsum_1.body, fn_where.body, fn_floor_divide.body, fn_where_2.body, fn_remainder.body, fn_where_3.body, fn_count_nonzero.body, fn_where_4.body, fn_where_5.body, fn_take.body, fn_relu.body, seq, bind_assoc, pure_bind] <;> rfl

/-- Every operation of the window touches TensorCore buffers only. -/
theorem ops0_sub : (ops0 : List (HloOp τ sig (Elt F))).Forall fun op => op.bufs ⊆ tcRefs τ sig :=
  ⟨nullary_bufs_sub .., unary_bufs_sub .., binary_bufs_sub .., reshape_bufs_sub .., unary_bufs_sub .., nullary_bufs_sub ..,
    unary_bufs_sub .., binary_bufs_sub .., nullary_bufs_sub .., unary_bufs_sub .., nullary_bufs_sub .., unary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., nullary_bufs_sub .., unary_bufs_sub ..,
    ternary_bufs_sub .., nullary_bufs_sub .., unary_bufs_sub .., binary_bufs_sub .., nullary_bufs_sub .., unary_bufs_sub ..,
    binary_bufs_sub .., unary_bufs_sub .., unary_bufs_sub .., unary_bufs_sub .., binary_bufs_sub .., unary_bufs_sub ..,
    binary_bufs_sub .., nullary_bufs_sub .., unary_bufs_sub .., binary_bufs_sub .., binary_bufs_sub .., nullary_bufs_sub ..,
    unary_bufs_sub .., binary_bufs_sub .., ternary_bufs_sub .., nullary_bufs_sub .., unary_bufs_sub .., nullary_bufs_sub ..,
    binary_bufs_sub .., nullary_bufs_sub .., ternary_bufs_sub .., unary_bufs_sub .., binary_bufs_sub .., nullary_bufs_sub ..,
    unary_bufs_sub .., binary_bufs_sub .., nullary_bufs_sub .., unary_bufs_sub .., binary_bufs_sub .., nullary_bufs_sub ..,
    binary_bufs_sub .., unary_bufs_sub .., binary_bufs_sub .., binary_bufs_sub .., unary_bufs_sub .., binary_bufs_sub ..,
    ternary_bufs_sub .., nullary_bufs_sub .., unary_bufs_sub .., binary_bufs_sub .., unary_bufs_sub .., unary_bufs_sub ..,
    unary_bufs_sub .., binary_bufs_sub .., unary_bufs_sub .., binary_bufs_sub .., nullary_bufs_sub .., unary_bufs_sub ..,
    binary_bufs_sub .., binary_bufs_sub .., nullary_bufs_sub .., unary_bufs_sub .., binary_bufs_sub .., ternary_bufs_sub ..,
    nullary_bufs_sub .., unary_bufs_sub .., nullary_bufs_sub .., binary_bufs_sub .., nullary_bufs_sub .., ternary_bufs_sub ..,
    unary_bufs_sub .., binary_bufs_sub .., nullary_bufs_sub .., unary_bufs_sub .., binary_bufs_sub .., nullary_bufs_sub ..,
    unary_bufs_sub .., binary_bufs_sub .., nullary_bufs_sub .., binary_bufs_sub .., unary_bufs_sub .., binary_bufs_sub ..,
    binary_bufs_sub .., unary_bufs_sub .., binary_bufs_sub .., ternary_bufs_sub .., nullary_bufs_sub .., unary_bufs_sub ..,
    binary_bufs_sub .., unary_bufs_sub .., unary_bufs_sub .., unary_bufs_sub .., binary_bufs_sub .., unary_bufs_sub ..,
    binary_bufs_sub .., nullary_bufs_sub .., unary_bufs_sub .., binary_bufs_sub .., binary_bufs_sub .., nullary_bufs_sub ..,
    unary_bufs_sub .., binary_bufs_sub .., ternary_bufs_sub .., nullary_bufs_sub .., unary_bufs_sub .., nullary_bufs_sub ..,
    binary_bufs_sub .., nullary_bufs_sub .., ternary_bufs_sub .., unary_bufs_sub .., binary_bufs_sub .., nullary_bufs_sub ..,
    unary_bufs_sub .., binary_bufs_sub .., nullary_bufs_sub .., unary_bufs_sub .., binary_bufs_sub .., nullary_bufs_sub ..,
    binary_bufs_sub .., unary_bufs_sub .., binary_bufs_sub .., binary_bufs_sub .., unary_bufs_sub .., binary_bufs_sub ..,
    ternary_bufs_sub .., nullary_bufs_sub .., unary_bufs_sub .., nullary_bufs_sub .., binary_bufs_sub .., unary_bufs_sub ..,
    binary_bufs_sub .., nullary_bufs_sub .., unary_bufs_sub .., unary_bufs_sub .., ternary_bufs_sub .., nullary_bufs_sub ..,
    unary_bufs_sub .., unary_bufs_sub .., ternary_bufs_sub .., nullary_bufs_sub .., unary_bufs_sub .., unary_bufs_sub ..,
    ternary_bufs_sub .., nullary_bufs_sub .., nullary_bufs_sub .., unary_bufs_sub .., binary_bufs_sub .., unary_bufs_sub ..,
    nullary_bufs_sub .., binary_bufs_sub .., unary_bufs_sub .., binary_bufs_sub .., unary_bufs_sub .., nullary_bufs_sub ..,
    unary_bufs_sub .., binary_bufs_sub .., binary_bufs_sub .., nullary_bufs_sub .., unary_bufs_sub .., binary_bufs_sub ..,
    binary_bufs_sub .., reshape_bufs_sub .., nullary_bufs_sub .., binary_bufs_sub ..⟩

/-- Every operation of the window determines its results. -/
theorem ops0_fresh : (ops0 : List (HloOp τ sig (Elt F))).Forall fun op => op.fresh = ∅ := by
  simp only [List.Forall]; repeat' constructor

end Cert.ReferenceIdeal.RefRun

end
-- ==== Proof.RefOps1.lean ====
/-
  Window 1 of the reference program as a list of host operations: each printed statement in order, a called
  function's statements listed at its call over that call's own buffers.
-/
import proofs.«167911_g83915071029568_cont_sun_c4_623_16_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The 84 operations of window 1, in order. -/
abbrev ops1 : List (HloOp τ sig (Elt F)) :=
  [ binary main_v38 main_v40 main_v42 ((fun a b => concatenate S1050624 0 [⟨S1048576, a⟩, ⟨S2048, b⟩] concatenates_S1048576_S2048_S1050624_d0) : (⟨S1048576, .i32⟩ : BufTy).Contents (Elt F) → (⟨S2048, .i32⟩ : BufTy).Contents (Elt F) → (⟨S1050624, .i32⟩ : BufTy).Contents (Elt F)),
    nullary main_cst_16 (constant S_ .f32 0x3F800000#32),
    unary main_cst_16 main_v43 (broadcastInDim S2048 ![] bcast_S_S2048 : (⟨S_, .f32⟩ : BufTy).Contents (Elt F) → (⟨S2048, .f32⟩ : BufTy).Contents (Elt F)),
    binary main_v32 main_v43 main_v44 ((fun a b => concatenate S1050624 0 [⟨S1048576, a⟩, ⟨S2048, b⟩] concatenates_S1048576_S2048_S1050624_d0) : (⟨S1048576, .f32⟩ : BufTy).Contents (Elt F) → (⟨S2048, .f32⟩ : BufTy).Contents (Elt F) → (⟨S1050624, .f32⟩ : BufTy).Contents (Elt F)),
    nullary main_cst_17 (constant S_ .f32 0x00000000#32),
    unary main_cst_17 main_v45 (broadcastInDim S2048 ![] bcast_S_S2048 : (⟨S_, .f32⟩ : BufTy).Contents (Elt F) → (⟨S2048, .f32⟩ : BufTy).Contents (Elt F)),
    nullary main_c_18 (constantI S_ 32 0#32),
    unary main_c_18 main_v46 (broadcastInDim S1050624 ![] bcast_S_S1050624 : (⟨S_, .i32⟩ : BufTy).Contents (Elt F) → (⟨S1050624, .i32⟩ : BufTy).Contents (Elt F)),
    binary main_v42 main_v46 main_v47 (cmpi .slt : (⟨S1050624, .i32⟩ : BufTy).Contents (Elt F) → (⟨S1050624, .i32⟩ : BufTy).Contents (Elt F) → (⟨S1050624, .i1⟩ : BufTy).Contents (Elt F)),
    nullary main_c_19 (constantI S_ 32 2048#32),
    unary main_c_19 main_v48 (broadcastInDim S1050624 ![] bcast_S_S1050624 : (⟨S_, .i32⟩ : BufTy).Contents (Elt F) → (⟨S1050624, .i32⟩ : BufTy).Contents (Elt F)),
    binary main_v42 main_v48 main_v49 (addi : (⟨S1050624, .i32⟩ : BufTy).Contents (Elt F) → (⟨S1050624, .i32⟩ : BufTy).Contents (Elt F) → (⟨S1050624, .i32⟩ : BufTy).Contents (Elt F)),
    ternary main_v47 main_v49 main_v42 main_v50 (select : (⟨S1050624, .i1⟩ : BufTy).Contents (Elt F) → (⟨S1050624, .i32⟩ : BufTy).Contents (Elt F) → (⟨S1050624, .i32⟩ : BufTy).Contents (Elt F) → (⟨S1050624, .i32⟩ : BufTy).Contents (Elt F)),
    unary main_v50 main_v51 (broadcastInDim S1050624x1 ![0] bcast_S1050624_S1050624x1_0 : (⟨S1050624, .i32⟩ : BufTy).Contents (Elt F) → (⟨S1050624x1, .i32⟩ : BufTy).Contents (Elt F)),
    ternary main_v45 main_v51 main_v44 main_v52 ((fun x i u => Host.scatterAdd scatter_S2048_S1050624x1_S1050624_n_0_0_1 x i u) : (⟨S2048, .f32⟩ : BufTy).Contents (Elt F) → (⟨S1050624x1, .i32⟩ : BufTy).Contents (Elt F) → (⟨S1050624, .f32⟩ : BufTy).Contents (Elt F) → (⟨S2048, .f32⟩ : BufTy).Contents (Elt F)),
    nullary main_cst_20 (constant S_ .f32 0x00000000#32),
    unary main_cst_20 main_v53 (broadcastInDim S2048 ![] bcast_S_S2048 : (⟨S_, .f32⟩ : BufTy).Contents (Elt F) → (⟨S2048, .f32⟩ : BufTy).Contents (Elt F)),
    binary main_v52 main_v53 main_v54 (cmpf .ogt : (⟨S2048, .f32⟩ : BufTy).Contents (Elt F) → (⟨S2048, .f32⟩ : BufTy).Contents (Elt F) → (⟨S2048, .i1⟩ : BufTy).Contents (Elt F)),
    nullary main_cst_21 (constant S_ .f32 0x2B8CBCCC#32),
    unary main_cst_21 main_v55 (broadcastInDim S2048 ![] bcast_S_S2048 : (⟨S_, .f32⟩ : BufTy).Contents (Elt F) → (⟨S2048, .f32⟩ : BufTy).Contents (Elt F)),
    binary main_v52 main_v55 main_v56 (maximumf : (⟨S2048, .f32⟩ : BufTy).Contents (Elt F) → (⟨S2048, .f32⟩ : BufTy).Contents (Elt F) → (⟨S2048, .f32⟩ : BufTy).Contents (Elt F)),
    unary main_v56 main_v57 (Host.rsqrt : (⟨S2048, .f32⟩ : BufTy).Contents (Elt F) → (⟨S2048, .f32⟩ : BufTy).Contents (Elt F)),
    nullary main_cst_22 (constant S_ .f32 0x00000000#32),
    TRef.unary (.of main_cst_22 : TRef sig ⟨S_, .f32⟩) main_call13.v0 id,
    TRef.unary main_call13.v0 main_call13.v1 (broadcastInDim S2048 ![] bcast_S_S2048),
    TRef.ternary (.of main_v54 : TRef sig ⟨S2048, .i1⟩) (.of main_v57 : TRef sig ⟨S2048, .f32⟩) main_call13.v1 main_call13.v2 select,
    nullary main_c_23 (constantI S_ 32 0#32),
    unary main_c_23 main_v59 (broadcastInDim S1050624 ![] bcast_S_S1050624 : (⟨S_, .i32⟩ : BufTy).Contents (Elt F) → (⟨S1050624, .i32⟩ : BufTy).Contents (Elt F)),
    binary main_v41 main_v59 main_v60 (cmpi .slt : (⟨S1050624, .i32⟩ : BufTy).Contents (Elt F) → (⟨S1050624, .i32⟩ : BufTy).Contents (Elt F) → (⟨S1050624, .i1⟩ : BufTy).Contents (Elt F)),
    nullary main_c_24 (constantI S_ 32 2048#32),
    unary main_c_24 main_v61 (broadcastInDim S1050624 ![] bcast_S_S1050624 : (⟨S_, .i32⟩ : BufTy).Contents (Elt F) → (⟨S1050624, .i32⟩ : BufTy).Contents (Elt F)),
    binary main_v41 main_v61 main_v62 (addi : (⟨S1050624, .i32⟩ : BufTy).Contents (Elt F) → (⟨S1050624, .i32⟩ : BufTy).Contents (Elt F) → (⟨S1050624, .i32⟩ : BufTy).Contents (Elt F)),
    ternary main_v60 main_v62 main_v41 main_v63 (select : (⟨S1050624, .i1⟩ : BufTy).Contents (Elt F) → (⟨S1050624, .i32⟩ : BufTy).Contents (Elt F) → (⟨S1050624, .i32⟩ : BufTy).Contents (Elt F) → (⟨S1050624, .i32⟩ : BufTy).Contents (Elt F)),
    unary main_v63 main_v64 (broadcastInDim S1050624x1 ![0] bcast_S1050624_S1050624x1_0 : (⟨S1050624, .i32⟩ : BufTy).Contents (Elt F) → (⟨S1050624x1, .i32⟩ : BufTy).Contents (Elt F)),
    binary main_v58 main_v64 main_v65 ((fun x i => Host.gather gather_S2048_S1050624x1_S1050624_n_0_n_n_0_1_1 x i) : (⟨S2048, .f32⟩ : BufTy).Contents (Elt F) → (⟨S1050624x1, .i32⟩ : BufTy).Contents (Elt F) → (⟨S1050624, .f32⟩ : BufTy).Contents (Elt F)),
    nullary main_c_25 (constantI S_ 32 0#32),
    unary main_c_25 main_v66 (broadcastInDim S1050624 ![] bcast_S_S1050624 : (⟨S_, .i32⟩ : BufTy).Contents (Elt F) → (⟨S1050624, .i32⟩ : BufTy).Contents (Elt F)),
    binary main_v42 main_v66 main_v67 (cmpi .slt : (⟨S1050624, .i32⟩ : BufTy).Contents (Elt F) → (⟨S1050624, .i32⟩ : BufTy).Contents (Elt F) → (⟨S1050624, .i1⟩ : BufTy).Contents (Elt F)),
    nullary main_c_26 (constantI S_ 32 2048#32),
    unary main_c_26 main_v68 (broadcastInDim S1050624 ![] bcast_S_S1050624 : (⟨S_, .i32⟩ : BufTy).Contents (Elt F) → (⟨S1050624, .i32⟩ : BufTy).Contents (Elt F)),
    binary main_v42 main_v68 main_v69 (addi : (⟨S1050624, .i32⟩ : BufTy).Contents (Elt F) → (⟨S1050624, .i32⟩ : BufTy).Contents (Elt F) → (⟨S1050624, .i32⟩ : BufTy).Contents (Elt F)),
    ternary main_v67 main_v69 main_v42 main_v70 (select : (⟨S1050624, .i1⟩ : BufTy).Contents (Elt F) → (⟨S1050624, .i32⟩ : BufTy).Contents (Elt F) → (⟨S1050624, .i32⟩ : BufTy).Contents (Elt F) → (⟨S1050624, .i32⟩ : BufTy).Contents (Elt F)),
    unary main_v70 main_v71 (broadcastInDim S1050624x1 ![0] bcast_S1050624_S1050624x1_0 : (⟨S1050624, .i32⟩ : BufTy).Contents (Elt F) → (⟨S1050624x1, .i32⟩ : BufTy).Contents (Elt F)),
    binary main_v58 main_v71 main_v72 ((fun x i => Host.gather gather_S2048_S1050624x1_S1050624_n_0_n_n_0_1_1 x i) : (⟨S2048, .f32⟩ : BufTy).Contents (Elt F) → (⟨S1050624x1, .i32⟩ : BufTy).Contents (Elt F) → (⟨S1050624, .f32⟩ : BufTy).Contents (Elt F)),
    binary main_v65 main_v72 main_v73 (mulf : (⟨S1050624, .f32⟩ : BufTy).Contents (Elt F) → (⟨S1050624, .f32⟩ : BufTy).Contents (Elt F) → (⟨S1050624, .f32⟩ : BufTy).Contents (Elt F)),
    binary main_v73 main_v44 main_v74 (mulf : (⟨S1050624, .f32⟩ : BufTy).Contents (Elt F) → (⟨S1050624, .f32⟩ : BufTy).Contents (Elt F) → (⟨S1050624, .f32⟩ : BufTy).Contents (Elt F)),
    binary main_v39 main_arg2 main_v75 ((fun l r => Host.dotGeneral dot_S2048x128_S128x128_S2048x128_1_0_0_1_n_n none l r) : (⟨S2048x128, .f32⟩ : BufTy).Contents (Elt F) → (⟨S128x128, .f32⟩ : BufTy).Contents (Elt F) → (⟨S2048x128, .f32⟩ : BufTy).Contents (Elt F)),
    TRef.nullary main_call14.c (constantI S_ 32 0#32),
    TRef.unary main_call14.c main_call14.v0 (broadcastInDim S1050624 ![] bcast_S_S1050624),
    TRef.binary (.of main_v41 : TRef sig ⟨S1050624, .i32⟩) main_call14.v0 main_call14.v1 (cmpi .slt),
    TRef.nullary main_call14.c_0 (constantI S_ 32 2048#32),
    TRef.unary main_call14.c_0 main_call14.v2 (broadcastInDim S1050624 ![] bcast_S_S1050624),
    TRef.binary (.of main_v41 : TRef sig ⟨S1050624, .i32⟩) main_call14.v2 main_call14.v3 addi,
    TRef.ternary main_call14.v1 main_call14.v3 (.of main_v41 : TRef sig ⟨S1050624, .i32⟩) main_call14.call0.v0 select,
    TRef.unary main_call14.call0.v0 main_call14.v5 (broadcastInDim S1050624x1 ![0] bcast_S1050624_S1050624x1_0),
    TRef.nullary main_call14.c_1 (constantI S1 32 2047#32),
    TRef.nullary main_call14.c_2 (constantI S_ 32 0#32),
    TRef.unary main_call14.c_2 main_call14.v6 (broadcastInDim S1050624x1 ![] bcast_S_S1050624x1),
    TRef.binary main_call14.v5 main_call14.v6 main_call14.v7 (cmpi .sge),
    TRef.unary main_call14.c_1 main_call14.v8 (broadcastInDim S1x1 ![1] bcast_S1_S1x1_1),
    TRef.unary main_call14.v8 main_call14.v9 (broadcastInDim S1050624x1 ![0, 1] bcast_S1x1_S1050624x1_0_1),
    TRef.binary main_call14.v5 main_call14.v9 main_call14.v10 (cmpi .sle),
    TRef.binary main_call14.v7 main_call14.v10 main_call14.v11 andi,
    TRef.nullary main_call14.c_3 (constantI S_ 1 1#1),
    TRef.binary main_call14.v11 main_call14.c_3 main_call14.v12 (fun x v => Host.reduce IntOp.andi x v reducesTo_S1050624x1_S1050624_d1 h_S_),
    TRef.binary (.of main_v75 : TRef sig ⟨S2048x128, .f32⟩) main_call14.v5 main_call14.v13 (fun x i => Host.gather gather_S2048x128_S1050624x1_S1050624x128_1_0_n_n_0_1_1128 x i),
    TRef.unary main_call14.v12 main_call14.v14 (broadcastInDim S1050624x128 ![0] bcast_S1050624_S1050624x128_0),
    TRef.nullary main_call14.cst (constant S_ .f32 0x7FC00000#32),
    TRef.unary main_call14.cst main_call14.v15 (broadcastInDim S1050624x128 ![] bcast_S_S1050624x128),
    TRef.ternary main_call14.v14 main_call14.v13 main_call14.v15 main_call14.v16 select,
    unary main_v74 main_v77 (broadcastInDim S1050624x1 ![0] bcast_S1050624_S1050624x1_0 : (⟨S1050624, .f32⟩ : BufTy).Contents (Elt F) → (⟨S1050624x1, .f32⟩ : BufTy).Contents (Elt F)),
    unary main_v77 main_v78 (broadcastInDim S1050624x128 ![0, 1] bcast_S1050624x1_S1050624x128_0_1 : (⟨S1050624x1, .f32⟩ : BufTy).Contents (Elt F) → (⟨S1050624x128, .f32⟩ : BufTy).Contents (Elt F)),
    binary main_v76 main_v78 main_v79 (mulf : (⟨S1050624x128, .f32⟩ : BufTy).Contents (Elt F) → (⟨S1050624x128, .f32⟩ : BufTy).Contents (Elt F) → (⟨S1050624x128, .f32⟩ : BufTy).Contents (Elt F)),
    nullary main_cst_27 (constant S_ .f32 0x00000000#32),
    unary main_cst_27 main_v80 (broadcastInDim S2048x128 ![] bcast_S_S2048x128 : (⟨S_, .f32⟩ : BufTy).Contents (Elt F) → (⟨S2048x128, .f32⟩ : BufTy).Contents (Elt F)),
    nullary main_c_28 (constantI S_ 32 0#32),
    unary main_c_28 main_v81 (broadcastInDim S1050624 ![] bcast_S_S1050624 : (⟨S_, .i32⟩ : BufTy).Contents (Elt F) → (⟨S1050624, .i32⟩ : BufTy).Contents (Elt F)),
    binary main_v42 main_v81 main_v82 (cmpi .slt : (⟨S1050624, .i32⟩ : BufTy).Contents (Elt F) → (⟨S1050624, .i32⟩ : BufTy).Contents (Elt F) → (⟨S1050624, .i1⟩ : BufTy).Contents (Elt F)),
    nullary main_c_29 (constantI S_ 32 2048#32),
    unary main_c_29 main_v83 (broadcastInDim S1050624 ![] bcast_S_S1050624 : (⟨S_, .i32⟩ : BufTy).Contents (Elt F) → (⟨S1050624, .i32⟩ : BufTy).Contents (Elt F)),
    binary main_v42 main_v83 main_v84 (addi : (⟨S1050624, .i32⟩ : BufTy).Contents (Elt F) → (⟨S1050624, .i32⟩ : BufTy).Contents (Elt F) → (⟨S1050624, .i32⟩ : BufTy).Contents (Elt F)),
    ternary main_v82 main_v84 main_v42 main_v85 (select : (⟨S1050624, .i1⟩ : BufTy).Contents (Elt F) → (⟨S1050624, .i32⟩ : BufTy).Contents (Elt F) → (⟨S1050624, .i32⟩ : BufTy).Contents (Elt F) → (⟨S1050624, .i32⟩ : BufTy).Contents (Elt F)),
    unary main_v85 main_v86 (broadcastInDim S1050624x1 ![0] bcast_S1050624_S1050624x1_0 : (⟨S1050624, .i32⟩ : BufTy).Contents (Elt F) → (⟨S1050624x1, .i32⟩ : BufTy).Contents (Elt F)),
    ternary main_v80 main_v86 main_v79 main_v87 ((fun x i u => Host.scatterAdd scatter_S2048x128_S1050624x1_S1050624x128_1_0_0_1 x i u) : (⟨S2048x128, .f32⟩ : BufTy).Contents (Elt F) → (⟨S1050624x1, .i32⟩ : BufTy).Contents (Elt F) → (⟨S1050624x128, .f32⟩ : BufTy).Contents (Elt F) → (⟨S2048x128, .f32⟩ : BufTy).Contents (Elt F)) ]

set_option maxRecDepth 8192 in
set_option maxHeartbeats 4000000 in
/-- The window is that straight line: the called functions unfolded at their calls, sequencing reassociated. -/
theorem part1_eq (c : Dev nD) : main_part1 (F := F) c = seq ops1 := by
  simp only [main_part1, fn_cumsum_0.body, fn_cumsum.body, fn_clip.body, fn_cumsum_1.body, fn_where.body, fn_floor_divide.body, fn_where_2.body, fn_remainder.body, fn_where_3.body, fn_count_nonzero.body, fn_where_4.body, fn_where_5.body, fn_take.body, fn_relu.body, seq, bind_assoc, pure_bind] <;> rfl

/-- Every operation of the window touches TensorCore buffers only. -/
theorem ops1_sub : (ops1 : List (HloOp τ sig (Elt F))).Forall fun op => op.bufs ⊆ tcRefs τ sig :=
  ⟨binary_bufs_sub .., nullary_bufs_sub .., unary_bufs_sub .., binary_bufs_sub .., nullary_bufs_sub .., unary_bufs_sub ..,
    nullary_bufs_sub .., unary_bufs_sub .., binary_bufs_sub .., nullary_bufs_sub .., unary_bufs_sub .., binary_bufs_sub ..,
    ternary_bufs_sub .., unary_bufs_sub .., ternary_bufs_sub .., nullary_bufs_sub .., unary_bufs_sub .., binary_bufs_sub ..,
    nullary_bufs_sub .., unary_bufs_sub .., binary_bufs_sub .., unary_bufs_sub .., nullary_bufs_sub .., unary_bufs_sub ..,
    unary_bufs_sub .., ternary_bufs_sub .., nullary_bufs_sub .., unary_bufs_sub .., binary_bufs_sub .., nullary_bufs_sub ..,
    unary_bufs_sub .., binary_bufs_sub .., ternary_bufs_sub .., unary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., binary_bufs_sub .., binary_bufs_sub .., binary_bufs_sub .., nullary_bufs_sub ..,
    unary_bufs_sub .., binary_bufs_sub .., nullary_bufs_sub .., unary_bufs_sub .., binary_bufs_sub .., ternary_bufs_sub ..,
    unary_bufs_sub .., nullary_bufs_sub .., nullary_bufs_sub .., unary_bufs_sub .., binary_bufs_sub .., unary_bufs_sub ..,
    unary_bufs_sub .., binary_bufs_sub .., binary_bufs_sub .., nullary_bufs_sub .., binary_bufs_sub .., binary_bufs_sub ..,
    unary_bufs_sub .., nullary_bufs_sub .., unary_bufs_sub .., ternary_bufs_sub .., unary_bufs_sub .., unary_bufs_sub ..,
    binary_bufs_sub .., nullary_bufs_sub .., unary_bufs_sub .., nullary_bufs_sub .., unary_bufs_sub .., binary_bufs_sub ..,
    nullary_bufs_sub .., unary_bufs_sub .., binary_bufs_sub .., ternary_bufs_sub .., unary_bufs_sub .., ternary_bufs_sub ..⟩

/-- Every operation of the window determines its results. -/
theorem ops1_fresh : (ops1 : List (HloOp τ sig (Elt F))).Forall fun op => op.fresh = ∅ := by
  simp only [List.Forall]; repeat' constructor

end Cert.ReferenceIdeal.RefRun

end
-- ==== Proof.RefOps2.lean ====
/-
  Window 2 of the reference program as a list of host operations: each printed statement in order, a called
  function's statements listed at its call over that call's own buffers.
-/
import proofs.«167911_g83915071029568_cont_sun_c4_623_16_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The 86 operations of window 2, in order. -/
abbrev ops2 : List (HloOp τ sig (Elt F)) :=
  [ unary main_arg3 main_v88 (broadcastInDim S1x128 ![1] bcast_S128_S1x128_1 : (⟨S128, .f32⟩ : BufTy).Contents (Elt F) → (⟨S1x128, .f32⟩ : BufTy).Contents (Elt F)),
    unary main_v88 main_v89 (broadcastInDim S2048x128 ![0, 1] bcast_S1x128_S2048x128_0_1 : (⟨S1x128, .f32⟩ : BufTy).Contents (Elt F) → (⟨S2048x128, .f32⟩ : BufTy).Contents (Elt F)),
    binary main_v87 main_v89 main_v90 (addf : (⟨S2048x128, .f32⟩ : BufTy).Contents (Elt F) → (⟨S2048x128, .f32⟩ : BufTy).Contents (Elt F) → (⟨S2048x128, .f32⟩ : BufTy).Contents (Elt F)),
    TRef.nullary main_call15.cst (constant S_ .f32 0x00000000#32),
    TRef.unary main_call15.cst main_call15.v0 (broadcastInDim S2048x128 ![] bcast_S_S2048x128),
    TRef.binary (.of main_v90 : TRef sig ⟨S2048x128, .f32⟩) main_call15.v0 main_call15.v1 maximumf,
    nullary main_v92 (iotaInDim S2048 32 0),
    binary main_v35 main_v92 main_v93 ((fun a b => concatenate S1050624 0 [⟨S1048576, a⟩, ⟨S2048, b⟩] concatenates_S1048576_S2048_S1050624_d0) : (⟨S1048576, .i32⟩ : BufTy).Contents (Elt F) → (⟨S2048, .i32⟩ : BufTy).Contents (Elt F) → (⟨S1050624, .i32⟩ : BufTy).Contents (Elt F)),
    binary main_v38 main_v92 main_v94 ((fun a b => concatenate S1050624 0 [⟨S1048576, a⟩, ⟨S2048, b⟩] concatenates_S1048576_S2048_S1050624_d0) : (⟨S1048576, .i32⟩ : BufTy).Contents (Elt F) → (⟨S2048, .i32⟩ : BufTy).Contents (Elt F) → (⟨S1050624, .i32⟩ : BufTy).Contents (Elt F)),
    nullary main_cst_30 (constant S_ .f32 0x3F800000#32),
    unary main_cst_30 main_v95 (broadcastInDim S2048 ![] bcast_S_S2048 : (⟨S_, .f32⟩ : BufTy).Contents (Elt F) → (⟨S2048, .f32⟩ : BufTy).Contents (Elt F)),
    binary main_v32 main_v95 main_v96 ((fun a b => concatenate S1050624 0 [⟨S1048576, a⟩, ⟨S2048, b⟩] concatenates_S1048576_S2048_S1050624_d0) : (⟨S1048576, .f32⟩ : BufTy).Contents (Elt F) → (⟨S2048, .f32⟩ : BufTy).Contents (Elt F) → (⟨S1050624, .f32⟩ : BufTy).Contents (Elt F)),
    nullary main_cst_31 (constant S_ .f32 0x00000000#32),
    unary main_cst_31 main_v97 (broadcastInDim S2048 ![] bcast_S_S2048 : (⟨S_, .f32⟩ : BufTy).Contents (Elt F) → (⟨S2048, .f32⟩ : BufTy).Contents (Elt F)),
    nullary main_c_32 (constantI S_ 32 0#32),
    unary main_c_32 main_v98 (broadcastInDim S1050624 ![] bcast_S_S1050624 : (⟨S_, .i32⟩ : BufTy).Contents (Elt F) → (⟨S1050624, .i32⟩ : BufTy).Contents (Elt F)),
    binary main_v94 main_v98 main_v99 (cmpi .slt : (⟨S1050624, .i32⟩ : BufTy).Contents (Elt F) → (⟨S1050624, .i32⟩ : BufTy).Contents (Elt F) → (⟨S1050624, .i1⟩ : BufTy).Contents (Elt F)),
    nullary main_c_33 (constantI S_ 32 2048#32),
    unary main_c_33 main_v100 (broadcastInDim S1050624 ![] bcast_S_S1050624 : (⟨S_, .i32⟩ : BufTy).Contents (Elt F) → (⟨S1050624, .i32⟩ : BufTy).Contents (Elt F)),
    binary main_v94 main_v100 main_v101 (addi : (⟨S1050624, .i32⟩ : BufTy).Contents (Elt F) → (⟨S1050624, .i32⟩ : BufTy).Contents (Elt F) → (⟨S1050624, .i32⟩ : BufTy).Contents (Elt F)),
    ternary main_v99 main_v101 main_v94 main_v102 (select : (⟨S1050624, .i1⟩ : BufTy).Contents (Elt F) → (⟨S1050624, .i32⟩ : BufTy).Contents (Elt F) → (⟨S1050624, .i32⟩ : BufTy).Contents (Elt F) → (⟨S1050624, .i32⟩ : BufTy).Contents (Elt F)),
    unary main_v102 main_v103 (broadcastInDim S1050624x1 ![0] bcast_S1050624_S1050624x1_0 : (⟨S1050624, .i32⟩ : BufTy).Contents (Elt F) → (⟨S1050624x1, .i32⟩ : BufTy).Contents (Elt F)),
    ternary main_v97 main_v103 main_v96 main_v104 ((fun x i u => Host.scatterAdd scatter_S2048_S1050624x1_S1050624_n_0_0_1 x i u) : (⟨S2048, .f32⟩ : BufTy).Contents (Elt F) → (⟨S1050624x1, .i32⟩ : BufTy).Contents (Elt F) → (⟨S1050624, .f32⟩ : BufTy).Contents (Elt F) → (⟨S2048, .f32⟩ : BufTy).Contents (Elt F)),
    nullary main_cst_34 (constant S_ .f32 0x00000000#32),
    unary main_cst_34 main_v105 (broadcastInDim S2048 ![] bcast_S_S2048 : (⟨S_, .f32⟩ : BufTy).Contents (Elt F) → (⟨S2048, .f32⟩ : BufTy).Contents (Elt F)),
    binary main_v104 main_v105 main_v106 (cmpf .ogt : (⟨S2048, .f32⟩ : BufTy).Contents (Elt F) → (⟨S2048, .f32⟩ : BufTy).Contents (Elt F) → (⟨S2048, .i1⟩ : BufTy).Contents (Elt F)),
    nullary main_cst_35 (constant S_ .f32 0x2B8CBCCC#32),
    unary main_cst_35 main_v107 (broadcastInDim S2048 ![] bcast_S_S2048 : (⟨S_, .f32⟩ : BufTy).Contents (Elt F) → (⟨S2048, .f32⟩ : BufTy).Contents (Elt F)),
    binary main_v104 main_v107 main_v108 (maximumf : (⟨S2048, .f32⟩ : BufTy).Contents (Elt F) → (⟨S2048, .f32⟩ : BufTy).Contents (Elt F) → (⟨S2048, .f32⟩ : BufTy).Contents (Elt F)),
    unary main_v108 main_v109 (Host.rsqrt : (⟨S2048, .f32⟩ : BufTy).Contents (Elt F) → (⟨S2048, .f32⟩ : BufTy).Contents (Elt F)),
    nullary main_cst_36 (constant S_ .f32 0x00000000#32),
    TRef.unary (.of main_cst_36 : TRef sig ⟨S_, .f32⟩) main_call16.v0 id,
    TRef.unary main_call16.v0 main_call16.v1 (broadcastInDim S2048 ![] bcast_S_S2048),
    TRef.ternary (.of main_v106 : TRef sig ⟨S2048, .i1⟩) (.of main_v109 : TRef sig ⟨S2048, .f32⟩) main_call16.v1 main_call16.v2 select,
    nullary main_c_37 (constantI S_ 32 0#32),
    unary main_c_37 main_v111 (broadcastInDim S1050624 ![] bcast_S_S1050624 : (⟨S_, .i32⟩ : BufTy).Contents (Elt F) → (⟨S1050624, .i32⟩ : BufTy).Contents (Elt F)),
    binary main_v93 main_v111 main_v112 (cmpi .slt : (⟨S1050624, .i32⟩ : BufTy).Contents (Elt F) → (⟨S1050624, .i32⟩ : BufTy).Contents (Elt F) → (⟨S1050624, .i1⟩ : BufTy).Contents (Elt F)),
    nullary main_c_38 (constantI S_ 32 2048#32),
    unary main_c_38 main_v113 (broadcastInDim S1050624 ![] bcast_S_S1050624 : (⟨S_, .i32⟩ : BufTy).Contents (Elt F) → (⟨S1050624, .i32⟩ : BufTy).Contents (Elt F)),
    binary main_v93 main_v113 main_v114 (addi : (⟨S1050624, .i32⟩ : BufTy).Contents (Elt F) → (⟨S1050624, .i32⟩ : BufTy).Contents (Elt F) → (⟨S1050624, .i32⟩ : BufTy).Contents (Elt F)),
    ternary main_v112 main_v114 main_v93 main_v115 (select : (⟨S1050624, .i1⟩ : BufTy).Contents (Elt F) → (⟨S1050624, .i32⟩ : BufTy).Contents (Elt F) → (⟨S1050624, .i32⟩ : BufTy).Contents (Elt F) → (⟨S1050624, .i32⟩ : BufTy).Contents (Elt F)),
    unary main_v115 main_v116 (broadcastInDim S1050624x1 ![0] bcast_S1050624_S1050624x1_0 : (⟨S1050624, .i32⟩ : BufTy).Contents (Elt F) → (⟨S1050624x1, .i32⟩ : BufTy).Contents (Elt F)),
    binary main_v110 main_v116 main_v117 ((fun x i => Host.gather gather_S2048_S1050624x1_S1050624_n_0_n_n_0_1_1 x i) : (⟨S2048, .f32⟩ : BufTy).Contents (Elt F) → (⟨S1050624x1, .i32⟩ : BufTy).Contents (Elt F) → (⟨S1050624, .f32⟩ : BufTy).Contents (Elt F)),
    nullary main_c_39 (constantI S_ 32 0#32),
    unary main_c_39 main_v118 (broadcastInDim S1050624 ![] bcast_S_S1050624 : (⟨S_, .i32⟩ : BufTy).Contents (Elt F) → (⟨S1050624, .i32⟩ : BufTy).Contents (Elt F)),
    binary main_v94 main_v118 main_v119 (cmpi .slt : (⟨S1050624, .i32⟩ : BufTy).Contents (Elt F) → (⟨S1050624, .i32⟩ : BufTy).Contents (Elt F) → (⟨S1050624, .i1⟩ : BufTy).Contents (Elt F)),
    nullary main_c_40 (constantI S_ 32 2048#32),
    unary main_c_40 main_v120 (broadcastInDim S1050624 ![] bcast_S_S1050624 : (⟨S_, .i32⟩ : BufTy).Contents (Elt F) → (⟨S1050624, .i32⟩ : BufTy).Contents (Elt F)),
    binary main_v94 main_v120 main_v121 (addi : (⟨S1050624, .i32⟩ : BufTy).Contents (Elt F) → (⟨S1050624, .i32⟩ : BufTy).Contents (Elt F) → (⟨S1050624, .i32⟩ : BufTy).Contents (Elt F)),
    ternary main_v119 main_v121 main_v94 main_v122 (select : (⟨S1050624, .i1⟩ : BufTy).Contents (Elt F) → (⟨S1050624, .i32⟩ : BufTy).Contents (Elt F) → (⟨S1050624, .i32⟩ : BufTy).Contents (Elt F) → (⟨S1050624, .i32⟩ : BufTy).Contents (Elt F)),
    unary main_v122 main_v123 (broadcastInDim S1050624x1 ![0] bcast_S1050624_S1050624x1_0 : (⟨S1050624, .i32⟩ : BufTy).Contents (Elt F) → (⟨S1050624x1, .i32⟩ : BufTy).Contents (Elt F)),
    binary main_v110 main_v123 main_v124 ((fun x i => Host.gather gather_S2048_S1050624x1_S1050624_n_0_n_n_0_1_1 x i) : (⟨S2048, .f32⟩ : BufTy).Contents (Elt F) → (⟨S1050624x1, .i32⟩ : BufTy).Contents (Elt F) → (⟨S1050624, .f32⟩ : BufTy).Contents (Elt F)),
    binary main_v117 main_v124 main_v125 (mulf : (⟨S1050624, .f32⟩ : BufTy).Contents (Elt F) → (⟨S1050624, .f32⟩ : BufTy).Contents (Elt F) → (⟨S1050624, .f32⟩ : BufTy).Contents (Elt F)),
    binary main_v125 main_v96 main_v126 (mulf : (⟨S1050624, .f32⟩ : BufTy).Contents (Elt F) → (⟨S1050624, .f32⟩ : BufTy).Contents (Elt F) → (⟨S1050624, .f32⟩ : BufTy).Contents (Elt F)),
    binary main_v91 main_arg4 main_v127 ((fun l r => Host.dotGeneral dot_S2048x128_S128x128_S2048x128_1_0_0_1_n_n none l r) : (⟨S2048x128, .f32⟩ : BufTy).Contents (Elt F) → (⟨S128x128, .f32⟩ : BufTy).Contents (Elt F) → (⟨S2048x128, .f32⟩ : BufTy).Contents (Elt F)),
    TRef.nullary main_call17.c (constantI S_ 32 0#32),
    TRef.unary main_call17.c main_call17.v0 (broadcastInDim S1050624 ![] bcast_S_S1050624),
    TRef.binary (.of main_v93 : TRef sig ⟨S1050624, .i32⟩) main_call17.v0 main_call17.v1 (cmpi .slt),
    TRef.nullary main_call17.c_0 (constantI S_ 32 2048#32),
    TRef.unary main_call17.c_0 main_call17.v2 (broadcastInDim S1050624 ![] bcast_S_S1050624),
    TRef.binary (.of main_v93 : TRef sig ⟨S1050624, .i32⟩) main_call17.v2 main_call17.v3 addi,
    TRef.ternary main_call17.v1 main_call17.v3 (.of main_v93 : TRef sig ⟨S1050624, .i32⟩) main_call17.call0.v0 select,
    TRef.unary main_call17.call0.v0 main_call17.v5 (broadcastInDim S1050624x1 ![0] bcast_S1050624_S1050624x1_0),
    TRef.nullary main_call17.c_1 (constantI S1 32 2047#32),
    TRef.nullary main_call17.c_2 (constantI S_ 32 0#32),
    TRef.unary main_call17.c_2 main_call17.v6 (broadcastInDim S1050624x1 ![] bcast_S_S1050624x1),
    TRef.binary main_call17.v5 main_call17.v6 main_call17.v7 (cmpi .sge),
    TRef.unary main_call17.c_1 main_call17.v8 (broadcastInDim S1x1 ![1] bcast_S1_S1x1_1),
    TRef.unary main_call17.v8 main_call17.v9 (broadcastInDim S1050624x1 ![0, 1] bcast_S1x1_S1050624x1_0_1),
    TRef.binary main_call17.v5 main_call17.v9 main_call17.v10 (cmpi .sle),
    TRef.binary main_call17.v7 main_call17.v10 main_call17.v11 andi,
    TRef.nullary main_call17.c_3 (constantI S_ 1 1#1),
    TRef.binary main_call17.v11 main_call17.c_3 main_call17.v12 (fun x v => Host.reduce IntOp.andi x v reducesTo_S1050624x1_S1050624_d1 h_S_),
    TRef.binary (.of main_v127 : TRef sig ⟨S2048x128, .f32⟩) main_call17.v5 main_call17.v13 (fun x i => Host.gather gather_S2048x128_S1050624x1_S1050624x128_1_0_n_n_0_1_1128 x i),
    TRef.unary main_call17.v12 main_call17.v14 (broadcastInDim S1050624x128 ![0] bcast_S1050624_S1050624x128_0),
    TRef.nullary main_call17.cst (constant S_ .f32 0x7FC00000#32),
    TRef.unary main_call17.cst main_call17.v15 (broadcastInDim S1050624x128 ![] bcast_S_S1050624x128),
    TRef.ternary main_call17.v14 main_call17.v13 main_call17.v15 main_call17.v16 select,
    unary main_v126 main_v129 (broadcastInDim S1050624x1 ![0] bcast_S1050624_S1050624x1_0 : (⟨S1050624, .f32⟩ : BufTy).Contents (Elt F) → (⟨S1050624x1, .f32⟩ : BufTy).Contents (Elt F)),
    unary main_v129 main_v130 (broadcastInDim S1050624x128 ![0, 1] bcast_S1050624x1_S1050624x128_0_1 : (⟨S1050624x1, .f32⟩ : BufTy).Contents (Elt F) → (⟨S1050624x128, .f32⟩ : BufTy).Contents (Elt F)),
    binary main_v128 main_v130 main_v131 (mulf : (⟨S1050624x128, .f32⟩ : BufTy).Contents (Elt F) → (⟨S1050624x128, .f32⟩ : BufTy).Contents (Elt F) → (⟨S1050624x128, .f32⟩ : BufTy).Contents (Elt F)),
    nullary main_cst_41 (constant S_ .f32 0x00000000#32),
    unary main_cst_41 main_v132 (broadcastInDim S2048x128 ![] bcast_S_S2048x128 : (⟨S_, .f32⟩ : BufTy).Contents (Elt F) → (⟨S2048x128, .f32⟩ : BufTy).Contents (Elt F)),
    nullary main_c_42 (constantI S_ 32 0#32),
    unary main_c_42 main_v133 (broadcastInDim S1050624 ![] bcast_S_S1050624 : (⟨S_, .i32⟩ : BufTy).Contents (Elt F) → (⟨S1050624, .i32⟩ : BufTy).Contents (Elt F)),
    binary main_v94 main_v133 main_v134 (cmpi .slt : (⟨S1050624, .i32⟩ : BufTy).Contents (Elt F) → (⟨S1050624, .i32⟩ : BufTy).Contents (Elt F) → (⟨S1050624, .i1⟩ : BufTy).Contents (Elt F)) ]

set_option maxRecDepth 8192 in
set_option maxHeartbeats 4000000 in
/-- The window is that straight line: the called functions unfolded at their calls, sequencing reassociated. -/
theorem part2_eq (c : Dev nD) : main_part2 (F := F) c = seq ops2 := by
  simp only [main_part2, fn_cumsum_0.body, fn_cumsum.body, fn_clip.body, fn_cumsum_1.body, fn_where.body, fn_floor_divide.body, fn_where_2.body, fn_remainder.body, fn_where_3.body, fn_count_nonzero.body, fn_where_4.body, fn_where_5.body, fn_take.body, fn_relu.body, seq, bind_assoc, pure_bind] <;> rfl

/-- Every operation of the window touches TensorCore buffers only. -/
theorem ops2_sub : (ops2 : List (HloOp τ sig (Elt F))).Forall fun op => op.bufs ⊆ tcRefs τ sig :=
  ⟨unary_bufs_sub .., unary_bufs_sub .., binary_bufs_sub .., nullary_bufs_sub .., unary_bufs_sub .., binary_bufs_sub ..,
    nullary_bufs_sub .., binary_bufs_sub .., binary_bufs_sub .., nullary_bufs_sub .., unary_bufs_sub .., binary_bufs_sub ..,
    nullary_bufs_sub .., unary_bufs_sub .., nullary_bufs_sub .., unary_bufs_sub .., binary_bufs_sub .., nullary_bufs_sub ..,
    unary_bufs_sub .., binary_bufs_sub .., ternary_bufs_sub .., unary_bufs_sub .., ternary_bufs_sub .., nullary_bufs_sub ..,
    unary_bufs_sub .., binary_bufs_sub .., nullary_bufs_sub .., unary_bufs_sub .., binary_bufs_sub .., unary_bufs_sub ..,
    nullary_bufs_sub .., unary_bufs_sub .., unary_bufs_sub .., ternary_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., binary_bufs_sub .., binary_bufs_sub ..,
    binary_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., unary_bufs_sub .., nullary_bufs_sub .., unary_bufs_sub .., ternary_bufs_sub ..,
    unary_bufs_sub .., unary_bufs_sub .., binary_bufs_sub .., nullary_bufs_sub .., unary_bufs_sub .., nullary_bufs_sub ..,
    unary_bufs_sub .., binary_bufs_sub ..⟩

/-- Every operation of the window determines its results. -/
theorem ops2_fresh : (ops2 : List (HloOp τ sig (Elt F))).Forall fun op => op.fresh = ∅ := by
  simp only [List.Forall]; repeat' constructor

end Cert.ReferenceIdeal.RefRun

end
-- ==== Proof.RefOps3.lean ====
/-
  Window 3 of the reference program as a list of host operations: each printed statement in order, a called
  function's statements listed at its call over that call's own buffers.
-/
import proofs.«167911_g83915071029568_cont_sun_c4_623_16_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The 25 operations of window 3, in order. -/
abbrev ops3 : List (HloOp τ sig (Elt F)) :=
  [ nullary main_c_43 (constantI S_ 32 2048#32),
    unary main_c_43 main_v135 (broadcastInDim S1050624 ![] bcast_S_S1050624 : (⟨S_, .i32⟩ : BufTy).Contents (Elt F) → (⟨S1050624, .i32⟩ : BufTy).Contents (Elt F)),
    binary main_v94 main_v135 main_v136 (addi : (⟨S1050624, .i32⟩ : BufTy).Contents (Elt F) → (⟨S1050624, .i32⟩ : BufTy).Contents (Elt F) → (⟨S1050624, .i32⟩ : BufTy).Contents (Elt F)),
    ternary main_v134 main_v136 main_v94 main_v137 (select : (⟨S1050624, .i1⟩ : BufTy).Contents (Elt F) → (⟨S1050624, .i32⟩ : BufTy).Contents (Elt F) → (⟨S1050624, .i32⟩ : BufTy).Contents (Elt F) → (⟨S1050624, .i32⟩ : BufTy).Contents (Elt F)),
    unary main_v137 main_v138 (broadcastInDim S1050624x1 ![0] bcast_S1050624_S1050624x1_0 : (⟨S1050624, .i32⟩ : BufTy).Contents (Elt F) → (⟨S1050624x1, .i32⟩ : BufTy).Contents (Elt F)),
    ternary main_v132 main_v138 main_v131 main_v139 ((fun x i u => Host.scatterAdd scatter_S2048x128_S1050624x1_S1050624x128_1_0_0_1 x i u) : (⟨S2048x128, .f32⟩ : BufTy).Contents (Elt F) → (⟨S1050624x1, .i32⟩ : BufTy).Contents (Elt F) → (⟨S1050624x128, .f32⟩ : BufTy).Contents (Elt F) → (⟨S2048x128, .f32⟩ : BufTy).Contents (Elt F)),
    unary main_arg5 main_v140 (broadcastInDim S1x128 ![1] bcast_S128_S1x128_1 : (⟨S128, .f32⟩ : BufTy).Contents (Elt F) → (⟨S1x128, .f32⟩ : BufTy).Contents (Elt F)),
    unary main_v140 main_v141 (broadcastInDim S2048x128 ![0, 1] bcast_S1x128_S2048x128_0_1 : (⟨S1x128, .f32⟩ : BufTy).Contents (Elt F) → (⟨S2048x128, .f32⟩ : BufTy).Contents (Elt F)),
    binary main_v139 main_v141 main_v142 (addf : (⟨S2048x128, .f32⟩ : BufTy).Contents (Elt F) → (⟨S2048x128, .f32⟩ : BufTy).Contents (Elt F) → (⟨S2048x128, .f32⟩ : BufTy).Contents (Elt F)),
    nullary main_v143 (iotaInDim S4 32 0),
    unary main_v143 main_v144 (broadcastInDim S4x512 ![0] bcast_S4_S4x512_0 : (⟨S4, .i32⟩ : BufTy).Contents (Elt F) → (⟨S4x512, .i32⟩ : BufTy).Contents (Elt F)),
    reshape main_v144 main_v145 rfl shapeCasts_S4x512_S2048,
    nullary main_cst_44 (constant S_ .f32 0x00000000#32),
    unary main_cst_44 main_v146 (broadcastInDim S4x128 ![] bcast_S_S4x128 : (⟨S_, .f32⟩ : BufTy).Contents (Elt F) → (⟨S4x128, .f32⟩ : BufTy).Contents (Elt F)),
    unary main_v145 main_v147 (broadcastInDim S2048x1 ![0] bcast_S2048_S2048x1_0 : (⟨S2048, .i32⟩ : BufTy).Contents (Elt F) → (⟨S2048x1, .i32⟩ : BufTy).Contents (Elt F)),
    ternary main_v146 main_v147 main_v142 main_v148 ((fun x i u => Host.scatterAdd scatter_S4x128_S2048x1_S2048x128_1_0_0_1 x i u) : (⟨S4x128, .f32⟩ : BufTy).Contents (Elt F) → (⟨S2048x1, .i32⟩ : BufTy).Contents (Elt F) → (⟨S2048x128, .f32⟩ : BufTy).Contents (Elt F) → (⟨S4x128, .f32⟩ : BufTy).Contents (Elt F)),
    nullary main_cst_45 (constant S_ .f32 0x3F800000#32),
    unary main_cst_45 main_v149 (broadcastInDim S2048 ![] bcast_S_S2048 : (⟨S_, .f32⟩ : BufTy).Contents (Elt F) → (⟨S2048, .f32⟩ : BufTy).Contents (Elt F)),
    nullary main_cst_46 (constant S_ .f32 0x00000000#32),
    unary main_cst_46 main_v150 (broadcastInDim S4 ![] bcast_S_S4 : (⟨S_, .f32⟩ : BufTy).Contents (Elt F) → (⟨S4, .f32⟩ : BufTy).Contents (Elt F)),
    unary main_v145 main_v151 (broadcastInDim S2048x1 ![0] bcast_S2048_S2048x1_0 : (⟨S2048, .i32⟩ : BufTy).Contents (Elt F) → (⟨S2048x1, .i32⟩ : BufTy).Contents (Elt F)),
    ternary main_v150 main_v151 main_v149 main_v152 ((fun x i u => Host.scatterAdd scatter_S4_S2048x1_S2048_n_0_0_1 x i u) : (⟨S4, .f32⟩ : BufTy).Contents (Elt F) → (⟨S2048x1, .i32⟩ : BufTy).Contents (Elt F) → (⟨S2048, .f32⟩ : BufTy).Contents (Elt F) → (⟨S4, .f32⟩ : BufTy).Contents (Elt F)),
    unary main_v152 main_v153 (broadcastInDim S4x1 ![0] bcast_S4_S4x1_0 : (⟨S4, .f32⟩ : BufTy).Contents (Elt F) → (⟨S4x1, .f32⟩ : BufTy).Contents (Elt F)),
    unary main_v153 main_v154 (broadcastInDim S4x128 ![0, 1] bcast_S4x1_S4x128_0_1 : (⟨S4x1, .f32⟩ : BufTy).Contents (Elt F) → (⟨S4x128, .f32⟩ : BufTy).Contents (Elt F)),
    binary main_v148 main_v154 main_v155 (Host.divf : (⟨S4x128, .f32⟩ : BufTy).Contents (Elt F) → (⟨S4x128, .f32⟩ : BufTy).Contents (Elt F) → (⟨S4x128, .f32⟩ : BufTy).Contents (Elt F)) ]

set_option maxRecDepth 8192 in
set_option maxHeartbeats 4000000 in
/-- The window is that straight line: the called functions unfolded at their calls, sequencing reassociated. -/
theorem part3_eq (c : Dev nD) : main_part3 (F := F) c = seq ops3 := by
  simp only [main_part3, fn_cumsum_0.body, fn_cumsum.body, fn_clip.body, fn_cumsum_1.body, fn_where.body, fn_floor_divide.body, fn_where_2.body, fn_remainder.body, fn_where_3.body, fn_count_nonzero.body, fn_where_4.body, fn_where_5.body, fn_take.body, fn_relu.body, seq, bind_assoc, pure_bind] <;> rfl

/-- Every operation of the window touches TensorCore buffers only. -/
theorem ops3_sub : (ops3 : List (HloOp τ sig (Elt F))).Forall fun op => op.bufs ⊆ tcRefs τ sig :=
  ⟨nullary_bufs_sub .., unary_bufs_sub .., binary_bufs_sub .., ternary_bufs_sub .., unary_bufs_sub .., ternary_bufs_sub ..,
    unary_bufs_sub .., unary_bufs_sub .., binary_bufs_sub .., nullary_bufs_sub .., unary_bufs_sub .., reshape_bufs_sub ..,
    nullary_bufs_sub .., unary_bufs_sub .., unary_bufs_sub .., ternary_bufs_sub .., nullary_bufs_sub .., unary_bufs_sub ..,
    nullary_bufs_sub .., unary_bufs_sub .., unary_bufs_sub .., ternary_bufs_sub .., unary_bufs_sub .., unary_bufs_sub ..,
    binary_bufs_sub ..⟩

/-- Every operation of the window determines its results. -/
theorem ops3_fresh : (ops3 : List (HloOp τ sig (Elt F))).Forall fun op => op.fresh = ∅ := by
  simp only [List.Forall]; repeat' constructor

end Cert.ReferenceIdeal.RefRun

end
-- ==== Proof.RefRun.lean ====
/-
  The reference program's run: its four windows one after the other are one straight line of host operations, so every
  weakly fair execution terminates and leaves each buffer at the fold of the operations' results over the launch contents.
-/
import proofs.«167911_g83915071029568_cont_sun_c4_623_16_alg».proof.Proof.RefOps0
import proofs.«167911_g83915071029568_cont_sun_c4_623_16_alg».proof.Proof.RefOps1
import proofs.«167911_g83915071029568_cont_sun_c4_623_16_alg».proof.Proof.RefOps2
import proofs.«167911_g83915071029568_cont_sun_c4_623_16_alg».proof.Proof.RefOps3

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- All the program's operations, window after window. -/
def ops : List (HloOp τ sig (Elt F)) := ops0 ++ (ops1 ++ (ops2 ++ ops3))

theorem main_eq (c : Dev nD) : main (F := F) c = seq ops := by
  simp only [main, part0_eq, part1_eq, part2_eq, part3_eq, ops, seq_append]

theorem scopedRefs_eq : (Finset.univ.filter fun b : Ref sig .tc => b.isScoped) = ∅ := by decide
theorem scopedSems_eq : (Finset.univ.filter fun sm : SemLoc sig => sm.isScoped .tc) = ∅ := by decide

theorem forall_append {p : HloOp τ sig (Elt F) → Prop} {l₁ l₂ : List (HloOp τ sig (Elt F))}
    (h₁ : l₁.Forall p) (h₂ : l₂.Forall p) : (l₁ ++ l₂).Forall p :=
  List.forall_iff_forall_mem.mpr fun op h =>
    (List.mem_append.mp h).elim (List.forall_iff_forall_mem.mp h₁ op) (List.forall_iff_forall_mem.mp h₂ op)

theorem ops_sub : (ops : List (HloOp τ sig (Elt F))).Forall fun op => op.bufs ⊆ tcRefs τ sig :=
  forall_append ops0_sub (forall_append ops1_sub (forall_append ops2_sub ops3_sub))

theorem ops_fresh : ∀ op ∈ (ops : List (HloOp τ sig (Elt F))), op.fresh = ∅ :=
  List.forall_iff_forall_mem.mp (forall_append ops0_fresh (forall_append ops1_fresh (forall_append ops2_fresh ops3_fresh)))

/-- Every weakly fair execution of the reference terminates with each TensorCore buffer at the operations' fold over the
    launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.RefRun

end
-- ==== Proof.LibRunPieces.lean ====
/-
  Two facts for reading a long host program's run in pieces.

  The buffer contents after a list of host operations are a fold of the operations' results.  Over a concatenation the
  fold runs the first part and then the second from what the first left: a long program can be read up to an intermediate
  buffer and then from it, instead of as one term.

  An operation of a called function is stated at the tensor value's type and carried to the buffer's own type and back
  along the reference's type equation.  Carrying there and back is the identity, whatever the equation's proof: where one
  operation's output feeds the next, the two carryings cancel by rewriting, and nothing has to be unfolded.  (Left to
  definitional unfolding, a reduction over a large shape on one side and its carried form on the other can make the
  unifier evaluate the reduction.)
-/
import Idealize.ShloMosaic.Lib.StableHlo.Run

noncomputable section

namespace Cert.Lib.RunPieces

open Idealize.ShloMosaic Idealize.ShloMosaic.StableHlo

variable {τ : Topo} {sig : RefSig} {Val : EltTy → Type}

/-- Running a concatenation of operations is running its halves in turn. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

/-- Contents carried to a typed reference's own buffer type and back are the contents. -/
theorem ofBuf_toBuf {T : BufTy} (x : TRef sig T) (v : T.Contents Val) : x.ofBuf (x.toBuf v) = v := by
  unfold TRef.ofBuf TRef.toBuf
  rw [cast_cast, cast_eq]

/-- Contents of the buffer's own type carried to the value's type and back are the contents. -/
theorem toBuf_ofBuf {T : BufTy} (x : TRef sig T) (w : x.ref.ty.Contents Val) : x.toBuf (x.ofBuf w) = w := by
  unfold TRef.ofBuf TRef.toBuf
  rw [cast_cast, cast_eq]

end Cert.Lib.RunPieces

end
-- ==== Proof.RefKept.lean ====
/-
  The reference program never writes its six argument buffers: after each window, and so after the whole program, each
  still holds its launch contents.
-/
import proofs.«167911_g83915071029568_cont_sun_c4_623_16_alg».proof.Proof.RefRun
import proofs.«167911_g83915071029568_cont_sun_c4_623_16_alg».proof.Proof.LibRunPieces

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
theorem kept0_arg0 (V : Valuation τ sig (Elt F)) : after (ops0 (F := F)) V (main_arg0 : DevRef τ sig) = V (main_arg0 : DevRef τ sig) := by
  after_results_simp

set_option maxRecDepth 8192 in
theorem kept0_arg1 (V : Valuation τ sig (Elt F)) : after (ops0 (F := F)) V (main_arg1 : DevRef τ sig) = V (main_arg1 : DevRef τ sig) := by
  after_results_simp

set_option maxRecDepth 8192 in
theorem kept0_arg2 (V : Valuation τ sig (Elt F)) : after (ops0 (F := F)) V (main_arg2 : DevRef τ sig) = V (main_arg2 : DevRef τ sig) := by
  after_results_simp

set_option maxRecDepth 8192 in
theorem kept0_arg3 (V : Valuation τ sig (Elt F)) : after (ops0 (F := F)) V (main_arg3 : DevRef τ sig) = V (main_arg3 : DevRef τ sig) := by
  after_results_simp

set_option maxRecDepth 8192 in
theorem kept0_arg4 (V : Valuation τ sig (Elt F)) : after (ops0 (F := F)) V (main_arg4 : DevRef τ sig) = V (main_arg4 : DevRef τ sig) := by
  after_results_simp

set_option maxRecDepth 8192 in
theorem kept0_arg5 (V : Valuation τ sig (Elt F)) : after (ops0 (F := F)) V (main_arg5 : DevRef τ sig) = V (main_arg5 : DevRef τ sig) := by
  after_results_simp

set_option maxRecDepth 8192 in
theorem kept1_arg0 (V : Valuation τ sig (Elt F)) : after (ops1 (F := F)) V (main_arg0 : DevRef τ sig) = V (main_arg0 : DevRef τ sig) := by
  after_results_simp

set_option maxRecDepth 8192 in
theorem kept1_arg1 (V : Valuation τ sig (Elt F)) : after (ops1 (F := F)) V (main_arg1 : DevRef τ sig) = V (main_arg1 : DevRef τ sig) := by
  after_results_simp

set_option maxRecDepth 8192 in
theorem kept1_arg2 (V : Valuation τ sig (Elt F)) : after (ops1 (F := F)) V (main_arg2 : DevRef τ sig) = V (main_arg2 : DevRef τ sig) := by
  after_results_simp

set_option maxRecDepth 8192 in
theorem kept1_arg3 (V : Valuation τ sig (Elt F)) : after (ops1 (F := F)) V (main_arg3 : DevRef τ sig) = V (main_arg3 : DevRef τ sig) := by
  after_results_simp

set_option maxRecDepth 8192 in
theorem kept1_arg4 (V : Valuation τ sig (Elt F)) : after (ops1 (F := F)) V (main_arg4 : DevRef τ sig) = V (main_arg4 : DevRef τ sig) := by
  after_results_simp

set_option maxRecDepth 8192 in
theorem kept1_arg5 (V : Valuation τ sig (Elt F)) : after (ops1 (F := F)) V (main_arg5 : DevRef τ sig) = V (main_arg5 : DevRef τ sig) := by
  after_results_simp

set_option maxRecDepth 8192 in
theorem kept2_arg0 (V : Valuation τ sig (Elt F)) : after (ops2 (F := F)) V (main_arg0 : DevRef τ sig) = V (main_arg0 : DevRef τ sig) := by
  after_results_simp

set_option maxRecDepth 8192 in
theorem kept2_arg1 (V : Valuation τ sig (Elt F)) : after (ops2 (F := F)) V (main_arg1 : DevRef τ sig) = V (main_arg1 : DevRef τ sig) := by
  after_results_simp

set_option maxRecDepth 8192 in
theorem kept2_arg2 (V : Valuation τ sig (Elt F)) : after (ops2 (F := F)) V (main_arg2 : DevRef τ sig) = V (main_arg2 : DevRef τ sig) := by
  after_results_simp

set_option maxRecDepth 8192 in
theorem kept2_arg3 (V : Valuation τ sig (Elt F)) : after (ops2 (F := F)) V (main_arg3 : DevRef τ sig) = V (main_arg3 : DevRef τ sig) := by
  after_results_simp

set_option maxRecDepth 8192 in
theorem kept2_arg4 (V : Valuation τ sig (Elt F)) : after (ops2 (F := F)) V (main_arg4 : DevRef τ sig) = V (main_arg4 : DevRef τ sig) := by
  after_results_simp

set_option maxRecDepth 8192 in
theorem kept2_arg5 (V : Valuation τ sig (Elt F)) : after (ops2 (F := F)) V (main_arg5 : DevRef τ sig) = V (main_arg5 : DevRef τ sig) := by
  after_results_simp

set_option maxRecDepth 8192 in
theorem kept3_arg0 (V : Valuation τ sig (Elt F)) : after (ops3 (F := F)) V (main_arg0 : DevRef τ sig) = V (main_arg0 : DevRef τ sig) := by
  after_results_simp

set_option maxRecDepth 8192 in
theorem kept3_arg1 (V : Valuation τ sig (Elt F)) : after (ops3 (F := F)) V (main_arg1 : DevRef τ sig) = V (main_arg1 : DevRef τ sig) := by
  after_results_simp

set_option maxRecDepth 8192 in
theorem kept3_arg2 (V : Valuation τ sig (Elt F)) : after (ops3 (F := F)) V (main_arg2 : DevRef τ sig) = V (main_arg2 : DevRef τ sig) := by
  after_results_simp

set_option maxRecDepth 8192 in
theorem kept3_arg3 (V : Valuation τ sig (Elt F)) : after (ops3 (F := F)) V (main_arg3 : DevRef τ sig) = V (main_arg3 : DevRef τ sig) := by
  after_results_simp

set_option maxRecDepth 8192 in
theorem kept3_arg4 (V : Valuation τ sig (Elt F)) : after (ops3 (F := F)) V (main_arg4 : DevRef τ sig) = V (main_arg4 : DevRef τ sig) := by
  after_results_simp

set_option maxRecDepth 8192 in
theorem kept3_arg5 (V : Valuation τ sig (Elt F)) : after (ops3 (F := F)) V (main_arg5 : DevRef τ sig) = V (main_arg5 : DevRef τ sig) := by
  after_results_simp

/-- Argument 0 after the whole program. -/
theorem kept_arg0 (V : Valuation τ sig (Elt F)) : after (ops (F := F)) V (main_arg0 : DevRef τ sig) = V (main_arg0 : DevRef τ sig) := by
  unfold ops
  rw [Cert.Lib.RunPieces.after_append, Cert.Lib.RunPieces.after_append, Cert.Lib.RunPieces.after_append,
    kept3_arg0, kept2_arg0, kept1_arg0, kept0_arg0]

/-- Argument 1 after the whole program. -/
theorem kept_arg1 (V : Valuation τ sig (Elt F)) : after (ops (F := F)) V (main_arg1 : DevRef τ sig) = V (main_arg1 : DevRef τ sig) := by
  unfold ops
  rw [Cert.Lib.RunPieces.after_append, Cert.Lib.RunPieces.after_append, Cert.Lib.RunPieces.after_append,
    kept3_arg1, kept2_arg1, kept1_arg1, kept0_arg1]

/-- Argument 2 after the whole program. -/
theorem kept_arg2 (V : Valuation τ sig (Elt F)) : after (ops (F := F)) V (main_arg2 : DevRef τ sig) = V (main_arg2 : DevRef τ sig) := by
  unfold ops
  rw [Cert.Lib.RunPieces.after_append, Cert.Lib.RunPieces.after_append, Cert.Lib.RunPieces.after_append,
    kept3_arg2, kept2_arg2, kept1_arg2, kept0_arg2]

/-- Argument 3 after the whole program. -/
theorem kept_arg3 (V : Valuation τ sig (Elt F)) : after (ops (F := F)) V (main_arg3 : DevRef τ sig) = V (main_arg3 : DevRef τ sig) := by
  unfold ops
  rw [Cert.Lib.RunPieces.after_append, Cert.Lib.RunPieces.after_append, Cert.Lib.RunPieces.after_append,
    kept3_arg3, kept2_arg3, kept1_arg3, kept0_arg3]

/-- Argument 4 after the whole program. -/
theorem kept_arg4 (V : Valuation τ sig (Elt F)) : after (ops (F := F)) V (main_arg4 : DevRef τ sig) = V (main_arg4 : DevRef τ sig) := by
  unfold ops
  rw [Cert.Lib.RunPieces.after_append, Cert.Lib.RunPieces.after_append, Cert.Lib.RunPieces.after_append,
    kept3_arg4, kept2_arg4, kept1_arg4, kept0_arg4]

/-- Argument 5 after the whole program. -/
theorem kept_arg5 (V : Valuation τ sig (Elt F)) : after (ops (F := F)) V (main_arg5 : DevRef τ sig) = V (main_arg5 : DevRef τ sig) := by
  unfold ops
  rw [Cert.Lib.RunPieces.after_append, Cert.Lib.RunPieces.after_append, Cert.Lib.RunPieces.after_append,
    kept3_arg5, kept2_arg5, kept1_arg5, kept0_arg5]

end Cert.ReferenceIdeal.RefRun

end
-- ==== Proof.RefSegs.lean ====
/-
  The reference program's operation lists cut into stages: each stage is the short run of operations that computes one
  meaningful intermediate (a running count, a decoded coordinate, a degree vector, a message table, …).
-/
import proofs.«167911_g83915071029568_cont_sun_c4_623_16_alg».proof.Proof.RefRun

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Stage 0 of window 0: 8 operations, the last writing `main_call0.call0.v1`. -/
abbrev seg0_0 : List (HloOp τ sig (Elt F)) :=
  [ nullary main_cst (constant S_ .f32 0x00000000#32),
    unary main_cst main_v0 (broadcastInDim S4x512x512 ![] bcast_S_S4x512x512 : (⟨S_, .f32⟩ : BufTy).Contents (Elt F) → (⟨S4x512x512, .f32⟩ : BufTy).Contents (Elt F)),
    binary main_arg1 main_v0 main_v1 (cmpf .une : (⟨S4x512x512, .f32⟩ : BufTy).Contents (Elt F) → (⟨S4x512x512, .f32⟩ : BufTy).Contents (Elt F) → (⟨S4x512x512, .i1⟩ : BufTy).Contents (Elt F)),
    TRef.reshape (.of main_v1 : TRef sig ⟨S4x512x512, .i1⟩) main_call0.v0 rfl shapeCasts_S4x512x512_S1048576,
    TRef.unary main_call0.v0 main_call0.v1 (extui 32 · natLt_1_32),
    TRef.nullary main_call0.call0.c (constantI S_ 32 0#32),
    TRef.unary main_call0.call0.c main_call0.call0.v0 (broadcastInDim S_ ![] bcast_S_S_),
    TRef.binary main_call0.v1 main_call0.call0.v0 main_call0.call0.v1 (fun x v => Host.reduceWindow IntOp.addi ![1048576] ![1] ![1048575] ![0] x v reduceWindows_S1048576_S1048576_w1048576s1p1048575_0 h_S_) ]

/-- Stage 1 of window 0: 17 operations, the last writing `main_v12`. -/
abbrev seg0_1 : List (HloOp τ sig (Elt F)) :=
  [ nullary main_c (constantI S_ 32 0#32),
    unary main_c main_v3 (broadcastInDim S1048576 ![] bcast_S_S1048576 : (⟨S_, .i32⟩ : BufTy).Contents (Elt F) → (⟨S1048576, .i32⟩ : BufTy).Contents (Elt F)),
    nullary main_c_0 (constantI S_ 32 0#32),
    TRef.unary (.of main_c_0 : TRef sig ⟨S_, .i32⟩) main_call1.v0 id,
    TRef.unary main_call1.v0 main_call1.v1 (broadcastInDim S1048576 ![] bcast_S_S1048576),
    TRef.binary main_call1.v1 (.of main_v2 : TRef sig ⟨S1048576, .i32⟩) main_call1.v2 maxsi,
    nullary main_c_1 (constantI S_ 32 0#32),
    unary main_c_1 main_v5 (broadcastInDim S1048576 ![] bcast_S_S1048576 : (⟨S_, .i32⟩ : BufTy).Contents (Elt F) → (⟨S1048576, .i32⟩ : BufTy).Contents (Elt F)),
    binary main_v4 main_v5 main_v6 (cmpi .slt : (⟨S1048576, .i32⟩ : BufTy).Contents (Elt F) → (⟨S1048576, .i32⟩ : BufTy).Contents (Elt F) → (⟨S1048576, .i1⟩ : BufTy).Contents (Elt F)),
    nullary main_c_2 (constantI S_ 32 1048576#32),
    unary main_c_2 main_v7 (broadcastInDim S1048576 ![] bcast_S_S1048576 : (⟨S_, .i32⟩ : BufTy).Contents (Elt F) → (⟨S1048576, .i32⟩ : BufTy).Contents (Elt F)),
    binary main_v4 main_v7 main_v8 (addi : (⟨S1048576, .i32⟩ : BufTy).Contents (Elt F) → (⟨S1048576, .i32⟩ : BufTy).Contents (Elt F) → (⟨S1048576, .i32⟩ : BufTy).Contents (Elt F)),
    ternary main_v6 main_v8 main_v4 main_v9 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    unary main_v9 main_v10 (broadcastInDim S1048576x1 ![0] bcast_S1048576_S1048576x1_0 : (⟨S1048576, .i32⟩ : BufTy).Contents (Elt F) → (⟨S1048576x1, .i32⟩ : BufTy).Contents (Elt F)),
    nullary main_c_3 (constantI S_ 32 1#32),
    unary main_c_3 main_v11 (broadcastInDim S1048576 ![] bcast_S_S1048576 : (⟨S_, .i32⟩ : BufTy).Contents (Elt F) → (⟨S1048576, .i32⟩ : BufTy).Contents (Elt F)),
    ternary main_v3 main_v10 main_v11 main_v12 ((fun x i u => Host.scatter scatter_S1048576_S1048576x1_S1048576_n_0_0_1 IntOp.addi x i u) : (⟨S1048576, .i32⟩ : BufTy).Contents (Elt F) → (⟨S1048576x1, .i32⟩ : BufTy).Contents (Elt F) → (⟨S1048576, .i32⟩ : BufTy).Contents (Elt F) → (⟨S1048576, .i32⟩ : BufTy).Contents (Elt F)) ]

/-- Stage 2 of window 0: 3 operations, the last writing `main_call2.call0.v1`. -/
abbrev seg0_2 : List (HloOp τ sig (Elt F)) :=
  [ TRef.nullary main_call2.call0.c (constantI S_ 32 0#32),
    TRef.unary main_call2.call0.c main_call2.call0.v0 (broadcastInDim S_ ![] bcast_S_S_),
    TRef.binary (.of main_v12 : TRef sig ⟨S1048576, .i32⟩) main_call2.call0.v0 main_call2.call0.v1 (fun x v => Host.reduceWindow IntOp.addi ![1048576] ![1] ![1048575] ![0] x v reduceWindows_S1048576_S1048576_w1048576s1p1048575_0 h_S_) ]

/-- Stage 3 of window 0: 39 operations, the last writing `main_call4.v15`. -/
abbrev seg0_3 : List (HloOp τ sig (Elt F)) :=
  [ nullary main_c_4 (constantI S_ 32 262144#32),
    TRef.unary (.of main_c_4 : TRef sig ⟨S_, .i32⟩) main_call3.v0 (broadcastInDim S1048576 ![] bcast_S_S1048576),
    TRef.binary (.of main_v13 : TRef sig ⟨S1048576, .i32⟩) main_call3.v0 main_call3.v1 Host.divsi,
    TRef.unary (.of main_v13 : TRef sig ⟨S1048576, .i32⟩) main_call3.v2 signi,
    TRef.unary (.of main_c_4 : TRef sig ⟨S_, .i32⟩) main_call3.v3 signi,
    TRef.unary main_call3.v3 main_call3.v4 (broadcastInDim S1048576 ![] bcast_S_S1048576),
    TRef.binary main_call3.v2 main_call3.v4 main_call3.v5 (cmpi .ne),
    TRef.unary (.of main_c_4 : TRef sig ⟨S_, .i32⟩) main_call3.v6 (broadcastInDim S1048576 ![] bcast_S_S1048576),
    TRef.binary (.of main_v13 : TRef sig ⟨S1048576, .i32⟩) main_call3.v6 main_call3.v7 Host.remsi,
    TRef.nullary main_call3.c (constantI S_ 32 0#32),
    TRef.unary main_call3.c main_call3.v8 (broadcastInDim S1048576 ![] bcast_S_S1048576),
    TRef.binary main_call3.v7 main_call3.v8 main_call3.v9 (cmpi .ne),
    TRef.binary main_call3.v5 main_call3.v9 main_call3.v10 andi,
    TRef.nullary main_call3.c_0 (constantI S_ 32 1#32),
    TRef.unary main_call3.c_0 main_call3.v11 (broadcastInDim S1048576 ![] bcast_S_S1048576),
    TRef.binary main_call3.v1 main_call3.v11 main_call3.v12 subi,
    TRef.ternary main_call3.v10 main_call3.v12 main_call3.v1 main_call3.call0.v0 select,
    nullary main_c_5 (constantI S_ 32 4#32),
    TRef.unary (.of main_c_5 : TRef sig ⟨S_, .i32⟩) main_call4.v0 id,
    TRef.nullary main_call4.c (constantI S_ 32 0#32),
    TRef.binary main_call4.v0 main_call4.c main_call4.v1 (cmpi .eq),
    TRef.nullary main_call4.c_0 (constantI S_ 32 1#32),
    TRef.ternary main_call4.v1 main_call4.c_0 main_call4.v0 main_call4.call0.v0 select,
    TRef.unary main_call4.call0.v0 main_call4.v3 (broadcastInDim S1048576 ![] bcast_S_S1048576),
    TRef.binary (.of main_v14 : TRef sig ⟨S1048576, .i32⟩) main_call4.v3 main_call4.v4 Host.remsi,
    TRef.nullary main_call4.c_1 (constantI S_ 32 0#32),
    TRef.unary main_call4.c_1 main_call4.v5 (broadcastInDim S1048576 ![] bcast_S_S1048576),
    TRef.binary main_call4.v4 main_call4.v5 main_call4.v6 (cmpi .ne),
    TRef.nullary main_call4.c_2 (constantI S_ 32 0#32),
    TRef.unary main_call4.c_2 main_call4.v7 (broadcastInDim S1048576 ![] bcast_S_S1048576),
    TRef.binary main_call4.v4 main_call4.v7 main_call4.v8 (cmpi .slt),
    TRef.nullary main_call4.c_3 (constantI S_ 32 0#32),
    TRef.binary main_call4.call0.v0 main_call4.c_3 main_call4.v9 (cmpi .slt),
    TRef.unary main_call4.v9 main_call4.v10 (broadcastInDim S1048576 ![] bcast_S_S1048576),
    TRef.binary main_call4.v8 main_call4.v10 main_call4.v11 (cmpi .ne),
    TRef.binary main_call4.v11 main_call4.v6 main_call4.v12 andi,
    TRef.unary main_call4.call0.v0 main_call4.v13 (broadcastInDim S1048576 ![] bcast_S_S1048576),
    TRef.binary main_call4.v4 main_call4.v13 main_call4.v14 addi,
    TRef.ternary main_call4.v12 main_call4.v14 main_call4.v4 main_call4.v15 select ]

/-- Stage 4 of window 0: 39 operations, the last writing `main_call6.v15`. -/
abbrev seg0_4 : List (HloOp τ sig (Elt F)) :=
  [ nullary main_c_6 (constantI S_ 32 512#32),
    TRef.unary (.of main_c_6 : TRef sig ⟨S_, .i32⟩) main_call5.v0 (broadcastInDim S1048576 ![] bcast_S_S1048576),
    TRef.binary (.of main_v13 : TRef sig ⟨S1048576, .i32⟩) main_call5.v0 main_call5.v1 Host.divsi,
    TRef.unary (.of main_v13 : TRef sig ⟨S1048576, .i32⟩) main_call5.v2 signi,
    TRef.unary (.of main_c_6 : TRef sig ⟨S_, .i32⟩) main_call5.v3 signi,
    TRef.unary main_call5.v3 main_call5.v4 (broadcastInDim S1048576 ![] bcast_S_S1048576),
    TRef.binary main_call5.v2 main_call5.v4 main_call5.v5 (cmpi .ne),
    TRef.unary (.of main_c_6 : TRef sig ⟨S_, .i32⟩) main_call5.v6 (broadcastInDim S1048576 ![] bcast_S_S1048576),
    TRef.binary (.of main_v13 : TRef sig ⟨S1048576, .i32⟩) main_call5.v6 main_call5.v7 Host.remsi,
    TRef.nullary main_call5.c (constantI S_ 32 0#32),
    TRef.unary main_call5.c main_call5.v8 (broadcastInDim S1048576 ![] bcast_S_S1048576),
    TRef.binary main_call5.v7 main_call5.v8 main_call5.v9 (cmpi .ne),
    TRef.binary main_call5.v5 main_call5.v9 main_call5.v10 andi,
    TRef.nullary main_call5.c_0 (constantI S_ 32 1#32),
    TRef.unary main_call5.c_0 main_call5.v11 (broadcastInDim S1048576 ![] bcast_S_S1048576),
    TRef.binary main_call5.v1 main_call5.v11 main_call5.v12 subi,
    TRef.ternary main_call5.v10 main_call5.v12 main_call5.v1 main_call5.call0.v0 select,
    nullary main_c_7 (constantI S_ 32 512#32),
    TRef.unary (.of main_c_7 : TRef sig ⟨S_, .i32⟩) main_call6.v0 id,
    TRef.nullary main_call6.c (constantI S_ 32 0#32),
    TRef.binary main_call6.v0 main_call6.c main_call6.v1 (cmpi .eq),
    TRef.nullary main_call6.c_0 (constantI S_ 32 1#32),
    TRef.ternary main_call6.v1 main_call6.c_0 main_call6.v0 main_call6.call0.v0 select,
    TRef.unary main_call6.call0.v0 main_call6.v3 (broadcastInDim S1048576 ![] bcast_S_S1048576),
    TRef.binary (.of main_v16 : TRef sig ⟨S1048576, .i32⟩) main_call6.v3 main_call6.v4 Host.remsi,
    TRef.nullary main_call6.c_1 (constantI S_ 32 0#32),
    TRef.unary main_call6.c_1 main_call6.v5 (broadcastInDim S1048576 ![] bcast_S_S1048576),
    TRef.binary main_call6.v4 main_call6.v5 main_call6.v6 (cmpi .ne),
    TRef.nullary main_call6.c_2 (constantI S_ 32 0#32),
    TRef.unary main_call6.c_2 main_call6.v7 (broadcastInDim S1048576 ![] bcast_S_S1048576),
    TRef.binary main_call6.v4 main_call6.v7 main_call6.v8 (cmpi .slt),
    TRef.nullary main_call6.c_3 (constantI S_ 32 0#32),
    TRef.binary main_call6.call0.v0 main_call6.c_3 main_call6.v9 (cmpi .slt),
    TRef.unary main_call6.v9 main_call6.v10 (broadcastInDim S1048576 ![] bcast_S_S1048576),
    TRef.binary main_call6.v8 main_call6.v10 main_call6.v11 (cmpi .ne),
    TRef.binary main_call6.v11 main_call6.v6 main_call6.v12 andi,
    TRef.unary main_call6.call0.v0 main_call6.v13 (broadcastInDim S1048576 ![] bcast_S_S1048576),
    TRef.binary main_call6.v4 main_call6.v13 main_call6.v14 addi,
    TRef.ternary main_call6.v12 main_call6.v14 main_call6.v4 main_call6.v15 select ]

/-- Stage 5 of window 0: 39 operations, the last writing `main_call8.v15`. -/
abbrev seg0_5 : List (HloOp τ sig (Elt F)) :=
  [ nullary main_c_8 (constantI S_ 32 1#32),
    TRef.unary (.of main_c_8 : TRef sig ⟨S_, .i32⟩) main_call7.v0 (broadcastInDim S1048576 ![] bcast_S_S1048576),
    TRef.binary (.of main_v13 : TRef sig ⟨S1048576, .i32⟩) main_call7.v0 main_call7.v1 Host.divsi,
    TRef.unary (.of main_v13 : TRef sig ⟨S1048576, .i32⟩) main_call7.v2 signi,
    TRef.unary (.of main_c_8 : TRef sig ⟨S_, .i32⟩) main_call7.v3 signi,
    TRef.unary main_call7.v3 main_call7.v4 (broadcastInDim S1048576 ![] bcast_S_S1048576),
    TRef.binary main_call7.v2 main_call7.v4 main_call7.v5 (cmpi .ne),
    TRef.unary (.of main_c_8 : TRef sig ⟨S_, .i32⟩) main_call7.v6 (broadcastInDim S1048576 ![] bcast_S_S1048576),
    TRef.binary (.of main_v13 : TRef sig ⟨S1048576, .i32⟩) main_call7.v6 main_call7.v7 Host.remsi,
    TRef.nullary main_call7.c (constantI S_ 32 0#32),
    TRef.unary main_call7.c main_call7.v8 (broadcastInDim S1048576 ![] bcast_S_S1048576),
    TRef.binary main_call7.v7 main_call7.v8 main_call7.v9 (cmpi .ne),
    TRef.binary main_call7.v5 main_call7.v9 main_call7.v10 andi,
    TRef.nullary main_call7.c_0 (constantI S_ 32 1#32),
    TRef.unary main_call7.c_0 main_call7.v11 (broadcastInDim S1048576 ![] bcast_S_S1048576),
    TRef.binary main_call7.v1 main_call7.v11 main_call7.v12 subi,
    TRef.ternary main_call7.v10 main_call7.v12 main_call7.v1 main_call7.call0.v0 select,
    nullary main_c_9 (constantI S_ 32 512#32),
    TRef.unary (.of main_c_9 : TRef sig ⟨S_, .i32⟩) main_call8.v0 id,
    TRef.nullary main_call8.c (constantI S_ 32 0#32),
    TRef.binary main_call8.v0 main_call8.c main_call8.v1 (cmpi .eq),
    TRef.nullary main_call8.c_0 (constantI S_ 32 1#32),
    TRef.ternary main_call8.v1 main_call8.c_0 main_call8.v0 main_call8.call0.v0 select,
    TRef.unary main_call8.call0.v0 main_call8.v3 (broadcastInDim S1048576 ![] bcast_S_S1048576),
    TRef.binary (.of main_v18 : TRef sig ⟨S1048576, .i32⟩) main_call8.v3 main_call8.v4 Host.remsi,
    TRef.nullary main_call8.c_1 (constantI S_ 32 0#32),
    TRef.unary main_call8.c_1 main_call8.v5 (broadcastInDim S1048576 ![] bcast_S_S1048576),
    TRef.binary main_call8.v4 main_call8.v5 main_call8.v6 (cmpi .ne),
    TRef.nullary main_call8.c_2 (constantI S_ 32 0#32),
    TRef.unary main_call8.c_2 main_call8.v7 (broadcastInDim S1048576 ![] bcast_S_S1048576),
    TRef.binary main_call8.v4 main_call8.v7 main_call8.v8 (cmpi .slt),
    TRef.nullary main_call8.c_3 (constantI S_ 32 0#32),
    TRef.binary main_call8.call0.v0 main_call8.c_3 main_call8.v9 (cmpi .slt),
    TRef.unary main_call8.v9 main_call8.v10 (broadcastInDim S1048576 ![] bcast_S_S1048576),
    TRef.binary main_call8.v8 main_call8.v10 main_call8.v11 (cmpi .ne),
    TRef.binary main_call8.v11 main_call8.v6 main_call8.v12 andi,
    TRef.unary main_call8.call0.v0 main_call8.v13 (broadcastInDim S1048576 ![] bcast_S_S1048576),
    TRef.binary main_call8.v4 main_call8.v13 main_call8.v14 addi,
    TRef.ternary main_call8.v12 main_call8.v14 main_call8.v4 main_call8.v15 select ]

/-- Stage 6 of window 0: 6 operations, the last writing `main_v24`. -/
abbrev seg0_6 : List (HloOp τ sig (Elt F)) :=
  [ nullary main_v20 (iotaInDim S1048576 32 0),
    unary main_v1 main_v21 ((extui 32 · natLt_1_32) : (⟨S4x512x512, .i1⟩ : BufTy).Contents (Elt F) → (⟨S4x512x512, .i32⟩ : BufTy).Contents (Elt F)),
    nullary main_c_10 (constantI S_ 32 0#32),
    binary main_v21 main_c_10 main_v22 ((fun x v => Host.reduce IntOp.addi x v reducesTo_S4x512x512_S_d0_1_2 h_S_) : (⟨S4x512x512, .i32⟩ : BufTy).Contents (Elt F) → (⟨S_, .i32⟩ : BufTy).Contents (Elt F) → (⟨S_, .i32⟩ : BufTy).Contents (Elt F)),
    unary main_v22 main_v23 (broadcastInDim S1048576 ![] bcast_S_S1048576 : (⟨S_, .i32⟩ : BufTy).Contents (Elt F) → (⟨S1048576, .i32⟩ : BufTy).Contents (Elt F)),
    binary main_v20 main_v23 main_v24 (cmpi .sge : (⟨S1048576, .i32⟩ : BufTy).Contents (Elt F) → (⟨S1048576, .i32⟩ : BufTy).Contents (Elt F) → (⟨S1048576, .i1⟩ : BufTy).Contents (Elt F)) ]

/-- Stage 7 of window 0: 12 operations, the last writing `main_call11.v2`. -/
abbrev seg0_7 : List (HloOp τ sig (Elt F)) :=
  [ nullary main_c_11 (constantI S_ 32 0#32),
    TRef.unary (.of main_c_11 : TRef sig ⟨S_, .i32⟩) main_call9.v0 id,
    TRef.unary main_call9.v0 main_call9.v1 (broadcastInDim S1048576 ![] bcast_S_S1048576),
    TRef.ternary (.of main_v24 : TRef sig ⟨S1048576, .i1⟩) main_call9.v1 (.of main_v15 : TRef sig ⟨S1048576, .i32⟩) main_call9.v2 select,
    nullary main_c_12 (constantI S_ 32 0#32),
    TRef.unary (.of main_c_12 : TRef sig ⟨S_, .i32⟩) main_call10.v0 id,
    TRef.unary main_call10.v0 main_call10.v1 (broadcastInDim S1048576 ![] bcast_S_S1048576),
    TRef.ternary (.of main_v24 : TRef sig ⟨S1048576, .i1⟩) main_call10.v1 (.of main_v17 : TRef sig ⟨S1048576, .i32⟩) main_call10.v2 select,
    nullary main_c_13 (constantI S_ 32 0#32),
    TRef.unary (.of main_c_13 : TRef sig ⟨S_, .i32⟩) main_call11.v0 id,
    TRef.unary main_call11.v0 main_call11.v1 (broadcastInDim S1048576 ![] bcast_S_S1048576),
    TRef.ternary (.of main_v24 : TRef sig ⟨S1048576, .i1⟩) main_call11.v1 (.of main_v19 : TRef sig ⟨S1048576, .i32⟩) main_call11.v2 select ]

/-- Stage 8 of window 0: 10 operations, the last writing `main_v32`. -/
abbrev seg0_8 : List (HloOp τ sig (Elt F)) :=
  [ nullary main_v28 (iotaInDim S1048576 32 0),
    TRef.nullary main_call12.cst (constant S_ .f32 0x00000000#32),
    TRef.unary main_call12.cst main_call12.v0 (broadcastInDim S4x512x512 ![] bcast_S_S4x512x512),
    TRef.binary (.of main_arg1 : TRef sig ⟨S4x512x512, .f32⟩) main_call12.v0 main_call12.v1 (cmpf .une),
    TRef.unary main_call12.v1 main_call12.v2 (extui 32 · natLt_1_32),
    TRef.nullary main_call12.c (constantI S_ 32 0#32),
    TRef.binary main_call12.v2 main_call12.c main_call12.v3 (fun x v => Host.reduce IntOp.addi x v reducesTo_S4x512x512_S_d0_1_2 h_S_),
    unary main_v29 main_v30 (broadcastInDim S1048576 ![] bcast_S_S1048576 : (⟨S_, .i32⟩ : BufTy).Contents (Elt F) → (⟨S1048576, .i32⟩ : BufTy).Contents (Elt F)),
    binary main_v28 main_v30 main_v31 (cmpi .slt : (⟨S1048576, .i32⟩ : BufTy).Contents (Elt F) → (⟨S1048576, .i32⟩ : BufTy).Contents (Elt F) → (⟨S1048576, .i1⟩ : BufTy).Contents (Elt F)),
    unary main_v31 main_v32 (uitofp .f32 : (⟨S1048576, .i1⟩ : BufTy).Contents (Elt F) → (⟨S1048576, .f32⟩ : BufTy).Contents (Elt F)) ]

/-- Stage 9 of window 0: 8 operations, the last writing `main_v38`. -/
abbrev seg0_9 : List (HloOp τ sig (Elt F)) :=
  [ nullary main_c_14 (constantI S_ 32 512#32),
    unary main_c_14 main_v33 (broadcastInDim S1048576 ![] bcast_S_S1048576 : (⟨S_, .i32⟩ : BufTy).Contents (Elt F) → (⟨S1048576, .i32⟩ : BufTy).Contents (Elt F)),
    binary main_v25 main_v33 main_v34 (muli : (⟨S1048576, .i32⟩ : BufTy).Contents (Elt F) → (⟨S1048576, .i32⟩ : BufTy).Contents (Elt F) → (⟨S1048576, .i32⟩ : BufTy).Contents (Elt F)),
    binary main_v34 main_v26 main_v35 (addi : (⟨S1048576, .i32⟩ : BufTy).Contents (Elt F) → (⟨S1048576, .i32⟩ : BufTy).Contents (Elt F) → (⟨S1048576, .i32⟩ : BufTy).Contents (Elt F)),
    nullary main_c_15 (constantI S_ 32 512#32),
    unary main_c_15 main_v36 (broadcastInDim S1048576 ![] bcast_S_S1048576 : (⟨S_, .i32⟩ : BufTy).Contents (Elt F) → (⟨S1048576, .i32⟩ : BufTy).Contents (Elt F)),
    binary main_v25 main_v36 main_v37 (muli : (⟨S1048576, .i32⟩ : BufTy).Contents (Elt F) → (⟨S1048576, .i32⟩ : BufTy).Contents (Elt F) → (⟨S1048576, .i32⟩ : BufTy).Contents (Elt F)),
    binary main_v37 main_v27 main_v38 (addi : (⟨S1048576, .i32⟩ : BufTy).Contents (Elt F) → (⟨S1048576, .i32⟩ : BufTy).Contents (Elt F) → (⟨S1048576, .i32⟩ : BufTy).Contents (Elt F)) ]

/-- Stage 10 of window 0: 3 operations, the last writing `main_v41`. -/
abbrev seg0_10 : List (HloOp τ sig (Elt F)) :=
  [ reshape main_arg0 main_v39 rfl shapeCasts_S4x512x128_S2048x128,
    nullary main_v40 (iotaInDim S2048 32 0),
    binary main_v35 main_v40 main_v41 ((fun a b => concatenate S1050624 0 [⟨S1048576, a⟩, ⟨S2048, b⟩] concatenates_S1048576_S2048_S1050624_d0) : (⟨S1048576, .i32⟩ : BufTy).Contents (Elt F) → (⟨S2048, .i32⟩ : BufTy).Contents (Elt F) → (⟨S1050624, .i32⟩ : BufTy).Contents (Elt F)) ]

theorem ops0_split : (ops0 : List (HloOp τ sig (Elt F))) = seg0_0 ++ (seg0_1 ++ (seg0_2 ++ (seg0_3 ++ (seg0_4 ++ (seg0_5 ++ (seg0_6 ++ (seg0_7 ++ (seg0_8 ++ (seg0_9 ++ (seg0_10)))))))))) := rfl

/-- Stage 0 of window 1: 4 operations, the last writing `main_v44`. -/
abbrev seg1_0 : List (HloOp τ sig (Elt F)) :=
  [ binary main_v38 main_v40 main_v42 ((fun a b => concatenate S1050624 0 [⟨S1048576, a⟩, ⟨S2048, b⟩] concatenates_S1048576_S2048_S1050624_d0) : (⟨S1048576, .i32⟩ : BufTy).Contents (Elt F) → (⟨S2048, .i32⟩ : BufTy).Contents (Elt F) → (⟨S1050624, .i32⟩ : BufTy).Contents (Elt F)),
    nullary main_cst_16 (constant S_ .f32 0x3F800000#32),
    unary main_cst_16 main_v43 (broadcastInDim S2048 ![] bcast_S_S2048 : (⟨S_, .f32⟩ : BufTy).Contents (Elt F) → (⟨S2048, .f32⟩ : BufTy).Contents (Elt F)),
    binary main_v32 main_v43 main_v44 ((fun a b => concatenate S1050624 0 [⟨S1048576, a⟩, ⟨S2048, b⟩] concatenates_S1048576_S2048_S1050624_d0) : (⟨S1048576, .f32⟩ : BufTy).Contents (Elt F) → (⟨S2048, .f32⟩ : BufTy).Contents (Elt F) → (⟨S1050624, .f32⟩ : BufTy).Contents (Elt F)) ]

/-- Stage 1 of window 1: 11 operations, the last writing `main_v52`. -/
abbrev seg1_1 : List (HloOp τ sig (Elt F)) :=
  [ nullary main_cst_17 (constant S_ .f32 0x00000000#32),
    unary main_cst_17 main_v45 (broadcastInDim S2048 ![] bcast_S_S2048 : (⟨S_, .f32⟩ : BufTy).Contents (Elt F) → (⟨S2048, .f32⟩ : BufTy).Contents (Elt F)),
    nullary main_c_18 (constantI S_ 32 0#32),
    unary main_c_18 main_v46 (broadcastInDim S1050624 ![] bcast_S_S1050624 : (⟨S_, .i32⟩ : BufTy).Contents (Elt F) → (⟨S1050624, .i32⟩ : BufTy).Contents (Elt F)),
    binary main_v42 main_v46 main_v47 (cmpi .slt : (⟨S1050624, .i32⟩ : BufTy).Contents (Elt F) → (⟨S1050624, .i32⟩ : BufTy).Contents (Elt F) → (⟨S1050624, .i1⟩ : BufTy).Contents (Elt F)),
    nullary main_c_19 (constantI S_ 32 2048#32),
    unary main_c_19 main_v48 (broadcastInDim S1050624 ![] bcast_S_S1050624 : (⟨S_, .i32⟩ : BufTy).Contents (Elt F) → (⟨S1050624, .i32⟩ : BufTy).Contents (Elt F)),
    binary main_v42 main_v48 main_v49 (addi : (⟨S1050624, .i32⟩ : BufTy).Contents (Elt F) → (⟨S1050624, .i32⟩ : BufTy).Contents (Elt F) → (⟨S1050624, .i32⟩ : BufTy).Contents (Elt F)),
    ternary main_v47 main_v49 main_v42 main_v50 (select : (⟨S1050624, .i1⟩ : BufTy).Contents (Elt F) → (⟨S1050624, .i32⟩ : BufTy).Contents (Elt F) → (⟨S1050624, .i32⟩ : BufTy).Contents (Elt F) → (⟨S1050624, .i32⟩ : BufTy).Contents (Elt F)),
    unary main_v50 main_v51 (broadcastInDim S1050624x1 ![0] bcast_S1050624_S1050624x1_0 : (⟨S1050624, .i32⟩ : BufTy).Contents (Elt F) → (⟨S1050624x1, .i32⟩ : BufTy).Contents (Elt F)),
    ternary main_v45 main_v51 main_v44 main_v52 ((fun x i u => Host.scatterAdd scatter_S2048_S1050624x1_S1050624_n_0_0_1 x i u) : (⟨S2048, .f32⟩ : BufTy).Contents (Elt F) → (⟨S1050624x1, .i32⟩ : BufTy).Contents (Elt F) → (⟨S1050624, .f32⟩ : BufTy).Contents (Elt F) → (⟨S2048, .f32⟩ : BufTy).Contents (Elt F)) ]

/-- Stage 2 of window 1: 11 operations, the last writing `main_call13.v2`. -/
abbrev seg1_2 : List (HloOp τ sig (Elt F)) :=
  [ nullary main_cst_20 (constant S_ .f32 0x00000000#32),
    unary main_cst_20 main_v53 (broadcastInDim S2048 ![] bcast_S_S2048 : (⟨S_, .f32⟩ : BufTy).Contents (Elt F) → (⟨S2048, .f32⟩ : BufTy).Contents (Elt F)),
    binary main_v52 main_v53 main_v54 (cmpf .ogt : (⟨S2048, .f32⟩ : BufTy).Contents (Elt F) → (⟨S2048, .f32⟩ : BufTy).Contents (Elt F) → (⟨S2048, .i1⟩ : BufTy).Contents (Elt F)),
    nullary main_cst_21 (constant S_ .f32 0x2B8CBCCC#32),
    unary main_cst_21 main_v55 (broadcastInDim S2048 ![] bcast_S_S2048 : (⟨S_, .f32⟩ : BufTy).Contents (Elt F) → (⟨S2048, .f32⟩ : BufTy).Contents (Elt F)),
    binary main_v52 main_v55 main_v56 (maximumf : (⟨S2048, .f32⟩ : BufTy).Contents (Elt F) → (⟨S2048, .f32⟩ : BufTy).Contents (Elt F) → (⟨S2048, .f32⟩ : BufTy).Contents (Elt F)),
    unary main_v56 main_v57 (Host.rsqrt : (⟨S2048, .f32⟩ : BufTy).Contents (Elt F) → (⟨S2048, .f32⟩ : BufTy).Contents (Elt F)),
    nullary main_cst_22 (constant S_ .f32 0x00000000#32),
    TRef.unary (.of main_cst_22 : TRef sig ⟨S_, .f32⟩) main_call13.v0 id,
    TRef.unary main_call13.v0 main_call13.v1 (broadcastInDim S2048 ![] bcast_S_S2048),
    TRef.ternary (.of main_v54 : TRef sig ⟨S2048, .i1⟩) (.of main_v57 : TRef sig ⟨S2048, .f32⟩) main_call13.v1 main_call13.v2 select ]

/-- Stage 3 of window 1: 9 operations, the last writing `main_v65`. -/
abbrev seg1_3 : List (HloOp τ sig (Elt F)) :=
  [ nullary main_c_23 (constantI S_ 32 0#32),
    unary main_c_23 main_v59 (broadcastInDim S1050624 ![] bcast_S_S1050624 : (⟨S_, .i32⟩ : BufTy).Contents (Elt F) → (⟨S1050624, .i32⟩ : BufTy).Contents (Elt F)),
    binary main_v41 main_v59 main_v60 (cmpi .slt : (⟨S1050624, .i32⟩ : BufTy).Contents (Elt F) → (⟨S1050624, .i32⟩ : BufTy).Contents (Elt F) → (⟨S1050624, .i1⟩ : BufTy).Contents (Elt F)),
    nullary main_c_24 (constantI S_ 32 2048#32),
    unary main_c_24 main_v61 (broadcastInDim S1050624 ![] bcast_S_S1050624 : (⟨S_, .i32⟩ : BufTy).Contents (Elt F) → (⟨S1050624, .i32⟩ : BufTy).Contents (Elt F)),
    binary main_v41 main_v61 main_v62 (addi : (⟨S1050624, .i32⟩ : BufTy).Contents (Elt F) → (⟨S1050624, .i32⟩ : BufTy).Contents (Elt F) → (⟨S1050624, .i32⟩ : BufTy).Contents (Elt F)),
    ternary main_v60 main_v62 main_v41 main_v63 (select : (⟨S1050624, .i1⟩ : BufTy).Contents (Elt F) → (⟨S1050624, .i32⟩ : BufTy).Contents (Elt F) → (⟨S1050624, .i32⟩ : BufTy).Contents (Elt F) → (⟨S1050624, .i32⟩ : BufTy).Contents (Elt F)),
    unary main_v63 main_v64 (broadcastInDim S1050624x1 ![0] bcast_S1050624_S1050624x1_0 : (⟨S1050624, .i32⟩ : BufTy).Contents (Elt F) → (⟨S1050624x1, .i32⟩ : BufTy).Contents (Elt F)),
    binary main_v58 main_v64 main_v65 ((fun x i => Host.gather gather_S2048_S1050624x1_S1050624_n_0_n_n_0_1_1 x i) : (⟨S2048, .f32⟩ : BufTy).Contents (Elt F) → (⟨S1050624x1, .i32⟩ : BufTy).Contents (Elt F) → (⟨S1050624, .f32⟩ : BufTy).Contents (Elt F)) ]

/-- Stage 4 of window 1: 11 operations, the last writing `main_v74`. -/
abbrev seg1_4 : List (HloOp τ sig (Elt F)) :=
  [ nullary main_c_25 (constantI S_ 32 0#32),
    unary main_c_25 main_v66 (broadcastInDim S1050624 ![] bcast_S_S1050624 : (⟨S_, .i32⟩ : BufTy).Contents (Elt F) → (⟨S1050624, .i32⟩ : BufTy).Contents (Elt F)),
    binary main_v42 main_v66 main_v67 (cmpi .slt : (⟨S1050624, .i32⟩ : BufTy).Contents (Elt F) → (⟨S1050624, .i32⟩ : BufTy).Contents (Elt F) → (⟨S1050624, .i1⟩ : BufTy).Contents (Elt F)),
    nullary main_c_26 (constantI S_ 32 2048#32),
    unary main_c_26 main_v68 (broadcastInDim S1050624 ![] bcast_S_S1050624 : (⟨S_, .i32⟩ : BufTy).Contents (Elt F) → (⟨S1050624, .i32⟩ : BufTy).Contents (Elt F)),
    binary main_v42 main_v68 main_v69 (addi : (⟨S1050624, .i32⟩ : BufTy).Contents (Elt F) → (⟨S1050624, .i32⟩ : BufTy).Contents (Elt F) → (⟨S1050624, .i32⟩ : BufTy).Contents (Elt F)),
    ternary main_v67 main_v69 main_v42 main_v70 (select : (⟨S1050624, .i1⟩ : BufTy).Contents (Elt F) → (⟨S1050624, .i32⟩ : BufTy).Contents (Elt F) → (⟨S1050624, .i32⟩ : BufTy).Contents (Elt F) → (⟨S1050624, .i32⟩ : BufTy).Contents (Elt F)),
    unary main_v70 main_v71 (broadcastInDim S1050624x1 ![0] bcast_S1050624_S1050624x1_0 : (⟨S1050624, .i32⟩ : BufTy).Contents (Elt F) → (⟨S1050624x1, .i32⟩ : BufTy).Contents (Elt F)),
    binary main_v58 main_v71 main_v72 ((fun x i => Host.gather gather_S2048_S1050624x1_S1050624_n_0_n_n_0_1_1 x i) : (⟨S2048, .f32⟩ : BufTy).Contents (Elt F) → (⟨S1050624x1, .i32⟩ : BufTy).Contents (Elt F) → (⟨S1050624, .f32⟩ : BufTy).Contents (Elt F)),
    binary main_v65 main_v72 main_v73 (mulf : (⟨S1050624, .f32⟩ : BufTy).Contents (Elt F) → (⟨S1050624, .f32⟩ : BufTy).Contents (Elt F) → (⟨S1050624, .f32⟩ : BufTy).Contents (Elt F)),
    binary main_v73 main_v44 main_v74 (mulf : (⟨S1050624, .f32⟩ : BufTy).Contents (Elt F) → (⟨S1050624, .f32⟩ : BufTy).Contents (Elt F) → (⟨S1050624, .f32⟩ : BufTy).Contents (Elt F)) ]

/-- Stage 5 of window 1: 1 operations, the last writing `main_v75`. -/
abbrev seg1_5 : List (HloOp τ sig (Elt F)) :=
  [ binary main_v39 main_arg2 main_v75 ((fun l r => Host.dotGeneral dot_S2048x128_S128x128_S2048x128_1_0_0_1_n_n none l r) : (⟨S2048x128, .f32⟩ : BufTy).Contents (Elt F) → (⟨S128x128, .f32⟩ : BufTy).Contents (Elt F) → (⟨S2048x128, .f32⟩ : BufTy).Contents (Elt F)) ]

/-- Stage 6 of window 1: 23 operations, the last writing `main_call14.v16`. -/
abbrev seg1_6 : List (HloOp τ sig (Elt F)) :=
  [ TRef.nullary main_call14.c (constantI S_ 32 0#32),
    TRef.unary main_call14.c main_call14.v0 (broadcastInDim S1050624 ![] bcast_S_S1050624),
    TRef.binary (.of main_v41 : TRef sig ⟨S1050624, .i32⟩) main_call14.v0 main_call14.v1 (cmpi .slt),
    TRef.nullary main_call14.c_0 (constantI S_ 32 2048#32),
    TRef.unary main_call14.c_0 main_call14.v2 (broadcastInDim S1050624 ![] bcast_S_S1050624),
    TRef.binary (.of main_v41 : TRef sig ⟨S1050624, .i32⟩) main_call14.v2 main_call14.v3 addi,
    TRef.ternary main_call14.v1 main_call14.v3 (.of main_v41 : TRef sig ⟨S1050624, .i32⟩) main_call14.call0.v0 select,
    TRef.unary main_call14.call0.v0 main_call14.v5 (broadcastInDim S1050624x1 ![0] bcast_S1050624_S1050624x1_0),
    TRef.nullary main_call14.c_1 (constantI S1 32 2047#32),
    TRef.nullary main_call14.c_2 (constantI S_ 32 0#32),
    TRef.unary main_call14.c_2 main_call14.v6 (broadcastInDim S1050624x1 ![] bcast_S_S1050624x1),
    TRef.binary main_call14.v5 main_call14.v6 main_call14.v7 (cmpi .sge),
    TRef.unary main_call14.c_1 main_call14.v8 (broadcastInDim S1x1 ![1] bcast_S1_S1x1_1),
    TRef.unary main_call14.v8 main_call14.v9 (broadcastInDim S1050624x1 ![0, 1] bcast_S1x1_S1050624x1_0_1),
    TRef.binary main_call14.v5 main_call14.v9 main_call14.v10 (cmpi .sle),
    TRef.binary main_call14.v7 main_call14.v10 main_call14.v11 andi,
    TRef.nullary main_call14.c_3 (constantI S_ 1 1#1),
    TRef.binary main_call14.v11 main_call14.c_3 main_call14.v12 (fun x v => Host.reduce IntOp.andi x v reducesTo_S1050624x1_S1050624_d1 h_S_),
    TRef.binary (.of main_v75 : TRef sig ⟨S2048x128, .f32⟩) main_call14.v5 main_call14.v13 (fun x i => Host.gather gather_S2048x128_S1050624x1_S1050624x128_1_0_n_n_0_1_1128 x i),
    TRef.unary main_call14.v12 main_call14.v14 (broadcastInDim S1050624x128 ![0] bcast_S1050624_S1050624x128_0),
    TRef.nullary main_call14.cst (constant S_ .f32 0x7FC00000#32),
    TRef.unary main_call14.cst main_call14.v15 (broadcastInDim S1050624x128 ![] bcast_S_S1050624x128),
    TRef.ternary main_call14.v14 main_call14.v13 main_call14.v15 main_call14.v16 select ]

/-- Stage 7 of window 1: 3 operations, the last writing `main_v79`. -/
abbrev seg1_7 : List (HloOp τ sig (Elt F)) :=
  [ unary main_v74 main_v77 (broadcastInDim S1050624x1 ![0] bcast_S1050624_S1050624x1_0 : (⟨S1050624, .f32⟩ : BufTy).Contents (Elt F) → (⟨S1050624x1, .f32⟩ : BufTy).Contents (Elt F)),
    unary main_v77 main_v78 (broadcastInDim S1050624x128 ![0, 1] bcast_S1050624x1_S1050624x128_0_1 : (⟨S1050624x1, .f32⟩ : BufTy).Contents (Elt F) → (⟨S1050624x128, .f32⟩ : BufTy).Contents (Elt F)),
    binary main_v76 main_v78 main_v79 (mulf : (⟨S1050624x128, .f32⟩ : BufTy).Contents (Elt F) → (⟨S1050624x128, .f32⟩ : BufTy).Contents (Elt F) → (⟨S1050624x128, .f32⟩ : BufTy).Contents (Elt F)) ]

/-- Stage 8 of window 1: 11 operations, the last writing `main_v87`. -/
abbrev seg1_8 : List (HloOp τ sig (Elt F)) :=
  [ nullary main_cst_27 (constant S_ .f32 0x00000000#32),
    unary main_cst_27 main_v80 (broadcastInDim S2048x128 ![] bcast_S_S2048x128 : (⟨S_, .f32⟩ : BufTy).Contents (Elt F) → (⟨S2048x128, .f32⟩ : BufTy).Contents (Elt F)),
    nullary main_c_28 (constantI S_ 32 0#32),
    unary main_c_28 main_v81 (broadcastInDim S1050624 ![] bcast_S_S1050624 : (⟨S_, .i32⟩ : BufTy).Contents (Elt F) → (⟨S1050624, .i32⟩ : BufTy).Contents (Elt F)),
    binary main_v42 main_v81 main_v82 (cmpi .slt : (⟨S1050624, .i32⟩ : BufTy).Contents (Elt F) → (⟨S1050624, .i32⟩ : BufTy).Contents (Elt F) → (⟨S1050624, .i1⟩ : BufTy).Contents (Elt F)),
    nullary main_c_29 (constantI S_ 32 2048#32),
    unary main_c_29 main_v83 (broadcastInDim S1050624 ![] bcast_S_S1050624 : (⟨S_, .i32⟩ : BufTy).Contents (Elt F) → (⟨S1050624, .i32⟩ : BufTy).Contents (Elt F)),
    binary main_v42 main_v83 main_v84 (addi : (⟨S1050624, .i32⟩ : BufTy).Contents (Elt F) → (⟨S1050624, .i32⟩ : BufTy).Contents (Elt F) → (⟨S1050624, .i32⟩ : BufTy).Contents (Elt F)),
    ternary main_v82 main_v84 main_v42 main_v85 (select : (⟨S1050624, .i1⟩ : BufTy).Contents (Elt F) → (⟨S1050624, .i32⟩ : BufTy).Contents (Elt F) → (⟨S1050624, .i32⟩ : BufTy).Contents (Elt F) → (⟨S1050624, .i32⟩ : BufTy).Contents (Elt F)),
    unary main_v85 main_v86 (broadcastInDim S1050624x1 ![0] bcast_S1050624_S1050624x1_0 : (⟨S1050624, .i32⟩ : BufTy).Contents (Elt F) → (⟨S1050624x1, .i32⟩ : BufTy).Contents (Elt F)),
    ternary main_v80 main_v86 main_v79 main_v87 ((fun x i u => Host.scatterAdd scatter_S2048x128_S1050624x1_S1050624x128_1_0_0_1 x i u) : (⟨S2048x128, .f32⟩ : BufTy).Contents (Elt F) → (⟨S1050624x1, .i32⟩ : BufTy).Contents (Elt F) → (⟨S1050624x128, .f32⟩ : BufTy).Contents (Elt F) → (⟨S2048x128, .f32⟩ : BufTy).Contents (Elt F)) ]

theorem ops1_split : (ops1 : List (HloOp τ sig (Elt F))) = seg1_0 ++ (seg1_1 ++ (seg1_2 ++ (seg1_3 ++ (seg1_4 ++ (seg1_5 ++ (seg1_6 ++ (seg1_7 ++ (seg1_8)))))))) := rfl

/-- Stage 0 of window 2: 6 operations, the last writing `main_call15.v1`. -/
abbrev seg2_0 : List (HloOp τ sig (Elt F)) :=
  [ unary main_arg3 main_v88 (broadcastInDim S1x128 ![1] bcast_S128_S1x128_1 : (⟨S128, .f32⟩ : BufTy).Contents (Elt F) → (⟨S1x128, .f32⟩ : BufTy).Contents (Elt F)),
    unary main_v88 main_v89 (broadcastInDim S2048x128 ![0, 1] bcast_S1x128_S2048x128_0_1 : (⟨S1x128, .f32⟩ : BufTy).Contents (Elt F) → (⟨S2048x128, .f32⟩ : BufTy).Contents (Elt F)),
    binary main_v87 main_v89 main_v90 (addf : (⟨S2048x128, .f32⟩ : BufTy).Contents (Elt F) → (⟨S2048x128, .f32⟩ : BufTy).Contents (Elt F) → (⟨S2048x128, .f32⟩ : BufTy).Contents (Elt F)),
    TRef.nullary main_call15.cst (constant S_ .f32 0x00000000#32),
    TRef.unary main_call15.cst main_call15.v0 (broadcastInDim S2048x128 ![] bcast_S_S2048x128),
    TRef.binary (.of main_v90 : TRef sig ⟨S2048x128, .f32⟩) main_call15.v0 main_call15.v1 maximumf ]

/-- Stage 1 of window 2: 6 operations, the last writing `main_v96`. -/
abbrev seg2_1 : List (HloOp τ sig (Elt F)) :=
  [ nullary main_v92 (iotaInDim S2048 32 0),
    binary main_v35 main_v92 main_v93 ((fun a b => concatenate S1050624 0 [⟨S1048576, a⟩, ⟨S2048, b⟩] concatenates_S1048576_S2048_S1050624_d0) : (⟨S1048576, .i32⟩ : BufTy).Contents (Elt F) → (⟨S2048, .i32⟩ : BufTy).Contents (Elt F) → (⟨S1050624, .i32⟩ : BufTy).Contents (Elt F)),
    binary main_v38 main_v92 main_v94 ((fun a b => concatenate S1050624 0 [⟨S1048576, a⟩, ⟨S2048, b⟩] concatenates_S1048576_S2048_S1050624_d0) : (⟨S1048576, .i32⟩ : BufTy).Contents (Elt F) → (⟨S2048, .i32⟩ : BufTy).Contents (Elt F) → (⟨S1050624, .i32⟩ : BufTy).Contents (Elt F)),
    nullary main_cst_30 (constant S_ .f32 0x3F800000#32),
    unary main_cst_30 main_v95 (broadcastInDim S2048 ![] bcast_S_S2048 : (⟨S_, .f32⟩ : BufTy).Contents (Elt F) → (⟨S2048, .f32⟩ : BufTy).Contents (Elt F)),
    binary main_v32 main_v95 main_v96 ((fun a b => concatenate S1050624 0 [⟨S1048576, a⟩, ⟨S2048, b⟩] concatenates_S1048576_S2048_S1050624_d0) : (⟨S1048576, .f32⟩ : BufTy).Contents (Elt F) → (⟨S2048, .f32⟩ : BufTy).Contents (Elt F) → (⟨S1050624, .f32⟩ : BufTy).Contents (Elt F)) ]

/-- Stage 2 of window 2: 11 operations, the last writing `main_v104`. -/
abbrev seg2_2 : List (HloOp τ sig (Elt F)) :=
  [ nullary main_cst_31 (constant S_ .f32 0x00000000#32),
    unary main_cst_31 main_v97 (broadcastInDim S2048 ![] bcast_S_S2048 : (⟨S_, .f32⟩ : BufTy).Contents (Elt F) → (⟨S2048, .f32⟩ : BufTy).Contents (Elt F)),
    nullary main_c_32 (constantI S_ 32 0#32),
    unary main_c_32 main_v98 (broadcastInDim S1050624 ![] bcast_S_S1050624 : (⟨S_, .i32⟩ : BufTy).Contents (Elt F) → (⟨S1050624, .i32⟩ : BufTy).Contents (Elt F)),
    binary main_v94 main_v98 main_v99 (cmpi .slt : (⟨S1050624, .i32⟩ : BufTy).Contents (Elt F) → (⟨S1050624, .i32⟩ : BufTy).Contents (Elt F) → (⟨S1050624, .i1⟩ : BufTy).Contents (Elt F)),
    nullary main_c_33 (constantI S_ 32 2048#32),
    unary main_c_33 main_v100 (broadcastInDim S1050624 ![] bcast_S_S1050624 : (⟨S_, .i32⟩ : BufTy).Contents (Elt F) → (⟨S1050624, .i32⟩ : BufTy).Contents (Elt F)),
    binary main_v94 main_v100 main_v101 (addi : (⟨S1050624, .i32⟩ : BufTy).Contents (Elt F) → (⟨S1050624, .i32⟩ : BufTy).Contents (Elt F) → (⟨S1050624, .i32⟩ : BufTy).Contents (Elt F)),
    ternary main_v99 main_v101 main_v94 main_v102 (select : (⟨S1050624, .i1⟩ : BufTy).Contents (Elt F) → (⟨S1050624, .i32⟩ : BufTy).Contents (Elt F) → (⟨S1050624, .i32⟩ : BufTy).Contents (Elt F) → (⟨S1050624, .i32⟩ : BufTy).Contents (Elt F)),
    unary main_v102 main_v103 (broadcastInDim S1050624x1 ![0] bcast_S1050624_S1050624x1_0 : (⟨S1050624, .i32⟩ : BufTy).Contents (Elt F) → (⟨S1050624x1, .i32⟩ : BufTy).Contents (Elt F)),
    ternary main_v97 main_v103 main_v96 main_v104 ((fun x i u => Host.scatterAdd scatter_S2048_S1050624x1_S1050624_n_0_0_1 x i u) : (⟨S2048, .f32⟩ : BufTy).Contents (Elt F) → (⟨S1050624x1, .i32⟩ : BufTy).Contents (Elt F) → (⟨S1050624, .f32⟩ : BufTy).Contents (Elt F) → (⟨S2048, .f32⟩ : BufTy).Contents (Elt F)) ]

/-- Stage 3 of window 2: 11 operations, the last writing `main_call16.v2`. -/
abbrev seg2_3 : List (HloOp τ sig (Elt F)) :=
  [ nullary main_cst_34 (constant S_ .f32 0x00000000#32),
    unary main_cst_34 main_v105 (broadcastInDim S2048 ![] bcast_S_S2048 : (⟨S_, .f32⟩ : BufTy).Contents (Elt F) → (⟨S2048, .f32⟩ : BufTy).Contents (Elt F)),
    binary main_v104 main_v105 main_v106 (cmpf .ogt : (⟨S2048, .f32⟩ : BufTy).Contents (Elt F) → (⟨S2048, .f32⟩ : BufTy).Contents (Elt F) → (⟨S2048, .i1⟩ : BufTy).Contents (Elt F)),
    nullary main_cst_35 (constant S_ .f32 0x2B8CBCCC#32),
    unary main_cst_35 main_v107 (broadcastInDim S2048 ![] bcast_S_S2048 : (⟨S_, .f32⟩ : BufTy).Contents (Elt F) → (⟨S2048, .f32⟩ : BufTy).Contents (Elt F)),
    binary main_v104 main_v107 main_v108 (maximumf : (⟨S2048, .f32⟩ : BufTy).Contents (Elt F) → (⟨S2048, .f32⟩ : BufTy).Contents (Elt F) → (⟨S2048, .f32⟩ : BufTy).Contents (Elt F)),
    unary main_v108 main_v109 (Host.rsqrt : (⟨S2048, .f32⟩ : BufTy).Contents (Elt F) → (⟨S2048, .f32⟩ : BufTy).Contents (Elt F)),
    nullary main_cst_36 (constant S_ .f32 0x00000000#32),
    TRef.unary (.of main_cst_36 : TRef sig ⟨S_, .f32⟩) main_call16.v0 id,
    TRef.unary main_call16.v0 main_call16.v1 (broadcastInDim S2048 ![] bcast_S_S2048),
    TRef.ternary (.of main_v106 : TRef sig ⟨S2048, .i1⟩) (.of main_v109 : TRef sig ⟨S2048, .f32⟩) main_call16.v1 main_call16.v2 select ]

/-- Stage 4 of window 2: 9 operations, the last writing `main_v117`. -/
abbrev seg2_4 : List (HloOp τ sig (Elt F)) :=
  [ nullary main_c_37 (constantI S_ 32 0#32),
    unary main_c_37 main_v111 (broadcastInDim S1050624 ![] bcast_S_S1050624 : (⟨S_, .i32⟩ : BufTy).Contents (Elt F) → (⟨S1050624, .i32⟩ : BufTy).Contents (Elt F)),
    binary main_v93 main_v111 main_v112 (cmpi .slt : (⟨S1050624, .i32⟩ : BufTy).Contents (Elt F) → (⟨S1050624, .i32⟩ : BufTy).Contents (Elt F) → (⟨S1050624, .i1⟩ : BufTy).Contents (Elt F)),
    nullary main_c_38 (constantI S_ 32 2048#32),
    unary main_c_38 main_v113 (broadcastInDim S1050624 ![] bcast_S_S1050624 : (⟨S_, .i32⟩ : BufTy).Contents (Elt F) → (⟨S1050624, .i32⟩ : BufTy).Contents (Elt F)),
    binary main_v93 main_v113 main_v114 (addi : (⟨S1050624, .i32⟩ : BufTy).Contents (Elt F) → (⟨S1050624, .i32⟩ : BufTy).Contents (Elt F) → (⟨S1050624, .i32⟩ : BufTy).Contents (Elt F)),
    ternary main_v112 main_v114 main_v93 main_v115 (select : (⟨S1050624, .i1⟩ : BufTy).Contents (Elt F) → (⟨S1050624, .i32⟩ : BufTy).Contents (Elt F) → (⟨S1050624, .i32⟩ : BufTy).Contents (Elt F) → (⟨S1050624, .i32⟩ : BufTy).Contents (Elt F)),
    unary main_v115 main_v116 (broadcastInDim S1050624x1 ![0] bcast_S1050624_S1050624x1_0 : (⟨S1050624, .i32⟩ : BufTy).Contents (Elt F) → (⟨S1050624x1, .i32⟩ : BufTy).Contents (Elt F)),
    binary main_v110 main_v116 main_v117 ((fun x i => Host.gather gather_S2048_S1050624x1_S1050624_n_0_n_n_0_1_1 x i) : (⟨S2048, .f32⟩ : BufTy).Contents (Elt F) → (⟨S1050624x1, .i32⟩ : BufTy).Contents (Elt F) → (⟨S1050624, .f32⟩ : BufTy).Contents (Elt F)) ]

/-- Stage 5 of window 2: 11 operations, the last writing `main_v126`. -/
abbrev seg2_5 : List (HloOp τ sig (Elt F)) :=
  [ nullary main_c_39 (constantI S_ 32 0#32),
    unary main_c_39 main_v118 (broadcastInDim S1050624 ![] bcast_S_S1050624 : (⟨S_, .i32⟩ : BufTy).Contents (Elt F) → (⟨S1050624, .i32⟩ : BufTy).Contents (Elt F)),
    binary main_v94 main_v118 main_v119 (cmpi .slt : (⟨S1050624, .i32⟩ : BufTy).Contents (Elt F) → (⟨S1050624, .i32⟩ : BufTy).Contents (Elt F) → (⟨S1050624, .i1⟩ : BufTy).Contents (Elt F)),
    nullary main_c_40 (constantI S_ 32 2048#32),
    unary main_c_40 main_v120 (broadcastInDim S1050624 ![] bcast_S_S1050624 : (⟨S_, .i32⟩ : BufTy).Contents (Elt F) → (⟨S1050624, .i32⟩ : BufTy).Contents (Elt F)),
    binary main_v94 main_v120 main_v121 (addi : (⟨S1050624, .i32⟩ : BufTy).Contents (Elt F) → (⟨S1050624, .i32⟩ : BufTy).Contents (Elt F) → (⟨S1050624, .i32⟩ : BufTy).Contents (Elt F)),
    ternary main_v119 main_v121 main_v94 main_v122 (select : (⟨S1050624, .i1⟩ : BufTy).Contents (Elt F) → (⟨S1050624, .i32⟩ : BufTy).Contents (Elt F) → (⟨S1050624, .i32⟩ : BufTy).Contents (Elt F) → (⟨S1050624, .i32⟩ : BufTy).Contents (Elt F)),
    unary main_v122 main_v123 (broadcastInDim S1050624x1 ![0] bcast_S1050624_S1050624x1_0 : (⟨S1050624, .i32⟩ : BufTy).Contents (Elt F) → (⟨S1050624x1, .i32⟩ : BufTy).Contents (Elt F)),
    binary main_v110 main_v123 main_v124 ((fun x i => Host.gather gather_S2048_S1050624x1_S1050624_n_0_n_n_0_1_1 x i) : (⟨S2048, .f32⟩ : BufTy).Contents (Elt F) → (⟨S1050624x1, .i32⟩ : BufTy).Contents (Elt F) → (⟨S1050624, .f32⟩ : BufTy).Contents (Elt F)),
    binary main_v117 main_v124 main_v125 (mulf : (⟨S1050624, .f32⟩ : BufTy).Contents (Elt F) → (⟨S1050624, .f32⟩ : BufTy).Contents (Elt F) → (⟨S1050624, .f32⟩ : BufTy).Contents (Elt F)),
    binary main_v125 main_v96 main_v126 (mulf : (⟨S1050624, .f32⟩ : BufTy).Contents (Elt F) → (⟨S1050624, .f32⟩ : BufTy).Contents (Elt F) → (⟨S1050624, .f32⟩ : BufTy).Contents (Elt F)) ]

/-- Stage 6 of window 2: 1 operations, the last writing `main_v127`. -/
abbrev seg2_6 : List (HloOp τ sig (Elt F)) :=
  [ binary main_v91 main_arg4 main_v127 ((fun l r => Host.dotGeneral dot_S2048x128_S128x128_S2048x128_1_0_0_1_n_n none l r) : (⟨S2048x128, .f32⟩ : BufTy).Contents (Elt F) → (⟨S128x128, .f32⟩ : BufTy).Contents (Elt F) → (⟨S2048x128, .f32⟩ : BufTy).Contents (Elt F)) ]

/-- Stage 7 of window 2: 23 operations, the last writing `main_call17.v16`. -/
abbrev seg2_7 : List (HloOp τ sig (Elt F)) :=
  [ TRef.nullary main_call17.c (constantI S_ 32 0#32),
    TRef.unary main_call17.c main_call17.v0 (broadcastInDim S1050624 ![] bcast_S_S1050624),
    TRef.binary (.of main_v93 : TRef sig ⟨S1050624, .i32⟩) main_call17.v0 main_call17.v1 (cmpi .slt),
    TRef.nullary main_call17.c_0 (constantI S_ 32 2048#32),
    TRef.unary main_call17.c_0 main_call17.v2 (broadcastInDim S1050624 ![] bcast_S_S1050624),
    TRef.binary (.of main_v93 : TRef sig ⟨S1050624, .i32⟩) main_call17.v2 main_call17.v3 addi,
    TRef.ternary main_call17.v1 main_call17.v3 (.of main_v93 : TRef sig ⟨S1050624, .i32⟩) main_call17.call0.v0 select,
    TRef.unary main_call17.call0.v0 main_call17.v5 (broadcastInDim S1050624x1 ![0] bcast_S1050624_S1050624x1_0),
    TRef.nullary main_call17.c_1 (constantI S1 32 2047#32),
    TRef.nullary main_call17.c_2 (constantI S_ 32 0#32),
    TRef.unary main_call17.c_2 main_call17.v6 (broadcastInDim S1050624x1 ![] bcast_S_S1050624x1),
    TRef.binary main_call17.v5 main_call17.v6 main_call17.v7 (cmpi .sge),
    TRef.unary main_call17.c_1 main_call17.v8 (broadcastInDim S1x1 ![1] bcast_S1_S1x1_1),
    TRef.unary main_call17.v8 main_call17.v9 (broadcastInDim S1050624x1 ![0, 1] bcast_S1x1_S1050624x1_0_1),
    TRef.binary main_call17.v5 main_call17.v9 main_call17.v10 (cmpi .sle),
    TRef.binary main_call17.v7 main_call17.v10 main_call17.v11 andi,
    TRef.nullary main_call17.c_3 (constantI S_ 1 1#1),
    TRef.binary main_call17.v11 main_call17.c_3 main_call17.v12 (fun x v => Host.reduce IntOp.andi x v reducesTo_S1050624x1_S1050624_d1 h_S_),
    TRef.binary (.of main_v127 : TRef sig ⟨S2048x128, .f32⟩) main_call17.v5 main_call17.v13 (fun x i => Host.gather gather_S2048x128_S1050624x1_S1050624x128_1_0_n_n_0_1_1128 x i),
    TRef.unary main_call17.v12 main_call17.v14 (broadcastInDim S1050624x128 ![0] bcast_S1050624_S1050624x128_0),
    TRef.nullary main_call17.cst (constant S_ .f32 0x7FC00000#32),
    TRef.unary main_call17.cst main_call17.v15 (broadcastInDim S1050624x128 ![] bcast_S_S1050624x128),
    TRef.ternary main_call17.v14 main_call17.v13 main_call17.v15 main_call17.v16 select ]

/-- Stage 8 of window 2: 3 operations, the last writing `main_v131`. -/
abbrev seg2_8 : List (HloOp τ sig (Elt F)) :=
  [ unary main_v126 main_v129 (broadcastInDim S1050624x1 ![0] bcast_S1050624_S1050624x1_0 : (⟨S1050624, .f32⟩ : BufTy).Contents (Elt F) → (⟨S1050624x1, .f32⟩ : BufTy).Contents (Elt F)),
    unary main_v129 main_v130 (broadcastInDim S1050624x128 ![0, 1] bcast_S1050624x1_S1050624x128_0_1 : (⟨S1050624x1, .f32⟩ : BufTy).Contents (Elt F) → (⟨S1050624x128, .f32⟩ : BufTy).Contents (Elt F)),
    binary main_v128 main_v130 main_v131 (mulf : (⟨S1050624x128, .f32⟩ : BufTy).Contents (Elt F) → (⟨S1050624x128, .f32⟩ : BufTy).Contents (Elt F) → (⟨S1050624x128, .f32⟩ : BufTy).Contents (Elt F)) ]

/-- Stage 9 of window 2: 5 operations, the last writing `main_v134`. -/
abbrev seg2_9 : List (HloOp τ sig (Elt F)) :=
  [ nullary main_cst_41 (constant S_ .f32 0x00000000#32),
    unary main_cst_41 main_v132 (broadcastInDim S2048x128 ![] bcast_S_S2048x128 : (⟨S_, .f32⟩ : BufTy).Contents (Elt F) → (⟨S2048x128, .f32⟩ : BufTy).Contents (Elt F)),
    nullary main_c_42 (constantI S_ 32 0#32),
    unary main_c_42 main_v133 (broadcastInDim S1050624 ![] bcast_S_S1050624 : (⟨S_, .i32⟩ : BufTy).Contents (Elt F) → (⟨S1050624, .i32⟩ : BufTy).Contents (Elt F)),
    binary main_v94 main_v133 main_v134 (cmpi .slt : (⟨S1050624, .i32⟩ : BufTy).Contents (Elt F) → (⟨S1050624, .i32⟩ : BufTy).Contents (Elt F) → (⟨S1050624, .i1⟩ : BufTy).Contents (Elt F)) ]

theorem ops2_split : (ops2 : List (HloOp τ sig (Elt F))) = seg2_0 ++ (seg2_1 ++ (seg2_2 ++ (seg2_3 ++ (seg2_4 ++ (seg2_5 ++ (seg2_6 ++ (seg2_7 ++ (seg2_8 ++ (seg2_9))))))))) := rfl

/-- Stage 0 of window 3: 6 operations, the last writing `main_v139`. -/
abbrev seg3_0 : List (HloOp τ sig (Elt F)) :=
  [ nullary main_c_43 (constantI S_ 32 2048#32),
    unary main_c_43 main_v135 (broadcastInDim S1050624 ![] bcast_S_S1050624 : (⟨S_, .i32⟩ : BufTy).Contents (Elt F) → (⟨S1050624, .i32⟩ : BufTy).Contents (Elt F)),
    binary main_v94 main_v135 main_v136 (addi : (⟨S1050624, .i32⟩ : BufTy).Contents (Elt F) → (⟨S1050624, .i32⟩ : BufTy).Contents (Elt F) → (⟨S1050624, .i32⟩ : BufTy).Contents (Elt F)),
    ternary main_v134 main_v136 main_v94 main_v137 (select : (⟨S1050624, .i1⟩ : BufTy).Contents (Elt F) → (⟨S1050624, .i32⟩ : BufTy).Contents (Elt F) → (⟨S1050624, .i32⟩ : BufTy).Contents (Elt F) → (⟨S1050624, .i32⟩ : BufTy).Contents (Elt F)),
    unary main_v137 main_v138 (broadcastInDim S1050624x1 ![0] bcast_S1050624_S1050624x1_0 : (⟨S1050624, .i32⟩ : BufTy).Contents (Elt F) → (⟨S1050624x1, .i32⟩ : BufTy).Contents (Elt F)),
    ternary main_v132 main_v138 main_v131 main_v139 ((fun x i u => Host.scatterAdd scatter_S2048x128_S1050624x1_S1050624x128_1_0_0_1 x i u) : (⟨S2048x128, .f32⟩ : BufTy).Contents (Elt F) → (⟨S1050624x1, .i32⟩ : BufTy).Contents (Elt F) → (⟨S1050624x128, .f32⟩ : BufTy).Contents (Elt F) → (⟨S2048x128, .f32⟩ : BufTy).Contents (Elt F)) ]

/-- Stage 1 of window 3: 3 operations, the last writing `main_v142`. -/
abbrev seg3_1 : List (HloOp τ sig (Elt F)) :=
  [ unary main_arg5 main_v140 (broadcastInDim S1x128 ![1] bcast_S128_S1x128_1 : (⟨S128, .f32⟩ : BufTy).Contents (Elt F) → (⟨S1x128, .f32⟩ : BufTy).Contents (Elt F)),
    unary main_v140 main_v141 (broadcastInDim S2048x128 ![0, 1] bcast_S1x128_S2048x128_0_1 : (⟨S1x128, .f32⟩ : BufTy).Contents (Elt F) → (⟨S2048x128, .f32⟩ : BufTy).Contents (Elt F)),
    binary main_v139 main_v141 main_v142 (addf : (⟨S2048x128, .f32⟩ : BufTy).Contents (Elt F) → (⟨S2048x128, .f32⟩ : BufTy).Contents (Elt F) → (⟨S2048x128, .f32⟩ : BufTy).Contents (Elt F)) ]

/-- Stage 2 of window 3: 7 operations, the last writing `main_v148`. -/
abbrev seg3_2 : List (HloOp τ sig (Elt F)) :=
  [ nullary main_v143 (iotaInDim S4 32 0),
    unary main_v143 main_v144 (broadcastInDim S4x512 ![0] bcast_S4_S4x512_0 : (⟨S4, .i32⟩ : BufTy).Contents (Elt F) → (⟨S4x512, .i32⟩ : BufTy).Contents (Elt F)),
    reshape main_v144 main_v145 rfl shapeCasts_S4x512_S2048,
    nullary main_cst_44 (constant S_ .f32 0x00000000#32),
    unary main_cst_44 main_v146 (broadcastInDim S4x128 ![] bcast_S_S4x128 : (⟨S_, .f32⟩ : BufTy).Contents (Elt F) → (⟨S4x128, .f32⟩ : BufTy).Contents (Elt F)),
    unary main_v145 main_v147 (broadcastInDim S2048x1 ![0] bcast_S2048_S2048x1_0 : (⟨S2048, .i32⟩ : BufTy).Contents (Elt F) → (⟨S2048x1, .i32⟩ : BufTy).Contents (Elt F)),
    ternary main_v146 main_v147 main_v142 main_v148 ((fun x i u => Host.scatterAdd scatter_S4x128_S2048x1_S2048x128_1_0_0_1 x i u) : (⟨S4x128, .f32⟩ : BufTy).Contents (Elt F) → (⟨S2048x1, .i32⟩ : BufTy).Contents (Elt F) → (⟨S2048x128, .f32⟩ : BufTy).Contents (Elt F) → (⟨S4x128, .f32⟩ : BufTy).Contents (Elt F)) ]

/-- Stage 3 of window 3: 6 operations, the last writing `main_v152`. -/
abbrev seg3_3 : List (HloOp τ sig (Elt F)) :=
  [ nullary main_cst_45 (constant S_ .f32 0x3F800000#32),
    unary main_cst_45 main_v149 (broadcastInDim S2048 ![] bcast_S_S2048 : (⟨S_, .f32⟩ : BufTy).Contents (Elt F) → (⟨S2048, .f32⟩ : BufTy).Contents (Elt F)),
    nullary main_cst_46 (constant S_ .f32 0x00000000#32),
    unary main_cst_46 main_v150 (broadcastInDim S4 ![] bcast_S_S4 : (⟨S_, .f32⟩ : BufTy).Contents (Elt F) → (⟨S4, .f32⟩ : BufTy).Contents (Elt F)),
    unary main_v145 main_v151 (broadcastInDim S2048x1 ![0] bcast_S2048_S2048x1_0 : (⟨S2048, .i32⟩ : BufTy).Contents (Elt F) → (⟨S2048x1, .i32⟩ : BufTy).Contents (Elt F)),
    ternary main_v150 main_v151 main_v149 main_v152 ((fun x i u => Host.scatterAdd scatter_S4_S2048x1_S2048_n_0_0_1 x i u) : (⟨S4, .f32⟩ : BufTy).Contents (Elt F) → (⟨S2048x1, .i32⟩ : BufTy).Contents (Elt F) → (⟨S2048, .f32⟩ : BufTy).Contents (Elt F) → (⟨S4, .f32⟩ : BufTy).Contents (Elt F)) ]

/-- Stage 4 of window 3: 3 operations, the last writing `main_v155`. -/
abbrev seg3_4 : List (HloOp τ sig (Elt F)) :=
  [ unary main_v152 main_v153 (broadcastInDim S4x1 ![0] bcast_S4_S4x1_0 : (⟨S4, .f32⟩ : BufTy).Contents (Elt F) → (⟨S4x1, .f32⟩ : BufTy).Contents (Elt F)),
    unary main_v153 main_v154 (broadcastInDim S4x128 ![0, 1] bcast_S4x1_S4x128_0_1 : (⟨S4x1, .f32⟩ : BufTy).Contents (Elt F) → (⟨S4x128, .f32⟩ : BufTy).Contents (Elt F)),
    binary main_v148 main_v154 main_v155 (Host.divf : (⟨S4x128, .f32⟩ : BufTy).Contents (Elt F) → (⟨S4x128, .f32⟩ : BufTy).Contents (Elt F) → (⟨S4x128, .f32⟩ : BufTy).Contents (Elt F)) ]

theorem ops3_split : (ops3 : List (HloOp τ sig (Elt F))) = seg3_0 ++ (seg3_1 ++ (seg3_2 ++ (seg3_3 ++ (seg3_4)))) := rfl

end Cert.ReferenceIdeal.RefRun

end
-- ==== Proof.LibFloorDivWords.lean ====
/-
  jnp's `floor_divide` and `remainder` on 32-bit words, for a nonnegative dividend and a positive divisor.

  jax lowers `x // d` on signed integers to the truncating quotient corrected by one where the signs of the operands
  differ and the truncating remainder is not zero, and `x % d` to the truncating remainder (by `d`, or by one where
  `d` is zero) corrected by the divisor where the remainder's sign differs from the divisor's and the remainder is not
  zero.  For a dividend word that reads as a nonnegative integer and a divisor word `d` with `0 < d < 2 ^ 31` neither
  correction applies, no division corner is met (the divisor is neither zero nor minus one), and the truncating
  quotient and remainder of the signed words are the quotient and remainder of the naturals they hold:
  the first chain yields the word of `x.toNat / d` and the second the word of `x.toNat % d`.

  The chains are stated first on words (`floorDivWord`, `remainderWord`), operation by operation as the lowered
  functions apply them, then on vectors with a scalar divisor broadcast to the vector's shape (`floorDivide`,
  `remainder`), which read at an index are the word chains (`floorDivide_apply`, `remainder_apply`).  The division
  unit is a parameter of the word facts; the vector chains use the host program's.
-/
import Idealize.ShloMosaic.PureOps
import Idealize.ShloMosaic.Lib.ValueIdx
import Mathlib

namespace Cert.Lib.FloorDivWords

open Idealize.ShloMosaic Idealize.ShloMosaic.ValueIdx

/-! ## Words -/

/-- A word that reads as a nonnegative integer has its sign bit clear. -/
theorem msb_false_of_toInt_nonneg {x : BitVec 32} (h : 0 ≤ x.toInt) : x.msb = false := by
  rw [BitVec.msb_eq_false_iff_two_mul_lt]
  have := BitVec.toInt_eq_toNat_cond x
  split at this <;> omega

/-- The word of a positive natural below `2 ^ 31`: its value, its sign bit, and that it is no division corner. -/
theorem toNat_ofNat_small {d : Nat} (hd : d < 2 ^ 31) : (BitVec.ofNat 32 d).toNat = d := by
  rw [BitVec.toNat_ofNat]; exact Nat.mod_eq_of_lt (by omega)

theorem msb_ofNat_small {d : Nat} (hd : d < 2 ^ 31) : (BitVec.ofNat 32 d).msb = false := by
  rw [BitVec.msb_eq_false_iff_two_mul_lt, toNat_ofNat_small hd]; omega

theorem ofNat_ne_zero {d : Nat} (h0 : 0 < d) (hd : d < 2 ^ 31) : BitVec.ofNat 32 d ≠ 0#32 := by
  intro h
  have := congrArg BitVec.toNat h
  rw [toNat_ofNat_small hd] at this
  simp at this
  omega

theorem not_corner {d : Nat} (h0 : 0 < d) (hd : d < 2 ^ 31) (x : BitVec 32) :
    ¬ IntOp.SDivCorner x (BitVec.ofNat 32 d) := by
  rintro (h | ⟨-, h⟩)
  · exact ofNat_ne_zero h0 hd h
  · have := congrArg BitVec.toNat h
    rw [toNat_ofNat_small hd] at this
    have h1 : (-1 : BitVec 32).toNat = 4294967295 := by decide
    omega

/-- The truncating quotient of a nonnegative word by a positive one is the quotient of the naturals, on any unit. -/
theorem divsi_eq (u : ArithUnit) {x : BitVec 32} {d : Nat} (hx : 0 ≤ x.toInt) (h0 : 0 < d) (hd : d < 2 ^ 31) :
    IntOp.divsi u x (BitVec.ofNat 32 d) = BitVec.ofNat 32 (x.toNat / d) := by
  rw [IntOp.divsi, if_neg (not_corner h0 hd x), BitVec.sdiv_eq, msb_false_of_toInt_nonneg hx, msb_ofNat_small hd]
  dsimp only
  rw [BitVec.udiv_eq]
  apply BitVec.eq_of_toNat_eq
  rw [BitVec.toNat_udiv, toNat_ofNat_small hd, BitVec.toNat_ofNat]
  have := x.isLt
  exact (Nat.mod_eq_of_lt (lt_of_le_of_lt (Nat.div_le_self _ _) this)).symm

/-- The truncating remainder of a nonnegative word by a positive one is the remainder of the naturals, on any unit. -/
theorem remsi_eq (u : ArithUnit) {x : BitVec 32} {d : Nat} (hx : 0 ≤ x.toInt) (h0 : 0 < d) (hd : d < 2 ^ 31) :
    IntOp.remsi u x (BitVec.ofNat 32 d) = BitVec.ofNat 32 (x.toNat % d) := by
  rw [IntOp.remsi, if_neg (not_corner h0 hd x), BitVec.srem_eq, msb_false_of_toInt_nonneg hx, msb_ofNat_small hd]
  dsimp only
  apply BitVec.eq_of_toNat_eq
  rw [BitVec.toNat_umod, toNat_ofNat_small hd, BitVec.toNat_ofNat]
  have := x.isLt
  exact (Nat.mod_eq_of_lt (lt_of_le_of_lt (Nat.mod_le _ _) this)).symm

/-- The sign of a word as a two's-complement integer: `-1`, `0` or `1`. -/
def signWord (x : BitVec 32) : BitVec 32 := if x = 0 then 0 else if x.msb then -1 else 1

/-- jnp's `floor_divide` on words, as lowered: the truncating quotient, less one where the signs differ and the
    truncating remainder is not zero. -/
def floorDivWord (u : ArithUnit) (x d : BitVec 32) : BitVec 32 :=
  Scalar.select
    (IntOp.andi (IntOp.cmpi .ne (signWord x) (signWord d)) (IntOp.cmpi .ne (IntOp.remsi u x d) 0#32))
    (IntOp.subi (IntOp.divsi u x d) 1#32) (IntOp.divsi u x d)

/-- jnp's `remainder` on words, as lowered: the truncating remainder by the divisor (by one where the divisor is
    zero), plus that divisor where the remainder's sign differs from its sign and the remainder is not zero. -/
def remainderWord (u : ArithUnit) (x d : BitVec 32) : BitVec 32 :=
  let d' := Scalar.select (IntOp.cmpi .eq d 0#32) 1#32 d
  let r := IntOp.remsi u x d'
  Scalar.select
    (IntOp.andi (IntOp.cmpi .ne (IntOp.cmpi .slt r 0#32) (IntOp.cmpi .slt d' 0#32)) (IntOp.cmpi .ne r 0#32))
    (IntOp.addi r d') r

/-- A comparison for inequality of equal words fails. -/
theorem cmpi_ne_self {w : Nat} (a : BitVec w) : IntOp.cmpi .ne a a = 0#1 := by
  simp [IntOp.cmpi]

/-- A word with its sign bit clear is not below zero. -/
theorem cmpi_slt_zero_of_msb {x : BitVec 32} (h : x.msb = false) : IntOp.cmpi .slt x 0#32 = 0#1 := by
  have h1 : BitVec.slt x 0#32 = false := by
    rw [BitVec.slt_eq_decide, BitVec.toInt_eq_toNat_of_msb h]
    simp
  simp [IntOp.cmpi, h1]

/-- `floor_divide` of a nonnegative word by a positive one: the word of the quotient of the naturals. -/
theorem floorDivWord_eq (u : ArithUnit) {x : BitVec 32} {d : Nat} (hx : 0 ≤ x.toInt) (h0 : 0 < d) (hd : d < 2 ^ 31) :
    floorDivWord u x (BitVec.ofNat 32 d) = BitVec.ofNat 32 (x.toNat / d) := by
  unfold floorDivWord
  rw [remsi_eq u hx h0 hd, divsi_eq u hx h0 hd]
  have hsd : signWord (BitVec.ofNat 32 d) = 1 := by
    have hne : BitVec.ofNat 32 d ≠ (0 : BitVec 32) := ofNat_ne_zero h0 hd
    unfold signWord
    rw [if_neg hne, msb_ofNat_small hd]
    rfl
  have hc : IntOp.andi (IntOp.cmpi .ne (signWord x) (signWord (BitVec.ofNat 32 d)))
      (IntOp.cmpi .ne (BitVec.ofNat 32 (x.toNat % d)) 0#32) = 0#1 := by
    by_cases hz : x = 0
    · subst hz
      have : IntOp.cmpi .ne (BitVec.ofNat 32 ((0 : BitVec 32).toNat % d)) 0#32 = 0#1 := by
        simp [IntOp.cmpi]
      rw [this]
      simp [IntOp.andi]
    · have hsx : signWord x = 1 := by
        unfold signWord
        rw [if_neg hz, msb_false_of_toInt_nonneg hx]
        rfl
      rw [hsx, hsd, cmpi_ne_self]
      simp [IntOp.andi]
  rw [hc]
  exact select_zero _ _

/-- `remainder` of a nonnegative word by a positive one: the word of the remainder of the naturals. -/
theorem remainderWord_eq (u : ArithUnit) {x : BitVec 32} {d : Nat} (hx : 0 ≤ x.toInt) (h0 : 0 < d) (hd : d < 2 ^ 31) :
    remainderWord u x (BitVec.ofNat 32 d) = BitVec.ofNat 32 (x.toNat % d) := by
  unfold remainderWord
  have hd' : Scalar.select (IntOp.cmpi .eq (BitVec.ofNat 32 d) 0#32) 1#32 (BitVec.ofNat 32 d) = BitVec.ofNat 32 d := by
    have : IntOp.cmpi .eq (BitVec.ofNat 32 d) 0#32 = 0#1 := by
      have hb : (BitVec.ofNat 32 d == 0#32) = false := beq_eq_false_iff_ne.mpr (ofNat_ne_zero h0 hd)
      simp [IntOp.cmpi, hb]
    rw [this]
    exact select_zero _ _
  dsimp only
  rw [hd', remsi_eq u hx h0 hd]
  have hlt : x.toNat % d < 2 ^ 31 := lt_trans (Nat.mod_lt _ h0) hd
  rw [cmpi_slt_zero_of_msb (msb_ofNat_small hlt), cmpi_slt_zero_of_msb (msb_ofNat_small hd), cmpi_ne_self]
  have : ∀ c : BitVec 1, IntOp.andi 0#1 c = 0#1 := fun c => by simp [IntOp.andi]
  rw [this]
  exact select_zero _ _

/-! ## Vectors with a scalar divisor -/

/-- A scalar broadcast to any shape reads, at every index, the scalar's one entry. -/
theorem broadcastInDim_scalar {α : Type} {t : Shape} (dims : Fin 0 → Fin t.rank)
    (h : (⟨0, ![]⟩ : Shape).BroadcastsInDim t dims) (x : (⟨0, ![]⟩ : Shape).Idx → α) (j : t.Idx) :
    broadcastInDim t dims h x j = x ix0 := by
  unfold broadcastInDim
  exact congrArg x (funext fun a => a.elim0)

/-- jnp's `floor_divide` of a vector by a scalar, operation by operation as lowered. -/
def floorDivide {t : Shape} (hb : (⟨0, ![]⟩ : Shape).BroadcastsInDim t (![] : Fin 0 → Fin t.rank))
    (X : IVec t 32) (D : IVec ⟨0, ![]⟩ 32) : IVec t 32 :=
  let v0 := broadcastInDim t ![] hb D
  let v1 := Host.divsi X v0
  let v2 := signi X
  let v3 := signi D
  let v4 := broadcastInDim t ![] hb v3
  let v5 := cmpi .ne v2 v4
  let v6 := broadcastInDim t ![] hb D
  let v7 := Host.remsi X v6
  let v8 := broadcastInDim t ![] hb (constantI ⟨0, ![]⟩ 32 0#32)
  let v9 := cmpi .ne v7 v8
  let v10 := andi v5 v9
  let v11 := broadcastInDim t ![] hb (constantI ⟨0, ![]⟩ 32 1#32)
  let v12 := subi v1 v11
  select v10 v12 v1

/-- jnp's `remainder` of a vector by a scalar, operation by operation as lowered. -/
def remainder {t : Shape} (hb : (⟨0, ![]⟩ : Shape).BroadcastsInDim t (![] : Fin 0 → Fin t.rank))
    (X : IVec t 32) (D : IVec ⟨0, ![]⟩ 32) : IVec t 32 :=
  let v0 : IVec ⟨0, ![]⟩ 32 := id D
  let v1 := cmpi .eq v0 (constantI ⟨0, ![]⟩ 32 0#32)
  let v2 := select v1 (constantI ⟨0, ![]⟩ 32 1#32) v0
  let v3 := broadcastInDim t ![] hb v2
  let v4 := Host.remsi X v3
  let v5 := broadcastInDim t ![] hb (constantI ⟨0, ![]⟩ 32 0#32)
  let v6 := cmpi .ne v4 v5
  let v7 := broadcastInDim t ![] hb (constantI ⟨0, ![]⟩ 32 0#32)
  let v8 := cmpi .slt v4 v7
  let v9 := cmpi .slt v2 (constantI ⟨0, ![]⟩ 32 0#32)
  let v10 := broadcastInDim t ![] hb v9
  let v11 := cmpi .ne v8 v10
  let v12 := andi v11 v6
  let v13 := broadcastInDim t ![] hb v2
  let v14 := addi v4 v13
  select v12 v14 v4

/-- The vector `floor_divide` read at an index is the word chain on the entry and the scalar. -/
theorem floorDivide_apply {t : Shape} (hb : (⟨0, ![]⟩ : Shape).BroadcastsInDim t (![] : Fin 0 → Fin t.rank))
    (X : IVec t 32) (D : IVec ⟨0, ![]⟩ 32) (i : t.Idx) :
    floorDivide hb X D i = floorDivWord .host (X i) (D ix0) := by
  simp only [floorDivide, floorDivWord, signWord, select, andi, cmpi, subi, Host.divsi, Host.remsi, signi, constantI,
    broadcastInDim_scalar]

/-- The vector `remainder` read at an index is the word chain on the entry and the scalar. -/
theorem remainder_apply {t : Shape} (hb : (⟨0, ![]⟩ : Shape).BroadcastsInDim t (![] : Fin 0 → Fin t.rank))
    (X : IVec t 32) (D : IVec ⟨0, ![]⟩ 32) (i : t.Idx) :
    remainder hb X D i = remainderWord .host (X i) (D ix0) := by
  simp only [remainder, remainderWord, select, andi, addi, cmpi, Host.remsi, constantI, broadcastInDim_scalar, id]

/-- `floor_divide` of a vector by a scalar at an index: a nonnegative entry by a positive divisor gives the word of
    the quotient of the naturals. -/
theorem floorDivide_at {t : Shape} (hb : (⟨0, ![]⟩ : Shape).BroadcastsInDim t (![] : Fin 0 → Fin t.rank))
    (X : IVec t 32) (D : IVec ⟨0, ![]⟩ 32) (i : t.Idx) {d : Nat} (hD : D ix0 = BitVec.ofNat 32 d)
    (hx : 0 ≤ (X i).toInt) (h0 : 0 < d) (hd : d < 2 ^ 31) :
    floorDivide hb X D i = BitVec.ofNat 32 ((X i).toNat / d) := by
  rw [floorDivide_apply, hD, floorDivWord_eq .host hx h0 hd]

/-- `remainder` of a vector by a scalar at an index: a nonnegative entry by a positive divisor gives the word of the
    remainder of the naturals. -/
theorem remainder_at {t : Shape} (hb : (⟨0, ![]⟩ : Shape).BroadcastsInDim t (![] : Fin 0 → Fin t.rank))
    (X : IVec t 32) (D : IVec ⟨0, ![]⟩ 32) (i : t.Idx) {d : Nat} (hD : D ix0 = BitVec.ofNat 32 d)
    (hx : 0 ≤ (X i).toInt) (h0 : 0 < d) (hd : d < 2 ^ 31) :
    remainder hb X D i = BitVec.ofNat 32 ((X i).toNat % d) := by
  rw [remainder_apply, hD, remainderWord_eq .host hx h0 hd]

end Cert.Lib.FloorDivWords
-- ==== Proof.RefEdgeStages.lean ====
/-
  Window 0 of the reference program, stage by stage: from the adjacency array to the padded edge list.

  Each stage of the window computes one meaningful intermediate as a pure function of a few earlier ones.  The stage
  functions are written here once, operation by operation as the program applies them, and each stage's run is shown
  to leave its result buffer at the stage function of the buffers the stage reads (a stage equation), every other
  buffer it does not write keeping its contents.  Composed along the window they give the source nodes, the target
  nodes and the weights of the edge list as functions of the adjacency array alone.

  The stages: the mask of nonzero entries; its running count along the flat order (a cumulative sum); the histogram of
  the running count (an integer scatter-add of ones); the cumulative sum of the histogram, which at `e` is the flat
  position of the `e`-th nonzero entry; the three coordinates of that position (floor divisions and remainders by
  constants); the number of nonzero entries (a full reduction); the coordinates set to zero and the weight set to zero
  past that number; the node numbers `graph * 512 + row` and `graph * 512 + column`.
-/
import proofs.«167911_g83915071029568_cont_sun_c4_623_16_alg».proof.Proof.RefSegs
import proofs.«167911_g83915071029568_cont_sun_c4_623_16_alg».proof.Proof.LibRunPieces
import proofs.«167911_g83915071029568_cont_sun_c4_623_16_alg».proof.Proof.LibFloorDivWords

noncomputable section

namespace Cert.ReferenceIdeal.Edges

open Cert.ReferenceIdeal Cert.ReferenceIdeal.Gen Cert.ReferenceIdeal.RefRun Idealize.ShloMosaic Idealize.ShloMosaic.TcCoe Idealize.SL.Sem Idealize.ShloMosaic.StableHlo

variable {F : FTy → Type} [FloatOps F]

/-! ## The stage functions -/

/-- The mask of nonzero entries of the adjacency array (one bit per entry). -/
def maskBits (adj : FVec F S4x512x512 .f32) : IVec S4x512x512 1 :=
  cmpf .une adj (broadcastInDim S4x512x512 ![] bcast_S_S4x512x512 (constant S_ .f32 0x00000000#32))

/-- The cumulative sum of a vector of words, as the program writes it: a window reduction. -/
def cumsum (x : IVec S1048576 32) : IVec S1048576 32 :=
  Host.reduceWindow IntOp.addi ![1048576] ![1] ![1048575] ![0] x (broadcastInDim S_ ![] bcast_S_S_ (constantI S_ 32 0#32))
    reduceWindows_S1048576_S1048576_w1048576s1p1048575_0 h_S_

/-- The mask flattened in row-major order and widened to words. -/
def flatMask (m : IVec S4x512x512 1) : IVec S1048576 32 :=
  extui 32 (fun i => shapeCast S1048576 m shapeCasts_S4x512x512_S1048576 i) natLt_1_32

/-- The running count of nonzero entries along the flat order. -/
def runCount (m : IVec S4x512x512 1) : IVec S1048576 32 := cumsum (flatMask m)

/-- The running count clipped below at zero, then a negative value wrapped by the extent (both the identity on the
    values a count takes). -/
def clipWrap (c : IVec S1048576 32) : IVec S1048576 32 :=
  select
    (cmpi .slt (maxsi (broadcastInDim S1048576 ![] bcast_S_S1048576 (id (constantI S_ 32 0#32))) c)
      (broadcastInDim S1048576 ![] bcast_S_S1048576 (constantI S_ 32 0#32)))
    (addi (maxsi (broadcastInDim S1048576 ![] bcast_S_S1048576 (id (constantI S_ 32 0#32))) c)
      (broadcastInDim S1048576 ![] bcast_S_S1048576 (constantI S_ 32 1048576#32)))
    (maxsi (broadcastInDim S1048576 ![] bcast_S_S1048576 (id (constantI S_ 32 0#32))) c)

/-- The histogram of the running count: ones scattered with body `+` into zeros at the (clipped, wrapped) counts. -/
def histogram (c : IVec S1048576 32) : IVec S1048576 32 :=
  Host.scatter scatter_S1048576_S1048576x1_S1048576_n_0_0_1 IntOp.addi
    (broadcastInDim S1048576 ![] bcast_S_S1048576 (constantI S_ 32 0#32))
    (broadcastInDim S1048576x1 ![0] bcast_S1048576_S1048576x1_0 (clipWrap c))
    (broadcastInDim S1048576 ![] bcast_S_S1048576 (constantI S_ 32 1#32))

/-- Floor division of a vector of words by a constant, as lowered. -/
def fdiv (x : IVec S1048576 32) (d : BitVec 32) : IVec S1048576 32 :=
  Cert.Lib.FloorDivWords.floorDivide bcast_S_S1048576 x (constantI S_ 32 d)

/-- Remainder of a vector of words by a constant, as lowered. -/
def rem (x : IVec S1048576 32) (d : BitVec 32) : IVec S1048576 32 :=
  Cert.Lib.FloorDivWords.remainder bcast_S_S1048576 x (constantI S_ 32 d)

/-- The number of nonzero entries: the mask widened to words and summed over all three axes. -/
def countNZ (m : IVec S4x512x512 1) : IVec S_ 32 :=
  Host.reduce IntOp.addi (extui 32 m natLt_1_32) (constantI S_ 32 0#32) reducesTo_S4x512x512_S_d0_1_2 h_S_

/-- The padded tail: positions at or past the number of nonzero entries. -/
def tailMask (m : IVec S4x512x512 1) : IVec S1048576 1 :=
  cmpi .sge (iotaInDim S1048576 32 0) (broadcastInDim S1048576 ![] bcast_S_S1048576 (countNZ m))

/-- A coordinate vector set to zero on the padded tail. -/
def zeroTail (t : IVec S1048576 1) (x : IVec S1048576 32) : IVec S1048576 32 :=
  select t (broadcastInDim S1048576 ![] bcast_S_S1048576 (id (constantI S_ 32 0#32))) x

/-- The edge weight: one before the number of nonzero entries, zero on the padded tail, as a float. -/
def weightOf (n : IVec S_ 32) : FVec F S1048576 .f32 :=
  uitofp .f32 (cmpi .slt (iotaInDim S1048576 32 0) (broadcastInDim S1048576 ![] bcast_S_S1048576 n))

/-- A node number: the graph times 512 plus the coordinate within the graph. -/
def node (g c : IVec S1048576 32) : IVec S1048576 32 :=
  addi (muli g (broadcastInDim S1048576 ![] bcast_S_S1048576 (constantI S_ 32 512#32))) c

/-! ## The stage equations -/

-- The folds over the full extent stay folded while two spellings of a stage's term are compared.
attribute [local irreducible] Host.reduceWindow Host.scatter Host.reduce

/-- Closes a stage equation: the run of the stage's operations read at a buffer, the carryings between a called
    function's value types and the buffers' own types cancelled or the identity. -/
macro "stage_eq" : tactic =>
  `(tactic| (after_results_simp
             try simp only [Cert.Lib.RunPieces.ofBuf_toBuf]
             try rfl))

theorem seg0_0_v1 (V : Valuation τ sig (Elt F)) :
    after (seg0_0 (F := F)) V (main_v1 : DevRef τ sig) = maskBits (V (main_arg1 : DevRef τ sig)) := by stage_eq

theorem seg0_0_v2 (V : Valuation τ sig (Elt F)) :
    after (seg0_0 (F := F)) V (main_v2 : DevRef τ sig) = runCount (maskBits (V (main_arg1 : DevRef τ sig))) := by stage_eq

theorem seg0_1_v12 (V : Valuation τ sig (Elt F)) :
    after (seg0_1 (F := F)) V (main_v12 : DevRef τ sig) = histogram (V (main_v2 : DevRef τ sig)) := by stage_eq

theorem seg0_2_v13 (V : Valuation τ sig (Elt F)) :
    after (seg0_2 (F := F)) V (main_v13 : DevRef τ sig) = cumsum (V (main_v12 : DevRef τ sig)) := by stage_eq

theorem seg0_3_v14 (V : Valuation τ sig (Elt F)) :
    after (seg0_3 (F := F)) V (main_v14 : DevRef τ sig) = fdiv (V (main_v13 : DevRef τ sig)) 262144#32 := by stage_eq

theorem seg0_3_v15 (V : Valuation τ sig (Elt F)) :
    after (seg0_3 (F := F)) V (main_v15 : DevRef τ sig) = rem (fdiv (V (main_v13 : DevRef τ sig)) 262144#32) 4#32 := by
  stage_eq

theorem seg0_4_v17 (V : Valuation τ sig (Elt F)) :
    after (seg0_4 (F := F)) V (main_v17 : DevRef τ sig) = rem (fdiv (V (main_v13 : DevRef τ sig)) 512#32) 512#32 := by
  stage_eq

theorem seg0_5_v19 (V : Valuation τ sig (Elt F)) :
    after (seg0_5 (F := F)) V (main_v19 : DevRef τ sig) = rem (fdiv (V (main_v13 : DevRef τ sig)) 1#32) 512#32 := by
  stage_eq

theorem seg0_6_v22 (V : Valuation τ sig (Elt F)) :
    after (seg0_6 (F := F)) V (main_v22 : DevRef τ sig) = countNZ (V (main_v1 : DevRef τ sig)) := by stage_eq

theorem seg0_6_v24 (V : Valuation τ sig (Elt F)) :
    after (seg0_6 (F := F)) V (main_v24 : DevRef τ sig) = tailMask (V (main_v1 : DevRef τ sig)) := by stage_eq

theorem seg0_7_v25 (V : Valuation τ sig (Elt F)) :
    after (seg0_7 (F := F)) V (main_v25 : DevRef τ sig)
      = zeroTail (V (main_v24 : DevRef τ sig)) (V (main_v15 : DevRef τ sig)) := by stage_eq

theorem seg0_7_v26 (V : Valuation τ sig (Elt F)) :
    after (seg0_7 (F := F)) V (main_v26 : DevRef τ sig)
      = zeroTail (V (main_v24 : DevRef τ sig)) (V (main_v17 : DevRef τ sig)) := by stage_eq

theorem seg0_7_v27 (V : Valuation τ sig (Elt F)) :
    after (seg0_7 (F := F)) V (main_v27 : DevRef τ sig)
      = zeroTail (V (main_v24 : DevRef τ sig)) (V (main_v19 : DevRef τ sig)) := by stage_eq

theorem seg0_8_v32 (V : Valuation τ sig (Elt F)) :
    after (seg0_8 (F := F)) V (main_v32 : DevRef τ sig)
      = weightOf (countNZ (maskBits (V (main_arg1 : DevRef τ sig)))) := by stage_eq

theorem seg0_9_v35 (V : Valuation τ sig (Elt F)) :
    after (seg0_9 (F := F)) V (main_v35 : DevRef τ sig)
      = node (V (main_v25 : DevRef τ sig)) (V (main_v26 : DevRef τ sig)) := by stage_eq

theorem seg0_9_v38 (V : Valuation τ sig (Elt F)) :
    after (seg0_9 (F := F)) V (main_v38 : DevRef τ sig)
      = node (V (main_v25 : DevRef τ sig)) (V (main_v27 : DevRef τ sig)) := by stage_eq

theorem seg0_10_v39 (V : Valuation τ sig (Elt F)) :
    after (seg0_10 (F := F)) V (main_v39 : DevRef τ sig)
      = fun i => shapeCast S2048x128 (V (main_arg0 : DevRef τ sig)) shapeCasts_S4x512x128_S2048x128 i := by stage_eq

theorem seg0_10_v40 (V : Valuation τ sig (Elt F)) :
    after (seg0_10 (F := F)) V (main_v40 : DevRef τ sig) = iotaInDim S2048 32 0 := by stage_eq

theorem seg0_10_v41 (V : Valuation τ sig (Elt F)) :
    after (seg0_10 (F := F)) V (main_v41 : DevRef τ sig)
      = concatenate S1050624 0 [⟨S1048576, V (main_v35 : DevRef τ sig)⟩, ⟨S2048, iotaInDim S2048 32 0⟩]
          concatenates_S1048576_S2048_S1050624_d0 := by stage_eq

end Cert.ReferenceIdeal.Edges

end
-- ==== Proof.RefEdgeKeeps.lean ====
/-
  Window 0 of the reference program: what each stage leaves alone.

  A buffer that a stage's operations do not write keeps its contents through the stage.  Listed here for every buffer
  that is read by a later stage than the one that wrote it, and for the program's six arguments through every stage.
-/
import proofs.«167911_g83915071029568_cont_sun_c4_623_16_alg».proof.Proof.RefSegs

noncomputable section

namespace Cert.ReferenceIdeal.Edges

open Cert.ReferenceIdeal Cert.ReferenceIdeal.Gen Cert.ReferenceIdeal.RefRun Idealize.ShloMosaic Idealize.ShloMosaic.TcCoe Idealize.SL.Sem Idealize.ShloMosaic.StableHlo

variable {F : FTy → Type} [FloatOps F]

/-! ## What a stage leaves alone

A buffer a stage does not write keeps its contents through the stage. -/

theorem seg0_0_keeps_arg0 (V : Valuation τ sig (Elt F)) :
    after (seg0_0 (F := F)) V (main_arg0 : DevRef τ sig) = V (main_arg0 : DevRef τ sig) := by after_results_simp

theorem seg0_0_keeps_arg1 (V : Valuation τ sig (Elt F)) :
    after (seg0_0 (F := F)) V (main_arg1 : DevRef τ sig) = V (main_arg1 : DevRef τ sig) := by after_results_simp

theorem seg0_0_keeps_arg2 (V : Valuation τ sig (Elt F)) :
    after (seg0_0 (F := F)) V (main_arg2 : DevRef τ sig) = V (main_arg2 : DevRef τ sig) := by after_results_simp

theorem seg0_0_keeps_arg3 (V : Valuation τ sig (Elt F)) :
    after (seg0_0 (F := F)) V (main_arg3 : DevRef τ sig) = V (main_arg3 : DevRef τ sig) := by after_results_simp

theorem seg0_0_keeps_arg4 (V : Valuation τ sig (Elt F)) :
    after (seg0_0 (F := F)) V (main_arg4 : DevRef τ sig) = V (main_arg4 : DevRef τ sig) := by after_results_simp

theorem seg0_0_keeps_arg5 (V : Valuation τ sig (Elt F)) :
    after (seg0_0 (F := F)) V (main_arg5 : DevRef τ sig) = V (main_arg5 : DevRef τ sig) := by after_results_simp

theorem seg0_1_keeps_v1 (V : Valuation τ sig (Elt F)) :
    after (seg0_1 (F := F)) V (main_v1 : DevRef τ sig) = V (main_v1 : DevRef τ sig) := by after_results_simp

theorem seg0_1_keeps_arg0 (V : Valuation τ sig (Elt F)) :
    after (seg0_1 (F := F)) V (main_arg0 : DevRef τ sig) = V (main_arg0 : DevRef τ sig) := by after_results_simp

theorem seg0_1_keeps_arg1 (V : Valuation τ sig (Elt F)) :
    after (seg0_1 (F := F)) V (main_arg1 : DevRef τ sig) = V (main_arg1 : DevRef τ sig) := by after_results_simp

theorem seg0_1_keeps_arg2 (V : Valuation τ sig (Elt F)) :
    after (seg0_1 (F := F)) V (main_arg2 : DevRef τ sig) = V (main_arg2 : DevRef τ sig) := by after_results_simp

theorem seg0_1_keeps_arg3 (V : Valuation τ sig (Elt F)) :
    after (seg0_1 (F := F)) V (main_arg3 : DevRef τ sig) = V (main_arg3 : DevRef τ sig) := by after_results_simp

theorem seg0_1_keeps_arg4 (V : Valuation τ sig (Elt F)) :
    after (seg0_1 (F := F)) V (main_arg4 : DevRef τ sig) = V (main_arg4 : DevRef τ sig) := by after_results_simp

theorem seg0_1_keeps_arg5 (V : Valuation τ sig (Elt F)) :
    after (seg0_1 (F := F)) V (main_arg5 : DevRef τ sig) = V (main_arg5 : DevRef τ sig) := by after_results_simp

theorem seg0_2_keeps_v1 (V : Valuation τ sig (Elt F)) :
    after (seg0_2 (F := F)) V (main_v1 : DevRef τ sig) = V (main_v1 : DevRef τ sig) := by after_results_simp

theorem seg0_2_keeps_arg0 (V : Valuation τ sig (Elt F)) :
    after (seg0_2 (F := F)) V (main_arg0 : DevRef τ sig) = V (main_arg0 : DevRef τ sig) := by after_results_simp

theorem seg0_2_keeps_arg1 (V : Valuation τ sig (Elt F)) :
    after (seg0_2 (F := F)) V (main_arg1 : DevRef τ sig) = V (main_arg1 : DevRef τ sig) := by after_results_simp

theorem seg0_2_keeps_arg2 (V : Valuation τ sig (Elt F)) :
    after (seg0_2 (F := F)) V (main_arg2 : DevRef τ sig) = V (main_arg2 : DevRef τ sig) := by after_results_simp

theorem seg0_2_keeps_arg3 (V : Valuation τ sig (Elt F)) :
    after (seg0_2 (F := F)) V (main_arg3 : DevRef τ sig) = V (main_arg3 : DevRef τ sig) := by after_results_simp

theorem seg0_2_keeps_arg4 (V : Valuation τ sig (Elt F)) :
    after (seg0_2 (F := F)) V (main_arg4 : DevRef τ sig) = V (main_arg4 : DevRef τ sig) := by after_results_simp

theorem seg0_2_keeps_arg5 (V : Valuation τ sig (Elt F)) :
    after (seg0_2 (F := F)) V (main_arg5 : DevRef τ sig) = V (main_arg5 : DevRef τ sig) := by after_results_simp

theorem seg0_3_keeps_v1 (V : Valuation τ sig (Elt F)) :
    after (seg0_3 (F := F)) V (main_v1 : DevRef τ sig) = V (main_v1 : DevRef τ sig) := by after_results_simp

theorem seg0_3_keeps_v13 (V : Valuation τ sig (Elt F)) :
    after (seg0_3 (F := F)) V (main_v13 : DevRef τ sig) = V (main_v13 : DevRef τ sig) := by after_results_simp

theorem seg0_3_keeps_arg0 (V : Valuation τ sig (Elt F)) :
    after (seg0_3 (F := F)) V (main_arg0 : DevRef τ sig) = V (main_arg0 : DevRef τ sig) := by after_results_simp

theorem seg0_3_keeps_arg1 (V : Valuation τ sig (Elt F)) :
    after (seg0_3 (F := F)) V (main_arg1 : DevRef τ sig) = V (main_arg1 : DevRef τ sig) := by after_results_simp

theorem seg0_3_keeps_arg2 (V : Valuation τ sig (Elt F)) :
    after (seg0_3 (F := F)) V (main_arg2 : DevRef τ sig) = V (main_arg2 : DevRef τ sig) := by after_results_simp

theorem seg0_3_keeps_arg3 (V : Valuation τ sig (Elt F)) :
    after (seg0_3 (F := F)) V (main_arg3 : DevRef τ sig) = V (main_arg3 : DevRef τ sig) := by after_results_simp

theorem seg0_3_keeps_arg4 (V : Valuation τ sig (Elt F)) :
    after (seg0_3 (F := F)) V (main_arg4 : DevRef τ sig) = V (main_arg4 : DevRef τ sig) := by after_results_simp

theorem seg0_3_keeps_arg5 (V : Valuation τ sig (Elt F)) :
    after (seg0_3 (F := F)) V (main_arg5 : DevRef τ sig) = V (main_arg5 : DevRef τ sig) := by after_results_simp

theorem seg0_4_keeps_v1 (V : Valuation τ sig (Elt F)) :
    after (seg0_4 (F := F)) V (main_v1 : DevRef τ sig) = V (main_v1 : DevRef τ sig) := by after_results_simp

theorem seg0_4_keeps_v13 (V : Valuation τ sig (Elt F)) :
    after (seg0_4 (F := F)) V (main_v13 : DevRef τ sig) = V (main_v13 : DevRef τ sig) := by after_results_simp

theorem seg0_4_keeps_v15 (V : Valuation τ sig (Elt F)) :
    after (seg0_4 (F := F)) V (main_v15 : DevRef τ sig) = V (main_v15 : DevRef τ sig) := by after_results_simp

theorem seg0_4_keeps_arg0 (V : Valuation τ sig (Elt F)) :
    after (seg0_4 (F := F)) V (main_arg0 : DevRef τ sig) = V (main_arg0 : DevRef τ sig) := by after_results_simp

theorem seg0_4_keeps_arg1 (V : Valuation τ sig (Elt F)) :
    after (seg0_4 (F := F)) V (main_arg1 : DevRef τ sig) = V (main_arg1 : DevRef τ sig) := by after_results_simp

theorem seg0_4_keeps_arg2 (V : Valuation τ sig (Elt F)) :
    after (seg0_4 (F := F)) V (main_arg2 : DevRef τ sig) = V (main_arg2 : DevRef τ sig) := by after_results_simp

theorem seg0_4_keeps_arg3 (V : Valuation τ sig (Elt F)) :
    after (seg0_4 (F := F)) V (main_arg3 : DevRef τ sig) = V (main_arg3 : DevRef τ sig) := by after_results_simp

theorem seg0_4_keeps_arg4 (V : Valuation τ sig (Elt F)) :
    after (seg0_4 (F := F)) V (main_arg4 : DevRef τ sig) = V (main_arg4 : DevRef τ sig) := by after_results_simp

theorem seg0_4_keeps_arg5 (V : Valuation τ sig (Elt F)) :
    after (seg0_4 (F := F)) V (main_arg5 : DevRef τ sig) = V (main_arg5 : DevRef τ sig) := by after_results_simp

theorem seg0_5_keeps_v1 (V : Valuation τ sig (Elt F)) :
    after (seg0_5 (F := F)) V (main_v1 : DevRef τ sig) = V (main_v1 : DevRef τ sig) := by after_results_simp

theorem seg0_5_keeps_v15 (V : Valuation τ sig (Elt F)) :
    after (seg0_5 (F := F)) V (main_v15 : DevRef τ sig) = V (main_v15 : DevRef τ sig) := by after_results_simp

theorem seg0_5_keeps_v17 (V : Valuation τ sig (Elt F)) :
    after (seg0_5 (F := F)) V (main_v17 : DevRef τ sig) = V (main_v17 : DevRef τ sig) := by after_results_simp

theorem seg0_5_keeps_arg0 (V : Valuation τ sig (Elt F)) :
    after (seg0_5 (F := F)) V (main_arg0 : DevRef τ sig) = V (main_arg0 : DevRef τ sig) := by after_results_simp

theorem seg0_5_keeps_arg1 (V : Valuation τ sig (Elt F)) :
    after (seg0_5 (F := F)) V (main_arg1 : DevRef τ sig) = V (main_arg1 : DevRef τ sig) := by after_results_simp

theorem seg0_5_keeps_arg2 (V : Valuation τ sig (Elt F)) :
    after (seg0_5 (F := F)) V (main_arg2 : DevRef τ sig) = V (main_arg2 : DevRef τ sig) := by after_results_simp

theorem seg0_5_keeps_arg3 (V : Valuation τ sig (Elt F)) :
    after (seg0_5 (F := F)) V (main_arg3 : DevRef τ sig) = V (main_arg3 : DevRef τ sig) := by after_results_simp

theorem seg0_5_keeps_arg4 (V : Valuation τ sig (Elt F)) :
    after (seg0_5 (F := F)) V (main_arg4 : DevRef τ sig) = V (main_arg4 : DevRef τ sig) := by after_results_simp

theorem seg0_5_keeps_arg5 (V : Valuation τ sig (Elt F)) :
    after (seg0_5 (F := F)) V (main_arg5 : DevRef τ sig) = V (main_arg5 : DevRef τ sig) := by after_results_simp

theorem seg0_6_keeps_v15 (V : Valuation τ sig (Elt F)) :
    after (seg0_6 (F := F)) V (main_v15 : DevRef τ sig) = V (main_v15 : DevRef τ sig) := by after_results_simp

theorem seg0_6_keeps_v17 (V : Valuation τ sig (Elt F)) :
    after (seg0_6 (F := F)) V (main_v17 : DevRef τ sig) = V (main_v17 : DevRef τ sig) := by after_results_simp

theorem seg0_6_keeps_v19 (V : Valuation τ sig (Elt F)) :
    after (seg0_6 (F := F)) V (main_v19 : DevRef τ sig) = V (main_v19 : DevRef τ sig) := by after_results_simp

theorem seg0_6_keeps_arg0 (V : Valuation τ sig (Elt F)) :
    after (seg0_6 (F := F)) V (main_arg0 : DevRef τ sig) = V (main_arg0 : DevRef τ sig) := by after_results_simp

theorem seg0_6_keeps_arg1 (V : Valuation τ sig (Elt F)) :
    after (seg0_6 (F := F)) V (main_arg1 : DevRef τ sig) = V (main_arg1 : DevRef τ sig) := by after_results_simp

theorem seg0_6_keeps_arg2 (V : Valuation τ sig (Elt F)) :
    after (seg0_6 (F := F)) V (main_arg2 : DevRef τ sig) = V (main_arg2 : DevRef τ sig) := by after_results_simp

theorem seg0_6_keeps_arg3 (V : Valuation τ sig (Elt F)) :
    after (seg0_6 (F := F)) V (main_arg3 : DevRef τ sig) = V (main_arg3 : DevRef τ sig) := by after_results_simp

theorem seg0_6_keeps_arg4 (V : Valuation τ sig (Elt F)) :
    after (seg0_6 (F := F)) V (main_arg4 : DevRef τ sig) = V (main_arg4 : DevRef τ sig) := by after_results_simp

theorem seg0_6_keeps_arg5 (V : Valuation τ sig (Elt F)) :
    after (seg0_6 (F := F)) V (main_arg5 : DevRef τ sig) = V (main_arg5 : DevRef τ sig) := by after_results_simp

theorem seg0_7_keeps_arg0 (V : Valuation τ sig (Elt F)) :
    after (seg0_7 (F := F)) V (main_arg0 : DevRef τ sig) = V (main_arg0 : DevRef τ sig) := by after_results_simp

theorem seg0_7_keeps_arg1 (V : Valuation τ sig (Elt F)) :
    after (seg0_7 (F := F)) V (main_arg1 : DevRef τ sig) = V (main_arg1 : DevRef τ sig) := by after_results_simp

theorem seg0_7_keeps_arg2 (V : Valuation τ sig (Elt F)) :
    after (seg0_7 (F := F)) V (main_arg2 : DevRef τ sig) = V (main_arg2 : DevRef τ sig) := by after_results_simp

theorem seg0_7_keeps_arg3 (V : Valuation τ sig (Elt F)) :
    after (seg0_7 (F := F)) V (main_arg3 : DevRef τ sig) = V (main_arg3 : DevRef τ sig) := by after_results_simp

theorem seg0_7_keeps_arg4 (V : Valuation τ sig (Elt F)) :
    after (seg0_7 (F := F)) V (main_arg4 : DevRef τ sig) = V (main_arg4 : DevRef τ sig) := by after_results_simp

theorem seg0_7_keeps_arg5 (V : Valuation τ sig (Elt F)) :
    after (seg0_7 (F := F)) V (main_arg5 : DevRef τ sig) = V (main_arg5 : DevRef τ sig) := by after_results_simp

theorem seg0_8_keeps_v25 (V : Valuation τ sig (Elt F)) :
    after (seg0_8 (F := F)) V (main_v25 : DevRef τ sig) = V (main_v25 : DevRef τ sig) := by after_results_simp

theorem seg0_8_keeps_v26 (V : Valuation τ sig (Elt F)) :
    after (seg0_8 (F := F)) V (main_v26 : DevRef τ sig) = V (main_v26 : DevRef τ sig) := by after_results_simp

theorem seg0_8_keeps_v27 (V : Valuation τ sig (Elt F)) :
    after (seg0_8 (F := F)) V (main_v27 : DevRef τ sig) = V (main_v27 : DevRef τ sig) := by after_results_simp

theorem seg0_8_keeps_arg0 (V : Valuation τ sig (Elt F)) :
    after (seg0_8 (F := F)) V (main_arg0 : DevRef τ sig) = V (main_arg0 : DevRef τ sig) := by after_results_simp

theorem seg0_8_keeps_arg1 (V : Valuation τ sig (Elt F)) :
    after (seg0_8 (F := F)) V (main_arg1 : DevRef τ sig) = V (main_arg1 : DevRef τ sig) := by after_results_simp

theorem seg0_8_keeps_arg2 (V : Valuation τ sig (Elt F)) :
    after (seg0_8 (F := F)) V (main_arg2 : DevRef τ sig) = V (main_arg2 : DevRef τ sig) := by after_results_simp

theorem seg0_8_keeps_arg3 (V : Valuation τ sig (Elt F)) :
    after (seg0_8 (F := F)) V (main_arg3 : DevRef τ sig) = V (main_arg3 : DevRef τ sig) := by after_results_simp

theorem seg0_8_keeps_arg4 (V : Valuation τ sig (Elt F)) :
    after (seg0_8 (F := F)) V (main_arg4 : DevRef τ sig) = V (main_arg4 : DevRef τ sig) := by after_results_simp

theorem seg0_8_keeps_arg5 (V : Valuation τ sig (Elt F)) :
    after (seg0_8 (F := F)) V (main_arg5 : DevRef τ sig) = V (main_arg5 : DevRef τ sig) := by after_results_simp

theorem seg0_9_keeps_v32 (V : Valuation τ sig (Elt F)) :
    after (seg0_9 (F := F)) V (main_v32 : DevRef τ sig) = V (main_v32 : DevRef τ sig) := by after_results_simp

theorem seg0_9_keeps_arg0 (V : Valuation τ sig (Elt F)) :
    after (seg0_9 (F := F)) V (main_arg0 : DevRef τ sig) = V (main_arg0 : DevRef τ sig) := by after_results_simp

theorem seg0_9_keeps_arg1 (V : Valuation τ sig (Elt F)) :
    after (seg0_9 (F := F)) V (main_arg1 : DevRef τ sig) = V (main_arg1 : DevRef τ sig) := by after_results_simp

theorem seg0_9_keeps_arg2 (V : Valuation τ sig (Elt F)) :
    after (seg0_9 (F := F)) V (main_arg2 : DevRef τ sig) = V (main_arg2 : DevRef τ sig) := by after_results_simp

theorem seg0_9_keeps_arg3 (V : Valuation τ sig (Elt F)) :
    after (seg0_9 (F := F)) V (main_arg3 : DevRef τ sig) = V (main_arg3 : DevRef τ sig) := by after_results_simp

theorem seg0_9_keeps_arg4 (V : Valuation τ sig (Elt F)) :
    after (seg0_9 (F := F)) V (main_arg4 : DevRef τ sig) = V (main_arg4 : DevRef τ sig) := by after_results_simp

theorem seg0_9_keeps_arg5 (V : Valuation τ sig (Elt F)) :
    after (seg0_9 (F := F)) V (main_arg5 : DevRef τ sig) = V (main_arg5 : DevRef τ sig) := by after_results_simp

theorem seg0_10_keeps_v32 (V : Valuation τ sig (Elt F)) :
    after (seg0_10 (F := F)) V (main_v32 : DevRef τ sig) = V (main_v32 : DevRef τ sig) := by after_results_simp

theorem seg0_10_keeps_v35 (V : Valuation τ sig (Elt F)) :
    after (seg0_10 (F := F)) V (main_v35 : DevRef τ sig) = V (main_v35 : DevRef τ sig) := by after_results_simp

theorem seg0_10_keeps_v38 (V : Valuation τ sig (Elt F)) :
    after (seg0_10 (F := F)) V (main_v38 : DevRef τ sig) = V (main_v38 : DevRef τ sig) := by after_results_simp

theorem seg0_10_keeps_arg0 (V : Valuation τ sig (Elt F)) :
    after (seg0_10 (F := F)) V (main_arg0 : DevRef τ sig) = V (main_arg0 : DevRef τ sig) := by after_results_simp

theorem seg0_10_keeps_arg1 (V : Valuation τ sig (Elt F)) :
    after (seg0_10 (F := F)) V (main_arg1 : DevRef τ sig) = V (main_arg1 : DevRef τ sig) := by after_results_simp

theorem seg0_10_keeps_arg2 (V : Valuation τ sig (Elt F)) :
    after (seg0_10 (F := F)) V (main_arg2 : DevRef τ sig) = V (main_arg2 : DevRef τ sig) := by after_results_simp

theorem seg0_10_keeps_arg3 (V : Valuation τ sig (Elt F)) :
    after (seg0_10 (F := F)) V (main_arg3 : DevRef τ sig) = V (main_arg3 : DevRef τ sig) := by after_results_simp

theorem seg0_10_keeps_arg4 (V : Valuation τ sig (Elt F)) :
    after (seg0_10 (F := F)) V (main_arg4 : DevRef τ sig) = V (main_arg4 : DevRef τ sig) := by after_results_simp

theorem seg0_10_keeps_arg5 (V : Valuation τ sig (Elt F)) :
    after (seg0_10 (F := F)) V (main_arg5 : DevRef τ sig) = V (main_arg5 : DevRef τ sig) := by after_results_simp

end Cert.ReferenceIdeal.Edges

end
-- ==== Proof.RefEdgeWindow.lean ====
/-
  Window 0 of the reference program composed: the edge list as functions of the adjacency array.

  The stage equations chained along the window: the buffers the later windows read — the source nodes, the target nodes
  and the weights of the padded edge list, the node features reshaped, the node numbers, and the source nodes followed
  by the node numbers — end the window at pure functions of the program's arguments, and the arguments themselves are
  untouched.
-/
import proofs.«167911_g83915071029568_cont_sun_c4_623_16_alg».proof.Proof.RefEdgeStages
import proofs.«167911_g83915071029568_cont_sun_c4_623_16_alg».proof.Proof.RefEdgeKeeps

noncomputable section

namespace Cert.ReferenceIdeal.Edges

open Cert.ReferenceIdeal Cert.ReferenceIdeal.Gen Cert.ReferenceIdeal.RefRun Idealize.ShloMosaic Idealize.ShloMosaic.TcCoe Idealize.SL.Sem Idealize.ShloMosaic.StableHlo

variable {F : FTy → Type} [FloatOps F]

/-! ## The edge list as functions of the adjacency array -/

/-- At `e`, the flat position of the `e`-th nonzero entry (as a word): the cumulative sum of the histogram of the
    running count. -/
def flatPos (adj : FVec F S4x512x512 .f32) : IVec S1048576 32 := cumsum (histogram (runCount (maskBits adj)))

/-- The graph, the row and the column of the `e`-th nonzero entry, zero on the padded tail. -/
def graphW (adj : FVec F S4x512x512 .f32) : IVec S1048576 32 :=
  zeroTail (tailMask (maskBits adj)) (rem (fdiv (flatPos adj) 262144#32) 4#32)
@[inherit_doc graphW]
def rowW (adj : FVec F S4x512x512 .f32) : IVec S1048576 32 :=
  zeroTail (tailMask (maskBits adj)) (rem (fdiv (flatPos adj) 512#32) 512#32)
@[inherit_doc graphW]
def colW (adj : FVec F S4x512x512 .f32) : IVec S1048576 32 :=
  zeroTail (tailMask (maskBits adj)) (rem (fdiv (flatPos adj) 1#32) 512#32)

/-- The source node of each edge of the padded list. -/
def srcW (adj : FVec F S4x512x512 .f32) : IVec S1048576 32 := node (graphW adj) (rowW adj)
/-- The target node of each edge of the padded list. -/
def dstW (adj : FVec F S4x512x512 .f32) : IVec S1048576 32 := node (graphW adj) (colW adj)
/-- The weight of each edge of the padded list: one for an edge, zero on the padded tail. -/
def wF (adj : FVec F S4x512x512 .f32) : FVec F S1048576 .f32 := weightOf (countNZ (maskBits adj))

/-! ## The window's run -/

/-- The window's run is its stages' runs in turn. -/
theorem ops0_run (V : Valuation τ sig (Elt F)) :
    after (ops0 (F := F)) V
      = after seg0_10 (after seg0_9 (after seg0_8 (after seg0_7 (after seg0_6 (after seg0_5 (after seg0_4
          (after seg0_3 (after seg0_2 (after seg0_1 (after seg0_0 V)))))))))) := by
  rw [ops0_split]
  simp only [Cert.Lib.RunPieces.after_append]

theorem window0_v35 (V : Valuation τ sig (Elt F)) :
    after (ops0 (F := F)) V (main_v35 : DevRef τ sig) = srcW (V (main_arg1 : DevRef τ sig)) := by
  rw [ops0_run, seg0_10_keeps_v35, seg0_9_v35, seg0_8_keeps_v25, seg0_8_keeps_v26, seg0_7_v25, seg0_7_v26, seg0_6_v24,
    seg0_6_keeps_v15, seg0_6_keeps_v17, seg0_5_keeps_v15, seg0_5_keeps_v17, seg0_4_keeps_v15, seg0_4_v17,
    seg0_3_v15, seg0_3_keeps_v13, seg0_2_v13, seg0_1_v12, seg0_0_v2, seg0_5_keeps_v1, seg0_4_keeps_v1, seg0_3_keeps_v1, seg0_2_keeps_v1, seg0_1_keeps_v1, seg0_0_v1]
  rfl

theorem window0_v38 (V : Valuation τ sig (Elt F)) :
    after (ops0 (F := F)) V (main_v38 : DevRef τ sig) = dstW (V (main_arg1 : DevRef τ sig)) := by
  rw [ops0_run, seg0_10_keeps_v38, seg0_9_v38, seg0_8_keeps_v25, seg0_8_keeps_v27, seg0_7_v25, seg0_7_v27, seg0_6_v24,
    seg0_6_keeps_v15, seg0_6_keeps_v19, seg0_5_keeps_v15, seg0_5_v19, seg0_4_keeps_v15, seg0_4_keeps_v13,
    seg0_3_v15, seg0_3_keeps_v13, seg0_2_v13, seg0_1_v12, seg0_0_v2, seg0_5_keeps_v1, seg0_4_keeps_v1, seg0_3_keeps_v1, seg0_2_keeps_v1, seg0_1_keeps_v1, seg0_0_v1]
  rfl

theorem window0_v32 (V : Valuation τ sig (Elt F)) :
    after (ops0 (F := F)) V (main_v32 : DevRef τ sig) = wF (V (main_arg1 : DevRef τ sig)) := by
  rw [ops0_run, seg0_10_keeps_v32, seg0_9_keeps_v32, seg0_8_v32, seg0_7_keeps_arg1, seg0_6_keeps_arg1, seg0_5_keeps_arg1, seg0_4_keeps_arg1, seg0_3_keeps_arg1, seg0_2_keeps_arg1, seg0_1_keeps_arg1, seg0_0_keeps_arg1]
  rfl

theorem window0_v39 (V : Valuation τ sig (Elt F)) :
    after (ops0 (F := F)) V (main_v39 : DevRef τ sig)
      = fun i => shapeCast S2048x128 (V (main_arg0 : DevRef τ sig)) shapeCasts_S4x512x128_S2048x128 i := by
  rw [ops0_run, seg0_10_v39, seg0_9_keeps_arg0, seg0_8_keeps_arg0, seg0_7_keeps_arg0, seg0_6_keeps_arg0, seg0_5_keeps_arg0, seg0_4_keeps_arg0, seg0_3_keeps_arg0, seg0_2_keeps_arg0, seg0_1_keeps_arg0, seg0_0_keeps_arg0]

theorem window0_v40 (V : Valuation τ sig (Elt F)) :
    after (ops0 (F := F)) V (main_v40 : DevRef τ sig) = iotaInDim S2048 32 0 := by
  rw [ops0_run, seg0_10_v40]

theorem window0_v41 (V : Valuation τ sig (Elt F)) :
    after (ops0 (F := F)) V (main_v41 : DevRef τ sig)
      = concatenate S1050624 0 [⟨S1048576, srcW (V (main_arg1 : DevRef τ sig))⟩, ⟨S2048, iotaInDim S2048 32 0⟩]
          concatenates_S1048576_S2048_S1050624_d0 := by
  rw [ops0_run, seg0_10_v41, seg0_9_v35, seg0_8_keeps_v25, seg0_8_keeps_v26, seg0_7_v25, seg0_7_v26, seg0_6_v24,
    seg0_6_keeps_v15, seg0_6_keeps_v17, seg0_5_keeps_v15, seg0_5_keeps_v17, seg0_4_keeps_v15, seg0_4_v17,
    seg0_3_v15, seg0_3_keeps_v13, seg0_2_v13, seg0_1_v12, seg0_0_v2, seg0_5_keeps_v1, seg0_4_keeps_v1, seg0_3_keeps_v1, seg0_2_keeps_v1, seg0_1_keeps_v1, seg0_0_v1]
  rfl

theorem window0_arg0 (V : Valuation τ sig (Elt F)) :
    after (ops0 (F := F)) V (main_arg0 : DevRef τ sig) = V (main_arg0 : DevRef τ sig) := by
  rw [ops0_run, seg0_10_keeps_arg0, seg0_9_keeps_arg0, seg0_8_keeps_arg0, seg0_7_keeps_arg0, seg0_6_keeps_arg0, seg0_5_keeps_arg0, seg0_4_keeps_arg0, seg0_3_keeps_arg0, seg0_2_keeps_arg0, seg0_1_keeps_arg0, seg0_0_keeps_arg0]

theorem window0_arg1 (V : Valuation τ sig (Elt F)) :
    after (ops0 (F := F)) V (main_arg1 : DevRef τ sig) = V (main_arg1 : DevRef τ sig) := by
  rw [ops0_run, seg0_10_keeps_arg1, seg0_9_keeps_arg1, seg0_8_keeps_arg1, seg0_7_keeps_arg1, seg0_6_keeps_arg1, seg0_5_keeps_arg1, seg0_4_keeps_arg1, seg0_3_keeps_arg1, seg0_2_keeps_arg1, seg0_1_keeps_arg1, seg0_0_keeps_arg1]

theorem window0_arg2 (V : Valuation τ sig (Elt F)) :
    after (ops0 (F := F)) V (main_arg2 : DevRef τ sig) = V (main_arg2 : DevRef τ sig) := by
  rw [ops0_run, seg0_10_keeps_arg2, seg0_9_keeps_arg2, seg0_8_keeps_arg2, seg0_7_keeps_arg2, seg0_6_keeps_arg2, seg0_5_keeps_arg2, seg0_4_keeps_arg2, seg0_3_keeps_arg2, seg0_2_keeps_arg2, seg0_1_keeps_arg2, seg0_0_keeps_arg2]

theorem window0_arg3 (V : Valuation τ sig (Elt F)) :
    after (ops0 (F := F)) V (main_arg3 : DevRef τ sig) = V (main_arg3 : DevRef τ sig) := by
  rw [ops0_run, seg0_10_keeps_arg3, seg0_9_keeps_arg3, seg0_8_keeps_arg3, seg0_7_keeps_arg3, seg0_6_keeps_arg3, seg0_5_keeps_arg3, seg0_4_keeps_arg3, seg0_3_keeps_arg3, seg0_2_keeps_arg3, seg0_1_keeps_arg3, seg0_0_keeps_arg3]

theorem window0_arg4 (V : Valuation τ sig (Elt F)) :
    after (ops0 (F := F)) V (main_arg4 : DevRef τ sig) = V (main_arg4 : DevRef τ sig) := by
  rw [ops0_run, seg0_10_keeps_arg4, seg0_9_keeps_arg4, seg0_8_keeps_arg4, seg0_7_keeps_arg4, seg0_6_keeps_arg4, seg0_5_keeps_arg4, seg0_4_keeps_arg4, seg0_3_keeps_arg4, seg0_2_keeps_arg4, seg0_1_keeps_arg4, seg0_0_keeps_arg4]

theorem window0_arg5 (V : Valuation τ sig (Elt F)) :
    after (ops0 (F := F)) V (main_arg5 : DevRef τ sig) = V (main_arg5 : DevRef τ sig) := by
  rw [ops0_run, seg0_10_keeps_arg5, seg0_9_keeps_arg5, seg0_8_keeps_arg5, seg0_7_keeps_arg5, seg0_6_keeps_arg5, seg0_5_keeps_arg5, seg0_4_keeps_arg5, seg0_3_keeps_arg5, seg0_2_keeps_arg5, seg0_1_keeps_arg5, seg0_0_keeps_arg5]

/-- Window 0, end to end: the buffers the later windows read, as functions of the arguments. -/
theorem window0 (V : Valuation τ sig (Elt F)) :
    after (ops0 (F := F)) V (main_v35 : DevRef τ sig) = srcW (V (main_arg1 : DevRef τ sig))
    ∧ after (ops0 (F := F)) V (main_v38 : DevRef τ sig) = dstW (V (main_arg1 : DevRef τ sig))
    ∧ after (ops0 (F := F)) V (main_v32 : DevRef τ sig) = wF (V (main_arg1 : DevRef τ sig))
    ∧ after (ops0 (F := F)) V (main_v39 : DevRef τ sig)
        = (fun i => shapeCast S2048x128 (V (main_arg0 : DevRef τ sig)) shapeCasts_S4x512x128_S2048x128 i)
    ∧ after (ops0 (F := F)) V (main_v40 : DevRef τ sig) = iotaInDim S2048 32 0
    ∧ after (ops0 (F := F)) V (main_v41 : DevRef τ sig)
        = concatenate S1050624 0 [⟨S1048576, srcW (V (main_arg1 : DevRef τ sig))⟩, ⟨S2048, iotaInDim S2048 32 0⟩]
            concatenates_S1048576_S2048_S1050624_d0
    ∧ after (ops0 (F := F)) V (main_arg0 : DevRef τ sig) = V (main_arg0 : DevRef τ sig)
    ∧ after (ops0 (F := F)) V (main_arg1 : DevRef τ sig) = V (main_arg1 : DevRef τ sig)
    ∧ after (ops0 (F := F)) V (main_arg2 : DevRef τ sig) = V (main_arg2 : DevRef τ sig)
    ∧ after (ops0 (F := F)) V (main_arg3 : DevRef τ sig) = V (main_arg3 : DevRef τ sig)
    ∧ after (ops0 (F := F)) V (main_arg4 : DevRef τ sig) = V (main_arg4 : DevRef τ sig)
    ∧ after (ops0 (F := F)) V (main_arg5 : DevRef τ sig) = V (main_arg5 : DevRef τ sig) :=
  ⟨window0_v35 V, window0_v38 V, window0_v32 V, window0_v39 V, window0_v40 V, window0_v41 V, window0_arg0 V,
    window0_arg1 V, window0_arg2 V, window0_arg3 V, window0_arg4 V, window0_arg5 V⟩

end Cert.ReferenceIdeal.Edges

end
-- ==== Proof.LibWindowPrefix.lean ====
/-
  The cumulative sum of a vector of words, as a sliding-window reduction, read at a position.

  A cumulative sum of `n` words is printed as a window reduction: a window of `n` cells moved with stride one over
  the vector padded with `n − 1` cells on the low side, the body word addition, the initial value (which also fills
  the padding) zero.  The library defines the window reduction at a position as a left fold of the body over the
  window's cells; word addition is associative and commutative and zero is its identity, so the fold is a finite
  sum, and the cells of the window at position `i` that fall inside the vector are exactly the entries `0, …, i`:
  cell `k` of the window reads position `i + k − (n − 1)` of the vector.  Hence the result at `i` is the sum of the
  entries up to and including `i` (`cumsum_apply`); for words of naturals whose total does not wrap it is the word
  of the partial sum (`cumsum_ofNat`, `cumsum_toNat`).

  The statements are over a variable extent `n`; instantiate them, never evaluate the fold at a literal extent.
-/
import Idealize.ShloMosaic.PureOps
import Idealize.ShloMosaic.Lib.ValueIdx
import Mathlib

namespace Cert.Lib.WindowPrefix

open Idealize.ShloMosaic Idealize.ShloMosaic.ValueIdx

/-- A left fold of word addition is the start value plus the sum of the terms. -/
theorem foldl_addi_eq_sum {w : Nat} {ι : Type} (t : ι → BitVec w) (l : List ι) (v : BitVec w) :
    l.foldl (fun r k => IntOp.addi r (t k)) v = v + (l.map t).sum := by
  induction l generalizing v with
  | nil => simp
  | cons a l ih => rw [List.foldl_cons, ih, List.map_cons, List.sum_cons, ← add_assoc]; rfl

/-- A vector of extent `n` has `n` entries. -/
theorem numel_one (n : Nat) : (⟨1, ![n]⟩ : Shape).numel = n := by
  simp [Shape.numel]

/-- In a rank-1 shape the entry numbered `k` in row-major order is the entry at coordinate `k`. -/
theorem rowMajor_symm_one (n : Nat) (k : Fin n) :
    (⟨1, ![n]⟩ : Shape).rowMajor.symm (finCongr (numel_one n).symm k) = ix1 k := by
  rw [Equiv.symm_apply_eq]
  apply Fin.ext
  rw [Shape.rowMajor_val_one]
  rfl

/-- The entries of a vector by natural position, zero past the end. -/
def atNat {n w : Nat} (x : (⟨1, ![n]⟩ : Shape).Idx → BitVec w) (m : Nat) : BitVec w :=
  if h : m < n then x (ix1 ⟨m, h⟩) else 0

theorem atNat_val {n w : Nat} (x : (⟨1, ![n]⟩ : Shape).Idx → BitVec w) (j : Fin n) : atNat x j.val = x (ix1 j) :=
  dif_pos j.isLt

/-- Cell `k` of the window at position `i` (stride one, `lo = n − 1` cells of low padding): it reads position
    `i + k − lo` of the vector when that is not padding, and the padding value otherwise.  The cell is given as an
    index `q` of the window with coordinate `k`. -/
theorem cell_eq {n lo w : Nat} (hlo : lo + 1 = n) (x : (⟨1, ![n]⟩ : Shape).Idx → BitVec w) (v : BitVec w)
    (i k : Fin n) (q : (⟨1, ![n]⟩ : Shape).Idx) (hq : q = ix1 k) :
    (if hin : ∀ a : Fin 1, (![lo] : Fin 1 → Nat) a ≤ (ix1 i a).val * (![1] : Fin 1 → Nat) a + (q a).val
          ∧ (ix1 i a).val * (![1] : Fin 1 → Nat) a + (q a).val - (![lo] : Fin 1 → Nat) a
              < (⟨1, ![n]⟩ : Shape).size a then
        x (fun a => ⟨(ix1 i a).val * (![1] : Fin 1 → Nat) a + (q a).val - (![lo] : Fin 1 → Nat) a, (hin a).2⟩)
      else v)
      = if lo ≤ i.val + k.val then atNat x (i.val + k.val - lo) else v := by
  subst hq
  have hi := i.isLt
  have hk := k.isLt
  by_cases hc : lo ≤ i.val + k.val
  · have hin : ∀ a : Fin 1, (![lo] : Fin 1 → Nat) a ≤ (ix1 i a).val * (![1] : Fin 1 → Nat) a + (ix1 k a).val
          ∧ (ix1 i a).val * (![1] : Fin 1 → Nat) a + (ix1 k a).val - (![lo] : Fin 1 → Nat) a
              < (⟨1, ![n]⟩ : Shape).size a := by
      intro a
      obtain rfl : a = 0 := Subsingleton.elim _ _
      show lo ≤ i.val * 1 + k.val ∧ i.val * 1 + k.val - lo < n
      omega
    have hlt : i.val + k.val - lo < n := by omega
    rw [dif_pos hin, if_pos hc, atNat, dif_pos hlt]
    refine congrArg x ?_
    funext a
    obtain rfl : a = 0 := Subsingleton.elim _ _
    refine Fin.ext ?_
    show i.val * 1 + k.val - lo = i.val + k.val - lo
    omega
  · have hin : ¬ ∀ a : Fin 1, (![lo] : Fin 1 → Nat) a ≤ (ix1 i a).val * (![1] : Fin 1 → Nat) a + (ix1 k a).val
          ∧ (ix1 i a).val * (![1] : Fin 1 → Nat) a + (ix1 k a).val - (![lo] : Fin 1 → Nat) a
              < (⟨1, ![n]⟩ : Shape).size a := by
      intro h
      have h0 : lo ≤ i.val * 1 + k.val := (h 0).1
      omega
    rw [dif_neg hin, if_neg hc]

/-- The window's cells that are not padding are the entries up to the position: a sum over the window is the sum
    over the entries `≤ i`. -/
theorem sum_window_eq {n lo w : Nat} (hlo : lo + 1 = n) (x : (⟨1, ![n]⟩ : Shape).Idx → BitVec w) (i : Fin n) :
    (∑ k : Fin n, if lo ≤ i.val + k.val then atNat x (i.val + k.val - lo) else 0)
      = ∑ j : Fin n, if j ≤ i then x (ix1 j) else 0 := by
  have hi := i.isLt
  have hL : (∑ k : Fin n, if lo ≤ i.val + k.val then atNat x (i.val + k.val - lo) else 0)
      = ∑ m ∈ Finset.range n, if lo ≤ i.val + m then atNat x (i.val + m - lo) else 0 :=
    Fin.sum_univ_eq_sum_range (fun m => if lo ≤ i.val + m then atNat x (i.val + m - lo) else 0) n
  have hR : (∑ j : Fin n, if j ≤ i then x (ix1 j) else 0)
      = ∑ m ∈ Finset.range n, if m ≤ i.val then atNat x m else 0 := by
    rw [← Fin.sum_univ_eq_sum_range (fun m => if m ≤ i.val then atNat x m else 0) n]
    exact Finset.sum_congr rfl fun j _ => by rw [atNat_val]; rfl
  rw [hL, hR, ← Finset.sum_filter, ← Finset.sum_filter]
  refine Finset.sum_nbij' (fun m => i.val + m - lo) (fun j => j + lo - i.val) ?_ ?_ ?_ ?_ ?_
  · intro m hm
    rw [Finset.mem_filter, Finset.mem_range] at hm ⊢
    omega
  · intro j hj
    rw [Finset.mem_filter, Finset.mem_range] at hj ⊢
    omega
  · intro m hm
    rw [Finset.mem_filter, Finset.mem_range] at hm
    show i.val + m - lo + lo - i.val = m
    omega
  · intro j hj
    rw [Finset.mem_filter, Finset.mem_range] at hj
    show i.val + (j + lo - i.val) - lo = j
    omega
  · intro m _
    rfl

/-- The cumulative sum read at a position: the window reduction with window `n`, stride one, `n − 1` cells of low
    padding, body word addition and initial value zero is, at `i`, the sum of the entries up to and including `i`. -/
theorem cumsum_apply {n lo w : Nat} (hlo : lo + 1 = n) (x : (⟨1, ![n]⟩ : Shape).Idx → BitVec w)
    (init : (⟨0, ![]⟩ : Shape).Idx → BitVec w) (h0 : init ix0 = 0#w)
    (h : (⟨1, ![n]⟩ : Shape).ReduceWindows ![n] ![1] ![lo] ![0] ⟨1, ![n]⟩)
    (hu : 0 < (⟨0, ![]⟩ : Shape).numel) (i : Fin n) :
    Host.reduceWindow IntOp.addi ![n] ![1] ![lo] ![0] x init h hu (ix1 i)
      = ∑ j : Fin n, if j ≤ i then x (ix1 j) else 0 := by
  have hv : init (Shape.Idx.first hu) = 0 := by rw [eq_ix0 (Shape.Idx.first hu)]; exact h0
  unfold Host.reduceWindow
  dsimp only
  rw [foldl_addi_eq_sum, hv, zero_add, ← Fin.sum_univ_def, ← Equiv.sum_comp (finCongr (numel_one n).symm),
    ← sum_window_eq hlo x i]
  refine Finset.sum_congr rfl fun k _ => ?_
  exact cell_eq hlo x 0 i k _ (rowMajor_symm_one n k)

/-- The cumulative sum of words of naturals is the word of the partial sum. -/
theorem cumsum_ofNat {n lo w : Nat} (hlo : lo + 1 = n) (x : (⟨1, ![n]⟩ : Shape).Idx → BitVec w)
    (init : (⟨0, ![]⟩ : Shape).Idx → BitVec w) (h0 : init ix0 = 0#w)
    (h : (⟨1, ![n]⟩ : Shape).ReduceWindows ![n] ![1] ![lo] ![0] ⟨1, ![n]⟩)
    (hu : 0 < (⟨0, ![]⟩ : Shape).numel) (a : Fin n → Nat) (hx : ∀ j, x (ix1 j) = BitVec.ofNat w (a j))
    (i : Fin n) :
    Host.reduceWindow IntOp.addi ![n] ![1] ![lo] ![0] x init h hu (ix1 i)
      = BitVec.ofNat w (∑ j ∈ Finset.univ.filter (· ≤ i), a j) := by
  rw [cumsum_apply hlo x init h0 h hu i, ← Finset.sum_filter, ← BitVec.natCast_eq_ofNat, Nat.cast_sum]
  exact Finset.sum_congr rfl fun j _ => by rw [hx, BitVec.natCast_eq_ofNat]

/-- … and when the total does not wrap, its value as a natural is the partial sum. -/
theorem cumsum_toNat {n lo w : Nat} (hlo : lo + 1 = n) (x : (⟨1, ![n]⟩ : Shape).Idx → BitVec w)
    (init : (⟨0, ![]⟩ : Shape).Idx → BitVec w) (h0 : init ix0 = 0#w)
    (h : (⟨1, ![n]⟩ : Shape).ReduceWindows ![n] ![1] ![lo] ![0] ⟨1, ![n]⟩)
    (hu : 0 < (⟨0, ![]⟩ : Shape).numel) (a : Fin n → Nat) (hx : ∀ j, x (ix1 j) = BitVec.ofNat w (a j))
    (hsum : (∑ j, a j) < 2 ^ w) (i : Fin n) :
    (Host.reduceWindow IntOp.addi ![n] ![1] ![lo] ![0] x init h hu (ix1 i)).toNat
      = ∑ j ∈ Finset.univ.filter (· ≤ i), a j := by
  rw [cumsum_ofNat hlo x init h0 h hu a hx i, BitVec.toNat_ofNat]
  refine Nat.mod_eq_of_lt (lt_of_le_of_lt ?_ hsum)
  exact Finset.sum_le_sum_of_subset (Finset.filter_subset _ _)

end Cert.Lib.WindowPrefix
-- ==== Proof.RefEdgeWords.lean ====
/-
  Words, indices and sums for reading the edge list.

  The small facts the edge list's stages are read with, none of them about the program:
  * words: a one-bit word widened is the word of 0 or 1; the signed maximum with zero, and the wrap of a negative
    value, are the identity on a word with its sign bit clear; signed comparisons of the words of two naturals below
    `2 ^ 31` are the comparisons of the naturals; the word of a product plus a summand; a one-bit word as an ideal
    float is 0 or 1;
  * indices: the entry of a `[4, 512, 512]` array at flat position `p` (`adjIdx`), which is the entry numbered `p` in
    row-major order and the entry a reshape to a vector reads at `p`; a vector broadcast to a one-column array reads
    its own entry;
  * sums: a full integer reduction of an array to a scalar, with body `+` from zero, is the sum of all entries in
    row-major order; a sum over the positions `≤ i` of `Fin n` is a sum over an initial range of naturals; the number
    of `e : Fin n` with a property of `e.val` is the number of naturals below `n` with it.
-/
import Idealize.ShloMosaic.PureOps
import Idealize.ShloMosaic.Lib.ValueIdx
import Idealize.ShloMosaic.Lib.WordArith
import Mathlib
import proofs.«167911_g83915071029568_cont_sun_c4_623_16_alg».proof.Proof.LibWindowPrefix
import proofs.«167911_g83915071029568_cont_sun_c4_623_16_alg».proof.Proof.LibFloorDivWords

noncomputable section

namespace Cert.ReferenceIdeal.EdgeWords

open Idealize.ShloMosaic Idealize.ShloMosaic.ValueIdx

/-! ## Words -/

/-- A one-bit word widened to 32 bits is the word of 0 or 1. -/
theorem setWidth_ofBool (c : Bool) : (BitVec.ofBool c).setWidth 32 = BitVec.ofNat 32 (if c then 1 else 0) := by
  cases c <;> decide

/-- The word of a natural below `2 ^ 31` reads signed as that natural. -/
theorem toInt_small {k : Nat} (h : k < 2 ^ 31) : (BitVec.ofNat 32 k).toInt = (k : Int) :=
  Idealize.ShloMosaic.WordArith.toInt_ofNat_small k h

theorem toInt_small_nonneg {k : Nat} (h : k < 2 ^ 31) : 0 ≤ (BitVec.ofNat 32 k).toInt := by
  rw [toInt_small h]; exact Int.natCast_nonneg k

/-- The signed maximum of zero and a word with its sign bit clear is that word. -/
theorem maxsi_zero_small {k : Nat} (h : k < 2 ^ 31) : IntOp.maxsi 0#32 (BitVec.ofNat 32 k) = BitVec.ofNat 32 k := by
  unfold IntOp.maxsi
  have h1 : BitVec.slt (BitVec.ofNat 32 k) 0#32 = false := by
    rw [BitVec.slt_eq_decide, toInt_small h]
    simp
  rw [h1]
  rfl

/-- A negative value wrapped by an extent: the identity on a word with its sign bit clear. -/
theorem wrap_small {k : Nat} (h : k < 2 ^ 31) (m : BitVec 32) :
    Scalar.select (IntOp.cmpi .slt (BitVec.ofNat 32 k) 0#32) (IntOp.addi (BitVec.ofNat 32 k) m) (BitVec.ofNat 32 k)
      = BitVec.ofNat 32 k := by
  rw [Cert.Lib.FloorDivWords.cmpi_slt_zero_of_msb (Cert.Lib.FloorDivWords.msb_ofNat_small h)]
  exact select_zero _ _

/-- Signed `≥` of the words of two naturals below `2 ^ 31`. -/
theorem cmpi_sge_small {a b : Nat} (ha : a < 2 ^ 31) (hb : b < 2 ^ 31) :
    IntOp.cmpi .sge (BitVec.ofNat 32 a) (BitVec.ofNat 32 b) = BitVec.ofBool (decide (b ≤ a)) := by
  unfold IntOp.cmpi
  show BitVec.ofBool (BitVec.sle (BitVec.ofNat 32 b) (BitVec.ofNat 32 a)) = _
  rw [BitVec.sle_eq_decide, toInt_small ha, toInt_small hb]
  congr 1
  exact decide_eq_decide.mpr Int.ofNat_le

/-- Signed `<` of the words of two naturals below `2 ^ 31`. -/
theorem cmpi_slt_small {a b : Nat} (ha : a < 2 ^ 31) (hb : b < 2 ^ 31) :
    IntOp.cmpi .slt (BitVec.ofNat 32 a) (BitVec.ofNat 32 b) = BitVec.ofBool (decide (a < b)) := by
  unfold IntOp.cmpi
  show BitVec.ofBool (BitVec.slt (BitVec.ofNat 32 a) (BitVec.ofNat 32 b)) = _
  rw [BitVec.slt_eq_decide, toInt_small ha, toInt_small hb]
  congr 1
  exact decide_eq_decide.mpr Int.ofNat_lt

/-- A select on a decided bit is the `if`. -/
theorem select_ofBool {α : Type} (c : Bool) (a b : α) : Scalar.select (BitVec.ofBool c) a b = if c then a else b := by
  cases c
  · exact select_zero a b
  · exact select_one a b

/-- The word of `g * 512 + r`. -/
theorem node_word (g r : Nat) :
    IntOp.addi (IntOp.muli (BitVec.ofNat 32 g) 512#32) (BitVec.ofNat 32 r) = BitVec.ofNat 32 (g * 512 + r) := by
  unfold IntOp.addi IntOp.muli
  rw [BitVec.ofNat_add, BitVec.ofNat_mul]

/-- A one-bit word as an ideal float: 1 or 0. -/
theorem uitofp_ofBool (c : Bool) :
    FloatOps.uitofp (F := Ideal) .f32 (BitVec.ofBool c) = if c then (1 : Ideal .f32) else 0 := by
  cases c
  · show (((BitVec.ofBool false).toNat : ℝ) : EReal) = 0
    simp
  · show (((BitVec.ofBool true).toNat : ℝ) : EReal) = 1
    simp

/-! ## Indices -/

/-- The entry of a `[4, 512, 512]` array at flat position `p`: graph `p / 262144`, row `p / 512 % 512`, column
    `p % 512` (the graph taken modulo 4 so that every natural names an entry). -/
def adjIdx (p : Nat) : (⟨3, ![4, 512, 512]⟩ : Shape).Idx :=
  ix3 ⟨p / 262144 % 4, by omega⟩ ⟨p / 512 % 512, by omega⟩ ⟨p % 512, by omega⟩

theorem numel_adj : (⟨3, ![4, 512, 512]⟩ : Shape).numel = 1048576 := by
  simp [Shape.numel, Fin.prod_univ_succ]

/-- Its row-major number is `p`. -/
theorem rowMajor_adjIdx {p : Nat} (hp : p < 1048576) :
    ((⟨3, ![4, 512, 512]⟩ : Shape).rowMajor (adjIdx p)).val = p := by
  rw [Shape.rowMajor_val_three]
  show (p / 262144 % 4 * 512 + p / 512 % 512) * 512 + p % 512 = p
  omega

/-- The entry numbered `n` in row-major order is the entry at flat position `n`. -/
theorem rowMajor_symm_adj (n : Fin (⟨3, ![4, 512, 512]⟩ : Shape).numel) :
    (⟨3, ![4, 512, 512]⟩ : Shape).rowMajor.symm n = adjIdx n.val := by
  have hn : n.val < 1048576 := lt_of_lt_of_eq n.isLt numel_adj
  rw [Equiv.symm_apply_eq]
  exact Fin.ext (rowMajor_adjIdx hn).symm

/-- A reshape of the array to a vector reads, at `p`, the entry at flat position `p`. -/
theorem reshape_adj (h : (⟨1, ![1048576]⟩ : Shape).numel = (⟨3, ![4, 512, 512]⟩ : Shape).numel) (p : Fin 1048576) :
    Shape.reshapeEquiv h (ix1 p) = adjIdx p.val :=
  Shape.reshapeEquiv_eq_of_rowMajor h (by rw [rowMajor_adjIdx p.isLt, Shape.rowMajor_val_one])

/-- A vector broadcast to a one-column array reads its own entry. -/
theorem bcast_col {α : Type} {n : Nat} (hn : n ≠ 1)
    (h : (⟨1, ![n]⟩ : Shape).BroadcastsInDim ⟨2, ![n, 1]⟩ (![0] : Fin 1 → Fin 2)) (x : (⟨1, ![n]⟩ : Shape).Idx → α)
    (e : Fin n) (z : Fin 1) :
    broadcastInDim (⟨2, ![n, 1]⟩ : Shape) (![0] : Fin 1 → Fin 2) h x (ix2 e z) = x (ix1 e) := by
  unfold broadcastInDim
  refine congrArg x ?_
  funext a
  obtain rfl : a = 0 := Subsingleton.elim _ _
  have h1 : ¬ (⟨1, ![n]⟩ : Shape).size 0 = 1 := hn
  rw [dif_neg h1]
  rfl

/-! ## Sums -/

/-- A full reduction of an array of words to a scalar, with body `+` from zero: the sum of all entries, in row-major
    order. -/
theorem reduce_all_addi {s : Shape} {axes : List (Fin s.rank)} {w : Nat} (x : IVec s w) (init : IVec ⟨0, ![]⟩ w)
    (h : s.ReducesTo axes ⟨0, ![]⟩) (hu : 0 < (⟨0, ![]⟩ : Shape).numel) (h0 : init ix0 = 0#w)
    (j : (⟨0, ![]⟩ : Shape).Idx) :
    Host.reduce IntOp.addi x init h hu j = ∑ n : Fin s.numel, x (s.rowMajor.symm n) := by
  unfold Host.reduce
  have hall : ∀ n ∈ List.finRange s.numel, decide (h.drop (s.rowMajor.symm n) = j) = true :=
    fun n _ => decide_eq_true (funext fun a => a.elim0)
  rw [List.filter_eq_self.mpr hall, Cert.Lib.WindowPrefix.foldl_addi_eq_sum (fun n => x (s.rowMajor.symm n)),
    eq_ix0 (Shape.Idx.first hu), h0, BitVec.zero_add, ← Fin.sum_univ_def]

/-- A sum over the positions `≤ i` of `Fin n` is a sum over an initial range of naturals. -/
theorem sum_fin_le {M : Type*} [AddCommMonoid M] {n : Nat} (f : Nat → M) (i : Fin n) :
    ∑ j ∈ Finset.univ.filter (· ≤ i), f j.val = ∑ m ∈ Finset.range (i.val + 1), f m := by
  have hi := i.isLt
  rw [Finset.sum_filter]
  have h1 : (∑ j : Fin n, if j ≤ i then f j.val else 0) = ∑ m ∈ Finset.range n, if m ≤ i.val then f m else 0 :=
    Fin.sum_univ_eq_sum_range (fun m => if m ≤ i.val then f m else 0) n
  rw [h1, ← Finset.sum_filter]
  refine Finset.sum_congr ?_ fun _ _ => rfl
  ext m
  rw [Finset.mem_filter, Finset.mem_range, Finset.mem_range]
  omega

/-- The number of `e : Fin n` with a property of `e.val` is the number of naturals below `n` with it. -/
theorem card_fin_filter (P : Nat → Prop) [DecidablePred P] (n : Nat) :
    (Finset.univ.filter fun e : Fin n => P e.val).card = ((Finset.range n).filter P).card := by
  rw [Finset.card_filter, Finset.card_filter]
  exact Fin.sum_univ_eq_sum_range (fun m => if P m then 1 else 0) n

end Cert.ReferenceIdeal.EdgeWords

end
-- ==== Proof.LibPrefixEnum.lean ====
/-
  Enumerating the set positions of a mask by prefix counts.

  Let `mask` be a decidable predicate on the naturals and `n` a bound.  Write `cnt p` for the number of set positions
  `≤ p` (the inclusive running count), `bin k` for the number of positions below `n` whose running count is `k` (the
  histogram of the running count), and `pos e` for the running sum of that histogram up to `e`.  Then `pos e` is the
  number of positions below `n` whose running count is at most `e`.  The running count is nondecreasing, so those
  positions form an initial segment, namely `{p | p < pos e}`.  When `e` is smaller than the number `total` of set
  positions below `n`, the segment is proper and its first excluded position `pos e` is a set position with running
  count `e + 1`: it is the set position number `e`, counting from zero.  Hence `e ↦ pos e` is a bijection from
  `{e | e < total}` onto the set positions below `n`, and a sum over the enumerated list is the sum over the set
  positions.  (That the enumeration is increasing is true as well, but it is not needed and not stated.)
-/
import Mathlib.Algebra.BigOperators.Group.Finset.Basic
import Mathlib.Algebra.BigOperators.Group.Finset.Piecewise
import Mathlib.Data.Finset.Card
import Mathlib.Tactic

namespace Cert.Lib.PrefixEnum

open Finset

/-- A finite set of naturals that contains, with each member, every smaller number is the initial segment of its
own cardinality. -/
theorem eq_range_card_of_lower {S : Finset ℕ} (h : ∀ q ∈ S, ∀ r, r ≤ q → r ∈ S) : S = range S.card := by
  have hsub : S ⊆ range S.card := by
    intro q hq
    rw [mem_range]
    have hseg : range (q + 1) ⊆ S := fun r hr => h q hq r (by rw [mem_range] at hr; omega)
    have hcard := card_le_card hseg
    rw [card_range] at hcard
    omega
  exact eq_of_subset_of_card_le hsub (by rw [card_range])

/-- Membership in a finite set of naturals closed under passing to smaller numbers is comparison with its
cardinality. -/
theorem mem_iff_lt_card_of_lower {S : Finset ℕ} (h : ∀ q ∈ S, ∀ r, r ≤ q → r ∈ S) (p : ℕ) :
    p ∈ S ↔ p < S.card := by
  have heq := eq_range_card_of_lower h
  constructor
  · intro hp
    rw [heq, mem_range] at hp
    exact hp
  · intro hp
    rw [heq, mem_range]
    exact hp

variable (n : ℕ) (mask : ℕ → Prop) [DecidablePred mask]

/-- The inclusive running count: how many set positions are `≤ p`. -/
def cnt (p : ℕ) : ℕ := ((Finset.range (p + 1)).filter mask).card

/-- How many set positions lie below `n`. -/
def total : ℕ := ((Finset.range n).filter mask).card

/-- How many positions below `n` have running count `k` (the histogram of the running count). -/
def bin (k : ℕ) : ℕ := ((Finset.range n).filter (fun p => cnt mask p = k)).card

/-- The running sum of the histogram: how many positions below `n` have running count at most `e`. -/
def pos (e : ℕ) : ℕ := ∑ k ∈ Finset.range (e + 1), bin n mask k

/-- The running count as a sum of indicators. -/
theorem cnt_eq_sum (p : ℕ) : cnt mask p = ∑ i ∈ range (p + 1), if mask i then 1 else 0 :=
  card_filter _ _

/-- The running count at position zero is the indicator of position zero. -/
theorem cnt_zero : cnt mask 0 = if mask 0 then 1 else 0 := by
  rw [cnt_eq_sum, zero_add, sum_range_one]

/-- The running count never exceeds the number of positions seen. -/
theorem cnt_le (p : ℕ) : cnt mask p ≤ p + 1 := by
  unfold cnt
  exact (card_filter_le _ _).trans (le_of_eq (card_range (p + 1)))

/-- The running count is nondecreasing. -/
theorem cnt_mono {p q : ℕ} (h : p ≤ q) : cnt mask p ≤ cnt mask q := by
  unfold cnt
  exact card_le_card (filter_subset_filter _ (range_mono (by omega)))

/-- The running count steps by the indicator of the next position. -/
theorem cnt_succ (p : ℕ) : cnt mask (p + 1) = cnt mask p + (if mask (p + 1) then 1 else 0) := by
  rw [cnt_eq_sum, cnt_eq_sum, sum_range_succ _ (p + 1)]

/-- At the last position below `n` the running count is the total. -/
theorem cnt_last (hn : 0 < n) : cnt mask (n - 1) = total n mask := by
  unfold cnt total
  rw [Nat.sub_add_cancel hn]

/-- There are at most `n` set positions below `n`. -/
theorem total_le : total n mask ≤ n := by
  unfold total
  exact (card_filter_le _ _).trans (le_of_eq (card_range n))

/-- The running count is positive at a set position. -/
theorem cnt_pos_of_mask {p : ℕ} (hm : mask p) : 0 < cnt mask p := by
  unfold cnt
  refine card_pos.mpr ⟨p, ?_⟩
  rw [mem_filter, mem_range]
  exact ⟨Nat.lt_succ_self p, hm⟩

/-- The running count at a set position exceeds the running count at every earlier position. -/
theorem cnt_lt_of_lt_of_mask {q p : ℕ} (hq : q < p) (hm : mask p) : cnt mask q < cnt mask p := by
  obtain ⟨m, rfl⟩ : ∃ m, p = m + 1 := ⟨p - 1, by omega⟩
  rw [cnt_succ, if_pos hm]
  have hmono := cnt_mono mask (show q ≤ m by omega)
  omega

/-- The running sum of the histogram up to `e` counts the positions below `n` with running count at most `e`:
exchange the two sums, and for each position the indicators of "running count `= k`", `k ≤ e`, add up to the
indicator of "running count `≤ e`". -/
theorem pos_eq_card (e : ℕ) :
    pos n mask e = ((Finset.range n).filter (fun p => cnt mask p ≤ e)).card := by
  unfold pos bin
  simp_rw [card_filter]
  rw [sum_comm]
  refine sum_congr rfl fun p _ => ?_
  rw [sum_ite_eq]
  simp only [mem_range, Nat.lt_succ_iff]

/-- The positions below `n` with running count at most `e` are exactly the positions below `pos e`: they are
closed under passing to earlier positions because the running count is nondecreasing, and `pos e` is their number. -/
theorem lt_pos_iff (e p : ℕ) : p < pos n mask e ↔ p < n ∧ cnt mask p ≤ e := by
  have hlow : ∀ q ∈ (range n).filter (fun p => cnt mask p ≤ e), ∀ r, r ≤ q →
      r ∈ (range n).filter (fun p => cnt mask p ≤ e) := by
    intro q hq r hr
    rw [mem_filter, mem_range] at hq ⊢
    exact ⟨lt_of_le_of_lt hr hq.1, (cnt_mono mask hr).trans hq.2⟩
  rw [pos_eq_card, ← mem_iff_lt_card_of_lower hlow p, mem_filter, mem_range]

/-- The enumeration stays within the bound, weakly, for every index. -/
theorem pos_le (e : ℕ) : pos n mask e ≤ n := by
  rw [pos_eq_card]
  exact (card_filter_le _ _).trans (le_of_eq (card_range n))

/-- For an index below the total, the enumerated position lies below `n`: otherwise the last position `n - 1` would
have running count at most `e`, but its running count is the total. -/
theorem pos_lt {e : ℕ} (h : e < total n mask) : pos n mask e < n := by
  by_contra hge
  have hn : 0 < n := lt_of_lt_of_le (Nat.zero_lt_of_lt h) (total_le n mask)
  have h1 : n - 1 < pos n mask e := by omega
  have h2 := ((lt_pos_iff n mask e (n - 1)).mp h1).2
  rw [cnt_last n mask hn] at h2
  omega

/-- The enumerated position number `e` has running count `e + 1`: it is not among the positions with running count
at most `e`, and the position before it (if any) is, while the running count steps by at most one. -/
theorem cnt_pos {e : ℕ} (h : e < total n mask) : cnt mask (pos n mask e) = e + 1 := by
  have hlt := pos_lt n mask h
  have hge : e < cnt mask (pos n mask e) := by
    by_contra hle
    have hself := (lt_pos_iff n mask e (pos n mask e)).mpr ⟨hlt, by omega⟩
    omega
  have hle : cnt mask (pos n mask e) ≤ e + 1 := by
    rcases Nat.eq_zero_or_pos (pos n mask e) with h0 | hpos
    · rw [h0]
      have h01 := cnt_le mask 0
      omega
    · obtain ⟨m, hm⟩ : ∃ m, pos n mask e = m + 1 := ⟨pos n mask e - 1, by omega⟩
      have h1 := ((lt_pos_iff n mask e m).mp (by omega)).2
      rw [hm, cnt_succ]
      split_ifs <;> omega
  omega

/-- The enumerated position number `e` is a set position: the running count steps up exactly there. -/
theorem mask_pos {e : ℕ} (h : e < total n mask) : mask (pos n mask e) := by
  have hc := cnt_pos n mask h
  rcases Nat.eq_zero_or_pos (pos n mask e) with h0 | hpos
  · rw [h0] at hc ⊢
    rw [cnt_zero] at hc
    by_contra hm
    rw [if_neg hm] at hc
    omega
  · obtain ⟨m, hm⟩ : ∃ m, pos n mask e = m + 1 := ⟨pos n mask e - 1, by omega⟩
    have h1 := ((lt_pos_iff n mask e m).mp (by omega)).2
    rw [hm] at hc ⊢
    rw [cnt_succ] at hc
    by_contra hmk
    rw [if_neg hmk] at hc
    omega

/-- Distinct indices below the total enumerate distinct positions: the running count at the enumerated position
recovers the index. -/
theorem pos_inj {e e' : ℕ} (h : e < total n mask) (h' : e' < total n mask)
    (he : pos n mask e = pos n mask e') : e = e' := by
  have h1 := cnt_pos n mask h
  have h2 := cnt_pos n mask h'
  rw [he] at h1
  omega

/-- Every set position below `n` is enumerated, by the index one less than its running count. -/
theorem pos_surj {p : ℕ} (hp : p < n) (hm : mask p) : ∃ e, e < total n mask ∧ pos n mask e = p := by
  have hc := cnt_pos_of_mask mask hm
  have hn : 0 < n := by omega
  have htot : cnt mask p ≤ total n mask := by
    rw [← cnt_last n mask hn]
    exact cnt_mono mask (by omega)
  have he : cnt mask p - 1 < total n mask := by omega
  refine ⟨cnt mask p - 1, he, ?_⟩
  have h1 : ¬ p < pos n mask (cnt mask p - 1) := by
    intro hlt
    have hcp := ((lt_pos_iff n mask _ p).mp hlt).2
    omega
  have h2 : ¬ pos n mask (cnt mask p - 1) < p := by
    intro hlt
    have hstep := cnt_lt_of_lt_of_mask mask hlt hm
    rw [cnt_pos n mask he] at hstep
    omega
  omega

/-- A sum over the enumerated list is the sum over the set positions below `n`. -/
theorem sum_pos {M : Type*} [AddCommMonoid M] (g : ℕ → M) :
    ∑ e ∈ Finset.range (total n mask), g (pos n mask e) = ∑ p ∈ (Finset.range n).filter mask, g p := by
  refine sum_nbij (pos n mask) ?_ ?_ ?_ (fun _ _ => rfl)
  · intro e he
    rw [mem_range] at he
    rw [mem_filter, mem_range]
    exact ⟨pos_lt n mask he, mask_pos n mask he⟩
  · intro e he e' he' heq
    rw [mem_coe, mem_range] at he he'
    exact pos_inj n mask he he' heq
  · intro p hp
    rw [mem_coe, mem_filter, mem_range] at hp
    obtain ⟨e, he, hpe⟩ := pos_surj n mask hp.1 hp.2
    exact ⟨e, by rw [mem_coe, mem_range]; exact he, hpe⟩

end Cert.Lib.PrefixEnum
-- ==== Proof.LibScatterAddRead.lean ====
/-
  An accumulating scatter read at a position, at the ideal values.

  A host scatter whose body adds (a segment sum, `x.at[idx].add(u)`) leaves at each position of the operand the
  operand's entry plus the sum of the updates that land there.  Written with the landing test inside the sum — every
  update contributes itself where it lands on the position and zero elsewhere — the sum runs over ALL updates, so it
  can be re-indexed by any bijection of the updates and compared summand by summand.

  The statement is over arbitrary shapes, element formats and index widths.  Use it by `rw` on a scatter over
  variables or over a program's operands, and compare summands with `if_congr`; do not restate the sum at literal
  shapes of millions of entries, and do not unfold the scatter there.
-/
import Idealize.ShloMosaic.PureOps
import Idealize.ShloMosaic.PureOps.Ideal

noncomputable section

namespace Cert.Lib.ScatterAddRead

open Idealize.ShloMosaic

/-- An accumulating scatter at a position: the operand there plus every update, counted where it lands there. -/
theorem scatterAdd_at {s si u : Shape} {φ : FTy} {w : Nat} (d : ScatterDims s si u) (v : FVec Ideal s φ)
    (idx : IVec si w) (upd : FVec Ideal u φ) (p : s.Idx) :
    Host.scatterAdd (F := Ideal) d v idx upd p
      = v p + ∑ j, if d.resultIdx? j idx = some p then upd j else 0 := by
  unfold Host.scatterAdd
  rw [Ideal.hostScatterAdd_def]
  unfold Ideal.hostScatterAdd
  rw [Finset.sum_filter]

end Cert.Lib.ScatterAddRead

end
-- ==== Proof.LibEntryScatter.lean ====
/-
  A SCATTER OF ENTRIES INTO A VECTOR BY A COLUMN OF INDICES: WHERE AN UPDATE LANDS, AND THE ACCUMULATED VALUE AT A NODE.

  A host scatter of updates `[E]` into a vector `[N]` by a column `[E, 1]` of integer index words (`entryScatter`):
  the index names the vector's one axis, which the update window does not have.
  * the window of update `e` starts at the `e`-th index word read signed (`entryScatter_start`) and has no window
    coordinate (`entryScatter_window`);
  * update `e` lands at entry `i` IF AND ONLY IF the `e`-th index word, read signed, equals `i`
    (`entryScatter_lands_iff`); a word outside `[0, N − 1]` lands nowhere;
  * hence the accumulating scatter read at entry `i` is the operand there plus the sum, over ALL updates `e : Fin E`, of
    the update where its word reads `i` and zero elsewhere (`entryScatterAdd_at`).
  The dimension numbers are a structure literal over the sizes with the well-formedness proof a parameter, so a program's
  record with the same lists equals it by `rfl`.
  Beside these: a rank-1 index set is its one coordinate range (`idxEquiv1` / `sum_idx1`); a sum over `Fin n` with
  `n = m + d` is the sum of its first `m` terms plus the sum of its last `d`, the positions written as naturals
  (`sum_fin_split`); and the word of a natural below half the word range reads signed as that natural
  (`toInt_ofNat_of_lt`).
-/
import Idealize.ShloMosaic.Lib.ValueIdx
import proofs.«167911_g83915071029568_cont_sun_c4_623_16_alg».proof.Proof.LibScatterAddRead

noncomputable section

open scoped BigOperators

namespace Cert.Lib.EntryScatter

open Idealize.ShloMosaic Idealize.ShloMosaic.ValueIdx

/-! ## A rank-1 index set -/

/-- A rank-1 index set is its one coordinate range … -/
def idxEquiv1 {n : Nat} : (⟨1, ![n]⟩ : Shape).Idx ≃ Fin n where
  toFun j := j 0
  invFun a := ix1 a
  left_inv j := (eq_ix1 j).symm
  right_inv _ := rfl

/-- … so a sum over it is the sum over the coordinate. -/
theorem sum_idx1 {M : Type*} [AddCommMonoid M] {n : Nat} (f : (⟨1, ![n]⟩ : Shape).Idx → M) :
    ∑ j, f j = ∑ a : Fin n, f (ix1 a) :=
  (Equiv.sum_comp (idxEquiv1 (n := n)).symm f).symm

/-- A sum over `Fin n`, `n = m + d`, is the sum over the first `m` positions plus the sum over the last `d`. -/
theorem sum_fin_split {M : Type*} [AddCommMonoid M] (m d n : Nat) (h : m + d = n) (f : Fin n → M) :
    ∑ i, f i = (∑ i : Fin m, f ⟨i.val, by omega⟩) + ∑ k : Fin d, f ⟨m + k.val, by omega⟩ := by
  subst h
  exact Fin.sum_univ_add f

/-! ## A small natural as a word, read signed -/

/-- The word of a natural below half the word range reads signed as that natural. -/
theorem toInt_ofNat_of_lt {w k : Nat} (h : 2 * k < 2 ^ w) : (BitVec.ofNat w k).toInt = (k : Int) := by
  have hk : k < 2 ^ w := by omega
  rw [BitVec.toInt_eq_toNat_cond, BitVec.toNat_ofNat, Nat.mod_eq_of_lt hk, if_pos h]

/-! ## A scatter of entries -/

/-- The dimension numbers of a scatter of entries: operand `[N]`, scatter indices `[E, 1]`, updates `[E]`; the index
    names the operand's one axis, which the update window does not have. -/
abbrev entryScatter (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- The window of update `e` starts at the `e`-th index word, read signed. -/
theorem entryScatter_start {N E w : Nat}
    (wf : ScatterDims.WF ⟨1, ![N]⟩ ⟨2, ![E, 1]⟩ ⟨1, ![E]⟩ [] [0] [0] 1)
    (idx : IVec ⟨2, ![E, 1]⟩ w) (e : Fin E) :
    (entryScatter N E wf).start (ix1 e) idx (0 : Fin 1) = (idx (ix2 e (0 : Fin 1))).toInt := by
  unfold ScatterDims.start
  rw [dif_pos (show (0 : Fin 1) ∈ (entryScatter N E wf).scatterDimsToOperandDims from List.mem_singleton.mpr rfl)]
  have hsi : (entryScatter N E wf).siIdx (ix1 e)
      ⟨List.idxOf (0 : Fin 1) (entryScatter N E wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The operand's one axis has no window coordinate. -/
theorem entryScatter_window {N E : Nat}
    (wf : ScatterDims.WF ⟨1, ![N]⟩ ⟨2, ![E, 1]⟩ ⟨1, ![E]⟩ [] [0] [0] 1) (e : Fin E) :
    (entryScatter N E wf).window (ix1 e) (0 : Fin 1) = 0 := by
  have hn : (0 : Fin 1) ∉ (entryScatter N E wf).sKept :=
    fun h => of_decide_eq_true (List.mem_filter.1 h).2 (List.mem_singleton.mpr rfl)
  unfold ScatterDims.window
  rw [dif_neg hn]

/-- Update `e` lands at entry `i` exactly when the `e`-th index word, read signed, equals `i`. -/
theorem entryScatter_lands_iff {N E w : Nat}
    (wf : ScatterDims.WF ⟨1, ![N]⟩ ⟨2, ![E, 1]⟩ ⟨1, ![E]⟩ [] [0] [0] 1)
    (idx : IVec ⟨2, ![E, 1]⟩ w) (e : Fin E) (i : Fin N) :
    (entryScatter N E wf).resultIdx? (ix1 e) idx = some (ix1 i)
      ↔ (idx (ix2 e (0 : Fin 1))).toInt = (i.val : Int) := by
  constructor
  · intro h
    unfold ScatterDims.resultIdx? at h
    split at h
    · rename_i hb
      have hi := congrFun (Option.some.inj h) (0 : Fin 1)
      have hv : ((entryScatter N E wf).start (ix1 e) idx (0 : Fin 1)
          + ((entryScatter N E wf).window (ix1 e) (0 : Fin 1) : Nat) : Int).toNat = i.val := congrArg Fin.val hi
      have hb0 := (hb (0 : Fin 1)).1
      rw [entryScatter_start, entryScatter_window] at hv hb0
      omega
    · exact absurd h (by simp)
  · intro h
    have hall : ∀ a : Fin 1, 0 ≤ (entryScatter N E wf).start (ix1 e) idx a + ((entryScatter N E wf).window (ix1 e) a : Nat)
        ∧ (entryScatter N E wf).start (ix1 e) idx a + ((entryScatter N E wf).window (ix1 e) a : Nat)
          < ((⟨1, ![N]⟩ : Shape).size a : Nat) := by
      intro a
      obtain rfl : a = 0 := Subsingleton.elim _ _
      rw [entryScatter_start, entryScatter_window, h]
      have hlt : i.val < N := i.isLt
      refine ⟨by omega, ?_⟩
      show ((i.val : Int) + ((0 : Nat) : Int)) < (N : Int)
      omega
    unfold ScatterDims.resultIdx?
    rw [dif_pos hall]
    congr 1
    funext a
    obtain rfl : a = 0 := Subsingleton.elim _ _
    refine Fin.ext ?_
    show ((entryScatter N E wf).start (ix1 e) idx (0 : Fin 1)
      + ((entryScatter N E wf).window (ix1 e) (0 : Fin 1) : Nat) : Int).toNat = i.val
    rw [entryScatter_start, entryScatter_window, h]
    omega

/-- The accumulating scatter of entries read at entry `i`: the operand there plus every update whose index word reads
    `i`, the sum running over all updates. -/
theorem entryScatterAdd_at {N E w : Nat} {φ : FTy}
    (wf : ScatterDims.WF ⟨1, ![N]⟩ ⟨2, ![E, 1]⟩ ⟨1, ![E]⟩ [] [0] [0] 1)
    (v : FVec Ideal ⟨1, ![N]⟩ φ) (idx : IVec ⟨2, ![E, 1]⟩ w) (upd : FVec Ideal ⟨1, ![E]⟩ φ) (i : Fin N) :
    Host.scatterAdd (F := Ideal) (entryScatter N E wf) v idx upd (ix1 i)
      = v (ix1 i) + ∑ e : Fin E, if (idx (ix2 e (0 : Fin 1))).toInt = (i.val : Int) then upd (ix1 e) else 0 := by
  rw [Cert.Lib.ScatterAddRead.scatterAdd_at, sum_idx1]
  congr 1
  exact Finset.sum_congr rfl fun e _ => if_congr (entryScatter_lands_iff wf idx e i) rfl rfl

end Cert.Lib.EntryScatter

end
-- ==== Proof.LibIntScatterAdd.lean ====
/-
  An integer accumulating scatter read at a position.

  A host scatter whose body is word addition (`x.at[idx].add(u)` on integers: a histogram, a segment count) leaves
  at each position of the operand the operand's word plus the sum of the updates that land there.  The library
  defines the scatter as a left fold over the updates in row-major order; word addition is associative and
  commutative, so the fold read at one position is a finite sum in the additive commutative monoid of words.  The
  landing test sits inside the sum — every update contributes itself where it lands on the position and zero
  elsewhere — so the sum runs over ALL updates and can be re-indexed by any bijection of the updates.

  The statements are over arbitrary shapes and word widths.  Use them by `rw` on a scatter over variables or over a
  program's operands; do not restate the sum at literal shapes of millions of entries, and do not unfold the
  scatter there.
-/
import Idealize.ShloMosaic.PureOps
import Mathlib
import proofs.«167911_g83915071029568_cont_sun_c4_623_16_alg».proof.Proof.LibEntryScatter

namespace Cert.Lib.IntScatterAdd

open Idealize.ShloMosaic Idealize.ShloMosaic.ValueIdx

/-- The scatter's fold step with body `+`, read at `p` after a list of update numbers: the start value at `p`
    plus the listed updates that land on `p`. -/
theorem foldl_step_at {s si u : Shape} {w w' : Nat} (d : ScatterDims s si u) (idx : IVec si w')
    (upd : u.Idx → BitVec w) (p : s.Idx) (l : List (Fin u.numel)) (x : s.Idx → BitVec w) :
    l.foldl (fun r n =>
        match d.resultIdx? (u.rowMajor.symm n) idx with
        | some i => fun i' => if i' = i then IntOp.addi (r i) (upd (u.rowMajor.symm n)) else r i'
        | none => r) x p
      = x p + (l.map fun n =>
          if d.resultIdx? (u.rowMajor.symm n) idx = some p then upd (u.rowMajor.symm n) else 0).sum := by
  induction l generalizing x with
  | nil => simp
  | cons a l ih =>
    rw [List.foldl_cons, ih, List.map_cons, List.sum_cons, ← add_assoc]
    congr 1
    cases hr : d.resultIdx? (u.rowMajor.symm a) idx with
    | none => simp
    | some i =>
      by_cases hp : p = i
      · subst hp; simp [IntOp.addi]
      · have hne : ¬ (some i = some p) := fun h => hp (Option.some.inj h).symm
        simp [hp, hne]

/-- An integer accumulating scatter at a position: the operand there plus every update, counted where it lands
    there. -/
theorem scatter_addi_at {s si u : Shape} {w w' : Nat} (d : ScatterDims s si u) (x : s.Idx → BitVec w)
    (idx : IVec si w') (upd : u.Idx → BitVec w) (p : s.Idx) :
    Host.scatter d IntOp.addi x idx upd p
      = x p + ∑ j : u.Idx, if d.resultIdx? j idx = some p then upd j else 0 := by
  refine (foldl_step_at d idx upd p (List.finRange u.numel) x).trans ?_
  rw [← Fin.sum_univ_def]
  congr 1
  exact Equiv.sum_comp u.rowMajor.symm fun j => if d.resultIdx? j idx = some p then upd j else 0

/-! ## A histogram: ones scattered into zeros by a column of index words -/

open Cert.Lib.EntryScatter in
/-- A scatter of entries with body `+` read at entry `i`: the operand there plus every update whose index word,
    read signed, equals `i`; the sum runs over all updates. -/
theorem entryScatter_addi_at {N E w w' : Nat}
    (wf : ScatterDims.WF ⟨1, ![N]⟩ ⟨2, ![E, 1]⟩ ⟨1, ![E]⟩ [] [0] [0] 1)
    (x : (⟨1, ![N]⟩ : Shape).Idx → BitVec w) (idx : IVec ⟨2, ![E, 1]⟩ w')
    (upd : (⟨1, ![E]⟩ : Shape).Idx → BitVec w) (i : Fin N) :
    Host.scatter (entryScatter N E wf) IntOp.addi x idx upd (ix1 i)
      = x (ix1 i) + ∑ e : Fin E, if (idx (ix2 e (0 : Fin 1))).toInt = (i.val : Int) then upd (ix1 e) else 0 := by
  rw [scatter_addi_at, sum_idx1]
  congr 1
  exact Finset.sum_congr rfl fun e _ => if_congr (entryScatter_lands_iff wf idx e i) rfl rfl

open Cert.Lib.EntryScatter in
/-- The histogram of a column of index words: ones scattered with body `+` into zeros leave at entry `i` the word
    of the number of index words that read `i` (as signed integers).  The dimension numbers `d` are any record equal
    to the scatter of entries (a program's record with the same lists is, by `rfl`). -/
theorem histogram_at {N E w w' : Nat}
    (wf : ScatterDims.WF ⟨1, ![N]⟩ ⟨2, ![E, 1]⟩ ⟨1, ![E]⟩ [] [0] [0] 1)
    (d : ScatterDims ⟨1, ![N]⟩ ⟨2, ![E, 1]⟩ ⟨1, ![E]⟩) (hd : d = entryScatter N E wf)
    (x : (⟨1, ![N]⟩ : Shape).Idx → BitVec w) (idx : IVec ⟨2, ![E, 1]⟩ w')
    (upd : (⟨1, ![E]⟩ : Shape).Idx → BitVec w)
    (hx : ∀ p, x p = 0#w) (hupd : ∀ j, upd j = 1#w) (i : Fin N) :
    Host.scatter d IntOp.addi x idx upd (ix1 i)
      = BitVec.ofNat w
          (Finset.univ.filter fun e : Fin E => (idx (ix2 e (0 : Fin 1))).toInt = (i.val : Int)).card := by
  subst hd
  rw [entryScatter_addi_at, hx, BitVec.zero_add, ← BitVec.natCast_eq_ofNat, ← Finset.sum_boole]
  refine Finset.sum_congr rfl fun e _ => ?_
  rw [hupd]
  rfl

open Cert.Lib.EntryScatter in
/-- The histogram entry as a natural: with fewer than `2 ^ w` updates the count does not wrap. -/
theorem histogram_at_toNat {N E w w' : Nat}
    (wf : ScatterDims.WF ⟨1, ![N]⟩ ⟨2, ![E, 1]⟩ ⟨1, ![E]⟩ [] [0] [0] 1)
    (d : ScatterDims ⟨1, ![N]⟩ ⟨2, ![E, 1]⟩ ⟨1, ![E]⟩) (hd : d = entryScatter N E wf)
    (x : (⟨1, ![N]⟩ : Shape).Idx → BitVec w) (idx : IVec ⟨2, ![E, 1]⟩ w')
    (upd : (⟨1, ![E]⟩ : Shape).Idx → BitVec w)
    (hx : ∀ p, x p = 0#w) (hupd : ∀ j, upd j = 1#w) (hE : E < 2 ^ w) (i : Fin N) :
    (Host.scatter d IntOp.addi x idx upd (ix1 i)).toNat
      = (Finset.univ.filter fun e : Fin E => (idx (ix2 e (0 : Fin 1))).toInt = (i.val : Int)).card := by
  rw [histogram_at wf d hd x idx upd hx hupd i, BitVec.toNat_ofNat]
  refine Nat.mod_eq_of_lt (lt_of_le_of_lt ?_ hE)
  exact (Finset.card_filter_le _ _).trans (by simp)

end Cert.Lib.IntScatterAdd
-- ==== Proof.RefEdgeFacts.lean ====
/-
  What the reference program's edge list is.

  The adjacency array's nonzero entries, taken in flat row-major order, are enumerated by prefix counts: the running
  count of nonzero entries at flat position `p` is `cnt p`; the histogram of the running count at `k` is the number
  `bin k` of positions with running count `k`; the cumulative sum of the histogram at `e` is `pos e`, the flat
  position of the `e`-th nonzero entry when `e` is below the number `T` of nonzero entries.  Every word involved is the
  word of a natural at most `1048576`, so the clip, the wrap of negatives, the floor divisions and the remainders act
  on them as on naturals, and the padded tail `e ≥ T` is set to zero.  Hence for `e < T` the source node is
  `graph * 512 + row` and the target node `graph * 512 + column` of the `e`-th nonzero entry and the weight is one, and
  for `e ≥ T` all three are zero.

  The mask is spelt on naturals: `mask adj p` says that the entry at flat position `p` (`adjIdx p`: graph
  `p / 262144 % 4`, row `p / 512 % 512`, column `p % 512`) is not zero.
-/
import proofs.«167911_g83915071029568_cont_sun_c4_623_16_alg».proof.Proof.RefEdgeWindow
import proofs.«167911_g83915071029568_cont_sun_c4_623_16_alg».proof.Proof.RefEdgeWords
import proofs.«167911_g83915071029568_cont_sun_c4_623_16_alg».proof.Proof.LibPrefixEnum
import proofs.«167911_g83915071029568_cont_sun_c4_623_16_alg».proof.Proof.LibIntScatterAdd

noncomputable section

namespace Cert.ReferenceIdeal.Edges

open Cert.ReferenceIdeal Cert.ReferenceIdeal.Gen Cert.ReferenceIdeal.RefRun Idealize.ShloMosaic Idealize.ShloMosaic.TcCoe Idealize.SL.Sem Idealize.ShloMosaic.StableHlo
open Idealize.ShloMosaic.ValueIdx Cert.ReferenceIdeal.EdgeWords Cert.Lib.PrefixEnum

-- The folds over the full extent stay folded while terms are compared.
attribute [local irreducible] Host.reduceWindow Host.scatter Host.reduce

variable (adj : FVec Ideal S4x512x512 .f32)

/-- The entry at flat position `p` is not zero. -/
def mask (p : Nat) : Prop := adj (adjIdx p) ≠ 0

instance maskDec : DecidablePred (mask adj) := Classical.decPred _

/-- The number of nonzero entries. -/
def T : Nat := total 1048576 (mask adj)

/-- The flat position of the `e`-th nonzero entry (for `e < T`). -/
def P (e : Nat) : Nat := pos 1048576 (mask adj) e

theorem T_le : T adj ≤ 1048576 := total_le _ _
theorem P_le (e : Nat) : P adj e ≤ 1048576 := pos_le _ _ e

/-! ## The mask and the running count -/

theorem ofBits_zero : Ideal.ofBits .f32 0x00000000#32 = 0 := by simp [Ideal.ofBits, Ideal.ieee]

/-- The mask bit of an entry, widened: the word of 1 at a nonzero entry, of 0 at a zero one. -/
theorem maskWord (p : Nat) :
    (maskBits adj (adjIdx p)).setWidth 32 = BitVec.ofNat 32 (if mask adj p then 1 else 0) := by
  have hb : maskBits adj (adjIdx p) = BitVec.ofBool (decide (adj (adjIdx p) ≠ Ideal.ofBits .f32 0x00000000#32)) := rfl
  rw [hb, ofBits_zero, setWidth_ofBool]
  refine congrArg (BitVec.ofNat 32) ?_
  by_cases h : mask adj p
  · have h' : adj (adjIdx p) ≠ 0 := h
    rw [if_pos h]; simp [h']
  · have h' : adj (adjIdx p) = 0 := not_not.mp h
    rw [if_neg h]; simp [h']

theorem flatMask_apply (p : Fin 1048576) :
    flatMask (maskBits adj) (ix1 p) = BitVec.ofNat 32 (if mask adj p.val then 1 else 0) := by
  have h1 : flatMask (maskBits adj) (ix1 p)
      = (maskBits adj (Shape.reshapeEquiv shapeCasts_S4x512x512_S1048576 (ix1 p))).setWidth 32 := rfl
  rw [h1, reshape_adj, maskWord]

/-- The running count at flat position `p`. -/
theorem runCount_apply (p : Fin 1048576) :
    runCount (maskBits adj) (ix1 p) = BitVec.ofNat 32 (cnt (mask adj) p.val) := by
  unfold runCount cumsum
  refine (Cert.Lib.WindowPrefix.cumsum_ofNat (n := 1048576) (lo := 1048575) (by norm_num) _ _ rfl _ _
    (fun j => if mask adj j.val then 1 else 0) (fun j => flatMask_apply adj j) p).trans ?_
  rw [sum_fin_le (fun m => if mask adj m then 1 else 0) p, ← cnt_eq_sum]

theorem cnt_small (p : Fin 1048576) : cnt (mask adj) p.val < 2 ^ 31 := by
  have := cnt_le (mask adj) p.val
  have := p.isLt
  omega

/-! ## The histogram and the positions -/

theorem clipWrap_apply (c : IVec S1048576 32) (e : Fin 1048576) {k : Nat} (hc : c (ix1 e) = BitVec.ofNat 32 k)
    (hk : k < 2 ^ 31) : clipWrap c (ix1 e) = BitVec.ofNat 32 k := by
  have h1 : clipWrap c (ix1 e)
      = Scalar.select (IntOp.cmpi .slt (IntOp.maxsi 0#32 (c (ix1 e))) 0#32)
          (IntOp.addi (IntOp.maxsi 0#32 (c (ix1 e))) 1048576#32) (IntOp.maxsi 0#32 (c (ix1 e))) := rfl
  rw [h1, hc, maxsi_zero_small hk, wrap_small hk]

/-- The histogram of the running count at `k`. -/
theorem histogram_apply (k : Fin 1048576) :
    histogram (runCount (maskBits adj)) (ix1 k) = BitVec.ofNat 32 (bin 1048576 (mask adj) k.val) := by
  unfold histogram
  rw [Cert.Lib.IntScatterAdd.histogram_at (w := 32) (w' := 32) scatter_S1048576_S1048576x1_S1048576_n_0_0_1_wf
    scatter_S1048576_S1048576x1_S1048576_n_0_0_1 rfl
    (broadcastInDim S1048576 ![] bcast_S_S1048576 (constantI S_ 32 0#32))
    (broadcastInDim S1048576x1 ![0] bcast_S1048576_S1048576x1_0 (clipWrap (runCount (maskBits adj))))
    (broadcastInDim S1048576 ![] bcast_S_S1048576 (constantI S_ 32 1#32)) (fun _ => rfl) (fun _ => rfl) k]
  refine congrArg (BitVec.ofNat 32) ?_
  have hpred : ∀ e : Fin 1048576,
      ((broadcastInDim S1048576x1 ![0] bcast_S1048576_S1048576x1_0 (clipWrap (runCount (maskBits adj)))
          (ix2 e (0 : Fin 1))).toInt = (k.val : Int)) ↔ cnt (mask adj) e.val = k.val := by
    intro e
    rw [bcast_col (by norm_num) _ _ e 0, clipWrap_apply _ e (runCount_apply adj e) (cnt_small adj e),
      toInt_small (cnt_small adj e)]
    exact Int.natCast_inj
  have hbin : bin 1048576 (mask adj) k.val
      = (Finset.univ.filter fun e : Fin 1048576 => cnt (mask adj) e.val = k.val).card := by
    unfold bin
    exact (card_fin_filter (fun p => cnt (mask adj) p = k.val) 1048576).symm
  rw [hbin]
  exact congrArg Finset.card (Finset.filter_congr (fun e _ => hpred e))

/-- The cumulative sum of the histogram at `e`: the position `P e`. -/
theorem flatPos_apply (e : Fin 1048576) : flatPos adj (ix1 e) = BitVec.ofNat 32 (P adj e.val) := by
  unfold flatPos cumsum
  refine (Cert.Lib.WindowPrefix.cumsum_ofNat (n := 1048576) (lo := 1048575) (by norm_num) _ _ rfl _ _
    (fun k => bin 1048576 (mask adj) k.val) (fun k => histogram_apply adj k) e).trans ?_
  rw [sum_fin_le (fun k => bin 1048576 (mask adj) k) e]
  rfl

/-! ## The coordinates -/

/-- A floor division followed by a remainder, by positive constants, of the word of a natural. -/
theorem coord_apply (X : IVec S1048576 32) (e : Fin 1048576) {x d1 d2 : Nat} (hX : X (ix1 e) = BitVec.ofNat 32 x)
    (hx : x < 2 ^ 31) (h1 : 0 < d1) (h1' : d1 < 2 ^ 31) (h2 : 0 < d2) (h2' : d2 < 2 ^ 31) :
    rem (fdiv X (BitVec.ofNat 32 d1)) (BitVec.ofNat 32 d2) (ix1 e) = BitVec.ofNat 32 (x / d1 % d2) := by
  have hq : fdiv X (BitVec.ofNat 32 d1) (ix1 e) = BitVec.ofNat 32 (x / d1) := by
    unfold fdiv
    rw [Cert.Lib.FloorDivWords.floorDivide_at bcast_S_S1048576 X _ (ix1 e) (d := d1) rfl
      (by rw [hX]; exact toInt_small_nonneg hx) h1 h1', hX, Cert.Lib.FloorDivWords.toNat_ofNat_small hx]
  have hq' : x / d1 < 2 ^ 31 := lt_of_le_of_lt (Nat.div_le_self _ _) hx
  unfold rem
  rw [Cert.Lib.FloorDivWords.remainder_at bcast_S_S1048576 _ _ (ix1 e) (d := d2) rfl
    (by rw [hq]; exact toInt_small_nonneg hq') h2 h2', hq, Cert.Lib.FloorDivWords.toNat_ofNat_small hq']

/-! ## The number of nonzero entries and the padded tail -/

/-- The full reduction of the widened mask: the word of the number of nonzero entries. -/
theorem countNZ_apply (j : S_.Idx) : countNZ (maskBits adj) j = BitVec.ofNat 32 (T adj) := by
  unfold countNZ
  rw [reduce_all_addi _ _ _ _ rfl j]
  have hterm : ∀ n : Fin S4x512x512.numel,
      extui 32 (maskBits adj) natLt_1_32 (S4x512x512.rowMajor.symm n)
        = ((if mask adj n.val then 1 else 0 : Nat) : BitVec 32) := by
    intro n
    rw [rowMajor_symm_adj, BitVec.natCast_eq_ofNat]
    exact maskWord adj n.val
  rw [Finset.sum_congr rfl (fun n _ => hterm n), ← Nat.cast_sum,
    Fin.sum_univ_eq_sum_range (fun m => if mask adj m then 1 else 0) S4x512x512.numel, numel_adj,
    BitVec.natCast_eq_ofNat, ← Finset.card_filter]
  rfl

theorem T_small : T adj < 2 ^ 31 := lt_of_le_of_lt (T_le adj) (by norm_num)
theorem fin_small (e : Fin 1048576) : e.val < 2 ^ 31 := lt_trans e.isLt (by norm_num)

theorem tailMask_apply (e : Fin 1048576) :
    tailMask (maskBits adj) (ix1 e) = BitVec.ofBool (decide (T adj ≤ e.val)) := by
  have h1 : tailMask (maskBits adj) (ix1 e)
      = IntOp.cmpi .sge (BitVec.ofNat 32 e.val) (countNZ (maskBits adj) ix0) := by
    unfold tailMask
    show IntOp.cmpi .sge (BitVec.ofNat 32 e.val) (broadcastInDim S1048576 ![] bcast_S_S1048576 (countNZ (maskBits adj)) (ix1 e)) = _
    rw [Cert.Lib.FloorDivWords.broadcastInDim_scalar]
  rw [h1, countNZ_apply, cmpi_sge_small (fin_small e) (T_small adj)]

theorem zeroTail_apply (t : IVec S1048576 1) (x : IVec S1048576 32) (e : Fin 1048576) (c : Bool)
    (ht : t (ix1 e) = BitVec.ofBool c) : zeroTail t x (ix1 e) = if c then 0#32 else x (ix1 e) := by
  have h1 : zeroTail t x (ix1 e) = Scalar.select (t (ix1 e)) 0#32 (x (ix1 e)) := rfl
  rw [h1, ht, select_ofBool]

/-- The weight: one before the number of nonzero entries, zero from it on. -/
theorem wF_apply (e : Fin 1048576) : wF adj (ix1 e) = if e.val < T adj then (1 : Ideal .f32) else 0 := by
  have h1 : wF adj (ix1 e)
      = FloatOps.uitofp (F := Ideal) .f32
          (IntOp.cmpi .slt (BitVec.ofNat 32 e.val) (countNZ (maskBits adj) ix0)) := by
    unfold wF weightOf
    show FloatOps.uitofp (F := Ideal) .f32 (IntOp.cmpi .slt (BitVec.ofNat 32 e.val)
      (broadcastInDim S1048576 ![] bcast_S_S1048576 (countNZ (maskBits adj)) (ix1 e))) = _
    rw [Cert.Lib.FloorDivWords.broadcastInDim_scalar]
  rw [h1, countNZ_apply, cmpi_slt_small (fin_small e) (T_small adj), uitofp_ofBool]
  by_cases h : e.val < T adj
  · rw [decide_eq_true h, if_pos h]; rfl
  · rw [decide_eq_false h, if_neg h]; rfl

theorem node_apply (g c : IVec S1048576 32) (e : Fin 1048576) {a b : Nat} (hg : g (ix1 e) = BitVec.ofNat 32 a)
    (hc : c (ix1 e) = BitVec.ofNat 32 b) : node g c (ix1 e) = BitVec.ofNat 32 (a * 512 + b) := by
  have h1 : node g c (ix1 e) = IntOp.addi (IntOp.muli (g (ix1 e)) 512#32) (c (ix1 e)) := rfl
  rw [h1, hg, hc, node_word]

/-! ## The edge list -/

theorem P_small (e : Nat) : P adj e < 2 ^ 31 := lt_of_le_of_lt (P_le adj e) (by norm_num)

/-- The three coordinates of the padded list at `e`. -/
theorem graphW_apply (e : Fin 1048576) :
    graphW adj (ix1 e) = if T adj ≤ e.val then 0#32 else BitVec.ofNat 32 (P adj e.val / 262144 % 4) := by
  unfold graphW
  rw [zeroTail_apply _ _ e _ (tailMask_apply adj e),
    coord_apply _ e (flatPos_apply adj e) (P_small adj e.val) (by norm_num) (by norm_num) (by norm_num) (by norm_num)]
  by_cases h : T adj ≤ e.val
  · rw [decide_eq_true h, if_pos h]; rfl
  · rw [decide_eq_false h, if_neg h]; rfl

theorem rowW_apply (e : Fin 1048576) :
    rowW adj (ix1 e) = if T adj ≤ e.val then 0#32 else BitVec.ofNat 32 (P adj e.val / 512 % 512) := by
  unfold rowW
  rw [zeroTail_apply _ _ e _ (tailMask_apply adj e),
    coord_apply _ e (flatPos_apply adj e) (P_small adj e.val) (by norm_num) (by norm_num) (by norm_num) (by norm_num)]
  by_cases h : T adj ≤ e.val
  · rw [decide_eq_true h, if_pos h]; rfl
  · rw [decide_eq_false h, if_neg h]; rfl

theorem colW_apply (e : Fin 1048576) :
    colW adj (ix1 e) = if T adj ≤ e.val then 0#32 else BitVec.ofNat 32 (P adj e.val / 1 % 512) := by
  unfold colW
  rw [zeroTail_apply _ _ e _ (tailMask_apply adj e),
    coord_apply _ e (flatPos_apply adj e) (P_small adj e.val) (by norm_num) (by norm_num) (by norm_num) (by norm_num)]
  by_cases h : T adj ≤ e.val
  · rw [decide_eq_true h, if_pos h]; rfl
  · rw [decide_eq_false h, if_neg h]; rfl

/-- The edge list: for `e` below the number `T` of nonzero entries, the source and target nodes of the `e`-th nonzero
    entry (at flat position `P e`) and weight one; zero nodes and weight zero on the padded tail. -/
theorem edge_facts (e : Fin 1048576) :
    (e.val < T adj →
        srcW adj (ix1 e) = BitVec.ofNat 32 (P adj e.val / 262144 % 4 * 512 + P adj e.val / 512 % 512)
        ∧ dstW adj (ix1 e) = BitVec.ofNat 32 (P adj e.val / 262144 % 4 * 512 + P adj e.val % 512)
        ∧ wF adj (ix1 e) = 1)
    ∧ (T adj ≤ e.val → srcW adj (ix1 e) = 0#32 ∧ dstW adj (ix1 e) = 0#32 ∧ wF adj (ix1 e) = 0) := by
  constructor
  · intro h
    have hn : ¬ T adj ≤ e.val := by omega
    have hg := graphW_apply adj e
    have hr := rowW_apply adj e
    have hc := colW_apply adj e
    rw [if_neg hn] at hg hr hc
    rw [Nat.div_one] at hc
    refine ⟨?_, ?_, ?_⟩
    · unfold srcW; exact node_apply _ _ e hg hr
    · unfold dstW; exact node_apply _ _ e hg hc
    · rw [wF_apply, if_pos h]
  · intro h
    have hn : ¬ e.val < T adj := by omega
    have hg := graphW_apply adj e
    have hr := rowW_apply adj e
    have hc := colW_apply adj e
    rw [if_pos h] at hg hr hc
    refine ⟨?_, ?_, ?_⟩
    · unfold srcW; exact node_apply (a := 0) (b := 0) _ _ e hg hr
    · unfold dstW; exact node_apply (a := 0) (b := 0) _ _ e hg hc
    · rw [wF_apply, if_neg hn]

end Cert.ReferenceIdeal.Edges

end
-- ==== Proof.LibNonnegScale.lean ====
/-
  MULTIPLICATION BY A NONNEGATIVE REAL OVER A FINITE SUM OF EXTENDED REALS, AND THE RECIPROCAL SQUARE ROOT OF A POSITIVE
  EXTENDED REAL.

  On the extended reals multiplication does not distribute over addition in general (`⊤ + ⊥ = ⊥`), but it does when the
  factor is a nonnegative REAL number, whatever the terms are: `(a + b) * c = a * c + b * c` (`add_mul_of_nonneg`), hence
  over any finite sum (`sum_mul_of_nonneg`, and `zero_add_sum_mul_of_nonneg` for a sum accumulated from `0`). No term
  is asked to be finite. The ideal reciprocal square root of a positive extended real is such a factor: it is a
  nonnegative real number (`rsqrt_of_pos`: `⊤ ↦ 0`, a positive real `r ↦ (√r)⁻¹`).
-/
import Idealize.ShloMosaic.PureOps.Ideal
import Mathlib.Data.EReal.Operations

open scoped BigOperators

namespace Cert.Lib.NonnegScale

open Idealize.ShloMosaic

/-- Multiplication on the right by a nonnegative real distributes over a sum of two extended reals. -/
theorem add_mul_of_nonneg (a b : EReal) {c : ℝ} (hc : 0 ≤ c) :
    (a + b) * (c : EReal) = a * (c : EReal) + b * (c : EReal) :=
  EReal.right_distrib_of_nonneg_of_ne_top (EReal.coe_nonneg.2 hc) (EReal.coe_ne_top c) a b

/-- Multiplication on the right by a nonnegative real distributes over a finite sum of extended reals. -/
theorem sum_mul_of_nonneg {ι : Type*} (s : Finset ι) (f : ι → EReal) {c : ℝ} (hc : 0 ≤ c) :
    (∑ j ∈ s, f j) * (c : EReal) = ∑ j ∈ s, f j * (c : EReal) := by
  classical
  induction s using Finset.induction_on with
  | empty => simp
  | insert a s ha ih => rw [Finset.sum_insert ha, Finset.sum_insert ha, add_mul_of_nonneg _ _ hc, ih]

/-- The same for a sum accumulated from `0`. -/
theorem zero_add_sum_mul_of_nonneg {ι : Type*} (s : Finset ι) (f : ι → EReal) {c : ℝ} (hc : 0 ≤ c) :
    (0 + ∑ j ∈ s, f j) * (c : EReal) = 0 + ∑ j ∈ s, f j * (c : EReal) := by
  rw [zero_add, zero_add, sum_mul_of_nonneg s f hc]

/-- The ideal reciprocal square root of a positive extended real is a nonnegative real number. -/
theorem rsqrt_of_pos {x : EReal} (hx : 0 < x) : ∃ r : ℝ, 0 ≤ r ∧ Ideal.rsqrt x = (r : EReal) := by
  induction x using EReal.rec with
  | bot => exact absurd hx (not_lt_bot)
  | top => exact ⟨0, le_refl 0, rfl⟩
  | coe r =>
    have hr : 0 < r := EReal.coe_pos.1 hx
    refine ⟨(Real.sqrt r)⁻¹, inv_nonneg.2 (Real.sqrt_nonneg r), ?_⟩
    show (if r < 0 then (⊥ : EReal) else if r = 0 then ⊤ else ((Real.sqrt r)⁻¹ : ℝ)) = _
    rw [if_neg (not_lt.2 hr.le), if_neg hr.ne']

end Cert.Lib.NonnegScale
-- ==== Proof.LibRealSums.lean ====
/-
  Finite sums of real numbers read in the extended reals.

  The extended reals are a commutative monoid under addition, so a finite sum may be regrouped and reordered at will, the
  infinities included; what fails at the infinities is distributivity, and with it the associativity of a product of three
  matrices. Here: the cast of a finite real sum is the sum of the casts; for REAL-valued factors the two ways of
  associating a triple product agree entry by entry; and a sum over `Fin (m + d)` whose last `d` terms vanish is the sum
  of its first `m` terms (a contraction padded with zeros, or cut by a mask, is the unpadded contraction).
-/
import Mathlib.Data.EReal.Operations
import Mathlib.Algebra.BigOperators.Fin
import Mathlib.Algebra.BigOperators.Ring.Finset

namespace Cert.RealSums

open Finset

/-- The cast of a finite sum of reals is the sum of the casts. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The real identity: `∑ₖ (∑ⱼ aⱼ bⱼₖ) cₖ = ∑ⱼ aⱼ (∑ₖ bⱼₖ cₖ)`, one row `a` of the left factor against one column `c`
    of the right one. -/
theorem assoc_row_col {J K : Type*} [Fintype J] [Fintype K] (a : J → ℝ) (b : J → K → ℝ) (c : K → ℝ) :
    (∑ k, (∑ j, a j * b j k) * c k) = ∑ j, a j * ∑ k, b j k * c k := by
  simp only [Finset.sum_mul, Finset.mul_sum]
  rw [Finset.sum_comm]
  exact Finset.sum_congr rfl fun j _ => Finset.sum_congr rfl fun k _ => by ring

/-- The same read in the extended reals, each factor the cast of a real: `(A·B)·C` and `A·(B·C)` have equal entries
    when `A`'s row, `B` and `C`'s column are finite. -/
theorem assoc_row_col_coe {J K : Type*} [Fintype J] [Fintype K] (a : J → ℝ) (b : J → K → ℝ) (c : K → ℝ) :
    (∑ k, (∑ j, (a j : EReal) * (b j k : EReal)) * (c k : EReal))
      = ∑ j, (a j : EReal) * ∑ k, (b j k : EReal) * (c k : EReal) := by
  simp only [← EReal.coe_mul, ← coe_sum]
  rw [assoc_row_col]

/-- A sum over `Fin (m + d)` whose last `d` terms vanish is the sum of its first `m` terms. -/
theorem sum_castAdd_of_tail_zero {M : Type*} [AddCommMonoid M] {m d : ℕ} (f : Fin (m + d) → M)
    (hz : ∀ i : Fin d, f (Fin.natAdd m i) = 0) : ∑ i, f i = ∑ i : Fin m, f (Fin.castAdd d i) := by
  rw [Fin.sum_univ_add, Finset.sum_eq_zero (fun i _ => hz i), add_zero]

/-- A sum over `Fin (m + d)` is the sum of its first `m` terms plus the sum of its last `d` (a contraction done as a head
    product and a tail product). -/
theorem sum_head_add_tail {M : Type*} [AddCommMonoid M] {m d : ℕ} (f : Fin (m + d) → M) :
    ∑ i, f i = (∑ i : Fin m, f (Fin.castAdd d i)) + ∑ i : Fin d, f (Fin.natAdd m i) :=
  Fin.sum_univ_add f

end Cert.RealSums
-- ==== Proof.GcnEdgeAlgebra.lean ====
/-
  A graph-convolution layer written over an edge list, joined to its dense form.

  A batch of four graphs of 512 nodes is laid out as 2048 nodes, node `s` of graph `b` at `b * 512 + s`.  An edge list
  (`src e`, `dst e`, weight `w e`) REPRESENTS the dense 0/1 adjacency with a self-loop at every node when, for every
  target node and every function `ψ` of the nodes, the weighted sum of `ψ (src e)` over the edges into the target is the
  dense sum `∑ s, adj b s d * ψ (b, s)` plus the self-loop term `ψ (b, d)`.  From that one law: the edge-list degree is
  the dense degree (take `ψ = 1`); the degree is a real number that is at least one, so the guard "degree positive" is
  on, clamping the degree from below by a small positive constant changes nothing, and the edge-list `deg^(-1/2)` is
  the dense one, a nonnegative real number; and the edge-list layer `∑_{e → n} T (src e) · dinv (src e) · dinv n · w e`
  is the dense aggregation.  Nothing is assumed finite about the node table `T`: on the extended reals `0 * x = 0`,
  multiplication is commutative and associative, and the one factor taken out of a sum is a nonnegative real number,
  which does distribute over sums of arbitrary extended reals.
-/
import proofs.«167911_g83915071029568_cont_sun_c4_623_16_alg».proof.Proof.Spec
import proofs.«167911_g83915071029568_cont_sun_c4_623_16_alg».proof.Proof.LibNonnegScale
import proofs.«167911_g83915071029568_cont_sun_c4_623_16_alg».proof.Proof.LibRealSums
import Idealize.ShloMosaic.PureOps.Ideal.Laws

noncomputable section

open scoped BigOperators

namespace Cert.EdgeAlgebra

open Idealize.ShloMosaic Idealize.ShloMosaic.ValueIdx

/-- Node `s` of graph `b` in the flat layout of the four graphs. -/
def node (b : Fin 4) (s : Fin 512) : Fin 2048 := ⟨b.val * 512 + s.val, by omega⟩

/-- Every flat node is a node of some graph. -/
theorem node_surj (n : Fin 2048) : ∃ b d, n = node b d :=
  ⟨⟨n.val / 512, by omega⟩, ⟨n.val % 512, by omega⟩, Fin.ext (by show n.val = n.val / 512 * 512 + n.val % 512; omega)⟩

/-- Distinct (graph, node) pairs are distinct flat nodes. -/
theorem node_inj {b b' : Fin 4} {d d' : Fin 512} (h : node b d = node b' d') : b = b' ∧ d = d' := by
  have hv : b.val * 512 + d.val = b'.val * 512 + d'.val := congrArg Fin.val h
  exact ⟨Fin.ext (by omega), Fin.ext (by omega)⟩

/-- The small positive constant the degree is clamped by: the single-precision number nearest `1e-12`. -/
def eps : EReal := Ideal.ofBits .f32 0x2B8CBCCC#32

theorem eps_def : eps = Ideal.ofBits .f32 0x2B8CBCCC#32 := rfl

/-- The constant is `9223372 · 2⁻⁶³` (sign 0, exponent field 87, significand field 834764). -/
theorem eps_eq : eps = (((9223372 : ℝ) * (2 : ℝ) ^ (-63 : ℤ) : ℝ) : EReal) := by
  rw [eps_def]
  simp [Ideal.ofBits, Ideal.ieee, -EReal.coe_mul]

theorem eps_pos : 0 < eps := by
  rw [eps_eq]
  exact EReal.coe_pos.2 (by positivity)

theorem eps_le_one : eps ≤ 1 := by
  rw [eps_eq, ← EReal.coe_one]
  exact EReal.coe_le_coe_iff.2 (by norm_num)

variable {E : ℕ} (src dst : Fin E → Fin 2048) (w : Fin E → EReal) (adj : Cert.Spec.SA.Idx → EReal)

/-- The edge list represents the adjacency with a self-loop at every node: for every target node and every node
function `ψ`. -/
def Repr : Prop := ∀ (b : Fin 4) (d : Fin 512) (ψ : Fin 2048 → EReal),
  (∑ e : Fin E, if dst e = node b d then w e * ψ (src e) else 0) =
    (∑ s : Fin 512, adj (ix3 b s d) * ψ (node b s)) + ψ (node b d)

/-- The edge-list in-degree of a node: the weights of the edges into it. -/
def degE (n : Fin 2048) : EReal := ∑ e : Fin E, if dst e = n then w e else 0

/-- The edge-list `deg^(-1/2)`, guarded at degree zero and with the degree clamped from below. -/
def dinvE (n : Fin 2048) : EReal := if 0 < degE dst w n then Ideal.rsqrt (max (degE dst w n) eps) else 0

/-- One layer over the edge list: the messages along the edges into `n`, each scaled by the two `deg^(-1/2)` and the
edge weight. -/
def layerE (T : Fin 2048 → Fin 128 → EReal) (n : Fin 2048) (f : Fin 128) : EReal :=
  ∑ e : Fin E, if dst e = n then T (src e) f * (dinvE dst w (src e) * dinvE dst w (dst e) * w e) else 0

/-- The edge-list degree is the dense degree: the representation law at `ψ = 1`. -/
theorem degE_eq (h : Repr src dst w adj) (b : Fin 4) (d : Fin 512) :
    degE dst w (node b d) = Cert.Spec.deg adj b d := by
  have h1 := h b d (fun _ => 1)
  simp only [mul_one] at h1
  exact h1

/-- The dense degree is a real number that is at least one: a sum of zeros and ones, plus one. -/
theorem deg_real_ge_one (hadj : ∀ i, adj i = 0 ∨ adj i = 1) (b : Fin 4) (d : Fin 512) :
    ∃ r : ℝ, 1 ≤ r ∧ Cert.Spec.deg adj b d = (r : EReal) := by
  have hreal : ∀ s : Fin 512, ∃ a : ℝ, 0 ≤ a ∧ adj (ix3 b s d) = (a : EReal) := by
    intro s
    rcases hadj (ix3 b s d) with h0 | h1
    · exact ⟨0, le_refl 0, by rw [h0, EReal.coe_zero]⟩
    · exact ⟨1, zero_le_one, by rw [h1, EReal.coe_one]⟩
  choose a ha0 ha using hreal
  refine ⟨(∑ s, a s) + 1, ?_, ?_⟩
  · have hsum : 0 ≤ ∑ s, a s := Finset.sum_nonneg fun s _ => ha0 s
    linarith
  · show (∑ s : Fin 512, adj (ix3 b s d)) + 1 = _
    rw [EReal.coe_add, EReal.coe_one, Cert.RealSums.coe_sum]
    congr 1
    exact Finset.sum_congr rfl fun s _ => ha s

/-- The dense `deg^(-1/2)` is a nonnegative real number. -/
theorem dinv_nonneg_real (hadj : ∀ i, adj i = 0 ∨ adj i = 1) (b : Fin 4) (d : Fin 512) :
    ∃ r : ℝ, 0 ≤ r ∧ Cert.Spec.dinv adj b d = (r : EReal) := by
  obtain ⟨r, hr, hdeg⟩ := deg_real_ge_one adj hadj b d
  have hpos : (0 : EReal) < Cert.Spec.deg adj b d := by
    rw [hdeg]
    exact EReal.coe_pos.2 (by linarith)
  exact Cert.Lib.NonnegScale.rsqrt_of_pos hpos

/-- The edge-list `deg^(-1/2)` at a node is the dense one: the degree is at least one, so the guard is on and the
clamp from below by a constant that is at most one changes nothing. -/
theorem dinvE_eq (h : Repr src dst w adj) (hadj : ∀ i, adj i = 0 ∨ adj i = 1) (b : Fin 4) (d : Fin 512) :
    dinvE dst w (node b d) = Cert.Spec.dinv adj b d := by
  obtain ⟨r, hr, hdeg⟩ := deg_real_ge_one adj hadj b d
  have hE : degE dst w (node b d) = (r : EReal) := (degE_eq src dst w adj h b d).trans hdeg
  have hpos : (0 : EReal) < (r : EReal) := EReal.coe_pos.2 (by linarith)
  have hone : (1 : EReal) ≤ (r : EReal) := by
    rw [← EReal.coe_one]
    exact EReal.coe_le_coe_iff.2 hr
  have hmax : max (r : EReal) eps = (r : EReal) := max_eq_left (le_trans eps_le_one hone)
  unfold dinvE
  rw [hE, if_pos hpos, hmax]
  show _ = Ideal.rsqrt (Cert.Spec.deg adj b d)
  rw [hdeg]

/-- The edge-list layer at a node is the dense aggregation.  Each summand into the target is `w e * ψ (src e)` for
`ψ s' = T s' f * (dinv s' * dinv target)`; the representation law turns the edge sum into the dense sum plus the
self-loop term; and the common factor `dinv target`, a nonnegative real number, comes out of the sum. -/
theorem layerE_eq (h : Repr src dst w adj) (hadj : ∀ i, adj i = 0 ∨ adj i = 1)
    (T : Fin 2048 → Fin 128 → EReal) (b : Fin 4) (d : Fin 512) (f : Fin 128) :
    layerE src dst w T (node b d) f = Cert.Spec.agg adj (fun s f => T (node b s) f) b d f := by
  obtain ⟨c, hc, hcd⟩ := dinv_nonneg_real adj hadj b d
  have hstep : layerE src dst w T (node b d) f =
      ∑ e : Fin E, if dst e = node b d then
        w e * (T (src e) f * (dinvE dst w (src e) * dinvE dst w (node b d))) else 0 := by
    unfold layerE
    refine Finset.sum_congr rfl fun e _ => ?_
    by_cases he : dst e = node b d
    · rw [if_pos he, if_pos he, he]
      ac_rfl
    · rw [if_neg he, if_neg he]
  rw [hstep, h b d (fun s' => T s' f * (dinvE dst w s' * dinvE dst w (node b d)))]
  simp only [dinvE_eq src dst w adj h hadj]
  show (∑ s : Fin 512, adj (ix3 b s d) * (T (node b s) f * (Cert.Spec.dinv adj b s * Cert.Spec.dinv adj b d))) +
        T (node b d) f * (Cert.Spec.dinv adj b d * Cert.Spec.dinv adj b d) =
      ((∑ s : Fin 512, adj (ix3 b s d) * (T (node b s) f * Cert.Spec.dinv adj b s)) +
        T (node b d) f * Cert.Spec.dinv adj b d) * Cert.Spec.dinv adj b d
  rw [hcd, Cert.Lib.NonnegScale.add_mul_of_nonneg _ _ hc, Cert.Lib.NonnegScale.sum_mul_of_nonneg _ _ hc]
  congr 1
  · refine Finset.sum_congr rfl fun s _ => ?_
    ac_rfl
  · ac_rfl

end Cert.EdgeAlgebra

end
-- ==== Proof.LibFlatIndex.lean ====
/-
  Flat row-major positions of a three-axis array.

  A position `p` below `B * N * N` of a `[B, N, N]` array stored row-major is `(b * N + r) * N + c` for exactly one
  triple `b < B`, `r < N`, `c < N`, recovered as `b = p / (N * N)`, `r = p / N % N`, `c = p % N`.  Hence a sum over
  the flat positions is the triple sum over the three coordinates, and a sum over the flat positions that satisfy a
  predicate is the triple sum of the terms cut by that predicate.  The two-axis case comes first; the three-axis case is
  the two-axis case applied twice.
-/
import Mathlib.Algebra.BigOperators.Group.Finset.Basic
import Mathlib.Tactic

namespace Cert.Lib.FlatIndex

open Finset

/-- Dividing `x * N + c` by `N`, for `c < N`, gives back `x`. -/
theorem mul_add_div_of_lt {x N c : ℕ} (hc : c < N) : (x * N + c) / N = x := by
  have hN : 0 < N := Nat.zero_lt_of_lt hc
  rw [Nat.add_comm, Nat.add_mul_div_right _ _ hN, Nat.div_eq_of_lt hc, Nat.zero_add]

/-- A sum over the flat positions of an `[A, N]` array is the double sum over rows and columns: split off the last
row. -/
theorem sum_flat2 {M : Type*} [AddCommMonoid M] (A N : ℕ) (g : ℕ → M) :
    ∑ p ∈ Finset.range (A * N), g p = ∑ a ∈ Finset.range A, ∑ c ∈ Finset.range N, g (a * N + c) := by
  induction A with
  | zero => rw [Nat.zero_mul, sum_range_zero, sum_range_zero]
  | succ A ih => rw [Nat.succ_mul, sum_range_add, ih, sum_range_succ]

/-- A sum over the flat positions of a `[B, N, N]` array is the triple sum over its three coordinates. -/
theorem sum_flat3 {M : Type*} [AddCommMonoid M] (B N : ℕ) (g : ℕ → M) :
    ∑ p ∈ Finset.range (B * N * N), g p =
      ∑ b ∈ Finset.range B, ∑ r ∈ Finset.range N, ∑ c ∈ Finset.range N, g ((b * N + r) * N + c) := by
  rw [sum_flat2 (B * N) N g, sum_flat2 B N (fun a => ∑ c ∈ Finset.range N, g (a * N + c))]

/-- The filtered form: a sum over the flat positions that satisfy `mask` is the triple sum of the terms cut by
`mask`. -/
theorem sum_flat3_filter {M : Type*} [AddCommMonoid M] (B N : ℕ) (mask : ℕ → Prop) [DecidablePred mask]
    (g : ℕ → M) :
    ∑ p ∈ (Finset.range (B * N * N)).filter mask, g p =
      ∑ b ∈ Finset.range B, ∑ r ∈ Finset.range N, ∑ c ∈ Finset.range N,
        if mask ((b * N + r) * N + c) then g ((b * N + r) * N + c) else 0 := by
  rw [sum_filter, sum_flat3 B N (fun p => if mask p then g p else 0)]

/-- The same for a two-axis array. -/
theorem sum_flat2_filter {M : Type*} [AddCommMonoid M] (A N : ℕ) (mask : ℕ → Prop) [DecidablePred mask]
    (g : ℕ → M) :
    ∑ p ∈ (Finset.range (A * N)).filter mask, g p =
      ∑ a ∈ Finset.range A, ∑ c ∈ Finset.range N, if mask (a * N + c) then g (a * N + c) else 0 := by
  rw [sum_filter, sum_flat2 A N (fun p => if mask p then g p else 0)]

/-- The three coordinates are recovered from the flat position by division and remainder. -/
theorem flat3_div_mod (B N b r c : ℕ) (hN : 0 < N) (hr : r < N) (hc : c < N) :
    ((b * N + r) * N + c) / (N * N) = b ∧ ((b * N + r) * N + c) / N % N = r ∧
      ((b * N + r) * N + c) % N = c := by
  have h1 : ((b * N + r) * N + c) / N = b * N + r := mul_add_div_of_lt hc
  refine ⟨?_, ?_, ?_⟩
  · rw [← Nat.div_div_eq_div_mul, h1]
    exact mul_add_div_of_lt hr
  · rw [h1]
    exact Nat.mul_add_mod_of_lt hr
  · exact Nat.mul_add_mod_of_lt hc

/-- The flat position of a triple of coordinates within bounds lies below `B * N * N`. -/
theorem flat3_lt {B N b r c : ℕ} (hb : b < B) (hr : r < N) (hc : c < N) :
    (b * N + r) * N + c < B * N * N := by
  have hrow : b * N + r + 1 ≤ B * N :=
    calc b * N + r + 1 ≤ b * N + N := by omega
      _ = (b + 1) * N := by ring
      _ ≤ B * N := Nat.mul_le_mul_right N hb
  calc (b * N + r) * N + c < (b * N + r) * N + N := by omega
    _ = (b * N + r + 1) * N := by ring
    _ ≤ B * N * N := Nat.mul_le_mul_right N hrow

/-- Every flat position is the flat position of its three coordinates. -/
theorem flat3_decomp (N p : ℕ) :
    (p / (N * N) * N + p / N % N) * N + p % N = p := by
  rw [← Nat.div_div_eq_div_mul]
  have h1 : p / N / N * N + p / N % N = p / N := by
    rw [Nat.mul_comm]; exact Nat.div_add_mod (p / N) N
  rw [h1, Nat.mul_comm]
  exact Nat.div_add_mod p N

/-- The coordinates of a flat position below `B * N * N` are within bounds. -/
theorem flat3_coords_lt {B N p : ℕ} (hp : p < B * N * N) :
    p / (N * N) < B ∧ p / N % N < N ∧ p % N < N := by
  have hN : 0 < N := by
    rcases Nat.eq_zero_or_pos N with h0 | h
    · rw [h0, Nat.mul_zero] at hp; omega
    · exact h
  refine ⟨?_, Nat.mod_lt _ hN, Nat.mod_lt _ hN⟩
  rw [Nat.div_lt_iff_lt_mul (Nat.mul_pos hN hN)]
  rw [Nat.mul_assoc] at hp
  exact hp

end Cert.Lib.FlatIndex
-- ==== Proof.LibMaskedEdgeSum.lean ====
/-
  The sum over the enumerated set positions of a three-axis mask, read coordinate by coordinate.

  The set positions of a `[B, N, N]` mask, flattened row-major, are enumerated by prefix counts; each enumerated
  position is decoded into graph, row and column by division and remainder.  A sum over the enumerated list of a
  function of the decoded coordinates is the triple sum over all coordinates of that function cut by the mask.
-/
import proofs.«167911_g83915071029568_cont_sun_c4_623_16_alg».proof.Proof.LibPrefixEnum
import proofs.«167911_g83915071029568_cont_sun_c4_623_16_alg».proof.Proof.LibFlatIndex

namespace Cert.Lib.MaskedEdgeSum

open Finset
open Cert.Lib

/-- A sum over the enumerated set positions of a `[B, N, N]` mask, each position decoded into its three coordinates
(graph `p / (N * N)`, row `p / N % N`, column `p % N`), is the triple sum over the coordinates of the terms cut by the
mask: the enumeration runs once through the set positions, the set positions are the flat positions of the triples
that satisfy the mask, and decoding the flat position of a triple gives the triple back. -/
theorem sum_edges {M : Type*} [AddCommMonoid M] (B N : ℕ) (hN : 0 < N) (mask : ℕ → Prop) [DecidablePred mask]
    (g : ℕ → ℕ → ℕ → M) :
    ∑ e ∈ Finset.range (PrefixEnum.total (B * N * N) mask),
        g (PrefixEnum.pos (B * N * N) mask e / (N * N)) (PrefixEnum.pos (B * N * N) mask e / N % N)
          (PrefixEnum.pos (B * N * N) mask e % N) =
      ∑ b ∈ Finset.range B, ∑ r ∈ Finset.range N, ∑ c ∈ Finset.range N,
        if mask ((b * N + r) * N + c) then g b r c else 0 := by
  have h1 := PrefixEnum.sum_pos (B * N * N) mask (fun p => g (p / (N * N)) (p / N % N) (p % N))
  have h2 := FlatIndex.sum_flat3_filter B N mask (fun p => g (p / (N * N)) (p / N % N) (p % N))
  refine (h1.trans h2).trans ?_
  refine sum_congr rfl fun b _ => sum_congr rfl fun r hr => sum_congr rfl fun c hc => ?_
  rw [mem_range] at hr hc
  obtain ⟨e1, e2, e3⟩ := FlatIndex.flat3_div_mod B N b r c hN hr hc
  simp only [e1, e2, e3]

/-- The enumerated position number `e`, for `e` below the total, decodes into coordinates within bounds, and the mask
holds at it. -/
theorem edge_coords {B N : ℕ} (mask : ℕ → Prop) [DecidablePred mask] {e : ℕ}
    (he : e < PrefixEnum.total (B * N * N) mask) :
    PrefixEnum.pos (B * N * N) mask e / (N * N) < B ∧ PrefixEnum.pos (B * N * N) mask e / N % N < N ∧
      PrefixEnum.pos (B * N * N) mask e % N < N ∧ mask (PrefixEnum.pos (B * N * N) mask e) := by
  obtain ⟨hb, hr, hc⟩ := FlatIndex.flat3_coords_lt (PrefixEnum.pos_lt (B * N * N) mask he)
  exact ⟨hb, hr, hc, PrefixEnum.mask_pos (B * N * N) mask he⟩

end Cert.Lib.MaskedEdgeSum
-- ==== Proof.ReprBridge.lean ====
/-
  The edge list the reference builds represents the adjacency with a self-loop at every node.

  The list has 1048576 + 2048 entries. Entry e of the first part, for e below the number T of nonzero adjacency entries, is
  the e-th nonzero position P e of the flattened adjacency, decoded into its graph, row (source) and column (target), with
  weight 1; the entries from T on carry weight 0 and contribute nothing to any sum. Entry 1048576 + k of the second part
  is the self-loop of node k with weight 1. Summing a term over the list therefore sums it over the nonzero positions
  (the enumeration of nonzero positions is a bijection onto them) and over the self-loops; and for an indicator adjacency a
  sum over the nonzero positions of a column is the sum of adjacency-times-term over the whole column.
-/
import proofs.«167911_g83915071029568_cont_sun_c4_623_16_alg».proof.Proof.GcnEdgeAlgebra
import proofs.«167911_g83915071029568_cont_sun_c4_623_16_alg».proof.Proof.LibMaskedEdgeSum
import proofs.«167911_g83915071029568_cont_sun_c4_623_16_alg».proof.Proof.LibEntryScatter

noncomputable section

open scoped BigOperators

namespace Cert.ReprBridge

open Idealize.ShloMosaic Idealize.ShloMosaic.ValueIdx Cert.EdgeAlgebra Cert.Lib

/-- A node function extended by zero to all naturals. -/
def ext (ψ : Fin 2048 → EReal) (k : ℕ) : EReal := if h : k < 2048 then ψ ⟨k, h⟩ else 0

theorem ext_val (ψ : Fin 2048 → EReal) (k : Fin 2048) : ext ψ k.val = ψ k := by
  unfold ext; rw [dif_pos k.isLt]

/-- Two node numbers written as graph·512 + node agree exactly when both parts agree. -/
theorem node_eq_iff {b' c b d : ℕ} (hc : c < 512) (hd : d < 512) : b' * 512 + c = b * 512 + d ↔ b' = b ∧ c = d := by
  constructor
  · intro h; omega
  · rintro ⟨rfl, rfl⟩; rfl

/-- The sum over a column's nonzero positions of a node term is the sum of adjacency times term, for an indicator
    adjacency. -/
theorem column_sum (adj : Cert.Spec.SA.Idx → EReal) (hadj : ∀ i, adj i = 0 ∨ adj i = 1)
    (mask : ℕ → Prop) [DecidablePred mask]
    (hmask : ∀ (b : Fin 4) (r c : Fin 512), mask ((b.val * 512 + r.val) * 512 + c.val) ↔ adj (ix3 b r c) ≠ 0)
    (b : Fin 4) (d : Fin 512) (ψ : Fin 2048 → EReal) :
    (∑ r ∈ Finset.range 512, if mask ((b.val * 512 + r) * 512 + d.val) then ext ψ (b.val * 512 + r) else 0)
      = ∑ s : Fin 512, adj (ix3 b s d) * ψ (node b s) := by
  rw [← Fin.sum_univ_eq_sum_range (fun r => if mask ((b.val * 512 + r) * 512 + d.val) then ext ψ (b.val * 512 + r) else 0) 512]
  refine Finset.sum_congr rfl fun s _ => ?_
  have he : ext ψ (b.val * 512 + s.val) = ψ (node b s) := ext_val ψ (node b s)
  rcases hadj (ix3 b s d) with h0 | h1
  · have : ¬ mask ((b.val * 512 + s.val) * 512 + d.val) := fun hm => (hmask b s d).1 hm h0
    rw [if_neg this, h0, zero_mul]
  · have : mask ((b.val * 512 + s.val) * 512 + d.val) := (hmask b s d).2 (by rw [h1]; exact one_ne_zero)
    rw [if_pos this, h1, one_mul, he]

/-- A triple sum over graph, row and column of a term present only at one target node collapses to that graph's and
    that column's sum over the rows. -/
theorem collapse (mask : ℕ → Prop) [DecidablePred mask] (b : Fin 4) (d : Fin 512) (φ : ℕ → EReal) :
    (∑ b' ∈ Finset.range 4, ∑ r ∈ Finset.range 512, ∑ c ∈ Finset.range 512,
        if mask ((b' * 512 + r) * 512 + c) then (if b' * 512 + c = b.val * 512 + d.val then φ (b' * 512 + r) else 0) else 0)
      = ∑ r ∈ Finset.range 512, if mask ((b.val * 512 + r) * 512 + d.val) then φ (b.val * 512 + r) else 0 := by
  rw [Finset.sum_eq_single b.val]
  · refine Finset.sum_congr rfl fun r _ => ?_
    rw [Finset.sum_eq_single d.val]
    · simp only [eq_self_iff_true, if_true]
    · intro c hc hne
      have hc' := Finset.mem_range.1 hc
      have : ¬ (b.val * 512 + c = b.val * 512 + d.val) := by omega
      rw [if_neg this, ite_self]
    · intro h; exact absurd (Finset.mem_range.2 d.isLt) h
  · intro b' hb' hne
    refine Finset.sum_eq_zero fun r _ => Finset.sum_eq_zero fun c hc => ?_
    have hc' := Finset.mem_range.1 hc
    have hd := d.isLt
    have : ¬ (b' * 512 + c = b.val * 512 + d.val) := by omega
    rw [if_neg this, ite_self]
  · intro h; exact absurd (Finset.mem_range.2 b.isLt) h

/-- The edge list described above represents the adjacency with a self-loop at every node. -/
theorem repr_of_edges (adj : Cert.Spec.SA.Idx → EReal) (hadj : ∀ i, adj i = 0 ∨ adj i = 1)
    (mask : ℕ → Prop) [DecidablePred mask]
    (hmask : ∀ (b : Fin 4) (r c : Fin 512), mask ((b.val * 512 + r.val) * 512 + c.val) ↔ adj (ix3 b r c) ≠ 0)
    (src' dst' : Fin 1050624 → Fin 2048) (w' : Fin 1050624 → EReal)
    (hlo : ∀ e : Fin 1050624, e.val < PrefixEnum.total 1048576 mask →
        (src' e).val = PrefixEnum.pos 1048576 mask e.val / 262144 % 4 * 512 + PrefixEnum.pos 1048576 mask e.val / 512 % 512
        ∧ (dst' e).val = PrefixEnum.pos 1048576 mask e.val / 262144 % 4 * 512 + PrefixEnum.pos 1048576 mask e.val % 512
        ∧ w' e = 1)
    (hmid : ∀ e : Fin 1050624, PrefixEnum.total 1048576 mask ≤ e.val → e.val < 1048576 → w' e = 0)
    (hhi : ∀ e : Fin 1050624, 1048576 ≤ e.val →
        (src' e).val = e.val - 1048576 ∧ (dst' e).val = e.val - 1048576 ∧ w' e = 1) :
    Repr src' dst' w' adj := by
  intro b d ψ
  have hTle : PrefixEnum.total 1048576 mask ≤ 1048576 := PrefixEnum.total_le 1048576 mask
  let F : Fin 1050624 → EReal := fun e => if dst' e = node b d then w' e * ψ (src' e) else 0
  refine (Cert.Lib.EntryScatter.sum_fin_split 1048576 2048 1050624 (by norm_num) F).trans ?_
  refine congrArg₂ (· + ·) ?_ ?_
  · let FN : ℕ → EReal := fun i => if h : i < 1048576 then F ⟨i, by omega⟩ else 0
    have e1 : (∑ i : Fin 1048576, F ⟨i.val, by omega⟩) = ∑ i ∈ Finset.range 1048576, FN i := by
      rw [← Fin.sum_univ_eq_sum_range FN 1048576]
      refine Finset.sum_congr rfl fun i _ => ?_
      show _ = (if h : i.val < 1048576 then F ⟨i.val, by omega⟩ else 0)
      rw [dif_pos i.isLt]
    have e2 : ∑ i ∈ Finset.Ico (PrefixEnum.total 1048576 mask) 1048576, FN i = 0 := by
      refine Finset.sum_eq_zero fun i hi => ?_
      obtain ⟨h1, h2⟩ := Finset.mem_Ico.1 hi
      show (if h : i < 1048576 then F ⟨i, by omega⟩ else 0) = 0
      rw [dif_pos h2]
      show (if dst' ⟨i, _⟩ = node b d then w' ⟨i, _⟩ * ψ (src' ⟨i, _⟩) else 0) = 0
      rw [hmid ⟨i, by omega⟩ h1 h2, zero_mul, ite_self]
    let g : ℕ → ℕ → ℕ → EReal := fun b' r c => if b' * 512 + c = b.val * 512 + d.val then ext ψ (b' * 512 + r) else 0
    have e3 : ∑ i ∈ Finset.range (PrefixEnum.total 1048576 mask), FN i
        = ∑ i ∈ Finset.range (PrefixEnum.total 1048576 mask),
            g (PrefixEnum.pos 1048576 mask i / (512 * 512)) (PrefixEnum.pos 1048576 mask i / 512 % 512) (PrefixEnum.pos 1048576 mask i % 512) := by
      refine Finset.sum_congr rfl fun i hi => ?_
      have hiT : i < PrefixEnum.total 1048576 mask := Finset.mem_range.1 hi
      have hi' : i < 1048576 := lt_of_lt_of_le hiT hTle
      obtain ⟨hs, hd', hw⟩ := hlo ⟨i, by omega⟩ hiT
      have hPlt : PrefixEnum.pos 1048576 mask i < 1048576 := PrefixEnum.pos_lt 1048576 mask hiT
      have hq : PrefixEnum.pos 1048576 mask i / 262144 % 4 = PrefixEnum.pos 1048576 mask i / (512 * 512) := by
        have : PrefixEnum.pos 1048576 mask i / 262144 < 4 := by omega
        rw [Nat.mod_eq_of_lt this]
      show (if h : i < 1048576 then F ⟨i, by omega⟩ else 0) = _
      rw [dif_pos hi']
      show (if dst' ⟨i, _⟩ = node b d then w' ⟨i, _⟩ * ψ (src' ⟨i, _⟩) else 0) = _
      rw [hw, one_mul]
      have hdst : (dst' ⟨i, by omega⟩ = node b d)
          ↔ (PrefixEnum.pos 1048576 mask i / (512 * 512) * 512 + PrefixEnum.pos 1048576 mask i % 512 = b.val * 512 + d.val) := by
        rw [Fin.ext_iff, hd', hq]; rfl
      have hsrc : ψ (src' ⟨i, by omega⟩)
          = ext ψ (PrefixEnum.pos 1048576 mask i / (512 * 512) * 512 + PrefixEnum.pos 1048576 mask i / 512 % 512) := by
        rw [← ext_val ψ (src' ⟨i, by omega⟩), hs, hq]
      show _ = (if PrefixEnum.pos 1048576 mask i / (512 * 512) * 512 + PrefixEnum.pos 1048576 mask i % 512 = b.val * 512 + d.val
          then ext ψ (PrefixEnum.pos 1048576 mask i / (512 * 512) * 512 + PrefixEnum.pos 1048576 mask i / 512 % 512) else 0)
      by_cases hc : dst' ⟨i, by omega⟩ = node b d
      · rw [if_pos hc, if_pos (hdst.1 hc), hsrc]
      · rw [if_neg hc, if_neg (fun h => hc (hdst.2 h))]
    have e4 := MaskedEdgeSum.sum_edges 4 512 (by norm_num) mask g
    rw [e1, ← Finset.sum_range_add_sum_Ico FN hTle, e2, add_zero, e3]
    exact (e4.trans (collapse mask b d (ext ψ))).trans (column_sum adj hadj mask hmask b d ψ)
  · have e5 : ∀ k : Fin 2048, F ⟨1048576 + k.val, by omega⟩ = if k = node b d then ψ k else 0 := by
      intro k
      obtain ⟨hs, hd', hw⟩ := hhi ⟨1048576 + k.val, by omega⟩ (by show 1048576 ≤ 1048576 + k.val; omega)
      have hsk : src' ⟨1048576 + k.val, by omega⟩ = k := Fin.ext (by rw [hs]; show 1048576 + k.val - 1048576 = k.val; omega)
      have hdk : dst' ⟨1048576 + k.val, by omega⟩ = k := Fin.ext (by rw [hd']; show 1048576 + k.val - 1048576 = k.val; omega)
      show (if dst' _ = node b d then w' _ * ψ (src' _) else 0) = _
      rw [hdk, hw, hsk, one_mul]
    rw [Finset.sum_congr rfl fun k _ => e5 k, Finset.sum_ite_eq' Finset.univ (node b d) ψ, if_pos (Finset.mem_univ _)]

end Cert.ReprBridge

end
-- ==== Proof.LibEdgeRows.lean ====
/-
  GATHERS OF ROWS AND OF ENTRIES BY A COLUMN OF INDICES, AND WHERE A ROW SCATTER LANDS.

  Three host shape operations with a column `[E, 1]` of integer indices, each read at one index:
  * a gather of ROWS of a table `[N, C]` (`rowGather`): row `e` of the result is the table's row at the `e`-th index
    word, read signed and clamped into `[0, N − 1]`; the column is kept (`rowGather_apply`);
  * a gather of ENTRIES of a vector `[N]` (`entryGather`): entry `e` of the result is the vector's entry at the `e`-th
    index word, read signed and clamped into `[0, N − 1]` (`entryGather_apply`);
  * a scatter of the ROWS of updates `[E, C]` into a table `[N, C]` (`rowScatter`): an update entry `(e, q)` that lands
    at table entry `i` has the `e`-th index word, read signed, equal to `i`'s row, and keeps its column
    (`rowScatter_lands`); so the clamped index of the matching gather is `i`'s row as well (`rowScatter_lands_clamp`).
  The dimension numbers are structure literals over the sizes with the well-formedness proof a parameter, so a
  program's record with the same lists equals them by `rfl`.
  Last, two facts about how such a column of indices is prepared: the wrap of a negative index (add `m` where the
  index is below zero) leaves an index that is nonnegative read signed as it is (`wrap_apply_of_nonneg`), and a vector
  `[E]` broadcast to the column `[E, 1]` reads the vector's entry `e` at row `e` (`column_apply`).
-/
import Idealize.ShloMosaic.Lib.ValueIdx

namespace Cert.Lib.EdgeRows

open Idealize.ShloMosaic Idealize.ShloMosaic.ValueIdx

/-! ## A gather of rows -/

section RowGather
variable {α : Type}

/-- The dimension numbers of a gather of rows: operand `[N, C]`, start indices `[E, 1]`, result `[E, C]`; axis 0 of
    the operand is indexed and collapsed, axis 1 is taken whole as the result's axis 1. -/
abbrev rowGather (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The gather of rows read at `(e, q)`: the operand at the row named by the `e`-th index word, read signed and clamped
    into `[0, N − 1]`, and at column `q`. -/
theorem rowGather_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (q : Fin C) :
    Host.gather (rowGather N E C wf) x idx (ix2 e q)
      = x (ix2 ⟨min (idx (ix2 e (0 : Fin 1))).toInt.toNat (N - 1), by omega⟩ q) := by
  unfold Host.gather
  congr 1
  funext a
  refine Fin.ext ?_
  match a with
  | ⟨0, h0⟩ =>
    show (rowGather N E C wf).start (ix2 e q) idx ⟨0, h0⟩ + (rowGather N E C wf).batchCoord (ix2 e q) ⟨0, h0⟩
      + (rowGather N E C wf).offCoord (ix2 e q) ⟨0, h0⟩ = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (⟨0, h0⟩ : Fin 2) ∈ (rowGather N E C wf).startIndexMap from List.mem_singleton.mpr rfl)]
    have hsi : (rowGather N E C wf).siIdx (ix2 e q) ⟨List.idxOf (⟨0, h0⟩ : Fin 2) (rowGather N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, h1⟩ =>
    show (rowGather N E C wf).start (ix2 e q) idx ⟨1, h1⟩ + (rowGather N E C wf).batchCoord (ix2 e q) ⟨1, h1⟩
      + (rowGather N E C wf).offCoord (ix2 e q) ⟨1, h1⟩ = q.val
    rw [GatherDims.batchCoord_eq_zero _ _ _ List.not_mem_nil]
    have hs : (rowGather N E C wf).start (ix2 e q) idx ⟨1, h1⟩ = 0 := by
      unfold GatherDims.start
      rw [dif_neg (fun h => Nat.one_ne_zero (congrArg Fin.val (List.mem_singleton.mp h)))]
    rw [hs]
    simp only [Nat.add_zero, Nat.zero_add]
    rfl

end RowGather

/-! ## A gather of entries -/

section EntryGather
variable {α : Type}

/-- The dimension numbers of a gather of entries: operand `[N]`, start indices `[E, 1]`, result `[E]`; the operand's
    one axis is indexed and collapsed. -/
abbrev entryGather (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The gather of entries read at `e`: the operand at the `e`-th index word, read signed and clamped into
    `[0, N − 1]`. -/
theorem entryGather_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (entryGather N E wf) x idx (ix1 e)
      = x (ix1 ⟨min (idx (ix2 e (0 : Fin 1))).toInt.toNat (N - 1), by omega⟩) := by
  unfold Host.gather
  congr 1
  funext a
  obtain rfl : a = 0 := Subsingleton.elim _ _
  refine Fin.ext ?_
  show (entryGather N E wf).start (ix1 e) idx 0 + (entryGather N E wf).batchCoord (ix1 e) 0
    + (entryGather N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (entryGather N E wf).startIndexMap from List.mem_singleton.mpr rfl)]
  have hsi : (entryGather N E wf).siIdx (ix1 e) ⟨List.idxOf (0 : Fin 1) (entryGather N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end EntryGather

/-! ## A scatter of rows -/

section RowScatter

/-- The dimension numbers of a scatter of rows: operand `[N, C]`, scatter indices `[E, 1]`, updates `[E, C]`; the
    index names the operand's axis 0, which the update window does not have, and the updates' axis 1 is the window
    over the operand's axis 1. -/
abbrev rowScatter (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- On the operand's axis 0 the window starts at the `e`-th index word, read signed. -/
theorem rowScatter_start_zero {N E C w : Nat}
    (wf : ScatterDims.WF ⟨2, ![N, C]⟩ ⟨2, ![E, 1]⟩ ⟨2, ![E, C]⟩ [1] [0] [0] 1)
    (idx : IVec ⟨2, ![E, 1]⟩ w) (e : Fin E) (q : Fin C) (h0 : 0 < 2) :
    (rowScatter N E C wf).start (ix2 e q) idx ⟨0, h0⟩ = (idx (ix2 e (0 : Fin 1))).toInt := by
  unfold ScatterDims.start
  rw [dif_pos (show (⟨0, h0⟩ : Fin 2) ∈ (rowScatter N E C wf).scatterDimsToOperandDims from List.mem_singleton.mpr rfl)]
  have hsi : (rowScatter N E C wf).siIdx (ix2 e q)
      ⟨List.idxOf (⟨0, h0⟩ : Fin 2) (rowScatter N E C wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the operand's axis 1 the window starts at 0. -/
theorem rowScatter_start_one {N E C w : Nat}
    (wf : ScatterDims.WF ⟨2, ![N, C]⟩ ⟨2, ![E, 1]⟩ ⟨2, ![E, C]⟩ [1] [0] [0] 1)
    (idx : IVec ⟨2, ![E, 1]⟩ w) (e : Fin E) (q : Fin C) (h1 : 1 < 2) :
    (rowScatter N E C wf).start (ix2 e q) idx ⟨1, h1⟩ = 0 := by
  unfold ScatterDims.start
  rw [dif_neg (fun h => Nat.one_ne_zero (congrArg Fin.val (List.mem_singleton.mp h)))]

/-- The operand's axis 0 has no window coordinate. -/
theorem rowScatter_window_zero {N E C : Nat}
    (wf : ScatterDims.WF ⟨2, ![N, C]⟩ ⟨2, ![E, 1]⟩ ⟨2, ![E, C]⟩ [1] [0] [0] 1)
    (e : Fin E) (q : Fin C) (h0 : 0 < 2) :
    (rowScatter N E C wf).window (ix2 e q) ⟨0, h0⟩ = 0 := by
  have hn : (⟨0, h0⟩ : Fin 2) ∉ (rowScatter N E C wf).sKept :=
    fun h => of_decide_eq_true (List.mem_filter.1 h).2 (List.mem_singleton.mpr rfl)
  unfold ScatterDims.window
  rw [dif_neg hn]

/-- On the operand's axis 1 the window coordinate is the update's column. -/
theorem rowScatter_window_one {N E C : Nat}
    (wf : ScatterDims.WF ⟨2, ![N, C]⟩ ⟨2, ![E, 1]⟩ ⟨2, ![E, C]⟩ [1] [0] [0] 1)
    (e : Fin E) (q : Fin C) (h1 : 1 < 2) :
    (rowScatter N E C wf).window (ix2 e q) ⟨1, h1⟩ = q.val := by
  have hm : (⟨1, h1⟩ : Fin 2) ∈ (rowScatter N E C wf).sKept :=
    List.mem_filter.2 ⟨List.mem_finRange _,
      decide_eq_true (fun h => Nat.one_ne_zero (congrArg Fin.val (List.mem_singleton.mp h)))⟩
  unfold ScatterDims.window
  rw [dif_pos hm]
  rfl

/-- An update entry `(e, q)` that lands at operand entry `i` has the `e`-th index word, read signed, equal to `i`'s
    row, and keeps its column. -/
theorem rowScatter_lands {N E C w : Nat}
    (wf : ScatterDims.WF ⟨2, ![N, C]⟩ ⟨2, ![E, 1]⟩ ⟨2, ![E, C]⟩ [1] [0] [0] 1)
    (idx : IVec ⟨2, ![E, 1]⟩ w) (e : Fin E) (q : Fin C) (i : (⟨2, ![N, C]⟩ : Shape).Idx)
    (h : (rowScatter N E C wf).resultIdx? (ix2 e q) idx = some i) :
    (idx (ix2 e (0 : Fin 1))).toInt = ((i 0).val : Int) ∧ (i 1).val = q.val := by
  unfold ScatterDims.resultIdx? at h
  split at h
  · rename_i hb
    have hi := Option.some.inj h
    subst hi
    have h02 : 0 < 2 := Nat.zero_lt_two
    have h12 : 1 < 2 := Nat.one_lt_two
    constructor
    · have hb0 := (hb ⟨0, h02⟩).1
      show _ = (((rowScatter N E C wf).start (ix2 e q) idx ⟨0, h02⟩
        + ((rowScatter N E C wf).window (ix2 e q) ⟨0, h02⟩ : Nat) : Int).toNat : Int)
      rw [rowScatter_start_zero, rowScatter_window_zero] at hb0 ⊢
      omega
    · show ((rowScatter N E C wf).start (ix2 e q) idx ⟨1, h12⟩
        + ((rowScatter N E C wf).window (ix2 e q) ⟨1, h12⟩ : Nat) : Int).toNat = q.val
      rw [rowScatter_start_one, rowScatter_window_one]
      omega
  · exact absurd h (by simp)

/-- So the index word of a landing update, read signed and clamped into `[0, N − 1]` as the matching gather of rows
    reads it, is the row it lands at. -/
theorem rowScatter_lands_clamp {N E C w : Nat}
    (wf : ScatterDims.WF ⟨2, ![N, C]⟩ ⟨2, ![E, 1]⟩ ⟨2, ![E, C]⟩ [1] [0] [0] 1)
    (idx : IVec ⟨2, ![E, 1]⟩ w) (e : Fin E) (q : Fin C) (i : (⟨2, ![N, C]⟩ : Shape).Idx)
    (h : (rowScatter N E C wf).resultIdx? (ix2 e q) idx = some i) :
    min (idx (ix2 e (0 : Fin 1))).toInt.toNat (N - 1) = (i 0).val := by
  have h0 := (rowScatter_lands wf idx e q i h).1
  have hlt : (i 0).val < N := idx2_lt0 i
  rw [h0]
  omega

end RowScatter

/-! ## The wrap of a negative index, at a nonnegative index; a vector of indices as a column -/

section Wrap

/-- A word that is nonnegative when read signed is not signed-less-than zero: the comparison's bit is `0`. -/
theorem cmpi_slt_zero_of_nonneg {w : Nat} (x : BitVec w) (h : 0 ≤ x.toInt) : IntOp.cmpi .slt x 0#w = 0#1 := by
  have hs : x.slt 0#w = false := by
    simp only [BitVec.slt, BitVec.toInt_zero, decide_eq_false_iff_not, not_lt]
    exact h
  show BitVec.ofBool (x.slt 0#w) = 0#1
  rw [hs]
  rfl

/-- The normalisation of a possibly negative index — where the index is signed-less-than a splat `0`, the index plus a
    splat `m`, elsewhere the index — is the index itself wherever the index is nonnegative read signed. -/
theorem wrap_apply_of_nonneg {s0 s : Shape} {w : Nat} (dims : Fin s0.rank → Fin s.rank) (hb : s0.BroadcastsInDim s dims)
    (m : BitVec w) (a : IVec s w) (k : s.Idx) (h : 0 ≤ (a k).toInt) :
    select (cmpi .slt a (broadcastInDim s dims hb (constantI s0 w 0#w)))
      (addi a (broadcastInDim s dims hb (constantI s0 w m))) a k = a k := by
  have hc : cmpi .slt a (broadcastInDim s dims hb (constantI s0 w 0#w)) k = 0#1 :=
    cmpi_slt_zero_of_nonneg (a k) h
  rw [select_apply, hc, select_zero]

/-- A vector `[E]` broadcast to the column `[E, 1]` along axis 0 reads, at row `e`, the vector's entry `e`. -/
theorem column_apply {α : Type} {E : Nat} (hb : (⟨1, ![E]⟩ : Shape).BroadcastsInDim ⟨2, ![E, 1]⟩ ![0])
    (v : (⟨1, ![E]⟩ : Shape).Idx → α) (e : Fin E) (z : Fin 1) :
    broadcastInDim ⟨2, ![E, 1]⟩ ![0] hb v (ix2 e z) = v (ix1 e) := by
  unfold broadcastInDim
  congr 1
  funext a
  obtain rfl : a = 0 := Subsingleton.elim _ _
  refine Fin.ext ?_
  split
  · rename_i h1
    have hE : E = 1 := h1
    have := e.isLt
    show 0 = e.val
    omega
  · rfl

end Wrap

end Cert.Lib.EdgeRows
-- ==== Proof.LibRowLanding.lean ====
/-
  WHERE A SCATTER OF ROWS LANDS, EXACTLY; INDEX WORDS THAT ARE SMALL NATURALS; THREE SMALL READS.

  A scatter of the rows of updates `[E, C]` into a table `[N, C]` by a column `[E, 1]` of index words sends the update
  entry `(e, q)` to the table entry `(i, c)` exactly when the `e`-th index word, read signed, is `i` and `q = c`
  (`rowScatter_lands_iff`).  Hence the sum of all the updates that land at `(i, c)` is the sum, over the rows `e` whose
  index word reads `i`, of the updates' entry `(e, c)` (`sum_landing`); the values may lie in any commutative monoid.

  A word `BitVec.ofNat w k` with `2 k < 2 ^ w` reads signed as `k` (`toInt_ofNat_small`); a signed value that is a row
  `i < N` stays `i` when clamped into `[0, N − 1]` (`clamp_of_toInt_eq`).

  A sum over `Fin n` with `n = m + d` is the sum of its first `m` terms plus the sum of its last `d` (`sum_fin_split`).

  Reads: a scalar splat to any shape reads the scalar (`splat_apply`); a column `[E, 1]` repeated across `C` columns
  reads its entry `e` at `(e, q)` (`column_across_apply`); a vector `[b]` laid as the row `[1, b]` reads its entry `q`
  at `(0, q)` (`row_of_vec_apply`).
-/
import Idealize.ShloMosaic.Lib.ValueIdx
import Idealize.ShloMosaic.Lib.Pipeline.Value
import proofs.«167911_g83915071029568_cont_sun_c4_623_16_alg».proof.Proof.LibEdgeRows

namespace Cert.Lib.RowLanding

open Idealize.ShloMosaic Idealize.ShloMosaic.ValueIdx Cert.Lib.EdgeRows

/-! ## Where a scatter of rows lands -/

/-- The update entry `(e, q)` lands at the table entry `(i, c)` exactly when the `e`-th index word, read signed, is
    `i` and the columns agree. -/
theorem rowScatter_lands_iff {N E C w : Nat}
    (wf : ScatterDims.WF ⟨2, ![N, C]⟩ ⟨2, ![E, 1]⟩ ⟨2, ![E, C]⟩ [1] [0] [0] 1)
    (idx : IVec ⟨2, ![E, 1]⟩ w) (e : Fin E) (q : Fin C) (i : Fin N) (c : Fin C) :
    (rowScatter N E C wf).resultIdx? (ix2 e q) idx = some (ix2 i c)
      ↔ (idx (ix2 e (0 : Fin 1))).toInt = (i.val : Int) ∧ q = c := by
  constructor
  · intro h
    obtain ⟨h0, h1⟩ := rowScatter_lands wf idx e q (ix2 i c) h
    exact ⟨h0, Fin.ext h1.symm⟩
  · rintro ⟨h0, rfl⟩
    have h02 : 0 < 2 := Nat.zero_lt_two
    have h12 : 1 < 2 := Nat.one_lt_two
    have hi := i.isLt
    have hq := q.isLt
    unfold ScatterDims.resultIdx?
    split
    · congr 1
      funext a
      refine Fin.ext ?_
      match a with
      | ⟨0, _⟩ =>
        show ((rowScatter N E C wf).start (ix2 e q) idx ⟨0, h02⟩
          + ((rowScatter N E C wf).window (ix2 e q) ⟨0, h02⟩ : Nat) : Int).toNat = i.val
        rw [rowScatter_start_zero, rowScatter_window_zero, h0]
        omega
      | ⟨1, _⟩ =>
        show ((rowScatter N E C wf).start (ix2 e q) idx ⟨1, h12⟩
          + ((rowScatter N E C wf).window (ix2 e q) ⟨1, h12⟩ : Nat) : Int).toNat = q.val
        rw [rowScatter_start_one, rowScatter_window_one]
        omega
    · rename_i hn
      refine absurd (fun a => ?_) hn
      match a with
      | ⟨0, _⟩ =>
        show 0 ≤ (rowScatter N E C wf).start (ix2 e q) idx ⟨0, h02⟩
            + ((rowScatter N E C wf).window (ix2 e q) ⟨0, h02⟩ : Nat)
          ∧ (rowScatter N E C wf).start (ix2 e q) idx ⟨0, h02⟩
            + ((rowScatter N E C wf).window (ix2 e q) ⟨0, h02⟩ : Nat) < ((N : Nat) : Int)
        rw [rowScatter_start_zero, rowScatter_window_zero, h0]
        omega
      | ⟨1, _⟩ =>
        show 0 ≤ (rowScatter N E C wf).start (ix2 e q) idx ⟨1, h12⟩
            + ((rowScatter N E C wf).window (ix2 e q) ⟨1, h12⟩ : Nat)
          ∧ (rowScatter N E C wf).start (ix2 e q) idx ⟨1, h12⟩
            + ((rowScatter N E C wf).window (ix2 e q) ⟨1, h12⟩ : Nat) < ((C : Nat) : Int)
        rw [rowScatter_start_one, rowScatter_window_one]
        omega

/-- The sum of all the updates that land at `(i, c)`: over the rows whose index word reads `i`, the updates' entry in
    column `c`. -/
theorem sum_landing {N E C w : Nat} {M : Type*} [AddCommMonoid M]
    (wf : ScatterDims.WF ⟨2, ![N, C]⟩ ⟨2, ![E, 1]⟩ ⟨2, ![E, C]⟩ [1] [0] [0] 1)
    (idx : IVec ⟨2, ![E, 1]⟩ w) (upd : (⟨2, ![E, C]⟩ : Shape).Idx → M) (i : Fin N) (c : Fin C)
    [∀ j, Decidable ((rowScatter N E C wf).resultIdx? j idx = some (ix2 i c))] :
    (∑ j, if (rowScatter N E C wf).resultIdx? j idx = some (ix2 i c) then upd j else 0)
      = ∑ e : Fin E, if (idx (ix2 e (0 : Fin 1))).toInt = (i.val : Int) then upd (ix2 e c) else 0 := by
  rw [sum_idx2]
  refine Finset.sum_congr rfl fun e _ => ?_
  by_cases h : (idx (ix2 e (0 : Fin 1))).toInt = (i.val : Int)
  · rw [if_pos h, Finset.sum_eq_single c]
    · rw [if_pos ((rowScatter_lands_iff wf idx e c i c).2 ⟨h, rfl⟩)]
    · intro q _ hq
      rw [if_neg (fun hl => hq ((rowScatter_lands_iff wf idx e q i c).1 hl).2)]
    · intro hc
      exact absurd (Finset.mem_univ c) hc
  · rw [if_neg h]
    refine Finset.sum_eq_zero fun q _ => ?_
    rw [if_neg (fun hl => h ((rowScatter_lands_iff wf idx e q i c).1 hl).1)]

/-! ## Index words that are small naturals -/

/-- A word made from a natural below half the word range reads signed as that natural. -/
theorem toInt_ofNat_small {w : Nat} (k : Nat) (h : 2 * k < 2 ^ w) : (BitVec.ofNat w k).toInt = (k : Int) := by
  have hk : k < 2 ^ w := by omega
  have hn : (BitVec.ofNat w k).toNat = k := by rw [BitVec.toNat_ofNat, Nat.mod_eq_of_lt hk]
  rw [BitVec.toInt_eq_toNat_of_lt (by rw [hn]; exact h), hn]

/-- A signed value that is a row `i < N` stays `i` when clamped into `[0, N − 1]`. -/
theorem clamp_of_toInt_eq {N : Nat} (z : Int) (i : Nat) (hi : i < N) (h : z = (i : Int)) :
    min z.toNat (N - 1) = i := by
  subst h
  omega

/-! ## A sum over `Fin n` split at `m` -/

/-- With `n = m + d`, a sum over `Fin n` is the sum of its first `m` terms plus the sum of its last `d`. -/
theorem sum_fin_split {M : Type*} [AddCommMonoid M] {m d n : Nat} (h : m + d = n) (f : Fin n → M) :
    ∑ i, f i = (∑ i : Fin m, f ⟨i.val, by omega⟩) + ∑ k : Fin d, f ⟨m + k.val, by omega⟩ := by
  subst h
  rw [Fin.sum_univ_add]
  rfl

/-! ## Three small reads -/

/-- A scalar splat to any shape reads the scalar. -/
theorem splat_apply {α : Type} {t : Shape}
    (hb : (⟨0, ![]⟩ : Shape).BroadcastsInDim t (![] : Fin 0 → Fin t.rank))
    (v : (⟨0, ![]⟩ : Shape).Idx → α) (j : t.Idx) :
    broadcastInDim t (![] : Fin 0 → Fin t.rank) hb v j = v ix0 :=
  broadcastInDim_apply _ hb v j ix0 fun a => a.elim0

/-- A column `[E, 1]` repeated across `C` columns reads, at `(e, q)`, the column's entry `e`. -/
theorem column_across_apply {α : Type} {E C : Nat}
    (hb : (⟨2, ![E, 1]⟩ : Shape).BroadcastsInDim ⟨2, ![E, C]⟩ (![0, 1] : Fin 2 → Fin 2))
    (v : (⟨2, ![E, 1]⟩ : Shape).Idx → α) (e : Fin E) (q : Fin C) :
    broadcastInDim ⟨2, ![E, C]⟩ (![0, 1] : Fin 2 → Fin 2) hb v (ix2 e q) = v (ix2 e (0 : Fin 1)) := by
  refine broadcastInDim_apply _ hb v (ix2 e q) (ix2 e (0 : Fin 1)) fun ax => ?_
  match ax with
  | ⟨0, _⟩ =>
    show e.val = if E = 1 then 0 else e.val
    split
    · have := e.isLt; omega
    · rfl
  | ⟨1, _⟩ => rfl

/-- A vector `[b]` laid as the row `[1, b]` along the last axis reads, at `(0, q)`, the vector's entry `q`. -/
theorem row_of_vec_apply {α : Type} {b : Nat} (x : (⟨1, ![b]⟩ : Shape).Idx → α)
    (h : (⟨1, ![b]⟩ : Shape).BroadcastsInDim ⟨2, ![1, b]⟩ (![1] : Fin 1 → Fin 2)) (u : Fin 1) (q : Fin b) :
    broadcastInDim ⟨2, ![1, b]⟩ (![1] : Fin 1 → Fin 2) h x (ix2 u q) = x (ix1 q) := by
  refine broadcastInDim_apply _ h x (ix2 u q) (ix1 q) fun ax => ?_
  match ax with
  | ⟨0, _⟩ =>
    show q.val = if b = 1 then 0 else q.val
    split
    · have := q.isLt; omega
    · rfl

end Cert.Lib.RowLanding
-- ==== Proof.RefEdgeList.lean ====
/-
  The reference's edge list, entry by entry, and the adjacency it represents.

  The list has 1048576 + 2048 entries.  Its first part has, at e below the number T of nonzero adjacency entries, the
  e-th nonzero flat position P e decoded into source node (graph·512 + row) and target node (graph·512 + column) with
  weight one, and from T on the node zero with weight zero; its second part has, at 1048576 + k, the self-loop of node
  k with weight one.  Hence every entry's source and target are node numbers below 2048, the three concatenated
  vectors read these numbers and weights, and the list represents the adjacency with a self-loop at every node.
-/
import proofs.«167911_g83915071029568_cont_sun_c4_623_16_alg».proof.Proof.RefEdgeWindow
import proofs.«167911_g83915071029568_cont_sun_c4_623_16_alg».proof.Proof.RefEdgeWords
import proofs.«167911_g83915071029568_cont_sun_c4_623_16_alg».proof.Proof.ReprBridge
import proofs.«167911_g83915071029568_cont_sun_c4_623_16_alg».proof.Proof.LibRowLanding
import proofs.«167911_g83915071029568_cont_sun_c4_623_16_alg».proof.Proof.KernelOps

noncomputable section

namespace Cert.ReferenceIdeal.EdgeList

open Idealize.ShloMosaic Idealize.ShloMosaic.ValueIdx
open Cert.ReferenceIdeal Cert.ReferenceIdeal.Gen Cert.ReferenceIdeal.Edges Cert.ReferenceIdeal.EdgeWords
open Cert.Lib

/-! ## A two-piece concatenation of vectors read at an entry -/

/-- An entry below the first piece's length reads the first piece. -/
theorem concat1_left {α : Type} {n1 n2 n : ℕ} (x₁ : (⟨1, ![n1]⟩ : Shape).Idx → α) (x₂ : (⟨1, ![n2]⟩ : Shape).Idx → α)
    (h : Shape.Concatenates [(⟨1, ![n1]⟩ : Shape), ⟨1, ![n2]⟩] ⟨1, ![n]⟩ 0) (e : Fin n) (i : Fin n1) (hi : i.val = e.val) :
    concatenate ⟨1, ![n]⟩ 0 [⟨⟨1, ![n1]⟩, x₁⟩, ⟨⟨1, ![n2]⟩, x₂⟩] h (ix1 e) = x₁ (ix1 i) :=
  concatenate_pair_apply_left 0 x₁ x₂ h (ix1 e) rfl (ix1 i) (fun b => by
    match b with
    | ⟨0, _⟩ => exact hi)

/-- An entry from the first piece's length on reads the second piece. -/
theorem concat1_right {α : Type} {n1 n2 n : ℕ} (x₁ : (⟨1, ![n1]⟩ : Shape).Idx → α) (x₂ : (⟨1, ![n2]⟩ : Shape).Idx → α)
    (h : Shape.Concatenates [(⟨1, ![n1]⟩ : Shape), ⟨1, ![n2]⟩] ⟨1, ![n]⟩ 0) (e : Fin n) (i : Fin n2) (hi : i.val + n1 = e.val) :
    concatenate ⟨1, ![n]⟩ 0 [⟨⟨1, ![n1]⟩, x₁⟩, ⟨⟨1, ![n2]⟩, x₂⟩] h (ix1 e) = x₂ (ix1 i) :=
  concatenate_pair_apply_right 0 x₁ x₂ h (ix1 e) rfl rfl (ix1 i)
    (fun b hb => by
      match b with
      | ⟨0, _⟩ => exact absurd rfl hb)
    hi

/-! ## The three vectors of the list -/

variable (adj : FVec Ideal S4x512x512 .f32)

/-- The source node words: the nonzero entries' sources, then the nodes themselves (the self-loops). -/
def ssl : IVec S1050624 32 :=
  concatenate S1050624 0 [⟨S1048576, srcW adj⟩, ⟨S2048, iotaInDim S2048 32 0⟩] concatenates_S1048576_S2048_S1050624_d0

/-- The target node words. -/
def dsl : IVec S1050624 32 :=
  concatenate S1050624 0 [⟨S1048576, dstW adj⟩, ⟨S2048, iotaInDim S2048 32 0⟩] concatenates_S1048576_S2048_S1050624_d0

/-- The weights: the nonzero entries' weights, then a one for every self-loop. -/
def wsl : FVec Ideal S1050624 .f32 :=
  concatenate S1050624 0 [⟨S1048576, wF adj⟩,
    ⟨S2048, broadcastInDim S2048 ![] bcast_S_S2048 (constant (F := Ideal) S_ .f32 0x3F800000#32)⟩]
    concatenates_S1048576_S2048_S1050624_d0

/-- The weight of list entry e. -/
def w' (e : Fin 1050624) : EReal := wsl adj (ix1 e)

/-! ## The node numbers of the list's entries -/

variable (mask : ℕ → Prop) [DecidablePred mask]

/-- The source node of list entry e, as a natural number. -/
def srcN (e : ℕ) : ℕ :=
  if e < PrefixEnum.total 1048576 mask then
    PrefixEnum.pos 1048576 mask e / 262144 % 4 * 512 + PrefixEnum.pos 1048576 mask e / 512 % 512
  else if e < 1048576 then 0 else (e - 1048576) % 2048

/-- The target node of list entry e, as a natural number. -/
def dstN (e : ℕ) : ℕ :=
  if e < PrefixEnum.total 1048576 mask then
    PrefixEnum.pos 1048576 mask e / 262144 % 4 * 512 + PrefixEnum.pos 1048576 mask e % 512
  else if e < 1048576 then 0 else (e - 1048576) % 2048

theorem srcN_lt (e : ℕ) : srcN mask e < 2048 := by
  unfold srcN
  split_ifs <;> omega

theorem dstN_lt (e : ℕ) : dstN mask e < 2048 := by
  unfold dstN
  split_ifs <;> omega

theorem srcN_lo {e : ℕ} (h : e < PrefixEnum.total 1048576 mask) :
    srcN mask e = PrefixEnum.pos 1048576 mask e / 262144 % 4 * 512 + PrefixEnum.pos 1048576 mask e / 512 % 512 := by
  unfold srcN; exact if_pos h
theorem srcN_mid {e : ℕ} (h : ¬ e < PrefixEnum.total 1048576 mask) (h1 : e < 1048576) : srcN mask e = 0 := by
  unfold srcN; exact (if_neg h).trans (if_pos h1)
theorem srcN_hi {e : ℕ} (h : ¬ e < PrefixEnum.total 1048576 mask) (h1 : ¬ e < 1048576) :
    srcN mask e = (e - 1048576) % 2048 := by
  unfold srcN; exact (if_neg h).trans (if_neg h1)
theorem dstN_lo {e : ℕ} (h : e < PrefixEnum.total 1048576 mask) :
    dstN mask e = PrefixEnum.pos 1048576 mask e / 262144 % 4 * 512 + PrefixEnum.pos 1048576 mask e % 512 := by
  unfold dstN; exact if_pos h
theorem dstN_mid {e : ℕ} (h : ¬ e < PrefixEnum.total 1048576 mask) (h1 : e < 1048576) : dstN mask e = 0 := by
  unfold dstN; exact (if_neg h).trans (if_pos h1)
theorem dstN_hi {e : ℕ} (h : ¬ e < PrefixEnum.total 1048576 mask) (h1 : ¬ e < 1048576) :
    dstN mask e = (e - 1048576) % 2048 := by
  unfold dstN; exact (if_neg h).trans (if_neg h1)

/-- The source node of list entry e. -/
def src' (e : Fin 1050624) : Fin 2048 := ⟨srcN mask e.val, srcN_lt mask e.val⟩

/-- The target node of list entry e. -/
def dst' (e : Fin 1050624) : Fin 2048 := ⟨dstN mask e.val, dstN_lt mask e.val⟩

/-- The node numbers as naturals (by the definitions alone; nothing is computed). -/
theorem src'_val (e : Fin 1050624) : (src' mask e).val = srcN mask e.val := by
  unfold src'; exact Fin.val_mk _
theorem dst'_val (e : Fin 1050624) : (dst' mask e).val = dstN mask e.val := by
  unfold dst'; exact Fin.val_mk _

/-- What the first part of the list holds: below the number of nonzero entries the decoded e-th nonzero position with
    weight one, from there on node zero with weight zero. -/
def EdgeFacts : Prop := ∀ e : Fin 1048576,
  (e.val < PrefixEnum.total 1048576 mask →
      srcW adj (ix1 e) = BitVec.ofNat 32 (PrefixEnum.pos 1048576 mask e.val / 262144 % 4 * 512 + PrefixEnum.pos 1048576 mask e.val / 512 % 512)
      ∧ dstW adj (ix1 e) = BitVec.ofNat 32 (PrefixEnum.pos 1048576 mask e.val / 262144 % 4 * 512 + PrefixEnum.pos 1048576 mask e.val % 512)
      ∧ wF adj (ix1 e) = 1)
  ∧ (PrefixEnum.total 1048576 mask ≤ e.val →
      srcW adj (ix1 e) = 0#32 ∧ dstW adj (ix1 e) = 0#32 ∧ wF adj (ix1 e) = 0)

variable {adj} {mask}

/-- The node words of the first part are the first vector's, those of the second part the node numbers. -/
theorem ssl_lo (e : Fin 1050624) (h1 : e.val < 1048576) : ssl adj (ix1 e) = srcW adj (ix1 (⟨e.val, h1⟩ : Fin 1048576)) :=
  concat1_left (srcW adj) (iotaInDim S2048 32 0) concatenates_S1048576_S2048_S1050624_d0 e ⟨e.val, h1⟩ rfl
theorem dsl_lo (e : Fin 1050624) (h1 : e.val < 1048576) : dsl adj (ix1 e) = dstW adj (ix1 (⟨e.val, h1⟩ : Fin 1048576)) :=
  concat1_left (dstW adj) (iotaInDim S2048 32 0) concatenates_S1048576_S2048_S1050624_d0 e ⟨e.val, h1⟩ rfl
theorem ssl_hi (e : Fin 1050624) (k : Fin 2048) (hk : k.val + 1048576 = e.val) : ssl adj (ix1 e) = BitVec.ofNat 32 k.val :=
  concat1_right (srcW adj) (iotaInDim S2048 32 0) concatenates_S1048576_S2048_S1050624_d0 e k hk
theorem dsl_hi (e : Fin 1050624) (k : Fin 2048) (hk : k.val + 1048576 = e.val) : dsl adj (ix1 e) = BitVec.ofNat 32 k.val :=
  concat1_right (dstW adj) (iotaInDim S2048 32 0) concatenates_S1048576_S2048_S1050624_d0 e k hk

/-- The source word of every list entry is the word of its source node. -/
theorem ssl_word (hfacts : EdgeFacts adj mask) (e : Fin 1050624) : ssl adj (ix1 e) = BitVec.ofNat 32 (src' mask e).val := by
  rw [src'_val]
  by_cases h1 : e.val < 1048576
  · rw [ssl_lo e h1]
    by_cases hT : e.val < PrefixEnum.total 1048576 mask
    · rw [srcN_lo mask hT]; exact ((hfacts ⟨e.val, h1⟩).1 hT).1
    · rw [srcN_mid mask hT h1]; exact ((hfacts ⟨e.val, h1⟩).2 (Nat.le_of_not_lt hT)).1
  · have hT : ¬ e.val < PrefixEnum.total 1048576 mask := fun h => h1 (lt_of_lt_of_le h (PrefixEnum.total_le 1048576 mask))
    have he := e.isLt
    have hk : e.val - 1048576 < 2048 := by omega
    rw [ssl_hi e ⟨e.val - 1048576, hk⟩ (by show e.val - 1048576 + 1048576 = e.val; omega), srcN_hi mask hT h1,
      Nat.mod_eq_of_lt hk]

/-- The target word of every list entry is the word of its target node. -/
theorem dsl_word (hfacts : EdgeFacts adj mask) (e : Fin 1050624) : dsl adj (ix1 e) = BitVec.ofNat 32 (dst' mask e).val := by
  rw [dst'_val]
  by_cases h1 : e.val < 1048576
  · rw [dsl_lo e h1]
    by_cases hT : e.val < PrefixEnum.total 1048576 mask
    · rw [dstN_lo mask hT]; exact ((hfacts ⟨e.val, h1⟩).1 hT).2.1
    · rw [dstN_mid mask hT h1]; exact ((hfacts ⟨e.val, h1⟩).2 (Nat.le_of_not_lt hT)).2.1
  · have hT : ¬ e.val < PrefixEnum.total 1048576 mask := fun h => h1 (lt_of_lt_of_le h (PrefixEnum.total_le 1048576 mask))
    have he := e.isLt
    have hk : e.val - 1048576 < 2048 := by omega
    rw [dsl_hi e ⟨e.val - 1048576, hk⟩ (by show e.val - 1048576 + 1048576 = e.val; omega), dstN_hi mask hT h1,
      Nat.mod_eq_of_lt hk]

/-- The weight of an entry of the first part is the first vector's. -/
theorem w'_lo (e : Fin 1050624) (h1 : e.val < 1048576) : w' adj e = wF adj (ix1 (⟨e.val, h1⟩ : Fin 1048576)) := by
  unfold w' wsl
  exact concat1_left (wF adj) _ concatenates_S1048576_S2048_S1050624_d0 e ⟨e.val, h1⟩ rfl

/-- The weight of a self-loop is one. -/
theorem w'_hi (e : Fin 1050624) (h1 : 1048576 ≤ e.val) : w' adj e = 1 := by
  have he := e.isLt
  unfold w' wsl
  rw [concat1_right (wF adj) _ concatenates_S1048576_S2048_S1050624_d0 e ⟨e.val - 1048576, by omega⟩
    (by show e.val - 1048576 + 1048576 = e.val; omega), Cert.Lib.RowLanding.splat_apply, constant_apply]
  exact Cert.KernelOps.ofBits_one

/-- Flat position (b·512 + r)·512 + c names the entry (b, r, c). -/
theorem adjIdx_flat (b : Fin 4) (r c : Fin 512) : adjIdx ((b.val * 512 + r.val) * 512 + c.val) = ix3 b r c := by
  funext a
  match a with
  | ⟨0, _⟩ => exact Fin.ext (by show ((b.val * 512 + r.val) * 512 + c.val) / 262144 % 4 = b.val; omega)
  | ⟨1, _⟩ => exact Fin.ext (by show ((b.val * 512 + r.val) * 512 + c.val) / 512 % 512 = r.val; omega)
  | ⟨2, _⟩ => exact Fin.ext (by show ((b.val * 512 + r.val) * 512 + c.val) % 512 = c.val; omega)

/-- The list represents the adjacency with a self-loop at every node. -/
theorem repr (hadj : ∀ i, adj i = 0 ∨ adj i = 1) (hmaskdef : ∀ p, mask p ↔ adj (adjIdx p) ≠ 0)
    (hfacts : EdgeFacts adj mask) : Cert.EdgeAlgebra.Repr (src' mask) (dst' mask) (w' adj) adj := by
  have hTle : PrefixEnum.total 1048576 mask ≤ 1048576 := PrefixEnum.total_le 1048576 mask
  refine Cert.ReprBridge.repr_of_edges adj hadj mask
    (fun b r c => by rw [hmaskdef, adjIdx_flat]) (src' mask) (dst' mask) (w' adj) ?_ ?_ ?_
  · intro e hT
    have h1 : e.val < 1048576 := lt_of_lt_of_le hT hTle
    refine ⟨?_, ?_, ?_⟩
    · exact (src'_val mask e).trans (srcN_lo mask hT)
    · exact (dst'_val mask e).trans (dstN_lo mask hT)
    · rw [w'_lo e h1]; exact ((hfacts ⟨e.val, h1⟩).1 hT).2.2
  · intro e hT h1
    rw [w'_lo e h1]; exact ((hfacts ⟨e.val, h1⟩).2 hT).2.2
  · intro e h1
    have he := e.isLt
    have hT : ¬ e.val < PrefixEnum.total 1048576 mask := fun h => by omega
    have h1' : ¬ e.val < 1048576 := by omega
    have hk : e.val - 1048576 < 2048 := by omega
    exact ⟨((src'_val mask e).trans (srcN_hi mask hT h1')).trans (Nat.mod_eq_of_lt hk),
      ((dst'_val mask e).trans (dstN_hi mask hT h1')).trans (Nat.mod_eq_of_lt hk), w'_hi e h1⟩

end Cert.ReferenceIdeal.EdgeList

end
-- ==== Proof.RefLayerStages.lean ====
/-
  The stages of one graph-convolution layer of the reference program, as functions of the buffers they read.

  The layer works over an edge list of 1050624 entries (sources, targets, weights) on 2048 nodes.  Each stage is a
  short run of host operations; here each is named as a pure function, and the run of each stage's operations is
  shown to leave exactly that function of the stage's inputs in the stage's output buffer.  Both layers of the
  program run the same stages on their own buffers.
    wrap      an index below zero has 2048 added (the host's reading of a negative index);
    degree    the weights scatter-added into a zero vector at the wrapped targets;
    dinv      where the degree is positive, the reciprocal square root of the degree clamped from below; elsewhere 0;
    norm      dinv gathered at the wrapped sources, times dinv gathered at the wrapped targets, times the weight;
    take      the rows of a node table gathered at the wrapped sources, with the host's out-of-range fill;
    message   the taken rows, each times its edge's norm;
    aggregate the messages scatter-added into a zero table at the wrapped targets.
-/
import proofs.«167911_g83915071029568_cont_sun_c4_623_16_alg».proof.Proof.RefSegs
import proofs.«167911_g83915071029568_cont_sun_c4_623_16_alg».proof.Proof.LibRunPieces

noncomputable section

namespace Cert.ReferenceIdeal.Layer

open Cert.ReferenceIdeal Cert.ReferenceIdeal.Gen Cert.ReferenceIdeal.RefRun Idealize.ShloMosaic Idealize.ShloMosaic.TcCoe Idealize.SL.Sem Idealize.ShloMosaic.StableHlo

variable {F : FTy → Type} [FloatOps F]

/-! ## The stage functions -/

/-- The host's reading of a possibly negative node index: the index plus 2048 where it is below zero. -/
def wrapOf (a : IVec S1050624 32) : IVec S1050624 32 :=
  select (cmpi .slt a (broadcastInDim S1050624 ![] bcast_S_S1050624 (constantI S_ 32 0#32)))
    (addi a (broadcastInDim S1050624 ![] bcast_S_S1050624 (constantI S_ 32 2048#32))) a

/-- The wrapped indices laid as a column. -/
def colOf (a : IVec S1050624 32) : IVec S1050624x1 32 :=
  broadcastInDim S1050624x1 ![0] bcast_S1050624_S1050624x1_0 (wrapOf a)

/-- The degree vector: the weights scatter-added into zeros at the wrapped targets. -/
def degOf (dsl : IVec S1050624 32) (wsl : FVec F S1050624 .f32) : FVec F S2048 .f32 :=
  Host.scatterAdd scatter_S2048_S1050624x1_S1050624_n_0_0_1
    (broadcastInDim S2048 ![] bcast_S_S2048 (constant (F := F) S_ .f32 0x00000000#32)) (colOf dsl) wsl

/-- Where the degree is positive, the reciprocal square root of the degree clamped from below; elsewhere zero. -/
def dinvOf (deg : FVec F S2048 .f32) : FVec F S2048 .f32 :=
  select (cmpf .ogt deg (broadcastInDim S2048 ![] bcast_S_S2048 (constant (F := F) S_ .f32 0x00000000#32)))
    (Host.rsqrt (maximumf deg (broadcastInDim S2048 ![] bcast_S_S2048 (constant (F := F) S_ .f32 0x2B8CBCCC#32))))
    (broadcastInDim S2048 ![] bcast_S_S2048 (constant (F := F) S_ .f32 0x00000000#32))

/-- A node vector gathered at the wrapped indices. -/
def gatherOf (v : FVec F S2048 .f32) (a : IVec S1050624 32) : FVec F S1050624 .f32 :=
  Host.gather gather_S2048_S1050624x1_S1050624_n_0_n_n_0_1_1 v (colOf a)

/-- The edge norms: dinv at the source times dinv at the target times the weight. -/
def normOf (ssl dsl : IVec S1050624 32) (wsl : FVec F S1050624 .f32) (dinv : FVec F S2048 .f32) :
    FVec F S1050624 .f32 :=
  mulf (mulf (gatherOf dinv ssl) (gatherOf dinv dsl)) wsl

/-- The rows of a node table taken at the wrapped sources; where some wrapped index is out of range the host fills
with a fixed word instead. -/
def takeOf (tab : FVec F S2048x128 .f32) (ssl : IVec S1050624 32) : FVec F S1050624x128 .f32 :=
  select
    (broadcastInDim S1050624x128 ![0] bcast_S1050624_S1050624x128_0
      (Host.reduce IntOp.andi
        (andi (cmpi .sge (colOf ssl) (broadcastInDim S1050624x1 ![] bcast_S_S1050624x1 (constantI S_ 32 0#32)))
          (cmpi .sle (colOf ssl)
            (broadcastInDim S1050624x1 ![0, 1] bcast_S1x1_S1050624x1_0_1
              (broadcastInDim S1x1 ![1] bcast_S1_S1x1_1 (constantI S1 32 2047#32)))))
        (constantI S_ 1 1#1) reducesTo_S1050624x1_S1050624_d1 h_S_))
    (Host.gather gather_S2048x128_S1050624x1_S1050624x128_1_0_n_n_0_1_1128 tab (colOf ssl))
    (broadcastInDim S1050624x128 ![] bcast_S_S1050624x128 (constant (F := F) S_ .f32 0x7FC00000#32))

/-- The messages: each taken row times its edge's norm. -/
def msgOf (rows : FVec F S1050624x128 .f32) (norm : FVec F S1050624 .f32) : FVec F S1050624x128 .f32 :=
  mulf rows (broadcastInDim S1050624x128 ![0, 1] bcast_S1050624x1_S1050624x128_0_1
    (broadcastInDim S1050624x1 ![0] bcast_S1050624_S1050624x1_0 norm))

/-- The aggregation: the messages scatter-added into a zero table at the wrapped targets. -/
def aggOf (dsl : IVec S1050624 32) (msg : FVec F S1050624x128 .f32) : FVec F S2048x128 .f32 :=
  Host.scatterAdd scatter_S2048x128_S1050624x1_S1050624x128_1_0_0_1
    (broadcastInDim S2048x128 ![] bcast_S_S2048x128 (constant (F := F) S_ .f32 0x00000000#32)) (colOf dsl) msg

/-! ## The stages after a layer's aggregation -/

/-- A bias row added to every node's row. -/
def biasOf (a : FVec F S2048x128 .f32) (b : FVec F S128 .f32) : FVec F S2048x128 .f32 :=
  addf a (broadcastInDim S2048x128 ![0, 1] bcast_S1x128_S2048x128_0_1
    (broadcastInDim S1x128 ![1] bcast_S128_S1x128_1 b))

/-- The rectifier: the maximum with zero. -/
def reluOf (a : FVec F S2048x128 .f32) : FVec F S2048x128 .f32 :=
  maximumf a (broadcastInDim S2048x128 ![] bcast_S_S2048x128 (constant (F := F) S_ .f32 0x00000000#32))

/-- The graph number of every node, as index words: the numbers 0 to 3, each repeated 512 times. -/
def graphOf : IVec S2048 32 :=
  shapeCast S2048 (broadcastInDim S4x512 ![0] bcast_S4_S4x512_0 (iotaInDim S4 32 0)) shapeCasts_S4x512_S2048

/-- The node rows scatter-added into one row per graph. -/
def poolSumOf (g : IVec S2048 32) (h : FVec F S2048x128 .f32) : FVec F S4x128 .f32 :=
  Host.scatterAdd scatter_S4x128_S2048x1_S2048x128_1_0_0_1
    (broadcastInDim S4x128 ![] bcast_S_S4x128 (constant (F := F) S_ .f32 0x00000000#32))
    (broadcastInDim S2048x1 ![0] bcast_S2048_S2048x1_0 g) h

/-- The number of nodes of each graph: ones scatter-added by graph number. -/
def countOf (g : IVec S2048 32) : FVec F S4 .f32 :=
  Host.scatterAdd scatter_S4_S2048x1_S2048_n_0_0_1
    (broadcastInDim S4 ![] bcast_S_S4 (constant (F := F) S_ .f32 0x00000000#32))
    (broadcastInDim S2048x1 ![0] bcast_S2048_S2048x1_0 g)
    (broadcastInDim S2048 ![] bcast_S_S2048 (constant (F := F) S_ .f32 0x3F800000#32))

/-- The per-graph sums divided by the per-graph counts. -/
def meanOf (s : FVec F S4x128 .f32) (c : FVec F S4 .f32) : FVec F S4x128 .f32 :=
  Host.divf s (broadcastInDim S4x128 ![0, 1] bcast_S4x1_S4x128_0_1 (broadcastInDim S4x1 ![0] bcast_S4_S4x1_0 c))

/-! ## The first layer's stages -/

theorem seg1_1_v52 (V : Valuation τ sig (Elt F)) :
    after (seg1_1 (F := F)) V (main_v52 : DevRef τ sig) =
      degOf (V (main_v42 : DevRef τ sig)) (V (main_v44 : DevRef τ sig)) := by
  after_results_simp; rfl

theorem seg1_2_v58 (V : Valuation τ sig (Elt F)) :
    after (seg1_2 (F := F)) V (main_v58 : DevRef τ sig) = dinvOf (V (main_v52 : DevRef τ sig)) := by
  after_results_simp; simp only [Cert.Lib.RunPieces.ofBuf_toBuf]; rfl

theorem seg1_3_v65 (V : Valuation τ sig (Elt F)) :
    after (seg1_3 (F := F)) V (main_v65 : DevRef τ sig) =
      gatherOf (V (main_v58 : DevRef τ sig)) (V (main_v41 : DevRef τ sig)) := by
  after_results_simp; rfl

theorem seg1_4_v74 (V : Valuation τ sig (Elt F)) :
    after (seg1_4 (F := F)) V (main_v74 : DevRef τ sig) =
      mulf (mulf (V (main_v65 : DevRef τ sig)) (gatherOf (V (main_v58 : DevRef τ sig)) (V (main_v42 : DevRef τ sig))))
        (V (main_v44 : DevRef τ sig)) := by
  after_results_simp; rfl

set_option maxRecDepth 200000 in
theorem seg1_6_v76 (V : Valuation τ sig (Elt F)) :
    after (seg1_6 (F := F)) V (main_v76 : DevRef τ sig) =
      takeOf (V (main_v75 : DevRef τ sig)) (V (main_v41 : DevRef τ sig)) := by
  have e41 : (TRef.of main_v41 : TRef sig ⟨S1050624, .i32⟩).ofBuf (V (main_v41 : DevRef τ sig)) =
      V (main_v41 : DevRef τ sig) := rfl
  have e75 : (TRef.of main_v75 : TRef sig ⟨S2048x128, .f32⟩).ofBuf (V (main_v75 : DevRef τ sig)) =
      V (main_v75 : DevRef τ sig) := rfl
  have e76 : ∀ x : FVec F S1050624x128 .f32,
      (TRef.of main_v76 : TRef sig ⟨S1050624x128, .f32⟩).toBuf (Val := Elt F) x = x := fun _ => rfl
  after_results_simp
  simp only [Cert.Lib.RunPieces.ofBuf_toBuf]
  rw [e41, e75, e76]
  rfl

theorem seg1_7_v79 (V : Valuation τ sig (Elt F)) :
    after (seg1_7 (F := F)) V (main_v79 : DevRef τ sig) =
      msgOf (V (main_v76 : DevRef τ sig)) (V (main_v74 : DevRef τ sig)) := by
  after_results_simp; rfl

theorem seg1_8_v87 (V : Valuation τ sig (Elt F)) :
    after (seg1_8 (F := F)) V (main_v87 : DevRef τ sig) =
      aggOf (V (main_v42 : DevRef τ sig)) (V (main_v79 : DevRef τ sig)) := by
  after_results_simp; rfl

/-! ## The second layer's stages: the same functions on the second layer's buffers -/

theorem seg2_2_v104 (V : Valuation τ sig (Elt F)) :
    after (seg2_2 (F := F)) V (main_v104 : DevRef τ sig) =
      degOf (V (main_v94 : DevRef τ sig)) (V (main_v96 : DevRef τ sig)) := by
  after_results_simp; rfl

theorem seg2_3_v110 (V : Valuation τ sig (Elt F)) :
    after (seg2_3 (F := F)) V (main_v110 : DevRef τ sig) = dinvOf (V (main_v104 : DevRef τ sig)) := by
  after_results_simp; simp only [Cert.Lib.RunPieces.ofBuf_toBuf]; rfl

theorem seg2_4_v117 (V : Valuation τ sig (Elt F)) :
    after (seg2_4 (F := F)) V (main_v117 : DevRef τ sig) =
      gatherOf (V (main_v110 : DevRef τ sig)) (V (main_v93 : DevRef τ sig)) := by
  after_results_simp; rfl

theorem seg2_5_v126 (V : Valuation τ sig (Elt F)) :
    after (seg2_5 (F := F)) V (main_v126 : DevRef τ sig) =
      mulf (mulf (V (main_v117 : DevRef τ sig)) (gatherOf (V (main_v110 : DevRef τ sig)) (V (main_v94 : DevRef τ sig))))
        (V (main_v96 : DevRef τ sig)) := by
  after_results_simp; rfl

theorem seg2_7_v128 (V : Valuation τ sig (Elt F)) :
    after (seg2_7 (F := F)) V (main_v128 : DevRef τ sig) =
      takeOf (V (main_v127 : DevRef τ sig)) (V (main_v93 : DevRef τ sig)) := by
  have e93 : (TRef.of main_v93 : TRef sig ⟨S1050624, .i32⟩).ofBuf (V (main_v93 : DevRef τ sig)) =
      V (main_v93 : DevRef τ sig) := rfl
  have e127 : (TRef.of main_v127 : TRef sig ⟨S2048x128, .f32⟩).ofBuf (V (main_v127 : DevRef τ sig)) =
      V (main_v127 : DevRef τ sig) := rfl
  have e128 : ∀ x : FVec F S1050624x128 .f32,
      (TRef.of main_v128 : TRef sig ⟨S1050624x128, .f32⟩).toBuf (Val := Elt F) x = x := fun _ => rfl
  after_results_simp
  simp only [Cert.Lib.RunPieces.ofBuf_toBuf]
  rw [e93, e127, e128]
  rfl

theorem seg2_8_v131 (V : Valuation τ sig (Elt F)) :
    after (seg2_8 (F := F)) V (main_v131 : DevRef τ sig) =
      msgOf (V (main_v128 : DevRef τ sig)) (V (main_v126 : DevRef τ sig)) := by
  after_results_simp; rfl

/-- The second aggregation is cut in two by a window boundary: the zero table and the sign test of the wrap come
first … -/
theorem seg2_9_v132 (V : Valuation τ sig (Elt F)) :
    after (seg2_9 (F := F)) V (main_v132 : DevRef τ sig) =
      broadcastInDim S2048x128 ![] bcast_S_S2048x128 (constant (F := F) S_ .f32 0x00000000#32) := by
  after_results_simp

theorem seg2_9_v134 (V : Valuation τ sig (Elt F)) :
    after (seg2_9 (F := F)) V (main_v134 : DevRef τ sig) =
      cmpi .slt (V (main_v94 : DevRef τ sig)) (broadcastInDim S1050624 ![] bcast_S_S1050624 (constantI S_ 32 0#32)) := by
  after_results_simp

/-- … and the rest of the wrap and the scatter-add follow: from a zero table and that sign test, the aggregation. -/
theorem seg3_0_v139 (V : Valuation τ sig (Elt F))
    (h132 : V (main_v132 : DevRef τ sig) =
      broadcastInDim S2048x128 ![] bcast_S_S2048x128 (constant (F := F) S_ .f32 0x00000000#32))
    (h134 : V (main_v134 : DevRef τ sig) =
      cmpi .slt (V (main_v94 : DevRef τ sig)) (broadcastInDim S1050624 ![] bcast_S_S1050624 (constantI S_ 32 0#32))) :
    after (seg3_0 (F := F)) V (main_v139 : DevRef τ sig) =
      aggOf (V (main_v94 : DevRef τ sig)) (V (main_v131 : DevRef τ sig)) := by
  after_results_simp
  rw [h132, h134]
  rfl

/-! ## The stages after the aggregations -/

theorem seg2_0_v90 (V : Valuation τ sig (Elt F)) :
    after (seg2_0 (F := F)) V (main_v90 : DevRef τ sig) =
      biasOf (V (main_v87 : DevRef τ sig)) (V (main_arg3 : DevRef τ sig)) := by
  after_results_simp; rfl

theorem seg2_0_v91 (V : Valuation τ sig (Elt F)) :
    after (seg2_0 (F := F)) V (main_v91 : DevRef τ sig) =
      reluOf (biasOf (V (main_v87 : DevRef τ sig)) (V (main_arg3 : DevRef τ sig))) := by
  after_results_simp; simp only [Cert.Lib.RunPieces.ofBuf_toBuf]; rfl

theorem seg3_1_v142 (V : Valuation τ sig (Elt F)) :
    after (seg3_1 (F := F)) V (main_v142 : DevRef τ sig) =
      biasOf (V (main_v139 : DevRef τ sig)) (V (main_arg5 : DevRef τ sig)) := by
  after_results_simp; rfl

theorem seg3_2_v145 (V : Valuation τ sig (Elt F)) :
    after (seg3_2 (F := F)) V (main_v145 : DevRef τ sig) = graphOf := by
  after_results_simp; rfl

theorem seg3_2_v148 (V : Valuation τ sig (Elt F)) :
    after (seg3_2 (F := F)) V (main_v148 : DevRef τ sig) = poolSumOf graphOf (V (main_v142 : DevRef τ sig)) := by
  after_results_simp; rfl

theorem seg3_3_v152 (V : Valuation τ sig (Elt F)) :
    after (seg3_3 (F := F)) V (main_v152 : DevRef τ sig) = countOf (V (main_v145 : DevRef τ sig)) := by
  after_results_simp; rfl

theorem seg3_4_v155 (V : Valuation τ sig (Elt F)) :
    after (seg3_4 (F := F)) V (main_v155 : DevRef τ sig) =
      meanOf (V (main_v148 : DevRef τ sig)) (V (main_v152 : DevRef τ sig)) := by
  after_results_simp; rfl

end Cert.ReferenceIdeal.Layer

end
-- ==== Proof.RefLayerKeeps.lean ====
/-
  Which buffers each stage of the reference's two graph-convolution layers leaves alone, and the four stages that only
  join vectors end to end or multiply a node table by a weight matrix.
-/
import proofs.«167911_g83915071029568_cont_sun_c4_623_16_alg».proof.Proof.RefLayerStages

noncomputable section

namespace Cert.ReferenceIdeal.Layer

open Cert.ReferenceIdeal Cert.ReferenceIdeal.Gen Cert.ReferenceIdeal.RefRun Idealize.ShloMosaic Idealize.ShloMosaic.TcCoe Idealize.SL.Sem Idealize.ShloMosaic.StableHlo

variable {F : FTy → Type} [FloatOps F]

attribute [local irreducible] Host.gather Host.reduce concatenate

/-- The ones appended for the self-loops' weights. -/
def onesOf : FVec F S2048 .f32 := broadcastInDim S2048 ![] bcast_S_S2048 (constant S_ .f32 0x3F800000#32)

/-- Two index vectors joined end to end: the edge list's entries followed by one entry per node. -/
def joinI (a : IVec S1048576 32) (b : IVec S2048 32) : IVec S1050624 32 :=
  concatenate S1050624 0 [⟨S1048576, a⟩, ⟨S2048, b⟩] concatenates_S1048576_S2048_S1050624_d0

/-- Two weight vectors joined end to end. -/
def joinF (a : FVec F S1048576 .f32) (b : FVec F S2048 .f32) : FVec F S1050624 .f32 :=
  concatenate S1050624 0 [⟨S1048576, a⟩, ⟨S2048, b⟩] concatenates_S1048576_S2048_S1050624_d0

/-- A node table times a weight matrix. -/
def dotOf (t : FVec F S2048x128 .f32) (w : FVec F S128x128 .f32) : FVec F S2048x128 .f32 :=
  Host.dotGeneral dot_S2048x128_S128x128_S2048x128_1_0_0_1_n_n none t w

theorem seg1_0_v42 (V : Valuation τ sig (Elt F)) :
    after (seg1_0 (F := F)) V (main_v42 : DevRef τ sig) = joinI (V (main_v38 : DevRef τ sig)) (V (main_v40 : DevRef τ sig)) := by
  after_results_simp; rfl
theorem seg1_0_v44 (V : Valuation τ sig (Elt F)) :
    after (seg1_0 (F := F)) V (main_v44 : DevRef τ sig) = joinF (V (main_v32 : DevRef τ sig)) onesOf := by
  after_results_simp; rfl
theorem seg1_5_v75 (V : Valuation τ sig (Elt F)) :
    after (seg1_5 (F := F)) V (main_v75 : DevRef τ sig) = dotOf (V (main_v39 : DevRef τ sig)) (V (main_arg2 : DevRef τ sig)) := by
  after_results_simp; rfl
theorem seg2_1_v93 (V : Valuation τ sig (Elt F)) :
    after (seg2_1 (F := F)) V (main_v93 : DevRef τ sig) = joinI (V (main_v35 : DevRef τ sig)) (iotaInDim S2048 32 0) := by
  after_results_simp; rfl
theorem seg2_1_v94 (V : Valuation τ sig (Elt F)) :
    after (seg2_1 (F := F)) V (main_v94 : DevRef τ sig) = joinI (V (main_v38 : DevRef τ sig)) (iotaInDim S2048 32 0) := by
  after_results_simp; rfl
theorem seg2_1_v96 (V : Valuation τ sig (Elt F)) :
    after (seg2_1 (F := F)) V (main_v96 : DevRef τ sig) = joinF (V (main_v32 : DevRef τ sig)) onesOf := by
  after_results_simp; rfl
theorem seg2_6_v127 (V : Valuation τ sig (Elt F)) :
    after (seg2_6 (F := F)) V (main_v127 : DevRef τ sig) = dotOf (V (main_v91 : DevRef τ sig)) (V (main_arg4 : DevRef τ sig)) := by
  after_results_simp; rfl
theorem seg1_0_keeps_v35 (V : Valuation τ sig (Elt F)) : after (seg1_0 (F := F)) V (main_v35 : DevRef τ sig) = V (main_v35 : DevRef τ sig) := by after_results_simp
theorem seg1_0_keeps_v38 (V : Valuation τ sig (Elt F)) : after (seg1_0 (F := F)) V (main_v38 : DevRef τ sig) = V (main_v38 : DevRef τ sig) := by after_results_simp
theorem seg1_0_keeps_v32 (V : Valuation τ sig (Elt F)) : after (seg1_0 (F := F)) V (main_v32 : DevRef τ sig) = V (main_v32 : DevRef τ sig) := by after_results_simp
theorem seg1_0_keeps_v39 (V : Valuation τ sig (Elt F)) : after (seg1_0 (F := F)) V (main_v39 : DevRef τ sig) = V (main_v39 : DevRef τ sig) := by after_results_simp
theorem seg1_0_keeps_v41 (V : Valuation τ sig (Elt F)) : after (seg1_0 (F := F)) V (main_v41 : DevRef τ sig) = V (main_v41 : DevRef τ sig) := by after_results_simp
theorem seg1_0_keeps_arg2 (V : Valuation τ sig (Elt F)) : after (seg1_0 (F := F)) V (main_arg2 : DevRef τ sig) = V (main_arg2 : DevRef τ sig) := by after_results_simp
theorem seg1_0_keeps_arg3 (V : Valuation τ sig (Elt F)) : after (seg1_0 (F := F)) V (main_arg3 : DevRef τ sig) = V (main_arg3 : DevRef τ sig) := by after_results_simp
theorem seg1_0_keeps_arg4 (V : Valuation τ sig (Elt F)) : after (seg1_0 (F := F)) V (main_arg4 : DevRef τ sig) = V (main_arg4 : DevRef τ sig) := by after_results_simp
theorem seg1_0_keeps_arg5 (V : Valuation τ sig (Elt F)) : after (seg1_0 (F := F)) V (main_arg5 : DevRef τ sig) = V (main_arg5 : DevRef τ sig) := by after_results_simp
theorem seg1_1_keeps_v35 (V : Valuation τ sig (Elt F)) : after (seg1_1 (F := F)) V (main_v35 : DevRef τ sig) = V (main_v35 : DevRef τ sig) := by after_results_simp
theorem seg1_1_keeps_v38 (V : Valuation τ sig (Elt F)) : after (seg1_1 (F := F)) V (main_v38 : DevRef τ sig) = V (main_v38 : DevRef τ sig) := by after_results_simp
theorem seg1_1_keeps_v32 (V : Valuation τ sig (Elt F)) : after (seg1_1 (F := F)) V (main_v32 : DevRef τ sig) = V (main_v32 : DevRef τ sig) := by after_results_simp
theorem seg1_1_keeps_v39 (V : Valuation τ sig (Elt F)) : after (seg1_1 (F := F)) V (main_v39 : DevRef τ sig) = V (main_v39 : DevRef τ sig) := by after_results_simp
theorem seg1_1_keeps_v41 (V : Valuation τ sig (Elt F)) : after (seg1_1 (F := F)) V (main_v41 : DevRef τ sig) = V (main_v41 : DevRef τ sig) := by after_results_simp
theorem seg1_1_keeps_arg2 (V : Valuation τ sig (Elt F)) : after (seg1_1 (F := F)) V (main_arg2 : DevRef τ sig) = V (main_arg2 : DevRef τ sig) := by after_results_simp
theorem seg1_1_keeps_arg3 (V : Valuation τ sig (Elt F)) : after (seg1_1 (F := F)) V (main_arg3 : DevRef τ sig) = V (main_arg3 : DevRef τ sig) := by after_results_simp
theorem seg1_1_keeps_arg4 (V : Valuation τ sig (Elt F)) : after (seg1_1 (F := F)) V (main_arg4 : DevRef τ sig) = V (main_arg4 : DevRef τ sig) := by after_results_simp
theorem seg1_1_keeps_arg5 (V : Valuation τ sig (Elt F)) : after (seg1_1 (F := F)) V (main_arg5 : DevRef τ sig) = V (main_arg5 : DevRef τ sig) := by after_results_simp
theorem seg1_1_keeps_v42 (V : Valuation τ sig (Elt F)) : after (seg1_1 (F := F)) V (main_v42 : DevRef τ sig) = V (main_v42 : DevRef τ sig) := by after_results_simp
theorem seg1_1_keeps_v44 (V : Valuation τ sig (Elt F)) : after (seg1_1 (F := F)) V (main_v44 : DevRef τ sig) = V (main_v44 : DevRef τ sig) := by after_results_simp
theorem seg1_2_keeps_v35 (V : Valuation τ sig (Elt F)) : after (seg1_2 (F := F)) V (main_v35 : DevRef τ sig) = V (main_v35 : DevRef τ sig) := by after_results_simp
theorem seg1_2_keeps_v38 (V : Valuation τ sig (Elt F)) : after (seg1_2 (F := F)) V (main_v38 : DevRef τ sig) = V (main_v38 : DevRef τ sig) := by after_results_simp
theorem seg1_2_keeps_v32 (V : Valuation τ sig (Elt F)) : after (seg1_2 (F := F)) V (main_v32 : DevRef τ sig) = V (main_v32 : DevRef τ sig) := by after_results_simp
theorem seg1_2_keeps_v39 (V : Valuation τ sig (Elt F)) : after (seg1_2 (F := F)) V (main_v39 : DevRef τ sig) = V (main_v39 : DevRef τ sig) := by after_results_simp
theorem seg1_2_keeps_v41 (V : Valuation τ sig (Elt F)) : after (seg1_2 (F := F)) V (main_v41 : DevRef τ sig) = V (main_v41 : DevRef τ sig) := by after_results_simp
theorem seg1_2_keeps_arg2 (V : Valuation τ sig (Elt F)) : after (seg1_2 (F := F)) V (main_arg2 : DevRef τ sig) = V (main_arg2 : DevRef τ sig) := by after_results_simp
theorem seg1_2_keeps_arg3 (V : Valuation τ sig (Elt F)) : after (seg1_2 (F := F)) V (main_arg3 : DevRef τ sig) = V (main_arg3 : DevRef τ sig) := by after_results_simp
theorem seg1_2_keeps_arg4 (V : Valuation τ sig (Elt F)) : after (seg1_2 (F := F)) V (main_arg4 : DevRef τ sig) = V (main_arg4 : DevRef τ sig) := by after_results_simp
theorem seg1_2_keeps_arg5 (V : Valuation τ sig (Elt F)) : after (seg1_2 (F := F)) V (main_arg5 : DevRef τ sig) = V (main_arg5 : DevRef τ sig) := by after_results_simp
theorem seg1_2_keeps_v42 (V : Valuation τ sig (Elt F)) : after (seg1_2 (F := F)) V (main_v42 : DevRef τ sig) = V (main_v42 : DevRef τ sig) := by after_results_simp
theorem seg1_2_keeps_v44 (V : Valuation τ sig (Elt F)) : after (seg1_2 (F := F)) V (main_v44 : DevRef τ sig) = V (main_v44 : DevRef τ sig) := by after_results_simp
theorem seg1_3_keeps_v35 (V : Valuation τ sig (Elt F)) : after (seg1_3 (F := F)) V (main_v35 : DevRef τ sig) = V (main_v35 : DevRef τ sig) := by after_results_simp
theorem seg1_3_keeps_v38 (V : Valuation τ sig (Elt F)) : after (seg1_3 (F := F)) V (main_v38 : DevRef τ sig) = V (main_v38 : DevRef τ sig) := by after_results_simp
theorem seg1_3_keeps_v32 (V : Valuation τ sig (Elt F)) : after (seg1_3 (F := F)) V (main_v32 : DevRef τ sig) = V (main_v32 : DevRef τ sig) := by after_results_simp
theorem seg1_3_keeps_v39 (V : Valuation τ sig (Elt F)) : after (seg1_3 (F := F)) V (main_v39 : DevRef τ sig) = V (main_v39 : DevRef τ sig) := by after_results_simp
theorem seg1_3_keeps_v41 (V : Valuation τ sig (Elt F)) : after (seg1_3 (F := F)) V (main_v41 : DevRef τ sig) = V (main_v41 : DevRef τ sig) := by after_results_simp
theorem seg1_3_keeps_arg2 (V : Valuation τ sig (Elt F)) : after (seg1_3 (F := F)) V (main_arg2 : DevRef τ sig) = V (main_arg2 : DevRef τ sig) := by after_results_simp
theorem seg1_3_keeps_arg3 (V : Valuation τ sig (Elt F)) : after (seg1_3 (F := F)) V (main_arg3 : DevRef τ sig) = V (main_arg3 : DevRef τ sig) := by after_results_simp
theorem seg1_3_keeps_arg4 (V : Valuation τ sig (Elt F)) : after (seg1_3 (F := F)) V (main_arg4 : DevRef τ sig) = V (main_arg4 : DevRef τ sig) := by after_results_simp
theorem seg1_3_keeps_arg5 (V : Valuation τ sig (Elt F)) : after (seg1_3 (F := F)) V (main_arg5 : DevRef τ sig) = V (main_arg5 : DevRef τ sig) := by after_results_simp
theorem seg1_3_keeps_v42 (V : Valuation τ sig (Elt F)) : after (seg1_3 (F := F)) V (main_v42 : DevRef τ sig) = V (main_v42 : DevRef τ sig) := by after_results_simp
theorem seg1_3_keeps_v44 (V : Valuation τ sig (Elt F)) : after (seg1_3 (F := F)) V (main_v44 : DevRef τ sig) = V (main_v44 : DevRef τ sig) := by after_results_simp
theorem seg1_3_keeps_v58 (V : Valuation τ sig (Elt F)) : after (seg1_3 (F := F)) V (main_v58 : DevRef τ sig) = V (main_v58 : DevRef τ sig) := by after_results_simp
theorem seg1_4_keeps_v35 (V : Valuation τ sig (Elt F)) : after (seg1_4 (F := F)) V (main_v35 : DevRef τ sig) = V (main_v35 : DevRef τ sig) := by after_results_simp
theorem seg1_4_keeps_v38 (V : Valuation τ sig (Elt F)) : after (seg1_4 (F := F)) V (main_v38 : DevRef τ sig) = V (main_v38 : DevRef τ sig) := by after_results_simp
theorem seg1_4_keeps_v32 (V : Valuation τ sig (Elt F)) : after (seg1_4 (F := F)) V (main_v32 : DevRef τ sig) = V (main_v32 : DevRef τ sig) := by after_results_simp
theorem seg1_4_keeps_v39 (V : Valuation τ sig (Elt F)) : after (seg1_4 (F := F)) V (main_v39 : DevRef τ sig) = V (main_v39 : DevRef τ sig) := by after_results_simp
theorem seg1_4_keeps_v41 (V : Valuation τ sig (Elt F)) : after (seg1_4 (F := F)) V (main_v41 : DevRef τ sig) = V (main_v41 : DevRef τ sig) := by after_results_simp
theorem seg1_4_keeps_arg2 (V : Valuation τ sig (Elt F)) : after (seg1_4 (F := F)) V (main_arg2 : DevRef τ sig) = V (main_arg2 : DevRef τ sig) := by after_results_simp
theorem seg1_4_keeps_arg3 (V : Valuation τ sig (Elt F)) : after (seg1_4 (F := F)) V (main_arg3 : DevRef τ sig) = V (main_arg3 : DevRef τ sig) := by after_results_simp
theorem seg1_4_keeps_arg4 (V : Valuation τ sig (Elt F)) : after (seg1_4 (F := F)) V (main_arg4 : DevRef τ sig) = V (main_arg4 : DevRef τ sig) := by after_results_simp
theorem seg1_4_keeps_arg5 (V : Valuation τ sig (Elt F)) : after (seg1_4 (F := F)) V (main_arg5 : DevRef τ sig) = V (main_arg5 : DevRef τ sig) := by after_results_simp
theorem seg1_4_keeps_v42 (V : Valuation τ sig (Elt F)) : after (seg1_4 (F := F)) V (main_v42 : DevRef τ sig) = V (main_v42 : DevRef τ sig) := by after_results_simp
theorem seg1_5_keeps_v35 (V : Valuation τ sig (Elt F)) : after (seg1_5 (F := F)) V (main_v35 : DevRef τ sig) = V (main_v35 : DevRef τ sig) := by after_results_simp
theorem seg1_5_keeps_v38 (V : Valuation τ sig (Elt F)) : after (seg1_5 (F := F)) V (main_v38 : DevRef τ sig) = V (main_v38 : DevRef τ sig) := by after_results_simp
theorem seg1_5_keeps_v32 (V : Valuation τ sig (Elt F)) : after (seg1_5 (F := F)) V (main_v32 : DevRef τ sig) = V (main_v32 : DevRef τ sig) := by after_results_simp
theorem seg1_5_keeps_v41 (V : Valuation τ sig (Elt F)) : after (seg1_5 (F := F)) V (main_v41 : DevRef τ sig) = V (main_v41 : DevRef τ sig) := by after_results_simp
theorem seg1_5_keeps_arg3 (V : Valuation τ sig (Elt F)) : after (seg1_5 (F := F)) V (main_arg3 : DevRef τ sig) = V (main_arg3 : DevRef τ sig) := by after_results_simp
theorem seg1_5_keeps_arg4 (V : Valuation τ sig (Elt F)) : after (seg1_5 (F := F)) V (main_arg4 : DevRef τ sig) = V (main_arg4 : DevRef τ sig) := by after_results_simp
theorem seg1_5_keeps_arg5 (V : Valuation τ sig (Elt F)) : after (seg1_5 (F := F)) V (main_arg5 : DevRef τ sig) = V (main_arg5 : DevRef τ sig) := by after_results_simp
theorem seg1_5_keeps_v42 (V : Valuation τ sig (Elt F)) : after (seg1_5 (F := F)) V (main_v42 : DevRef τ sig) = V (main_v42 : DevRef τ sig) := by after_results_simp
theorem seg1_5_keeps_v74 (V : Valuation τ sig (Elt F)) : after (seg1_5 (F := F)) V (main_v74 : DevRef τ sig) = V (main_v74 : DevRef τ sig) := by after_results_simp
theorem seg1_6_keeps_v35 (V : Valuation τ sig (Elt F)) : after (seg1_6 (F := F)) V (main_v35 : DevRef τ sig) = V (main_v35 : DevRef τ sig) := by after_results_simp
theorem seg1_6_keeps_v38 (V : Valuation τ sig (Elt F)) : after (seg1_6 (F := F)) V (main_v38 : DevRef τ sig) = V (main_v38 : DevRef τ sig) := by after_results_simp
theorem seg1_6_keeps_v32 (V : Valuation τ sig (Elt F)) : after (seg1_6 (F := F)) V (main_v32 : DevRef τ sig) = V (main_v32 : DevRef τ sig) := by after_results_simp
theorem seg1_6_keeps_arg3 (V : Valuation τ sig (Elt F)) : after (seg1_6 (F := F)) V (main_arg3 : DevRef τ sig) = V (main_arg3 : DevRef τ sig) := by after_results_simp
theorem seg1_6_keeps_arg4 (V : Valuation τ sig (Elt F)) : after (seg1_6 (F := F)) V (main_arg4 : DevRef τ sig) = V (main_arg4 : DevRef τ sig) := by after_results_simp
theorem seg1_6_keeps_arg5 (V : Valuation τ sig (Elt F)) : after (seg1_6 (F := F)) V (main_arg5 : DevRef τ sig) = V (main_arg5 : DevRef τ sig) := by after_results_simp
theorem seg1_6_keeps_v42 (V : Valuation τ sig (Elt F)) : after (seg1_6 (F := F)) V (main_v42 : DevRef τ sig) = V (main_v42 : DevRef τ sig) := by after_results_simp
theorem seg1_6_keeps_v74 (V : Valuation τ sig (Elt F)) : after (seg1_6 (F := F)) V (main_v74 : DevRef τ sig) = V (main_v74 : DevRef τ sig) := by after_results_simp
theorem seg1_7_keeps_v35 (V : Valuation τ sig (Elt F)) : after (seg1_7 (F := F)) V (main_v35 : DevRef τ sig) = V (main_v35 : DevRef τ sig) := by after_results_simp
theorem seg1_7_keeps_v38 (V : Valuation τ sig (Elt F)) : after (seg1_7 (F := F)) V (main_v38 : DevRef τ sig) = V (main_v38 : DevRef τ sig) := by after_results_simp
theorem seg1_7_keeps_v32 (V : Valuation τ sig (Elt F)) : after (seg1_7 (F := F)) V (main_v32 : DevRef τ sig) = V (main_v32 : DevRef τ sig) := by after_results_simp
theorem seg1_7_keeps_arg3 (V : Valuation τ sig (Elt F)) : after (seg1_7 (F := F)) V (main_arg3 : DevRef τ sig) = V (main_arg3 : DevRef τ sig) := by after_results_simp
theorem seg1_7_keeps_arg4 (V : Valuation τ sig (Elt F)) : after (seg1_7 (F := F)) V (main_arg4 : DevRef τ sig) = V (main_arg4 : DevRef τ sig) := by after_results_simp
theorem seg1_7_keeps_arg5 (V : Valuation τ sig (Elt F)) : after (seg1_7 (F := F)) V (main_arg5 : DevRef τ sig) = V (main_arg5 : DevRef τ sig) := by after_results_simp
theorem seg1_7_keeps_v42 (V : Valuation τ sig (Elt F)) : after (seg1_7 (F := F)) V (main_v42 : DevRef τ sig) = V (main_v42 : DevRef τ sig) := by after_results_simp
theorem seg1_8_keeps_v35 (V : Valuation τ sig (Elt F)) : after (seg1_8 (F := F)) V (main_v35 : DevRef τ sig) = V (main_v35 : DevRef τ sig) := by after_results_simp
theorem seg1_8_keeps_v38 (V : Valuation τ sig (Elt F)) : after (seg1_8 (F := F)) V (main_v38 : DevRef τ sig) = V (main_v38 : DevRef τ sig) := by after_results_simp
theorem seg1_8_keeps_v32 (V : Valuation τ sig (Elt F)) : after (seg1_8 (F := F)) V (main_v32 : DevRef τ sig) = V (main_v32 : DevRef τ sig) := by after_results_simp
theorem seg1_8_keeps_arg3 (V : Valuation τ sig (Elt F)) : after (seg1_8 (F := F)) V (main_arg3 : DevRef τ sig) = V (main_arg3 : DevRef τ sig) := by after_results_simp
theorem seg1_8_keeps_arg4 (V : Valuation τ sig (Elt F)) : after (seg1_8 (F := F)) V (main_arg4 : DevRef τ sig) = V (main_arg4 : DevRef τ sig) := by after_results_simp
theorem seg1_8_keeps_arg5 (V : Valuation τ sig (Elt F)) : after (seg1_8 (F := F)) V (main_arg5 : DevRef τ sig) = V (main_arg5 : DevRef τ sig) := by after_results_simp
theorem seg2_0_keeps_v35 (V : Valuation τ sig (Elt F)) : after (seg2_0 (F := F)) V (main_v35 : DevRef τ sig) = V (main_v35 : DevRef τ sig) := by after_results_simp
theorem seg2_0_keeps_v38 (V : Valuation τ sig (Elt F)) : after (seg2_0 (F := F)) V (main_v38 : DevRef τ sig) = V (main_v38 : DevRef τ sig) := by after_results_simp
theorem seg2_0_keeps_v32 (V : Valuation τ sig (Elt F)) : after (seg2_0 (F := F)) V (main_v32 : DevRef τ sig) = V (main_v32 : DevRef τ sig) := by after_results_simp
theorem seg2_0_keeps_arg4 (V : Valuation τ sig (Elt F)) : after (seg2_0 (F := F)) V (main_arg4 : DevRef τ sig) = V (main_arg4 : DevRef τ sig) := by after_results_simp
theorem seg2_0_keeps_arg5 (V : Valuation τ sig (Elt F)) : after (seg2_0 (F := F)) V (main_arg5 : DevRef τ sig) = V (main_arg5 : DevRef τ sig) := by after_results_simp
theorem seg2_1_keeps_arg4 (V : Valuation τ sig (Elt F)) : after (seg2_1 (F := F)) V (main_arg4 : DevRef τ sig) = V (main_arg4 : DevRef τ sig) := by after_results_simp
theorem seg2_1_keeps_arg5 (V : Valuation τ sig (Elt F)) : after (seg2_1 (F := F)) V (main_arg5 : DevRef τ sig) = V (main_arg5 : DevRef τ sig) := by after_results_simp
theorem seg2_1_keeps_v91 (V : Valuation τ sig (Elt F)) : after (seg2_1 (F := F)) V (main_v91 : DevRef τ sig) = V (main_v91 : DevRef τ sig) := by after_results_simp
theorem seg2_2_keeps_arg4 (V : Valuation τ sig (Elt F)) : after (seg2_2 (F := F)) V (main_arg4 : DevRef τ sig) = V (main_arg4 : DevRef τ sig) := by after_results_simp
theorem seg2_2_keeps_arg5 (V : Valuation τ sig (Elt F)) : after (seg2_2 (F := F)) V (main_arg5 : DevRef τ sig) = V (main_arg5 : DevRef τ sig) := by after_results_simp
theorem seg2_2_keeps_v91 (V : Valuation τ sig (Elt F)) : after (seg2_2 (F := F)) V (main_v91 : DevRef τ sig) = V (main_v91 : DevRef τ sig) := by after_results_simp
theorem seg2_2_keeps_v93 (V : Valuation τ sig (Elt F)) : after (seg2_2 (F := F)) V (main_v93 : DevRef τ sig) = V (main_v93 : DevRef τ sig) := by after_results_simp
theorem seg2_2_keeps_v94 (V : Valuation τ sig (Elt F)) : after (seg2_2 (F := F)) V (main_v94 : DevRef τ sig) = V (main_v94 : DevRef τ sig) := by after_results_simp
theorem seg2_2_keeps_v96 (V : Valuation τ sig (Elt F)) : after (seg2_2 (F := F)) V (main_v96 : DevRef τ sig) = V (main_v96 : DevRef τ sig) := by after_results_simp
theorem seg2_3_keeps_arg4 (V : Valuation τ sig (Elt F)) : after (seg2_3 (F := F)) V (main_arg4 : DevRef τ sig) = V (main_arg4 : DevRef τ sig) := by after_results_simp
theorem seg2_3_keeps_arg5 (V : Valuation τ sig (Elt F)) : after (seg2_3 (F := F)) V (main_arg5 : DevRef τ sig) = V (main_arg5 : DevRef τ sig) := by after_results_simp
theorem seg2_3_keeps_v91 (V : Valuation τ sig (Elt F)) : after (seg2_3 (F := F)) V (main_v91 : DevRef τ sig) = V (main_v91 : DevRef τ sig) := by after_results_simp
theorem seg2_3_keeps_v93 (V : Valuation τ sig (Elt F)) : after (seg2_3 (F := F)) V (main_v93 : DevRef τ sig) = V (main_v93 : DevRef τ sig) := by after_results_simp
theorem seg2_3_keeps_v94 (V : Valuation τ sig (Elt F)) : after (seg2_3 (F := F)) V (main_v94 : DevRef τ sig) = V (main_v94 : DevRef τ sig) := by after_results_simp
theorem seg2_3_keeps_v96 (V : Valuation τ sig (Elt F)) : after (seg2_3 (F := F)) V (main_v96 : DevRef τ sig) = V (main_v96 : DevRef τ sig) := by after_results_simp
theorem seg2_4_keeps_arg4 (V : Valuation τ sig (Elt F)) : after (seg2_4 (F := F)) V (main_arg4 : DevRef τ sig) = V (main_arg4 : DevRef τ sig) := by after_results_simp
theorem seg2_4_keeps_arg5 (V : Valuation τ sig (Elt F)) : after (seg2_4 (F := F)) V (main_arg5 : DevRef τ sig) = V (main_arg5 : DevRef τ sig) := by after_results_simp
theorem seg2_4_keeps_v91 (V : Valuation τ sig (Elt F)) : after (seg2_4 (F := F)) V (main_v91 : DevRef τ sig) = V (main_v91 : DevRef τ sig) := by after_results_simp
theorem seg2_4_keeps_v93 (V : Valuation τ sig (Elt F)) : after (seg2_4 (F := F)) V (main_v93 : DevRef τ sig) = V (main_v93 : DevRef τ sig) := by after_results_simp
theorem seg2_4_keeps_v94 (V : Valuation τ sig (Elt F)) : after (seg2_4 (F := F)) V (main_v94 : DevRef τ sig) = V (main_v94 : DevRef τ sig) := by after_results_simp
theorem seg2_4_keeps_v96 (V : Valuation τ sig (Elt F)) : after (seg2_4 (F := F)) V (main_v96 : DevRef τ sig) = V (main_v96 : DevRef τ sig) := by after_results_simp
theorem seg2_4_keeps_v110 (V : Valuation τ sig (Elt F)) : after (seg2_4 (F := F)) V (main_v110 : DevRef τ sig) = V (main_v110 : DevRef τ sig) := by after_results_simp
theorem seg2_5_keeps_arg4 (V : Valuation τ sig (Elt F)) : after (seg2_5 (F := F)) V (main_arg4 : DevRef τ sig) = V (main_arg4 : DevRef τ sig) := by after_results_simp
theorem seg2_5_keeps_arg5 (V : Valuation τ sig (Elt F)) : after (seg2_5 (F := F)) V (main_arg5 : DevRef τ sig) = V (main_arg5 : DevRef τ sig) := by after_results_simp
theorem seg2_5_keeps_v91 (V : Valuation τ sig (Elt F)) : after (seg2_5 (F := F)) V (main_v91 : DevRef τ sig) = V (main_v91 : DevRef τ sig) := by after_results_simp
theorem seg2_5_keeps_v93 (V : Valuation τ sig (Elt F)) : after (seg2_5 (F := F)) V (main_v93 : DevRef τ sig) = V (main_v93 : DevRef τ sig) := by after_results_simp
theorem seg2_5_keeps_v94 (V : Valuation τ sig (Elt F)) : after (seg2_5 (F := F)) V (main_v94 : DevRef τ sig) = V (main_v94 : DevRef τ sig) := by after_results_simp
theorem seg2_6_keeps_arg5 (V : Valuation τ sig (Elt F)) : after (seg2_6 (F := F)) V (main_arg5 : DevRef τ sig) = V (main_arg5 : DevRef τ sig) := by after_results_simp
theorem seg2_6_keeps_v93 (V : Valuation τ sig (Elt F)) : after (seg2_6 (F := F)) V (main_v93 : DevRef τ sig) = V (main_v93 : DevRef τ sig) := by after_results_simp
theorem seg2_6_keeps_v94 (V : Valuation τ sig (Elt F)) : after (seg2_6 (F := F)) V (main_v94 : DevRef τ sig) = V (main_v94 : DevRef τ sig) := by after_results_simp
theorem seg2_6_keeps_v126 (V : Valuation τ sig (Elt F)) : after (seg2_6 (F := F)) V (main_v126 : DevRef τ sig) = V (main_v126 : DevRef τ sig) := by after_results_simp
theorem seg2_7_keeps_arg5 (V : Valuation τ sig (Elt F)) : after (seg2_7 (F := F)) V (main_arg5 : DevRef τ sig) = V (main_arg5 : DevRef τ sig) := by after_results_simp
theorem seg2_7_keeps_v94 (V : Valuation τ sig (Elt F)) : after (seg2_7 (F := F)) V (main_v94 : DevRef τ sig) = V (main_v94 : DevRef τ sig) := by after_results_simp
theorem seg2_7_keeps_v126 (V : Valuation τ sig (Elt F)) : after (seg2_7 (F := F)) V (main_v126 : DevRef τ sig) = V (main_v126 : DevRef τ sig) := by after_results_simp
theorem seg2_8_keeps_arg5 (V : Valuation τ sig (Elt F)) : after (seg2_8 (F := F)) V (main_arg5 : DevRef τ sig) = V (main_arg5 : DevRef τ sig) := by after_results_simp
theorem seg2_8_keeps_v94 (V : Valuation τ sig (Elt F)) : after (seg2_8 (F := F)) V (main_v94 : DevRef τ sig) = V (main_v94 : DevRef τ sig) := by after_results_simp
theorem seg2_9_keeps_arg5 (V : Valuation τ sig (Elt F)) : after (seg2_9 (F := F)) V (main_arg5 : DevRef τ sig) = V (main_arg5 : DevRef τ sig) := by after_results_simp
theorem seg2_9_keeps_v94 (V : Valuation τ sig (Elt F)) : after (seg2_9 (F := F)) V (main_v94 : DevRef τ sig) = V (main_v94 : DevRef τ sig) := by after_results_simp
theorem seg2_9_keeps_v131 (V : Valuation τ sig (Elt F)) : after (seg2_9 (F := F)) V (main_v131 : DevRef τ sig) = V (main_v131 : DevRef τ sig) := by after_results_simp
theorem seg3_0_keeps_arg5 (V : Valuation τ sig (Elt F)) : after (seg3_0 (F := F)) V (main_arg5 : DevRef τ sig) = V (main_arg5 : DevRef τ sig) := by after_results_simp
theorem seg3_3_keeps_v148 (V : Valuation τ sig (Elt F)) : after (seg3_3 (F := F)) V (main_v148 : DevRef τ sig) = V (main_v148 : DevRef τ sig) := by after_results_simp

end Cert.ReferenceIdeal.Layer

end
-- ==== Proof.RefLayerWindow.lean ====
/-
  The reference's two graph-convolution layers and its pooled mean, each window read as one function of the buffers it
  starts from: the stages' functions composed along the program's dataflow.
-/
import proofs.«167911_g83915071029568_cont_sun_c4_623_16_alg».proof.Proof.RefLayerKeeps

noncomputable section

namespace Cert.ReferenceIdeal.Layer

open Cert.ReferenceIdeal Cert.ReferenceIdeal.Gen Cert.ReferenceIdeal.RefRun Idealize.ShloMosaic Idealize.ShloMosaic.TcCoe Idealize.SL.Sem Idealize.ShloMosaic.StableHlo

variable {F : FTy → Type} [FloatOps F]

/-- One layer's aggregate: from the edge list's sources, targets and weights and a node table. -/
def layerOf (ssl dsl : IVec S1050624 32) (wsl : FVec F S1050624 .f32) (tab : FVec F S2048x128 .f32) : FVec F S2048x128 .f32 :=
  aggOf dsl (msgOf (takeOf tab ssl) (normOf ssl dsl wsl (dinvOf (degOf dsl wsl))))

/-- The second layer's messages. -/
def msg2Of (ssl dsl : IVec S1050624 32) (wsl : FVec F S1050624 .f32) (tab : FVec F S2048x128 .f32) : FVec F S1050624x128 .f32 :=
  msgOf (takeOf tab ssl) (normOf ssl dsl wsl (dinvOf (degOf dsl wsl)))

/-- The pooled mean of a node table with a bias added. -/
def poolOf (h : FVec F S2048x128 .f32) (b : FVec F S128 .f32) : FVec F S4x128 .f32 :=
  meanOf (poolSumOf graphOf (biasOf h b)) (countOf graphOf)

/-- Window 1: the first layer's aggregate. -/
theorem window1_v87 (V : Valuation τ sig (Elt F)) :
    after (ops1 (F := F)) V (main_v87 : DevRef τ sig)
      = layerOf (V (main_v41 : DevRef τ sig)) (joinI (V (main_v38 : DevRef τ sig)) (V (main_v40 : DevRef τ sig))) (joinF (V (main_v32 : DevRef τ sig)) onesOf)
          (dotOf (V (main_v39 : DevRef τ sig)) (V (main_arg2 : DevRef τ sig))) := by
  rw [ops1_split]
  simp only [Cert.Lib.RunPieces.after_append]
  rw [seg1_8_v87, seg1_7_keeps_v42, seg1_7_v79, seg1_6_keeps_v42, seg1_6_v76,
    seg1_6_keeps_v74, seg1_5_keeps_v42, seg1_5_v75, seg1_5_keeps_v41, seg1_5_keeps_v74,
    seg1_4_keeps_v42, seg1_4_keeps_v39, seg1_4_keeps_arg2, seg1_4_keeps_v41, seg1_4_v74,
    seg1_3_keeps_v42, seg1_3_keeps_v39, seg1_3_keeps_arg2, seg1_3_keeps_v41, seg1_3_v65,
    seg1_3_keeps_v58, seg1_3_keeps_v44, seg1_2_keeps_v42, seg1_2_keeps_v39, seg1_2_keeps_arg2,
    seg1_2_keeps_v41, seg1_2_v58, seg1_2_keeps_v44, seg1_1_keeps_v42, seg1_1_keeps_v39,
    seg1_1_keeps_arg2, seg1_1_keeps_v41, seg1_1_v52, seg1_1_keeps_v44, seg1_0_v42,
    seg1_0_keeps_v39, seg1_0_keeps_arg2, seg1_0_keeps_v41, seg1_0_v44]
  rfl

theorem window1_keeps_v35 (V : Valuation τ sig (Elt F)) : after (ops1 (F := F)) V (main_v35 : DevRef τ sig) = V (main_v35 : DevRef τ sig) := by
  rw [ops1_split]
  simp only [Cert.Lib.RunPieces.after_append]
  rw [seg1_8_keeps_v35, seg1_7_keeps_v35, seg1_6_keeps_v35, seg1_5_keeps_v35, seg1_4_keeps_v35,
    seg1_3_keeps_v35, seg1_2_keeps_v35, seg1_1_keeps_v35, seg1_0_keeps_v35]

theorem window1_keeps_v38 (V : Valuation τ sig (Elt F)) : after (ops1 (F := F)) V (main_v38 : DevRef τ sig) = V (main_v38 : DevRef τ sig) := by
  rw [ops1_split]
  simp only [Cert.Lib.RunPieces.after_append]
  rw [seg1_8_keeps_v38, seg1_7_keeps_v38, seg1_6_keeps_v38, seg1_5_keeps_v38, seg1_4_keeps_v38,
    seg1_3_keeps_v38, seg1_2_keeps_v38, seg1_1_keeps_v38, seg1_0_keeps_v38]

theorem window1_keeps_v32 (V : Valuation τ sig (Elt F)) : after (ops1 (F := F)) V (main_v32 : DevRef τ sig) = V (main_v32 : DevRef τ sig) := by
  rw [ops1_split]
  simp only [Cert.Lib.RunPieces.after_append]
  rw [seg1_8_keeps_v32, seg1_7_keeps_v32, seg1_6_keeps_v32, seg1_5_keeps_v32, seg1_4_keeps_v32,
    seg1_3_keeps_v32, seg1_2_keeps_v32, seg1_1_keeps_v32, seg1_0_keeps_v32]

theorem window1_keeps_arg3 (V : Valuation τ sig (Elt F)) : after (ops1 (F := F)) V (main_arg3 : DevRef τ sig) = V (main_arg3 : DevRef τ sig) := by
  rw [ops1_split]
  simp only [Cert.Lib.RunPieces.after_append]
  rw [seg1_8_keeps_arg3, seg1_7_keeps_arg3, seg1_6_keeps_arg3, seg1_5_keeps_arg3, seg1_4_keeps_arg3,
    seg1_3_keeps_arg3, seg1_2_keeps_arg3, seg1_1_keeps_arg3, seg1_0_keeps_arg3]

theorem window1_keeps_arg4 (V : Valuation τ sig (Elt F)) : after (ops1 (F := F)) V (main_arg4 : DevRef τ sig) = V (main_arg4 : DevRef τ sig) := by
  rw [ops1_split]
  simp only [Cert.Lib.RunPieces.after_append]
  rw [seg1_8_keeps_arg4, seg1_7_keeps_arg4, seg1_6_keeps_arg4, seg1_5_keeps_arg4, seg1_4_keeps_arg4,
    seg1_3_keeps_arg4, seg1_2_keeps_arg4, seg1_1_keeps_arg4, seg1_0_keeps_arg4]

theorem window1_keeps_arg5 (V : Valuation τ sig (Elt F)) : after (ops1 (F := F)) V (main_arg5 : DevRef τ sig) = V (main_arg5 : DevRef τ sig) := by
  rw [ops1_split]
  simp only [Cert.Lib.RunPieces.after_append]
  rw [seg1_8_keeps_arg5, seg1_7_keeps_arg5, seg1_6_keeps_arg5, seg1_5_keeps_arg5, seg1_4_keeps_arg5,
    seg1_3_keeps_arg5, seg1_2_keeps_arg5, seg1_1_keeps_arg5, seg1_0_keeps_arg5]

/-- Window 2: the second layer's messages, from the first layer's aggregate. -/
theorem window2_v131 (V : Valuation τ sig (Elt F)) :
    after (ops2 (F := F)) V (main_v131 : DevRef τ sig)
      = msg2Of (joinI (V (main_v35 : DevRef τ sig)) (iotaInDim S2048 32 0)) (joinI (V (main_v38 : DevRef τ sig)) (iotaInDim S2048 32 0)) (joinF (V (main_v32 : DevRef τ sig)) onesOf)
          (dotOf (reluOf (biasOf (V (main_v87 : DevRef τ sig)) (V (main_arg3 : DevRef τ sig)))) (V (main_arg4 : DevRef τ sig))) := by
  rw [ops2_split]
  simp only [Cert.Lib.RunPieces.after_append]
  rw [seg2_9_keeps_v131, seg2_8_v131, seg2_7_v128, seg2_7_keeps_v126, seg2_6_v127,
    seg2_6_keeps_v93, seg2_6_keeps_v126, seg2_5_keeps_v91, seg2_5_keeps_arg4, seg2_5_keeps_v93,
    seg2_5_v126, seg2_4_keeps_v91, seg2_4_keeps_arg4, seg2_4_keeps_v93, seg2_4_v117,
    seg2_4_keeps_v110, seg2_4_keeps_v94, seg2_4_keeps_v96, seg2_3_keeps_v91, seg2_3_keeps_arg4,
    seg2_3_keeps_v93, seg2_3_v110, seg2_3_keeps_v94, seg2_3_keeps_v96, seg2_2_keeps_v91,
    seg2_2_keeps_arg4, seg2_2_keeps_v93, seg2_2_v104, seg2_2_keeps_v94, seg2_2_keeps_v96,
    seg2_1_keeps_v91, seg2_1_keeps_arg4, seg2_1_v93, seg2_1_v94, seg2_1_v96,
    seg2_0_v91, seg2_0_keeps_arg4, seg2_0_keeps_v35, seg2_0_keeps_v38, seg2_0_keeps_v32]
  rfl

theorem window2_v94 (V : Valuation τ sig (Elt F)) :
    after (ops2 (F := F)) V (main_v94 : DevRef τ sig) = joinI (V (main_v38 : DevRef τ sig)) (iotaInDim S2048 32 0) := by
  rw [ops2_split]
  simp only [Cert.Lib.RunPieces.after_append]
  rw [seg2_9_keeps_v94, seg2_8_keeps_v94, seg2_7_keeps_v94, seg2_6_keeps_v94, seg2_5_keeps_v94,
    seg2_4_keeps_v94, seg2_3_keeps_v94, seg2_2_keeps_v94, seg2_1_v94, seg2_0_keeps_v38]

theorem window2_v132 (V : Valuation τ sig (Elt F)) :
    after (ops2 (F := F)) V (main_v132 : DevRef τ sig) = (broadcastInDim S2048x128 ![] bcast_S_S2048x128 (constant (F := F) S_ .f32 0x00000000#32)) := by
  rw [ops2_split]
  simp only [Cert.Lib.RunPieces.after_append]
  rw [seg2_9_v132]

theorem window2_v134 (V : Valuation τ sig (Elt F)) :
    after (ops2 (F := F)) V (main_v134 : DevRef τ sig) = cmpi .slt (after (ops2 (F := F)) V (main_v94 : DevRef τ sig)) (broadcastInDim S1050624 ![] bcast_S_S1050624 (constantI S_ 32 0#32)) := by
  rw [ops2_split]
  simp only [Cert.Lib.RunPieces.after_append]
  rw [seg2_9_v134, seg2_9_keeps_v94]

theorem window2_keeps_arg5 (V : Valuation τ sig (Elt F)) : after (ops2 (F := F)) V (main_arg5 : DevRef τ sig) = V (main_arg5 : DevRef τ sig) := by
  rw [ops2_split]
  simp only [Cert.Lib.RunPieces.after_append]
  rw [seg2_9_keeps_arg5, seg2_8_keeps_arg5, seg2_7_keeps_arg5, seg2_6_keeps_arg5, seg2_5_keeps_arg5,
    seg2_4_keeps_arg5, seg2_3_keeps_arg5, seg2_2_keeps_arg5, seg2_1_keeps_arg5, seg2_0_keeps_arg5]

/-- Window 3: the second aggregate, its bias, and the mean over each graph's nodes. -/
theorem window3_v155 (V : Valuation τ sig (Elt F))
    (h132 : V (main_v132 : DevRef τ sig) = (broadcastInDim S2048x128 ![] bcast_S_S2048x128 (constant (F := F) S_ .f32 0x00000000#32)))
    (h134 : V (main_v134 : DevRef τ sig) = cmpi .slt (V (main_v94 : DevRef τ sig)) (broadcastInDim S1050624 ![] bcast_S_S1050624 (constantI S_ 32 0#32))) :
    after (ops3 (F := F)) V (main_v155 : DevRef τ sig) = poolOf (aggOf (V (main_v94 : DevRef τ sig)) (V (main_v131 : DevRef τ sig))) (V (main_arg5 : DevRef τ sig)) := by
  rw [ops3_split]
  simp only [Cert.Lib.RunPieces.after_append]
  rw [seg3_4_v155, seg3_3_keeps_v148, seg3_3_v152, seg3_2_v148, seg3_2_v145,
    seg3_1_v142, seg3_0_keeps_arg5, seg3_0_v139 V h132 h134]
  rfl

/-- Windows 1 to 3 together, from the buffers window 0 leaves. -/
theorem windows123 (V : Valuation τ sig (Elt F)) :
    after (ops1 ++ (ops2 ++ ops3) : List (HloOp τ sig (Elt F))) V (main_v155 : DevRef τ sig)
      = poolOf
          (layerOf (joinI (V (main_v35 : DevRef τ sig)) (iotaInDim S2048 32 0)) (joinI (V (main_v38 : DevRef τ sig)) (iotaInDim S2048 32 0)) (joinF (V (main_v32 : DevRef τ sig)) onesOf)
            (dotOf (reluOf (biasOf
              (layerOf (V (main_v41 : DevRef τ sig)) (joinI (V (main_v38 : DevRef τ sig)) (V (main_v40 : DevRef τ sig))) (joinF (V (main_v32 : DevRef τ sig)) onesOf)
                (dotOf (V (main_v39 : DevRef τ sig)) (V (main_arg2 : DevRef τ sig))))
              (V (main_arg3 : DevRef τ sig)))) (V (main_arg4 : DevRef τ sig))))
          (V (main_arg5 : DevRef τ sig)) := by
  rw [Cert.Lib.RunPieces.after_append, Cert.Lib.RunPieces.after_append,
    window3_v155 _ (window2_v132 _) (window2_v134 _), window2_v94, window2_v131, window2_keeps_arg5,
    window1_v87, window1_keeps_v35, window1_keeps_v38, window1_keeps_v32, window1_keeps_arg3, window1_keeps_arg4, window1_keeps_arg5]
  rfl

end Cert.ReferenceIdeal.Layer

end
-- ==== Proof.LibHostDot.lean ====
/-
  A host matrix product and a column broadcast read at an entry, at the ideal values.

  The host's `dot_general` of an M×K by a K×N matrix (contract the left operand's columns against the right operand's
  rows, no batch axis) is, at the entry (a, b), the sum over the contracted coordinate c of `A (a, c) · B (c, b)`: the
  same sum a kernel's plain product into a zero accumulator has. A column [a, 1] broadcast along its unit axis to
  [a, b] repeats the row's one entry.
-/
import Idealize.ShloMosaic.Lib.ValueIdx
import Idealize.ShloMosaic.Lib.Pipeline.Value
import Idealize.ShloMosaic.PureOps.Ideal.Laws

noncomputable section

namespace Cert.HostDot

open Idealize.ShloMosaic Idealize.ShloMosaic.ValueIdx

/-- The host's plain product of an M×K by a K×N matrix, read at an entry, is the sum over the contracted coordinate of
    the products of the entries. At the ideal values. -/
theorem dotGeneral_plain_apply {M K N : ℕ} {φ₁ φ₂ : FTy} (prec : Option ContractPrecision)
    (A : FVec Ideal ⟨2, ![M, K]⟩ φ₁) (B : FVec Ideal ⟨2, ![K, N]⟩ φ₂) (a : Fin M) (b : Fin N) :
    Host.dotGeneral (DotDims.plain M K N) prec A B (ix2 a b) = ∑ c : Fin K, A (ix2 a c) * B (ix2 c b) := by
  simp only [Host.dotGeneral]
  rw [Ideal.dotGeneral_apply, ← Equiv.sum_comp (contrEquiv1 (DotDims.plain M K N) K rfl rfl).symm]
  refine Finset.sum_congr rfl fun c _ => ?_
  have c2 := contrEquiv1_symm_val (DotDims.plain M K N) K rfl rfl c
  have l2 : (DotDims.plain M K N).lhsIdx (ix2 a b) ((contrEquiv1 _ K rfl rfl).symm c) = ix2 a c := by
    funext ax; apply Fin.ext
    match ax with
    | ⟨0, _⟩ => simp [DotDims.lhsIdx, DotDims.plain]; rfl
    | ⟨1, _⟩ => simp [DotDims.lhsIdx, DotDims.plain]; exact c2
  have r2 : (DotDims.plain M K N).rhsIdx (ix2 a b) ((contrEquiv1 _ K rfl rfl).symm c) = ix2 c b := by
    funext ax; apply Fin.ext
    match ax with
    | ⟨0, _⟩ => simp [DotDims.rhsIdx, DotDims.plain]; exact c2
    | ⟨1, _⟩ => simp [DotDims.rhsIdx, DotDims.plain]; rfl
  rw [l2, r2]

/-- A column [a, 1] broadcast along its unit axis to [a, b]: entry (p, q) is the column's entry at row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Cert.HostDot

end
-- ==== Proof.RefTailReads.lean ====
/-
  The pointwise tails of the reference program's layers, read at an index.

  After each aggregation the program adds a bias row to every node's row, rectifies, multiplies by a weight matrix, and
  at the end averages the node rows of each graph.  Read at an entry, at the ideal values:
  * the bias stage is the entry plus the bias of its column (the bias vector laid as a row and repeated down the rows);
  * the rectifier is the maximum with zero;
  * the matrix product is the sum over the contracted coordinate of the products of the entries;
  * the node features `[4, 512, 128]` flattened to `[2048, 128]` read, at node `b * 512 + s`, the entry of node `s` of
    graph `b`;
  * the pooled mean of graph `g` is the quotient of the sum of the (biased) rows of the nodes `n` with `n / 512 = g` by
    the number of such nodes, each written as a sum over all nodes with the test inside and the zero start kept in
    front.  The graph number of node `n` is the word of `n / 512`: the numbers 0 to 3 repeated along rows of 512 and
    flattened; the row scatter-add and the entry scatter-add land an update at graph `g` exactly when that word reads
    `g`.
-/
import proofs.«167911_g83915071029568_cont_sun_c4_623_16_alg».proof.Proof.RefLayerKeeps
import proofs.«167911_g83915071029568_cont_sun_c4_623_16_alg».proof.Proof.LibRowLanding
import proofs.«167911_g83915071029568_cont_sun_c4_623_16_alg».proof.Proof.LibScatterAddRead
import proofs.«167911_g83915071029568_cont_sun_c4_623_16_alg».proof.Proof.LibEntryScatter
import proofs.«167911_g83915071029568_cont_sun_c4_623_16_alg».proof.Proof.LibHostDot
import proofs.«167911_g83915071029568_cont_sun_c4_623_16_alg».proof.Proof.LibLayout
import proofs.«167911_g83915071029568_cont_sun_c4_623_16_alg».proof.Proof.GcnEdgeAlgebra
import Idealize.ShloMosaic.Lib.IdealHost

noncomputable section

namespace Cert.ReferenceIdeal.Layer

open Cert.ReferenceIdeal Cert.ReferenceIdeal.Gen Cert.ReferenceIdeal.RefRun Idealize.ShloMosaic Idealize.ShloMosaic.TcCoe Idealize.SL.Sem Idealize.ShloMosaic.StableHlo
open Idealize.ShloMosaic.ValueIdx

/-! ## Bias, rectifier, product, flattening -/

/-- The bias stage at an entry: the entry plus the bias of its column. -/
theorem biasOf_apply (a : FVec Ideal S2048x128 .f32) (b : FVec Ideal S128 .f32) (n : Fin 2048) (f : Fin 128) :
    biasOf a b (ix2 n f) = a (ix2 n f) + b (ix1 f) := by
  unfold biasOf
  rw [addf_apply]
  congr 1
  rw [broadcastInDim_apply (![0, 1] : Fin 2 → Fin 2) bcast_S1x128_S2048x128_0_1 _ (ix2 n f) (ix2 (0 : Fin 1) f)
    (fun ax => by
      match ax with
      | ⟨0, _⟩ => rfl
      | ⟨1, _⟩ => rfl)]
  exact Cert.Lib.RowLanding.row_of_vec_apply b bcast_S128_S1x128_1 0 f

/-- The rectifier at an entry: the maximum with zero. -/
theorem reluOf_apply (a : FVec Ideal S2048x128 .f32) (n : Fin 2048) (f : Fin 128) :
    reluOf a (ix2 n f) = max (a (ix2 n f)) 0 := by
  unfold reluOf
  rw [maximumf_apply, Cert.Lib.RowLanding.splat_apply, constant_apply, Ideal.ofBits_zero_f32]

/-- The matrix product at an entry: the sum over the contracted coordinate. -/
theorem dotOf_apply (t : FVec Ideal S2048x128 .f32) (w : FVec Ideal S128x128 .f32) (n : Fin 2048) (f : Fin 128) :
    dotOf t w (ix2 n f) = ∑ k : Fin 128, t (ix2 n k) * w (ix2 k f) :=
  Cert.HostDot.dotGeneral_plain_apply (M := 2048) (K := 128) (N := 128) none t w n f

/-- The node features flattened: node `b * 512 + s` of the flat table is node `s` of graph `b`. -/
theorem xr_apply (x : FVec Ideal S4x512x128 .f32) (b : Fin 4) (s : Fin 512) (k : Fin 128) :
    (fun i => shapeCast S2048x128 x shapeCasts_S4x512x128_S2048x128 i) (ix2 (Cert.EdgeAlgebra.node b s) k)
      = x (ix3 b s k) :=
  Cert.LibLayout.shapeCast_abc_mc_apply x shapeCasts_S4x512x128_S2048x128 (Cert.EdgeAlgebra.node b s) b s k rfl

/-! ## The graph numbers -/

/-- The graph number of node `n`, as an index word: the word of `n / 512`. -/
theorem graphOf_apply (n : Fin 2048) : graphOf (ix1 n) = BitVec.ofNat 32 (n.val / 512) := by
  unfold graphOf
  have hp : n.val / 512 < 4 := by have := n.isLt; omega
  have hq : n.val % 512 < 512 := Nat.mod_lt _ (by norm_num)
  rw [shapeCast_apply _ shapeCasts_S4x512_S2048 (ix1 n) (ix2 (⟨n.val / 512, hp⟩ : Fin 4) (⟨n.val % 512, hq⟩ : Fin 512))
    (by
      rw [Shape.rowMajor_val_two, Shape.rowMajor_val_one]
      show n.val / 512 * 512 + n.val % 512 = n.val
      omega)]
  exact broadcastInDim_apply _ bcast_S4_S4x512_0 (iotaInDim S4 32 0)
    (ix2 (⟨n.val / 512, hp⟩ : Fin 4) (⟨n.val % 512, hq⟩ : Fin 512)) (ix1 (⟨n.val / 512, hp⟩ : Fin 4)) (fun ax => by
      match ax with
      | ⟨0, _⟩ => rfl)

/-- The graph number of node `n`, laid in the column, read signed: `n / 512`. -/
theorem graphCol_toInt (n : Fin 2048) :
    ((broadcastInDim S2048x1 ![0] bcast_S2048_S2048x1_0 graphOf) (ix2 n (0 : Fin 1))).toInt = ((n.val / 512 : Nat) : Int) := by
  rw [Cert.Lib.EdgeRows.column_apply, graphOf_apply]
  exact Cert.Lib.RowLanding.toInt_ofNat_small _ (by have := n.isLt; omega)

theorem graphCol_iff (n : Fin 2048) (g : Fin 4) :
    ((broadcastInDim S2048x1 ![0] bcast_S2048_S2048x1_0 graphOf) (ix2 n (0 : Fin 1))).toInt = (g.val : Int)
      ↔ n.val / 512 = g.val := by
  rw [graphCol_toInt]
  exact Int.natCast_inj

/-! ## The pooled mean -/

/-- The per-graph sum of node rows at an entry. -/
theorem poolSumOf_apply (h : FVec Ideal S2048x128 .f32) (g : Fin 4) (f : Fin 128) :
    poolSumOf graphOf h (ix2 g f) = 0 + ∑ n : Fin 2048, if n.val / 512 = g.val then h (ix2 n f) else 0 := by
  have hrec : scatter_S4x128_S2048x1_S2048x128_1_0_0_1 =
      Cert.Lib.EdgeRows.rowScatter 4 2048 128 Facts₀.scatter_S4x128_S2048x1_S2048x128_1_0_0_1_wf := rfl
  unfold poolSumOf
  rw [hrec, Cert.Lib.ScatterAddRead.scatterAdd_at, Cert.Lib.RowLanding.splat_apply, constant_apply,
    Ideal.ofBits_zero_f32, Cert.Lib.RowLanding.sum_landing]
  congr 1
  exact Finset.sum_congr rfl fun n _ => if_congr (graphCol_iff n g) rfl rfl

/-- The per-graph node count at an entry. -/
theorem countOf_apply (g : Fin 4) :
    countOf (F := Ideal) graphOf (ix1 g) = 0 + ∑ n : Fin 2048, if n.val / 512 = g.val then (1 : EReal) else 0 := by
  have hrec : scatter_S4_S2048x1_S2048_n_0_0_1 =
      Cert.Lib.EntryScatter.entryScatter 4 2048 Facts₀.scatter_S4_S2048x1_S2048_n_0_0_1_wf := rfl
  unfold countOf
  rw [hrec, Cert.Lib.EntryScatter.entryScatterAdd_at, Cert.Lib.RowLanding.splat_apply, constant_apply,
    Ideal.ofBits_zero_f32]
  congr 1
  refine Finset.sum_congr rfl fun n _ => ?_
  rw [Cert.Lib.RowLanding.splat_apply, constant_apply, Ideal.ofBits_one_f32]
  exact if_congr (graphCol_iff n g) rfl rfl

/-- The mean stage at an entry: the sum's entry divided by the count of its row. -/
theorem meanOf_apply (s : FVec Ideal S4x128 .f32) (c : FVec Ideal S4 .f32) (g : Fin 4) (f : Fin 128) :
    meanOf s c (ix2 g f) = Ideal.div (s (ix2 g f)) (c (ix1 g)) := by
  unfold meanOf
  show Ideal.div (s (ix2 g f)) _ = _
  congr 1
  rw [Cert.Lib.RowLanding.column_across_apply, Cert.Lib.EdgeRows.column_apply]

/-- The pooled mean with a bias added, at an entry. -/
theorem poolOf_apply (h : FVec Ideal S2048x128 .f32) (b : FVec Ideal S128 .f32) (g : Fin 4) (f : Fin 128) :
    meanOf (poolSumOf graphOf (biasOf h b)) (countOf graphOf) (ix2 g f)
      = Ideal.div (0 + ∑ n : Fin 2048, if n.val / 512 = g.val then (h (ix2 n f) + b (ix1 f)) else 0)
          (0 + ∑ n : Fin 2048, if n.val / 512 = g.val then (1 : EReal) else 0) := by
  rw [meanOf_apply, poolSumOf_apply, countOf_apply]
  congr 2
  exact Finset.sum_congr rfl fun n _ => by rw [biasOf_apply]

end Cert.ReferenceIdeal.Layer

end
-- ==== Proof.RefLayerRead.lean ====
/-
  One graph-convolution layer of the reference program, read index by index at the ideal values.

  The layer's stages are host operations over an edge list of 1050624 index words and weights.  When the index words
  are node numbers (each word is the 32-bit word of a natural below 2048), every stage reads as the edge-list
  algebra's quantity:
    the host's wrap of a negative index does nothing, a node number being nonnegative;
    the degree stage at node n is the sum of the weights of the edges into n;
    the dinv stage at node n is the guarded, clamped reciprocal square root of that degree;
    a gather at the index words reads the gathered vector or table at the edge's node, the clamp into the valid
    range doing nothing and the host's out-of-range fill never being taken (its test, reduced by "and" over all
    edges, is one because every word passes);
    the scatter-add of the message rows at (n, f) is the sum over the edges into n of the message entries.
  Composed: the layer's aggregation at (n, f) is the edge-list layer of the algebra.
-/
import proofs.«167911_g83915071029568_cont_sun_c4_623_16_alg».proof.Proof.RefLayerStages
import proofs.«167911_g83915071029568_cont_sun_c4_623_16_alg».proof.Proof.GcnEdgeAlgebra
import proofs.«167911_g83915071029568_cont_sun_c4_623_16_alg».proof.Proof.LibEntryScatter
import proofs.«167911_g83915071029568_cont_sun_c4_623_16_alg».proof.Proof.LibScatterAddRead
import proofs.«167911_g83915071029568_cont_sun_c4_623_16_alg».proof.Proof.LibEdgeRows
import proofs.«167911_g83915071029568_cont_sun_c4_623_16_alg».proof.Proof.LibRowLanding
import Idealize.ShloMosaic.PureOps.Ideal.Laws

noncomputable section

namespace Cert.ReferenceIdeal.Layer

open Cert.ReferenceIdeal Cert.ReferenceIdeal.Gen Cert.ReferenceIdeal.RefRun Idealize.ShloMosaic Idealize.ShloMosaic.TcCoe Idealize.SL.Sem Idealize.ShloMosaic.StableHlo

open Idealize.ShloMosaic.ValueIdx

/-! ## Index words that are node numbers -/

/-- A wrapped index word that is a node number is that node number's word. -/
theorem wrapOf_word (a : IVec S1050624 32) (a' : Fin 1050624 → Fin 2048)
    (ha : ∀ e, a (ix1 e) = BitVec.ofNat 32 (a' e).val) (e : Fin 1050624) :
    wrapOf a (ix1 e) = BitVec.ofNat 32 (a' e).val := by
  have hlt : 2 * (a' e).val < 2 ^ 32 := by have := (a' e).isLt; omega
  have hnn : 0 ≤ (a (ix1 e)).toInt := by
    rw [ha e, Cert.Lib.RowLanding.toInt_ofNat_small _ hlt]
    exact Int.natCast_nonneg _
  exact (Cert.Lib.EdgeRows.wrap_apply_of_nonneg (s0 := S_) (s := S1050624) _ bcast_S_S1050624 2048#32 a (ix1 e) hnn).trans (ha e)

/-- The column of wrapped index words reads, signed, the node number. -/
theorem colOf_word (a : IVec S1050624 32) (a' : Fin 1050624 → Fin 2048)
    (ha : ∀ e, a (ix1 e) = BitVec.ofNat 32 (a' e).val) (e : Fin 1050624) :
    (colOf a (ix2 e (0 : Fin 1))).toInt = ((a' e).val : Int) := by
  have hlt : 2 * (a' e).val < 2 ^ 32 := by have := (a' e).isLt; omega
  unfold colOf
  rw [Cert.Lib.EdgeRows.column_apply, wrapOf_word a a' ha e, Cert.Lib.RowLanding.toInt_ofNat_small _ hlt]

/-- The word of edge e reads node n exactly when the edge's node is n. -/
theorem colOf_word_iff (a : IVec S1050624 32) (a' : Fin 1050624 → Fin 2048)
    (ha : ∀ e, a (ix1 e) = BitVec.ofNat 32 (a' e).val) (e : Fin 1050624) (n : Fin 2048) :
    (colOf a (ix2 e (0 : Fin 1))).toInt = (n.val : Int) ↔ a' e = n := by
  rw [colOf_word a a' ha e]
  constructor
  · intro h
    exact Fin.ext (by exact_mod_cast h)
  · intro h
    rw [h]

/-- A splat of the zero word reads the extended real zero. -/
theorem zero_splat {t : Shape} (hb : S_.BroadcastsInDim t ![]) (j : t.Idx) :
    broadcastInDim t ![] hb (constant (F := Ideal) S_ .f32 0x00000000#32) j = 0 := by
  rw [Cert.Lib.RowLanding.splat_apply, constant_apply, Ideal.ofBits_zero_f32]

/-- The degree stage read at a node: the edge-list degree. -/
theorem deg_read (dsl : IVec S1050624 32) (wsl : FVec Ideal S1050624 .f32) (dst' : Fin 1050624 → Fin 2048)
    (hd : ∀ e, dsl (ix1 e) = BitVec.ofNat 32 (dst' e).val) (n : Fin 2048) :
    degOf dsl wsl (ix1 n) = Cert.EdgeAlgebra.degE dst' (fun e => wsl (ix1 e)) n := by
  have hrec : scatter_S2048_S1050624x1_S1050624_n_0_0_1 =
      Cert.Lib.EntryScatter.entryScatter 2048 1050624 Facts₀.scatter_S2048_S1050624x1_S1050624_n_0_0_1_wf := rfl
  unfold degOf Cert.EdgeAlgebra.degE
  rw [hrec, Cert.Lib.EntryScatter.entryScatterAdd_at, zero_splat, zero_add]
  exact Finset.sum_congr rfl fun e _ => if_congr (colOf_word_iff dsl dst' hd e n) rfl rfl

/-- The dinv stage read at a node: the edge-list deg^(-1/2). -/
theorem dinv_read (dsl : IVec S1050624 32) (wsl : FVec Ideal S1050624 .f32) (dst' : Fin 1050624 → Fin 2048)
    (hd : ∀ e, dsl (ix1 e) = BitVec.ofNat 32 (dst' e).val) (n : Fin 2048) :
    dinvOf (degOf dsl wsl) (ix1 n) = Cert.EdgeAlgebra.dinvE dst' (fun e => wsl (ix1 e)) n := by
  have hdeg := deg_read dsl wsl dst' hd n
  generalize degOf dsl wsl = D at hdeg ⊢
  have he : ∀ j : S2048.Idx,
      broadcastInDim S2048 ![] bcast_S_S2048 (constant (F := Ideal) S_ .f32 0x2B8CBCCC#32) j = Cert.EdgeAlgebra.eps := by
    intro j
    rw [Cert.Lib.RowLanding.splat_apply, constant_apply, ← Cert.EdgeAlgebra.eps_def]
  have hr : ∀ x : FVec Ideal S2048 .f32, Host.rsqrt x (ix1 n) = Ideal.rsqrt (x (ix1 n)) := fun _ => rfl
  unfold dinvOf Cert.EdgeAlgebra.dinvE
  rw [← hdeg, select_apply, cmpf_apply, hr, maximumf_apply, he, zero_splat]
  by_cases hpos : 0 < D (ix1 n)
  · have hc : FloatOps.cmpf (F := Ideal) .ogt (D (ix1 n)) 0 = 1#1 := by
      show BitVec.ofBool (decide (0 < D (ix1 n))) = 1#1
      rw [decide_eq_true hpos]; rfl
    rw [hc, select_one, if_pos hpos]
  · have hc : FloatOps.cmpf (F := Ideal) .ogt (D (ix1 n)) 0 = 0#1 := by
      show BitVec.ofBool (decide (0 < D (ix1 n))) = 0#1
      rw [decide_eq_false hpos]; rfl
    rw [hc, select_zero, if_neg hpos]

/-! ## Gathers, the range test, and the aggregation -/

/-- A vector [E] repeated across C columns reads, at (e, q), the vector's entry e. -/
theorem vec_across_apply {α : Type} {E C : Nat}
    (hb : (⟨1, ![E]⟩ : Shape).BroadcastsInDim ⟨2, ![E, C]⟩ ![0])
    (v : (⟨1, ![E]⟩ : Shape).Idx → α) (e : Fin E) (q : Fin C) :
    broadcastInDim ⟨2, ![E, C]⟩ ![0] hb v (ix2 e q) = v (ix1 e) := by
  unfold broadcastInDim
  congr 1
  funext a
  obtain rfl : a = 0 := Subsingleton.elim _ _
  refine Fin.ext ?_
  split
  · rename_i h1
    have hE : E = 1 := h1
    have := e.isLt
    show 0 = e.val
    omega
  · rfl

/-- A reduction by "and" of bits that are all one, started from one, is one: whatever the axes and the order. -/
theorem reduce_andi_ones {s t u : Shape} {axes : List (Fin s.rank)} (x : s.Idx → BitVec 1) (init : u.Idx → BitVec 1)
    (h : s.ReducesTo axes t) (hu : 0 < u.numel) (hx : ∀ i, x i = 1#1) (hinit : ∀ k, init k = 1#1) (j : t.Idx) :
    Host.reduce IntOp.andi x init h hu j = 1#1 := by
  have h11 : IntOp.andi (1#1 : BitVec 1) 1#1 = 1#1 := by decide
  have key : ∀ L : List s.Idx, L.foldl (fun r i => IntOp.andi r (x i)) 1#1 = 1#1 := by
    intro L
    induction L with
    | nil => rfl
    | cons i L ih => rw [List.foldl_cons, hx i, h11]; exact ih
  rw [Host.reduce_eq_foldl, hinit]
  exact key _

/-- A wrapped index word that is a node number passes the host's range test 0 ≤ · ≤ 2047. -/
theorem inrange_one (a : IVec S1050624 32) (a' : Fin 1050624 → Fin 2048)
    (ha : ∀ e, a (ix1 e) = BitVec.ofNat 32 (a' e).val) (i : S1050624x1.Idx) :
    andi (cmpi .sge (colOf a) (broadcastInDim S1050624x1 ![] bcast_S_S1050624x1 (constantI S_ 32 0#32)))
      (cmpi .sle (colOf a)
        (broadcastInDim S1050624x1 ![0, 1] bcast_S1x1_S1050624x1_0_1
          (broadcastInDim S1x1 ![1] bcast_S1_S1x1_1 (constantI S1 32 2047#32)))) i = 1#1 := by
  obtain ⟨e, z, rfl⟩ : ∃ (e : Fin 1050624) (z : Fin 1), i = ix2 e z := ⟨i 0, i 1, eq_ix2 i⟩
  obtain rfl : z = 0 := Subsingleton.elim _ _
  have hw := colOf_word a a' ha e
  have hlt := (a' e).isLt
  show IntOp.andi (IntOp.cmpi .sge (colOf a (ix2 e (0 : Fin 1))) 0#32)
      (IntOp.cmpi .sle (colOf a (ix2 e (0 : Fin 1))) 2047#32) = 1#1
  generalize colOf a (ix2 e (0 : Fin 1)) = x at hw
  have h1 : (0#32 : BitVec 32).sle x = true := by
    simp only [BitVec.sle, BitVec.toInt_zero, decide_eq_true_eq]
    omega
  have h2047 : (2047#32 : BitVec 32).toInt = 2047 := by decide
  have h2 : x.sle 2047#32 = true := by
    simp only [BitVec.sle, h2047, decide_eq_true_eq]
    omega
  show IntOp.andi (BitVec.ofBool ((0#32 : BitVec 32).sle x)) (BitVec.ofBool (x.sle 2047#32)) = 1#1
  rw [h1, h2]
  decide

/-- A node vector gathered at the index words, read at an edge: the vector at the edge's node. -/
theorem gatherOf_read (v : FVec Ideal S2048 .f32) (a : IVec S1050624 32) (a' : Fin 1050624 → Fin 2048)
    (ha : ∀ e, a (ix1 e) = BitVec.ofNat 32 (a' e).val) (e : Fin 1050624) :
    gatherOf v a (ix1 e) = v (ix1 (a' e)) := by
  have hrec : gather_S2048_S1050624x1_S1050624_n_0_n_n_0_1_1 =
      Cert.Lib.EdgeRows.entryGather 2048 1050624 Facts₀.gather_S2048_S1050624x1_S1050624_n_0_n_n_0_1_1_wf := rfl
  unfold gatherOf
  rw [hrec, Cert.Lib.EdgeRows.entryGather_apply (by norm_num)]
  refine congrArg v (congrArg (fun r : Fin 2048 => ix1 r) (Fin.ext ?_))
  exact Cert.Lib.RowLanding.clamp_of_toInt_eq _ _ (a' e).isLt (colOf_word a a' ha e)

/-- The rows taken at the index words, read at an edge: the table's row at the edge's node (the out-of-range fill is
never taken, every word being a node number). -/
theorem takeOf_read (tab : FVec Ideal S2048x128 .f32) (a : IVec S1050624 32) (a' : Fin 1050624 → Fin 2048)
    (ha : ∀ e, a (ix1 e) = BitVec.ofNat 32 (a' e).val) (e : Fin 1050624) (f : Fin 128) :
    takeOf tab a (ix2 e f) = tab (ix2 (a' e) f) := by
  have hrec : gather_S2048x128_S1050624x1_S1050624x128_1_0_n_n_0_1_1128 =
      Cert.Lib.EdgeRows.rowGather 2048 1050624 128 Facts₀.gather_S2048x128_S1050624x1_S1050624x128_1_0_n_n_0_1_1128_wf := rfl
  unfold takeOf
  rw [select_apply, vec_across_apply,
    reduce_andi_ones _ (constantI S_ 1 1#1) _ _ (inrange_one a a' ha) (fun _ => rfl), select_one, hrec,
    Cert.Lib.EdgeRows.rowGather_apply (by norm_num)]
  refine congrArg tab (congrArg (fun r : Fin 2048 => ix2 r f) (Fin.ext ?_))
  exact Cert.Lib.RowLanding.clamp_of_toInt_eq _ _ (a' e).isLt (colOf_word a a' ha e)

/-- A message entry: the row entry times the edge's norm. -/
theorem msgOf_read (rows : FVec Ideal S1050624x128 .f32) (norm : FVec Ideal S1050624 .f32) (e : Fin 1050624)
    (f : Fin 128) : msgOf rows norm (ix2 e f) = rows (ix2 e f) * norm (ix1 e) := by
  unfold msgOf
  rw [mulf_apply, Cert.Lib.RowLanding.column_across_apply, Cert.Lib.EdgeRows.column_apply]

/-- An edge's norm: the node vector at the source times the node vector at the target times the weight. -/
theorem normOf_read (ssl dsl : IVec S1050624 32) (wsl : FVec Ideal S1050624 .f32) (dinv : FVec Ideal S2048 .f32)
    (src' dst' : Fin 1050624 → Fin 2048)
    (hs : ∀ e, ssl (ix1 e) = BitVec.ofNat 32 (src' e).val) (hd : ∀ e, dsl (ix1 e) = BitVec.ofNat 32 (dst' e).val)
    (e : Fin 1050624) :
    normOf ssl dsl wsl dinv (ix1 e) = dinv (ix1 (src' e)) * dinv (ix1 (dst' e)) * wsl (ix1 e) := by
  unfold normOf
  rw [mulf_apply, mulf_apply, gatherOf_read dinv ssl src' hs e, gatherOf_read dinv dsl dst' hd e]

/-- The aggregation stage of a layer read at (n, f): the edge-list layer of the algebra. -/
theorem agg_read (ssl dsl : IVec S1050624 32) (wsl : FVec Ideal S1050624 .f32) (tab : FVec Ideal S2048x128 .f32)
    (src' dst' : Fin 1050624 → Fin 2048)
    (hs : ∀ e, ssl (ix1 e) = BitVec.ofNat 32 (src' e).val) (hd : ∀ e, dsl (ix1 e) = BitVec.ofNat 32 (dst' e).val)
    (n : Fin 2048) (f : Fin 128) :
    aggOf dsl (msgOf (takeOf tab ssl) (normOf ssl dsl wsl (dinvOf (degOf dsl wsl)))) (ix2 n f) =
      Cert.EdgeAlgebra.layerE src' dst' (fun e => wsl (ix1 e)) (fun s f => tab (ix2 s f)) n f := by
  have hrec : scatter_S2048x128_S1050624x1_S1050624x128_1_0_0_1 =
      Cert.Lib.EdgeRows.rowScatter 2048 1050624 128 Facts₀.scatter_S2048x128_S1050624x1_S1050624x128_1_0_0_1_wf := rfl
  unfold aggOf Cert.EdgeAlgebra.layerE
  rw [hrec, Cert.Lib.ScatterAddRead.scatterAdd_at, zero_splat, zero_add, Cert.Lib.RowLanding.sum_landing]
  refine Finset.sum_congr rfl fun e _ => if_congr (colOf_word_iff dsl dst' hd e n) ?_ rfl
  rw [msgOf_read, takeOf_read tab ssl src' hs e f, normOf_read ssl dsl wsl _ src' dst' hs hd e,
    dinv_read dsl wsl dst' hd (src' e), dinv_read dsl wsl dst' hd (dst' e)]

end Cert.ReferenceIdeal.Layer

end
-- ==== Proof.RefAlgebra.lean ====
/-
  The graph convolution written over an edge list, with the four graphs' nodes laid out flat, is the dense
  specification.

  Nodes 512·b … 512·b + 511 of the flat layout are the nodes of graph b.  When the edge list represents the dense
  adjacency with a self-loop at every node, one layer over the edges is the specification's normalised aggregation, so
  the two layers agree node by node; and the mean of graph b, taken as the sum over all 2048 nodes of the terms cut to
  graph b divided by the number of such nodes, is the sum over the graph's 512 nodes times 1/512.
-/
import proofs.«167911_g83915071029568_cont_sun_c4_623_16_alg».proof.Proof.Spec
import proofs.«167911_g83915071029568_cont_sun_c4_623_16_alg».proof.Proof.GcnEdgeAlgebra
import Idealize.ShloMosaic.PureOps.Ideal

noncomputable section

open scoped BigOperators

namespace Cert.RefAlgebra

open Idealize.ShloMosaic Idealize.ShloMosaic.ValueIdx Cert.EdgeAlgebra

/-! ## Sums over one graph's nodes -/

/-- A sum over the 2048 flat nodes of the terms cut to graph b is the sum over that graph's 512 nodes. -/
theorem sum_graph {M : Type*} [AddCommMonoid M] (b : Fin 4) (X : Fin 2048 → M) :
    (∑ n : Fin 2048, if n.val / 512 = b.val then X n else 0) = ∑ d : Fin 512, X (node b d) := by
  rw [← Finset.sum_filter]
  symm
  refine Finset.sum_bij (fun d _ => node b d) ?_ ?_ ?_ ?_
  · intro d _
    simp only [Finset.mem_filter, Finset.mem_univ, true_and]
    show (b.val * 512 + d.val) / 512 = b.val
    omega
  · intro d _ d' _ hdd
    exact (node_inj hdd).2
  · intro n hn
    simp only [Finset.mem_filter, Finset.mem_univ, true_and] at hn
    exact ⟨⟨n.val % 512, Nat.mod_lt _ (by norm_num)⟩, Finset.mem_univ _,
      Fin.ext (by show b.val * 512 + n.val % 512 = n.val; omega)⟩
  · intro d _
    rfl

/-- A sum of n ones in the extended reals is the real number n. -/
theorem nsmul_one_eq (n : ℕ) : n • (1 : EReal) = ((n : ℝ) : EReal) := by
  induction n with
  | zero => rw [zero_nsmul, Nat.cast_zero, EReal.coe_zero]
  | succ n ih => rw [succ_nsmul, ih, Nat.cast_succ, EReal.coe_add, EReal.coe_one]

/-- Graph b has 512 nodes. -/
theorem count_graph (b : Fin 4) :
    (∑ n : Fin 2048, if n.val / 512 = b.val then (1 : EReal) else 0) = ((512 : ℝ) : EReal) := by
  rw [sum_graph b (fun _ => (1 : EReal))]
  simp only [Finset.sum_const, Finset.card_univ, Fintype.card_fin]
  rw [nsmul_one_eq]
  exact congrArg (fun r : ℝ => (r : EReal)) (by norm_num)

/-! ## The two layers and the mean over the edge list -/

variable {E : ℕ} (src dst : Fin E → Fin 2048) (w : Fin E → EReal)
  (W1 : Cert.Spec.SW.Idx → EReal) (b1 : Cert.Spec.SB.Idx → EReal) (W2 : Cert.Spec.SW.Idx → EReal) (b2 : Cert.Spec.SB.Idx → EReal)
  (xr : Fin 2048 → Fin 128 → EReal)

/-- The first layer's linear map on the flat node table. -/
def T1 (n : Fin 2048) (f : Fin 128) : EReal := ∑ k : Fin 128, xr n k * W1 (ix2 k f)

/-- The first layer over the edge list: aggregation, bias, rectifier. -/
def H1 (n : Fin 2048) (f : Fin 128) : EReal := max (layerE src dst w (T1 W1 xr) n f + b1 (ix1 f)) 0

/-- The second layer's linear map. -/
def T2 (n : Fin 2048) (f : Fin 128) : EReal := ∑ k : Fin 128, H1 src dst w W1 b1 xr n k * W2 (ix2 k f)

/-- The second layer over the edge list: aggregation and bias. -/
def O2 (n : Fin 2048) (f : Fin 128) : EReal := layerE src dst w (T2 src dst w W1 b1 W2 xr) n f + b2 (ix1 f)

/-- The mean over graph b: the sum of the second layer over the graph's nodes divided by their number, both taken
    as sums over all flat nodes cut to the graph, each from a zero start. -/
def R (b : Fin 4) (f : Fin 128) : EReal :=
  Ideal.div (0 + ∑ n : Fin 2048, if n.val / 512 = b.val then O2 src dst w W1 b1 W2 b2 xr n f else 0)
    (0 + ∑ n : Fin 2048, if n.val / 512 = b.val then (1 : EReal) else 0)

variable (adj : Cert.Spec.SA.Idx → EReal) (x : Cert.Spec.SX.Idx → EReal)
  (h : Repr src dst w adj) (hadj : ∀ i, adj i = 0 ∨ adj i = 1)
  (hxr : ∀ (b : Fin 4) (s : Fin 512) (k : Fin 128), xr (node b s) k = x (ix3 b s k))

include hxr in
/-- The first linear map at node s of graph b is the specification's. -/
theorem T1_eq (b : Fin 4) (s : Fin 512) (f : Fin 128) : T1 W1 xr (node b s) f = Cert.Spec.xw x W1 b s f := by
  unfold T1 Cert.Spec.xw
  exact Finset.sum_congr rfl fun k _ => by rw [hxr]

include h hadj hxr

/-- The first layer at node d of graph b is the specification's. -/
theorem H1_eq (b : Fin 4) (d : Fin 512) (f : Fin 128) :
    H1 src dst w W1 b1 xr (node b d) f = Cert.Spec.h1 x adj W1 b1 b d f := by
  unfold H1 Cert.Spec.h1
  rw [layerE_eq src dst w adj h hadj (T1 W1 xr) b d f,
    show (fun s f => T1 W1 xr (node b s) f) = Cert.Spec.xw x W1 b from
      funext fun s => funext fun f => T1_eq W1 xr x hxr b s f]

/-- The second linear map at node s of graph b is the specification's. -/
theorem T2_eq (b : Fin 4) (s : Fin 512) (f : Fin 128) :
    T2 src dst w W1 b1 W2 xr (node b s) f = Cert.Spec.hw x adj W1 b1 W2 b s f := by
  unfold T2 Cert.Spec.hw
  exact Finset.sum_congr rfl fun k _ => by rw [H1_eq src dst w W1 b1 xr adj x h hadj hxr b s k]

/-- The second layer at node d of graph b is the specification's. -/
theorem O2_eq (b : Fin 4) (d : Fin 512) (f : Fin 128) :
    O2 src dst w W1 b1 W2 b2 xr (node b d) f = Cert.Spec.h2 x adj W1 b1 W2 b2 b d f := by
  unfold O2 Cert.Spec.h2
  rw [layerE_eq src dst w adj h hadj (T2 src dst w W1 b1 W2 xr) b d f,
    show (fun s f => T2 src dst w W1 b1 W2 xr (node b s) f) = Cert.Spec.hw x adj W1 b1 W2 b from
      funext fun s => funext fun f => T2_eq src dst w W1 b1 W2 xr adj x h hadj hxr b s f]

/-- The edge-list mean of graph b is the specification's result. -/
theorem value_eq (b : Fin 4) (f : Fin 128) :
    R src dst w W1 b1 W2 b2 xr b f = Cert.Spec.out x adj W1 b1 W2 b2 b f := by
  unfold R Cert.Spec.out
  rw [zero_add, zero_add, sum_graph b (fun n => O2 src dst w W1 b1 W2 b2 xr n f), count_graph b,
    Ideal.div_coe (by norm_num : (512 : ℝ) ≠ 0)]
  exact congrArg (· * ((1 / 512 : ℝ) : EReal))
    (Finset.sum_congr rfl fun d _ => O2_eq src dst w W1 b1 W2 b2 xr adj x h hadj hxr b d f)

end Cert.RefAlgebra

end
-- ==== Proof.RefResult.lean ====
/-
  The reference program's result, read at an entry, is the specification's.

  The program's last windows compute, from the edge list (source words, target words, weights) and the arguments,
      pool (layer (relu (bias (layer (x' · W1)) b1) · W2)) b2
  where `x'` is the node features flattened to one table of 2048 rows, `layer` is one normalised aggregation over the
  edge list, and `pool` adds the second bias and averages the rows of each graph.  Read at an entry, stage by stage,
  the tables are the tables of the edge-list algebra — the first linear map, the first layer, the second linear map,
  the second layer — and the pooled mean is the algebra's mean; when the edge list represents the adjacency array (with
  a self-loop at every node) and the adjacency entries are zeros and ones, that mean is the specification's result.
-/
import proofs.«167911_g83915071029568_cont_sun_c4_623_16_alg».proof.Proof.RefTailReads
import proofs.«167911_g83915071029568_cont_sun_c4_623_16_alg».proof.Proof.RefLayerRead
import proofs.«167911_g83915071029568_cont_sun_c4_623_16_alg».proof.Proof.RefLayerWindow
import proofs.«167911_g83915071029568_cont_sun_c4_623_16_alg».proof.Proof.RefAlgebra

noncomputable section

namespace Cert.ReferenceIdeal.Layer

open Cert.ReferenceIdeal Cert.ReferenceIdeal.Gen Cert.ReferenceIdeal.RefRun Idealize.ShloMosaic Idealize.ShloMosaic.TcCoe Idealize.SL.Sem Idealize.ShloMosaic.StableHlo
open Idealize.ShloMosaic.ValueIdx Cert.EdgeAlgebra Cert.RefAlgebra

variable (ssl dsl : IVec S1050624 32) (wsl : FVec Ideal S1050624 .f32) (src' dst' : Fin 1050624 → Fin 2048)
  (hs : ∀ e, ssl (ix1 e) = BitVec.ofNat 32 (src' e).val) (hd : ∀ e, dsl (ix1 e) = BitVec.ofNat 32 (dst' e).val)

include hs hd in
/-- One layer of the program read at an entry: the edge-list layer of the table's entries. -/
theorem layer_read (tab : FVec Ideal S2048x128 .f32) (Tf : Fin 2048 → Fin 128 → EReal)
    (htab : ∀ s f, tab (ix2 s f) = Tf s f) (n : Fin 2048) (f : Fin 128) :
    layerOf ssl dsl wsl tab (ix2 n f) = layerE src' dst' (fun e => wsl (ix1 e)) Tf n f := by
  unfold layerOf
  rw [agg_read ssl dsl wsl tab src' dst' hs hd n f]
  exact congrArg (fun T => layerE src' dst' (fun e => wsl (ix1 e)) T n f)
    (funext fun s => funext fun f => htab s f)

/-- A table times a weight matrix read at an entry, the table given by its entries. -/
theorem dot_read (t : FVec Ideal S2048x128 .f32) (Tf : Fin 2048 → Fin 128 → EReal)
    (ht : ∀ n k, t (ix2 n k) = Tf n k) (w : FVec Ideal S128x128 .f32) (n : Fin 2048) (f : Fin 128) :
    dotOf t w (ix2 n f) = ∑ k : Fin 128, Tf n k * w (ix2 k f) := by
  rw [dotOf_apply]
  exact Finset.sum_congr rfl fun k _ => by rw [ht]

include hs hd in
/-- The program's result at an entry is the specification's. -/
theorem result_apply (x : FVec Ideal S4x512x128 .f32) (adj : FVec Ideal S4x512x512 .f32)
    (W1 : FVec Ideal S128x128 .f32) (b1 : FVec Ideal S128 .f32) (W2 : FVec Ideal S128x128 .f32)
    (b2 : FVec Ideal S128 .f32)
    (hrepr : Cert.EdgeAlgebra.Repr src' dst' (fun e => wsl (ix1 e)) adj) (hadj : ∀ i, adj i = 0 ∨ adj i = 1)
    (g : Fin 4) (f : Fin 128) :
    poolOf (layerOf ssl dsl wsl (dotOf (reluOf (biasOf (layerOf ssl dsl wsl
        (dotOf (fun i => shapeCast S2048x128 x shapeCasts_S4x512x128_S2048x128 i) W1)) b1)) W2)) b2 (ix2 g f)
      = Cert.Spec.out x adj W1 b1 W2 b2 g f := by
  -- the flattened node features, by entries
  have hxr : ∀ (b : Fin 4) (s : Fin 512) (k : Fin 128),
      (fun (n : Fin 2048) (k : Fin 128) =>
        (fun i => shapeCast S2048x128 x shapeCasts_S4x512x128_S2048x128 i) (ix2 n k)) (node b s) k = x (ix3 b s k) :=
    fun b s k => xr_apply x b s k
  generalize hXR : (fun (n : Fin 2048) (k : Fin 128) =>
    (fun i => shapeCast S2048x128 x shapeCasts_S4x512x128_S2048x128 i) (ix2 n k)) = xr at hxr
  have hX : ∀ n k, (fun i => shapeCast S2048x128 x shapeCasts_S4x512x128_S2048x128 i) (ix2 n k) = xr n k :=
    fun n k => congrFun (congrFun hXR n) k
  -- the first linear map
  have h1 : ∀ n f, dotOf (fun i => shapeCast S2048x128 x shapeCasts_S4x512x128_S2048x128 i) W1 (ix2 n f)
      = T1 W1 xr n f := fun n f => dot_read _ xr hX W1 n f
  -- the first layer
  have h2 : ∀ n f, reluOf (biasOf (layerOf ssl dsl wsl
      (dotOf (fun i => shapeCast S2048x128 x shapeCasts_S4x512x128_S2048x128 i) W1)) b1) (ix2 n f)
      = H1 src' dst' (fun e => wsl (ix1 e)) W1 b1 xr n f := by
    intro n f
    rw [reluOf_apply, biasOf_apply, layer_read ssl dsl wsl src' dst' hs hd _ (T1 W1 xr) h1 n f]
    rfl
  -- the second linear map
  have h3 : ∀ n f, dotOf (reluOf (biasOf (layerOf ssl dsl wsl
      (dotOf (fun i => shapeCast S2048x128 x shapeCasts_S4x512x128_S2048x128 i) W1)) b1)) W2 (ix2 n f)
      = T2 src' dst' (fun e => wsl (ix1 e)) W1 b1 W2 xr n f :=
    fun n f => dot_read _ (H1 src' dst' (fun e => wsl (ix1 e)) W1 b1 xr) h2 W2 n f
  -- the second layer and the mean
  unfold poolOf
  rw [poolOf_apply]
  refine Eq.trans ?_ (value_eq src' dst' (fun e => wsl (ix1 e)) W1 b1 W2 b2 xr adj x hrepr hadj hxr g f)
  unfold R O2
  refine congrArg (fun S : EReal =>
    Ideal.div (0 + S) (0 + ∑ n : Fin 2048, if n.val / 512 = g.val then (1 : EReal) else 0)) ?_
  refine Finset.sum_congr rfl fun n _ => ?_
  rw [layer_read ssl dsl wsl src' dst' hs hd _ (T2 src' dst' (fun e => wsl (ix1 e)) W1 b1 W2 xr) h3 n f]

end Cert.ReferenceIdeal.Layer

end
-- ==== Proof.RefValue.lean ====
/-
  The reference program's result buffer, after all its operations, holds the specification's function of the argument
  arrays, when every entry of the adjacency array is 0 or 1.

  Window 0 leaves the edge list (source words, target words, weights) as functions of the adjacency; windows 1 to 3 are
  two layers over that list and the pooled mean. The list's words are node numbers and the list represents the adjacency
  with a self-loop at every node, so each layer's edge sums are the dense sums of the specification, index by index.
-/
import proofs.«167911_g83915071029568_cont_sun_c4_623_16_alg».proof.Proof.RefRun
import proofs.«167911_g83915071029568_cont_sun_c4_623_16_alg».proof.Proof.Spec
import proofs.«167911_g83915071029568_cont_sun_c4_623_16_alg».proof.Proof.RefEdgeWindow
import proofs.«167911_g83915071029568_cont_sun_c4_623_16_alg».proof.Proof.RefEdgeFacts
import proofs.«167911_g83915071029568_cont_sun_c4_623_16_alg».proof.Proof.RefEdgeList
import proofs.«167911_g83915071029568_cont_sun_c4_623_16_alg».proof.Proof.RefLayerWindow
import proofs.«167911_g83915071029568_cont_sun_c4_623_16_alg».proof.Proof.RefResult

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx Cert.ReferenceIdeal.RefRun Cert.ReferenceIdeal.Edges Cert.ReferenceIdeal.Layer

/-- The composed value of the four windows as one function of the six argument arrays. -/
theorem composed (V : Valuation τ sig (Elt Ideal)) :
    after (RefRun.ops (F := Ideal)) V (main_v155 : DevRef τ sig)
      = poolOf
          (layerOf (EdgeList.ssl (V (main_arg1 : DevRef τ sig))) (EdgeList.dsl (V (main_arg1 : DevRef τ sig))) (EdgeList.wsl (V (main_arg1 : DevRef τ sig)))
            (dotOf (reluOf (biasOf
              (layerOf (EdgeList.ssl (V (main_arg1 : DevRef τ sig))) (EdgeList.dsl (V (main_arg1 : DevRef τ sig))) (EdgeList.wsl (V (main_arg1 : DevRef τ sig)))
                (dotOf (fun i => shapeCast S2048x128 (V (main_arg0 : DevRef τ sig)) shapeCasts_S4x512x128_S2048x128 i) (V (main_arg2 : DevRef τ sig))))
              (V (main_arg3 : DevRef τ sig)))) (V (main_arg4 : DevRef τ sig))))
          (V (main_arg5 : DevRef τ sig)) := by
  obtain ⟨h35, h38, h32, h39, h40, h41, _, _, ha2, ha3, ha4, ha5⟩ := Edges.window0 (F := Ideal) V
  have hsplit : after (RefRun.ops (F := Ideal)) V (main_v155 : DevRef τ sig)
      = after (ops1 ++ (ops2 ++ ops3) : List (HloOp τ sig (Elt Ideal))) (after (ops0 (F := Ideal)) V) (main_v155 : DevRef τ sig) := by
    unfold RefRun.ops
    rw [Cert.Lib.RunPieces.after_append]
  rw [hsplit, windows123, h35, h38, h32, h39, h40, h41, ha2, ha3, ha4, ha5]
  rfl

theorem result_eq (V : Valuation τ sig (Elt Ideal))
    (hadj : ∀ i : S4x512x512.Idx, (V (main_arg1 : DevRef τ sig) : S4x512x512.Idx → EReal) i = (0 : EReal) ∨ (V (main_arg1 : DevRef τ sig) : S4x512x512.Idx → EReal) i = (1 : EReal)) :
    after (RefRun.ops (F := Ideal)) V (main_v155 : DevRef τ sig)
      = Cert.Spec.G (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  rw [composed]
  have hfacts : EdgeList.EdgeFacts (V (main_arg1 : DevRef τ sig)) (Edges.mask (V (main_arg1 : DevRef τ sig))) :=
    fun e => Edges.edge_facts (V (main_arg1 : DevRef τ sig)) e
  funext j
  obtain ⟨g, f, rfl⟩ : ∃ (g : Fin 4) (f : Fin 128), j = ix2 g f := ⟨j 0, j 1, eq_ix2 j⟩
  rw [Cert.Spec.G_ix2]
  exact result_apply (EdgeList.ssl (V (main_arg1 : DevRef τ sig))) (EdgeList.dsl (V (main_arg1 : DevRef τ sig))) (EdgeList.wsl (V (main_arg1 : DevRef τ sig)))
    (EdgeList.src' (Edges.mask (V (main_arg1 : DevRef τ sig)))) (EdgeList.dst' (Edges.mask (V (main_arg1 : DevRef τ sig))))
    (EdgeList.ssl_word hfacts) (EdgeList.dsl_word hfacts)
    (V (main_arg0 : DevRef τ sig)) (V (main_arg1 : DevRef τ sig)) (V (main_arg2 : DevRef τ sig)) (V (main_arg3 : DevRef τ sig)) (V (main_arg4 : DevRef τ sig)) (V (main_arg5 : DevRef τ sig))
    (EdgeList.repr hadj (fun _ => Iff.rfl) hfacts) hadj g f

end Cert.ReferenceIdeal.RefValue

end
-- ==== Proof.PreAdj.lean ====
/-
  What the precondition says about the adjacency array: every entry is 0 or 1.

  The precondition is one bit: the "and" of the finiteness tests of the six arguments and of one more test, the fold by
  "and" over all entries of adj of "adj = 0 or adj = 1". When the bit is 1 every conjunct is 1, so the last fold is 1, so
  at every entry one of the two comparisons holds; at the extended reals a comparison "equal" holds exactly when the two
  values are equal, and the two words compared against denote 0 and 1.
-/
import proofs.«167911_g83915071029568_cont_sun_c4_623_16_alg».proof.Pre_finite_inputs
import proofs.«167911_g83915071029568_cont_sun_c4_623_16_alg».proof.Proof.KernelOps
import Idealize.ShloMosaic.Lib.ReduceAll
import Idealize.ShloMosaic.Lib.Affine
import Idealize.ShloMosaic.Lib.ValueIdx
import Idealize.ShloMosaic.Lib.Pipeline.Value
import Idealize.ShloMosaic.PureOps.Ideal.Laws

noncomputable section

namespace Cert.PreAdj

open Idealize.ShloMosaic Idealize.ShloMosaic.ValueIdx Cert.Pre_finite_inputs

/-- The shape of a single bit has one index. -/
instance : Subsingleton (⟨0, ![]⟩ : Shape).Idx := ⟨fun a b => funext fun d => d.elim0⟩

/-- At the extended reals the comparison "equal" is 1 exactly at equal values. -/
theorem cmp_oeq_eq_one {x y : EReal} (h : Ideal.cmp .oeq x y = 1#1) : x = y := by
  unfold Ideal.cmp at h
  by_contra hne
  simp [hne] at h

variable [Cert.Pre_finite_inputs.Facts]

/-- Under the precondition every entry of the adjacency array is 0 or 1. -/
theorem adj_zero_or_one (x : FVec Ideal S4x512x128 .f32) (adj : FVec Ideal S4x512x512 .f32) (W1 : FVec Ideal S128x128 .f32)
    (b1 : FVec Ideal S128 .f32) (W2 : FVec Ideal S128x128 .f32) (b2 : FVec Ideal S128 .f32)
    (h : Cert.Pre_finite_inputs.fn (F := Ideal) x adj W1 b1 W2 b2 = fun _ => 1#1) (i : S4x512x512.Idx) :
    adj i = 0 ∨ adj i = 1 := by
  have h0 := congrFun h ix0
  dsimp only [Cert.Pre_finite_inputs.fn, Cert.Pre_finite_inputs.fn_part1, Cert.Pre_finite_inputs.fn_part2] at h0
  have hB := (IntOp.andi_eq_one.1 h0).2
  have hi := Host.reduce_andi_all _ _ _ _ ix0 hB i
  rcases IntOp.ori_eq_one.1 hi with h1 | h1
  · left
    have := cmp_oeq_eq_one h1
    rw [this, broadcastInDim_apply _ _ _ i (fun d => d.elim0) (fun d => d.elim0), constant_apply, Ideal.ofBits_zero_f32]
  · right
    have := cmp_oeq_eq_one h1
    rw [this, broadcastInDim_apply _ _ _ i (fun d => d.elim0) (fun d => d.elim0), constant_apply, Cert.KernelOps.ofBits_one]

end Cert.PreAdj

end
-- ==== Proof.lean ====
/-
  The kernel computes two graph-convolution layers and a node mean in dense form: for each of four graphs, with A the
  adjacency indicator and D the degree with a self-loop counted, D^(-1/2) (A + I)ᵀ D^(-1/2) applied to x·W1, a bias and a
  rectifier, the same once more with W2 and a second bias, then the mean over the 512 nodes. The reference computes the
  same through an edge list: it enumerates the nonzero adjacency entries, appends one self-loop per node, accumulates
  degrees and messages edge by edge, and divides the per-graph sums by the node counts.

  Both are the one function `Cert.Spec.G` of the argument arrays on the extended reals, provided every adjacency entry
  is 0 or 1, which the precondition states: the kernel by reading its body index by index; the reference because its edge
  list represents A + I (the enumeration of nonzero positions is a bijection onto them, padded entries carry weight 0),
  after which a nonnegative real factor distributes over the sums. No finiteness of the features is used.
-/
import proofs.«167911_g83915071029568_cont_sun_c4_623_16_alg».proof.Defs
import proofs.«167911_g83915071029568_cont_sun_c4_623_16_alg».proof.Proof.Gen.Kernel
import proofs.«167911_g83915071029568_cont_sun_c4_623_16_alg».proof.Proof.Gen.Kernel.Frame
import proofs.«167911_g83915071029568_cont_sun_c4_623_16_alg».proof.Proof.Gen.KernelIdeal
import proofs.«167911_g83915071029568_cont_sun_c4_623_16_alg».proof.Proof.Gen.KernelIdeal.Frame
import proofs.«167911_g83915071029568_cont_sun_c4_623_16_alg».proof.Proof.Gen.ReferenceIdeal
import proofs.«167911_g83915071029568_cont_sun_c4_623_16_alg».proof.Proof.Gen.Pre_finite_inputs
import proofs.«167911_g83915071029568_cont_sun_c4_623_16_alg».proof.Proof.KernelValue
import proofs.«167911_g83915071029568_cont_sun_c4_623_16_alg».proof.Proof.RefRun
import proofs.«167911_g83915071029568_cont_sun_c4_623_16_alg».proof.Proof.RefKept
import proofs.«167911_g83915071029568_cont_sun_c4_623_16_alg».proof.Proof.RefValue
import proofs.«167911_g83915071029568_cont_sun_c4_623_16_alg».proof.Proof.PreAdj
import Idealize.ShloMosaic.Adequacy
import Idealize.ShloMosaic.Init

noncomputable section

namespace Cert.Proof

open Idealize.ShloMosaic Idealize.SL.Sem Idealize.ShloMosaic.StableHlo

/-- The word-level kernel runs and leaves its arguments unchanged. -/
theorem frame_kernel : Cert.frame_Kernel := fun m ρ _ => Cert.Kernel.Gen.frame m ρ

/-- The idealized kernel runs and leaves its arguments unchanged. -/
theorem frame_kernelIdeal : Cert.frame_KernelIdeal := fun m ρ _ => Cert.KernelIdeal.Gen.frame m ρ

/-- The reference runs and never writes an argument buffer. -/
theorem frame_referenceIdeal : Cert.frame_ReferenceIdeal := fun m ρ _ =>
  (θ_run Cert.ReferenceIdeal.defs _ _).mono (fun _ h c =>
    ⟨(h c Cert.ReferenceIdeal.main_arg0).trans (Cert.ReferenceIdeal.RefRun.kept_arg0 _), (h c Cert.ReferenceIdeal.main_arg1).trans (Cert.ReferenceIdeal.RefRun.kept_arg1 _),
     (h c Cert.ReferenceIdeal.main_arg2).trans (Cert.ReferenceIdeal.RefRun.kept_arg2 _), (h c Cert.ReferenceIdeal.main_arg3).trans (Cert.ReferenceIdeal.RefRun.kept_arg3 _),
     (h c Cert.ReferenceIdeal.main_arg4).trans (Cert.ReferenceIdeal.RefRun.kept_arg4 _), (h c Cert.ReferenceIdeal.main_arg5).trans (Cert.ReferenceIdeal.RefRun.kept_arg5 _)⟩)
    (Cert.ReferenceIdeal.RefRun.run_main (F := Ideal) m ρ)

/-- The ideal pass rewrote nothing. -/
theorem preserves : Cert.preserves_Kernel_KernelIdeal := trivial

/-- Both idealized programs end with the specification's function of the arguments. -/
theorem algebraic : Cert.algebraic_KernelIdeal_ReferenceIdeal := by
  intro m ρ m' ρ' hpre hagree
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.KernelIdeal.KernelValue.run m ρ, ?_⟩
  refine (θ_run Cert.ReferenceIdeal.defs _ _).mono (fun _ h c =>
    ⟨?_, (h c Cert.ReferenceIdeal.main_arg0).trans (Cert.ReferenceIdeal.RefRun.kept_arg0 _), (h c Cert.ReferenceIdeal.main_arg1).trans (Cert.ReferenceIdeal.RefRun.kept_arg1 _),
     (h c Cert.ReferenceIdeal.main_arg2).trans (Cert.ReferenceIdeal.RefRun.kept_arg2 _), (h c Cert.ReferenceIdeal.main_arg3).trans (Cert.ReferenceIdeal.RefRun.kept_arg3 _),
     (h c Cert.ReferenceIdeal.main_arg4).trans (Cert.ReferenceIdeal.RefRun.kept_arg4 _), (h c Cert.ReferenceIdeal.main_arg5).trans (Cert.ReferenceIdeal.RefRun.kept_arg5 _)⟩)
    (Cert.ReferenceIdeal.RefRun.run_main (F := Ideal) m' ρ')
  obtain ⟨e0, e1, e2, e3, e4, e5⟩ := hagree c
  have hadj : ∀ i, (m ((c.tc : Thread Cert.KernelIdeal.nD Cert.KernelIdeal.τ).loc Cert.KernelIdeal.main_arg1) : Cert.Spec.SA.Idx → EReal) i = (0 : EReal) ∨ (m ((c.tc : Thread Cert.KernelIdeal.nD Cert.KernelIdeal.τ).loc Cert.KernelIdeal.main_arg1) : Cert.Spec.SA.Idx → EReal) i = (1 : EReal) :=
    Cert.PreAdj.adj_zero_or_one _ _ _ _ _ _ (hpre c)
  refine (h c Cert.ReferenceIdeal.main_v155).trans ?_
  refine (Cert.ReferenceIdeal.RefValue.result_eq (launchContents m' c) (fun i => ?_)).trans ?_
  · show (m' ((c.tc : Thread Cert.ReferenceIdeal.nD Cert.ReferenceIdeal.τ).loc Cert.ReferenceIdeal.main_arg1) : Cert.Spec.SA.Idx → EReal) i = (0 : EReal) ∨ (m' ((c.tc : Thread Cert.ReferenceIdeal.nD Cert.ReferenceIdeal.τ).loc Cert.ReferenceIdeal.main_arg1) : Cert.Spec.SA.Idx → EReal) i = (1 : EReal)
    rw [e1]; exact hadj i
  · show Cert.Spec.G (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) = _
    rw [e0, e1, e2, e3, e4, e5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
